-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1024x20 : S_.BroadcastsInDim S1024x20 (![] : Fin 0 → Fin S1024x20.rank)
  reducesTo_S1024x20_S_d0_1 : S1024x20.ReducesTo [0, 1] S_

variable [Facts]

def fn {F : FTy → Type} [FloatOps F] (main_arg0 : IVec S1024x20 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S1024x20 32 := broadcastInDim S1024x20 ![] bcast_S_S1024x20 main_c_0
  let main_v5 : IVec S1024x20 1 := cmpi .sge main_arg0 main_v4
  let main_c_1 : IVec S_ 32 := constantI S_ 32 999999#32
  let main_v6 : IVec S1024x20 32 := broadcastInDim S1024x20 ![] bcast_S_S1024x20 main_c_1
  let main_v7 : IVec S1024x20 1 := cmpi .sle main_arg0 main_v6
  let main_v8 : IVec S1024x20 1 := andi main_v5 main_v7
  let main_c_2 : IVec S_ 1 := constantI S_ 1 1#1
  let main_v9 : IVec S_ 1 := (fun x v => Host.reduce IntOp.andi x v reducesTo_S1024x20_S_d0_1 h_S_) main_v8 main_c_2
  let main_v10 : IVec S_ 1 := andi main_v3 main_v9
  main_v10
-- ==== Kernel.lean ====
abbrev S1024x20 : Shape := ⟨2, ![1024, 20]⟩
abbrev S1000000x64 : Shape := ⟨2, ![1000000, 64]⟩
abbrev S32x640 : Shape := ⟨2, ![32, 640]⟩
abbrev S125000x8x64 : Shape := ⟨3, ![125000, 8, 64]⟩
abbrev S1024x4x64 : Shape := ⟨3, ![1024, 4, 64]⟩
abbrev S656 : Shape := ⟨1, ![656]⟩
abbrev S640x64 : Shape := ⟨2, ![640, 64]⟩
abbrev S1x64 : Shape := ⟨2, ![1, 64]⟩
abbrev S32x4x64 : Shape := ⟨3, ![32, 4, 64]⟩
abbrev S_ : Shape := ⟨0, ![]⟩
abbrev S640 : Shape := ⟨1, ![640]⟩
abbrev S1x640 : Shape := ⟨2, ![1, 640]⟩
abbrev S1x1x64 : Shape := ⟨3, ![1, 1, 64]⟩
abbrev S16 : Shape := ⟨1, ![16]⟩
abbrev S1 : Shape := ⟨1, ![1]⟩
abbrev S1x16 : Shape := ⟨2, ![1, 16]⟩
abbrev S1x1x16 : Shape := ⟨3, ![1, 1, 16]⟩

abbrev nBuf : Table → Nat
  | .hbm => 5
  | .local .scVector .vmem => 4
  | _ => 0

abbrev bufTy : (tb : Table) → Fin (nBuf tb) → BufTy
  | .hbm, ⟨0, _⟩ => ⟨S1024x20, .i32⟩
  | .hbm, ⟨1, _⟩ => ⟨S1000000x64, .f32⟩
  | .hbm, ⟨2, _⟩ => ⟨S32x640, .i32⟩
  | .hbm, ⟨3, _⟩ => ⟨S125000x8x64, .f32⟩
  | .hbm, ⟨4, _⟩ => ⟨S1024x4x64, .f32⟩
  | .local .scVector .vmem, ⟨0, _⟩ => ⟨S656, .i32⟩
  | .local .scVector .vmem, ⟨1, _⟩ => ⟨S640x64, .f32⟩
  | .local .scVector .vmem, ⟨2, _⟩ => ⟨S1x64, .f32⟩
  | .local .scVector .vmem, ⟨3, _⟩ => ⟨S32x4x64, .f32⟩
  | _, _ => ⟨S1024x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  ![v1.toNat, 0]
@[reducible] def k0_t1_loop : Scf.Loop 32 :=
  let c0_i32_1 : BitVec 32 := 0#32
  let c40_i32 : BitVec 32 := 40#32
  let v2 : BitVec 32 := Scalar.addi c0_i32_1 c40_i32
  let c1_i32 : BitVec 32 := 1#32
  ⟨c0_i32_1, v2, c1_i32⟩
def k0_off2 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32 : BitVec 32 := 16#32
  let v18 : BitVec 32 := Scalar.muli arg10 c16_i32
  let v19 : Index := Scalar.indexCast v18
  ![v19.toNat]
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_16 : BitVec 32 := 16#32
  let v26 : BitVec 32 := Scalar.muli arg10 c16_i32_16
  let c0_i32_17 : BitVec 32 := 0#32
  let v27 : BitVec 32 := Scalar.addi v26 c0_i32_17
  let c0_i32_18 : BitVec 32 := 0#32
  ![v27.toNat, 0]
def k0_off4 (v23 : BitVec 32) : Fin 3 → Nat :=
  let c3_i32 : BitVec 32 := 3#32
  let v24 : BitVec 32 := Scalar.shrui v23 c3_i32
  let c7_i32 : BitVec 32 := 7#32
  let v25 : BitVec 32 := Scalar.andi v23 c7_i32
  let c0_i32_19 : BitVec 32 := 0#32
  ![v24.toNat, v25.toNat, 0]

def k0_chk1 (v23 : BitVec 32) : Prop :=
  (∀ a, (k0_off4 v23) a + S1x1x64.size a ≤ S125000x8x64.size a)
instance k0_chk1.dec : ∀ (v23 : BitVec 32), Decidable (k0_chk1 v23) := fun v23 => decidable_of_iff' _ (Iff.of_eq (k0_chk1.eq_1 v23))
theorem k0_off4_inb : ∀ (v23 : BitVec 32) (k0_hw1 : k0_chk1 v23), ∀ a, (k0_off4 v23) a + S1x1x64.size a ≤ S125000x8x64.size a := fun v23 k0_hw1 => k0_hw1

def k0_off5 (k0_t1 : Fin k0_t1_loop.trips) (c0_i32_17 : BitVec 32) : Fin 2 → Nat :=
  let c0_i32_1 : BitVec 32 := 0#32
  let c1_i32 : BitVec 32 := 1#32
  let arg10 : BitVec 32 := Scf.iv c0_i32_1 c1_i32 k0_t1
  let c16_i32_16 : BitVec 32 := 16#32
  let v26 : BitVec 32 := Scalar.muli arg10 c16_i32_16
  let v27 : BitVec 32 := Scalar.addi v26 c0_i32_17
  let c0_i32_20 : BitVec 32 := 0#32
  ![v27.toNat, 0]
def k0_off6 (v35 : BitVec 32) : Fin 3 → Nat :=
  let c3_i32_22 : BitVec 32 := 3#32
  let v36 : BitVec 32 := Scalar.shrui v35 c3_i32_22
  let c7_i32_23 : BitVec 32 := 7#32
  let v37 : BitVec 32 := Scalar.andi v35 c7_i32_23
  let c0_i32_27 : BitVec 32 := 0#32
  ![v36.toNat, v37.toNat, 0]

def k0_chk2 (v35 : BitVec 32) : Prop :=
  (∀ a, (k0_off6 v35) a + S1x1x64.size a ≤ S125000x8x64.size a)
instance k0_chk2.dec : ∀ (v35 : BitVec 32), Decidable (k0_chk2 v35) := fun v35 => decidable_of_iff' _ (Iff.of_eq (k0_chk2.eq_1 v35))
theorem k0_off6_inb : ∀ (v35 : BitVec 32) (k0_hw2 : k0_chk2 v35), ∀ a, (k0_off6 v35) a + S1x1x64.size a ≤ S125000x8x64.size a := fun v35 k0_hw2 => k0_hw2

def k0_off7 (k0_t1 : Fin k0_t1_loop.trips) (c1_i32_25 : BitVec 32) : Fin 2 → Nat :=
  let c0_i32_1 : BitVec 32 := 0#32
  let c1_i32 : BitVec 32 := 1#32
  let arg10 : BitVec 32 := Scf.iv c0_i32_1 c1_i32 k0_t1
  let c16_i32_24 : BitVec 32 := 16#32
  let v38 : BitVec 32 := Scalar.muli arg10 c16_i32_24
  let v39 : BitVec 32 := Scalar.addi v38 c1_i32_25
  let c0_i32_28 : BitVec 32 := 0#32
  ![v39.toNat, 0]
def k0_off8 (v47 : BitVec 32) : Fin 3 → Nat :=
  let c3_i32_30 : BitVec 32 := 3#32
  let v48 : BitVec 32 := Scalar.shrui v47 c3_i32_30
  let c7_i32_31 : BitVec 32 := 7#32
  let v49 : BitVec 32 := Scalar.andi v47 c7_i32_31
  let c0_i32_35 : BitVec 32 := 0#32
  ![v48.toNat, v49.toNat, 0]

def k0_chk3 (v47 : BitVec 32) : Prop :=
  (∀ a, (k0_off8 v47) a + S1x1x64.size a ≤ S125000x8x64.size a)
instance k0_chk3.dec : ∀ (v47 : BitVec 32), Decidable (k0_chk3 v47) := fun v47 => decidable_of_iff' _ (Iff.of_eq (k0_chk3.eq_1 v47))
theorem k0_off8_inb : ∀ (v47 : BitVec 32) (k0_hw3 : k0_chk3 v47), ∀ a, (k0_off8 v47) a + S1x1x64.size a ≤ S125000x8x64.size a := fun v47 k0_hw3 => k0_hw3

def k0_off9 (k0_t1 : Fin k0_t1_loop.trips) (c2_i32_33 : BitVec 32) : Fin 2 → Nat :=
  let c0_i32_1 : BitVec 32 := 0#32
  let c1_i32 : BitVec 32 := 1#32
  let arg10 : BitVec 32 := Scf.iv c0_i32_1 c1_i32 k0_t1
  let c16_i32_32 : BitVec 32 := 16#32
  let v50 : BitVec 32 := Scalar.muli arg10 c16_i32_32
  let v51 : BitVec 32 := Scalar.addi v50 c2_i32_33
  let c0_i32_36 : BitVec 32 := 0#32
  ![v51.toNat, 0]
def k0_off10 (v59 : BitVec 32) : Fin 3 → Nat :=
  let c3_i32_38 : BitVec 32 := 3#32
  let v60 : BitVec 32 := Scalar.shrui v59 c3_i32_38
  let c7_i32_39 : BitVec 32 := 7#32
  let v61 : BitVec 32 := Scalar.andi v59 c7_i32_39
  let c0_i32_43 : BitVec 32 := 0#32
  ![v60.toNat, v61.toNat, 0]

def k0_chk4 (v59 : BitVec 32) : Prop :=
  (∀ a, (k0_off10 v59) a + S1x1x64.size a ≤ S125000x8x64.size a)
instance k0_chk4.dec : ∀ (v59 : BitVec 32), Decidable (k0_chk4 v59) := fun v59 => decidable_of_iff' _ (Iff.of_eq (k0_chk4.eq_1 v59))
theorem k0_off10_inb : ∀ (v59 : BitVec 32) (k0_hw4 : k0_chk4 v59), ∀ a, (k0_off10 v59) a + S1x1x64.size a ≤ S125000x8x64.size a := fun v59 k0_hw4 => k0_hw4

def k0_off11 (k0_t1 : Fin k0_t1_loop.trips) (c3_i32_41 : BitVec 32) : Fin 2 → Nat :=
  let c0_i32_1 : BitVec 32 := 0#32
  let c1_i32 : BitVec 32 := 1#32
  let arg10 : BitVec 32 := Scf.iv c0_i32_1 c1_i32 k0_t1
  let c16_i32_40 : BitVec 32 := 16#32
  let v62 : BitVec 32 := Scalar.muli arg10 c16_i32_40
  let v63 : BitVec 32 := Scalar.addi v62 c3_i32_41
  let c0_i32_44 : BitVec 32 := 0#32
  ![v63.toNat, 0]
def k0_off12 (v71 : BitVec 32) : Fin 3 → Nat :=
  let c3_i32_46 : BitVec 32 := 3#32
  let v72 : BitVec 32 := Scalar.shrui v71 c3_i32_46
  let c7_i32_47 : BitVec 32 := 7#32
  let v73 : BitVec 32 := Scalar.andi v71 c7_i32_47
  let c0_i32_50 : BitVec 32 := 0#32
  ![v72.toNat, v73.toNat, 0]

def k0_chk5 (v71 : BitVec 32) : Prop :=
  (∀ a, (k0_off12 v71) a + S1x1x64.size a ≤ S125000x8x64.size a)
instance k0_chk5.dec : ∀ (v71 : BitVec 32), Decidable (k0_chk5 v71) := fun v71 => decidable_of_iff' _ (Iff.of_eq (k0_chk5.eq_1 v71))
theorem k0_off12_inb : ∀ (v71 : BitVec 32) (k0_hw5 : k0_chk5 v71), ∀ a, (k0_off12 v71) a + S1x1x64.size a ≤ S125000x8x64.size a := fun v71 k0_hw5 => k0_hw5

def k0_off13 (k0_t1 : Fin k0_t1_loop.trips) (c4_i32 : BitVec 32) : Fin 2 → Nat :=
  let c0_i32_1 : BitVec 32 := 0#32
  let c1_i32 : BitVec 32 := 1#32
  let arg10 : BitVec 32 := Scf.iv c0_i32_1 c1_i32 k0_t1
  let c16_i32_48 : BitVec 32 := 16#32
  let v74 : BitVec 32 := Scalar.muli arg10 c16_i32_48
  let v75 : BitVec 32 := Scalar.addi v74 c4_i32
  let c0_i32_51 : BitVec 32 := 0#32
  ![v75.toNat, 0]
def k0_off14 (v83 : BitVec 32) : Fin 3 → Nat :=
  let c3_i32_53 : BitVec 32 := 3#32
  let v84 : BitVec 32 := Scalar.shrui v83 c3_i32_53
  let c7_i32_54 : BitVec 32 := 7#32
  let v85 : BitVec 32 := Scalar.andi v83 c7_i32_54
  let c0_i32_57 : BitVec 32 := 0#32
  ![v84.toNat, v85.toNat, 0]

def k0_chk6 (v83 : BitVec 32) : Prop :=
  (∀ a, (k0_off14 v83) a + S1x1x64.size a ≤ S125000x8x64.size a)
instance k0_chk6.dec : ∀ (v83 : BitVec 32), Decidable (k0_chk6 v83) := fun v83 => decidable_of_iff' _ (Iff.of_eq (k0_chk6.eq_1 v83))
theorem k0_off14_inb : ∀ (v83 : BitVec 32) (k0_hw6 : k0_chk6 v83), ∀ a, (k0_off14 v83) a + S1x1x64.size a ≤ S125000x8x64.size a := fun v83 k0_hw6 => k0_hw6

def k0_off15 (k0_t1 : Fin k0_t1_loop.trips) (c5_i32 : BitVec 32) : Fin 2 → Nat :=
  let c0_i32_1 : BitVec 32 := 0#32
  let c1_i32 : BitVec 32 := 1#32
  let arg10 : BitVec 32 := Scf.iv c0_i32_1 c1_i32 k0_t1
  let c16_i32_55 : BitVec 32 := 16#32
  let v86 : BitVec 32 := Scalar.muli arg10 c16_i32_55
  let v87 : BitVec 32 := Scalar.addi v86 c5_i32
  let c0_i32_58 : BitVec 32 := 0#32
  ![v87.toNat, 0]
def k0_off16 (v95 : BitVec 32) : Fin 3 → Nat :=
  let c3_i32_60 : BitVec 32 := 3#32
  let v96 : BitVec 32 := Scalar.shrui v95 c3_i32_60
  let c7_i32_61 : BitVec 32 := 7#32
  let v97 : BitVec 32 := Scalar.andi v95 c7_i32_61
  let c0_i32_64 : BitVec 32 := 0#32
  ![v96.toNat, v97.toNat, 0]

def k0_chk7 (v95 : BitVec 32) : Prop :=
  (∀ a, (k0_off16 v95) a + S1x1x64.size a ≤ S125000x8x64.size a)
instance k0_chk7.dec : ∀ (v95 : BitVec 32), Decidable (k0_chk7 v95) := fun v95 => decidable_of_iff' _ (Iff.of_eq (k0_chk7.eq_1 v95))
theorem k0_off16_inb : ∀ (v95 : BitVec 32) (k0_hw7 : k0_chk7 v95), ∀ a, (k0_off16 v95) a + S1x1x64.size a ≤ S125000x8x64.size a := fun v95 k0_hw7 => k0_hw7

def k0_off17 (k0_t1 : Fin k0_t1_loop.trips) (c6_i32 : BitVec 32) : Fin 2 → Nat :=
  let c0_i32_1 : BitVec 32 := 0#32
  let c1_i32 : BitVec 32 := 1#32
  let arg10 : BitVec 32 := Scf.iv c0_i32_1 c1_i32 k0_t1
  let c16_i32_62 : BitVec 32 := 16#32
  let v98 : BitVec 32 := Scalar.muli arg10 c16_i32_62
  let v99 : BitVec 32 := Scalar.addi v98 c6_i32
  let c0_i32_65 : BitVec 32 := 0#32
  ![v99.toNat, 0]
def k0_off18 (v107 : BitVec 32) : Fin 3 → Nat :=
  let c3_i32_67 : BitVec 32 := 3#32
  let v108 : BitVec 32 := Scalar.shrui v107 c3_i32_67
  let c7_i32_68 : BitVec 32 := 7#32
  let v109 : BitVec 32 := Scalar.andi v107 c7_i32_68
  let c0_i32_72 : BitVec 32 := 0#32
  ![v108.toNat, v109.toNat, 0]

def k0_chk8 (v107 : BitVec 32) : Prop :=
  (∀ a, (k0_off18 v107) a + S1x1x64.size a ≤ S125000x8x64.size a)
instance k0_chk8.dec : ∀ (v107 : BitVec 32), Decidable (k0_chk8 v107) := fun v107 => decidable_of_iff' _ (Iff.of_eq (k0_chk8.eq_1 v107))
theorem k0_off18_inb : ∀ (v107 : BitVec 32) (k0_hw8 : k0_chk8 v107), ∀ a, (k0_off18 v107) a + S1x1x64.size a ≤ S125000x8x64.size a := fun v107 k0_hw8 => k0_hw8

def k0_off19 (k0_t1 : Fin k0_t1_loop.trips) (c7_i32_70 : BitVec 32) : Fin 2 → Nat :=
  let c0_i32_1 : BitVec 32 := 0#32
  let c1_i32 : BitVec 32 := 1#32
  let arg10 : BitVec 32 := Scf.iv c0_i32_1 c1_i32 k0_t1
  let c16_i32_69 : BitVec 32 := 16#32
  let v110 : BitVec 32 := Scalar.muli arg10 c16_i32_69
  let v111 : BitVec 32 := Scalar.addi v110 c7_i32_70
  let c0_i32_73 : BitVec 32 := 0#32
  ![v111.toNat, 0]
def k0_off20 (v119 : BitVec 32) : Fin 3 → Nat :=
  let c3_i32_75 : BitVec 32 := 3#32
  let v120 : BitVec 32 := Scalar.shrui v119 c3_i32_75
  let c7_i32_76 : BitVec 32 := 7#32
  let v121 : BitVec 32 := Scalar.andi v119 c7_i32_76
  let c0_i32_79 : BitVec 32 := 0#32
  ![v120.toNat, v121.toNat, 0]

def k0_chk9 (v119 : BitVec 32) : Prop :=
  (∀ a, (k0_off20 v119) a + S1x1x64.size a ≤ S125000x8x64.size a)
instance k0_chk9.dec : ∀ (v119 : BitVec 32), Decidable (k0_chk9 v119) := fun v119 => decidable_of_iff' _ (Iff.of_eq (k0_chk9.eq_1 v119))
theorem k0_off20_inb : ∀ (v119 : BitVec 32) (k0_hw9 : k0_chk9 v119), ∀ a, (k0_off20 v119) a + S1x1x64.size a ≤ S125000x8x64.size a := fun v119 k0_hw9 => k0_hw9

def k0_off21 (k0_t1 : Fin k0_t1_loop.trips) (c8_i32 : BitVec 32) : Fin 2 → Nat :=
  let c0_i32_1 : BitVec 32 := 0#32
  let c1_i32 : BitVec 32 := 1#32
  let arg10 : BitVec 32 := Scf.iv c0_i32_1 c1_i32 k0_t1
  let c16_i32_77 : BitVec 32 := 16#32
  let v122 : BitVec 32 := Scalar.muli arg10 c16_i32_77
  let v123 : BitVec 32 := Scalar.addi v122 c8_i32
  let c0_i32_80 : BitVec 32 := 0#32
  ![v123.toNat, 0]
def k0_off22 (v131 : BitVec 32) : Fin 3 → Nat :=
  let c3_i32_82 : BitVec 32 := 3#32
  let v132 : BitVec 32 := Scalar.shrui v131 c3_i32_82
  let c7_i32_83 : BitVec 32 := 7#32
  let v133 : BitVec 32 := Scalar.andi v131 c7_i32_83
  let c0_i32_86 : BitVec 32 := 0#32
  ![v132.toNat, v133.toNat, 0]

def k0_chk10 (v131 : BitVec 32) : Prop :=
  (∀ a, (k0_off22 v131) a + S1x1x64.size a ≤ S125000x8x64.size a)
instance k0_chk10.dec : ∀ (v131 : BitVec 32), Decidable (k0_chk10 v131) := fun v131 => decidable_of_iff' _ (Iff.of_eq (k0_chk10.eq_1 v131))
theorem k0_off22_inb : ∀ (v131 : BitVec 32) (k0_hw10 : k0_chk10 v131), ∀ a, (k0_off22 v131) a + S1x1x64.size a ≤ S125000x8x64.size a := fun v131 k0_hw10 => k0_hw10

def k0_off23 (k0_t1 : Fin k0_t1_loop.trips) (c9_i32 : BitVec 32) : Fin 2 → Nat :=
  let c0_i32_1 : BitVec 32 := 0#32
  let c1_i32 : BitVec 32 := 1#32
  let arg10 : BitVec 32 := Scf.iv c0_i32_1 c1_i32 k0_t1
  let c16_i32_84 : BitVec 32 := 16#32
  let v134 : BitVec 32 := Scalar.muli arg10 c16_i32_84
  let v135 : BitVec 32 := Scalar.addi v134 c9_i32
  let c0_i32_87 : BitVec 32 := 0#32
  ![v135.toNat, 0]
def k0_off24 (v143 : BitVec 32) : Fin 3 → Nat :=
  let c3_i32_89 : BitVec 32 := 3#32
  let v144 : BitVec 32 := Scalar.shrui v143 c3_i32_89
  let c7_i32_90 : BitVec 32 := 7#32
  let v145 : BitVec 32 := Scalar.andi v143 c7_i32_90
  let c0_i32_93 : BitVec 32 := 0#32
  ![v144.toNat, v145.toNat, 0]

def k0_chk11 (v143 : BitVec 32) : Prop :=
  (∀ a, (k0_off24 v143) a + S1x1x64.size a ≤ S125000x8x64.size a)
instance k0_chk11.dec : ∀ (v143 : BitVec 32), Decidable (k0_chk11 v143) := fun v143 => decidable_of_iff' _ (Iff.of_eq (k0_chk11.eq_1 v143))
theorem k0_off24_inb : ∀ (v143 : BitVec 32) (k0_hw11 : k0_chk11 v143), ∀ a, (k0_off24 v143) a + S1x1x64.size a ≤ S125000x8x64.size a := fun v143 k0_hw11 => k0_hw11

def k0_off25 (k0_t1 : Fin k0_t1_loop.trips) (c10_i32 : BitVec 32) : Fin 2 → Nat :=
  let c0_i32_1 : BitVec 32 := 0#32
  let c1_i32 : BitVec 32 := 1#32
  let arg10 : BitVec 32 := Scf.iv c0_i32_1 c1_i32 k0_t1
  let c16_i32_91 : BitVec 32 := 16#32
  let v146 : BitVec 32 := Scalar.muli arg10 c16_i32_91
  let v147 : BitVec 32 := Scalar.addi v146 c10_i32
  let c0_i32_94 : BitVec 32 := 0#32
  ![v147.toNat, 0]
def k0_off26 (v155 : BitVec 32) : Fin 3 → Nat :=
  let c3_i32_96 : BitVec 32 := 3#32
  let v156 : BitVec 32 := Scalar.shrui v155 c3_i32_96
  let c7_i32_97 : BitVec 32 := 7#32
  let v157 : BitVec 32 := Scalar.andi v155 c7_i32_97
  let c0_i32_100 : BitVec 32 := 0#32
  ![v156.toNat, v157.toNat, 0]

def k0_chk12 (v155 : BitVec 32) : Prop :=
  (∀ a, (k0_off26 v155) a + S1x1x64.size a ≤ S125000x8x64.size a)
instance k0_chk12.dec : ∀ (v155 : BitVec 32), Decidable (k0_chk12 v155) := fun v155 => decidable_of_iff' _ (Iff.of_eq (k0_chk12.eq_1 v155))
theorem k0_off26_inb : ∀ (v155 : BitVec 32) (k0_hw12 : k0_chk12 v155), ∀ a, (k0_off26 v155) a + S1x1x64.size a ≤ S125000x8x64.size a := fun v155 k0_hw12 => k0_hw12

def k0_off27 (k0_t1 : Fin k0_t1_loop.trips) (c11_i32 : BitVec 32) : Fin 2 → Nat :=
  let c0_i32_1 : BitVec 32 := 0#32
  let c1_i32 : BitVec 32 := 1#32
  let arg10 : BitVec 32 := Scf.iv c0_i32_1 c1_i32 k0_t1
  let c16_i32_98 : BitVec 32 := 16#32
  let v158 : BitVec 32 := Scalar.muli arg10 c16_i32_98
  let v159 : BitVec 32 := Scalar.addi v158 c11_i32
  let c0_i32_101 : BitVec 32 := 0#32
  ![v159.toNat, 0]
def k0_off28 (v167 : BitVec 32) : Fin 3 → Nat :=
  let c3_i32_103 : BitVec 32 := 3#32
  let v168 : BitVec 32 := Scalar.shrui v167 c3_i32_103
  let c7_i32_104 : BitVec 32 := 7#32
  let v169 : BitVec 32 := Scalar.andi v167 c7_i32_104
  let c0_i32_107 : BitVec 32 := 0#32
  ![v168.toNat, v169.toNat, 0]

def k0_chk13 (v167 : BitVec 32) : Prop :=
  (∀ a, (k0_off28 v167) a + S1x1x64.size a ≤ S125000x8x64.size a)
instance k0_chk13.dec : ∀ (v167 : BitVec 32), Decidable (k0_chk13 v167) := fun v167 => decidable_of_iff' _ (Iff.of_eq (k0_chk13.eq_1 v167))
theorem k0_off28_inb : ∀ (v167 : BitVec 32) (k0_hw13 : k0_chk13 v167), ∀ a, (k0_off28 v167) a + S1x1x64.size a ≤ S125000x8x64.size a := fun v167 k0_hw13 => k0_hw13

def k0_off29 (k0_t1 : Fin k0_t1_loop.trips) (c12_i32 : BitVec 32) : Fin 2 → Nat :=
  let c0_i32_1 : BitVec 32 := 0#32
  let c1_i32 : BitVec 32 := 1#32
  let arg10 : BitVec 32 := Scf.iv c0_i32_1 c1_i32 k0_t1
  let c16_i32_105 : BitVec 32 := 16#32
  let v170 : BitVec 32 := Scalar.muli arg10 c16_i32_105
  let v171 : BitVec 32 := Scalar.addi v170 c12_i32
  let c0_i32_108 : BitVec 32 := 0#32
  ![v171.toNat, 0]
def k0_off30 (v179 : BitVec 32) : Fin 3 → Nat :=
  let c3_i32_110 : BitVec 32 := 3#32
  let v180 : BitVec 32 := Scalar.shrui v179 c3_i32_110
  let c7_i32_111 : BitVec 32 := 7#32
  let v181 : BitVec 32 := Scalar.andi v179 c7_i32_111
  let c0_i32_114 : BitVec 32 := 0#32
  ![v180.toNat, v181.toNat, 0]

def k0_chk14 (v179 : BitVec 32) : Prop :=
  (∀ a, (k0_off30 v179) a + S1x1x64.size a ≤ S125000x8x64.size a)
instance k0_chk14.dec : ∀ (v179 : BitVec 32), Decidable (k0_chk14 v179) := fun v179 => decidable_of_iff' _ (Iff.of_eq (k0_chk14.eq_1 v179))
theorem k0_off30_inb : ∀ (v179 : BitVec 32) (k0_hw14 : k0_chk14 v179), ∀ a, (k0_off30 v179) a + S1x1x64.size a ≤ S125000x8x64.size a := fun v179 k0_hw14 => k0_hw14

def k0_off31 (k0_t1 : Fin k0_t1_loop.trips) (c13_i32 : BitVec 32) : Fin 2 → Nat :=
  let c0_i32_1 : BitVec 32 := 0#32
  let c1_i32 : BitVec 32 := 1#32
  let arg10 : BitVec 32 := Scf.iv c0_i32_1 c1_i32 k0_t1
  let c16_i32_112 : BitVec 32 := 16#32
  let v182 : BitVec 32 := Scalar.muli arg10 c16_i32_112
  let v183 : BitVec 32 := Scalar.addi v182 c13_i32
  let c0_i32_115 : BitVec 32 := 0#32
  ![v183.toNat, 0]
def k0_off32 (v191 : BitVec 32) : Fin 3 → Nat :=
  let c3_i32_117 : BitVec 32 := 3#32
  let v192 : BitVec 32 := Scalar.shrui v191 c3_i32_117
  let c7_i32_118 : BitVec 32 := 7#32
  let v193 : BitVec 32 := Scalar.andi v191 c7_i32_118
  let c0_i32_121 : BitVec 32 := 0#32
  ![v192.toNat, v193.toNat, 0]

def k0_chk15 (v191 : BitVec 32) : Prop :=
  (∀ a, (k0_off32 v191) a + S1x1x64.size a ≤ S125000x8x64.size a)
instance k0_chk15.dec : ∀ (v191 : BitVec 32), Decidable (k0_chk15 v191) := fun v191 => decidable_of_iff' _ (Iff.of_eq (k0_chk15.eq_1 v191))
theorem k0_off32_inb : ∀ (v191 : BitVec 32) (k0_hw15 : k0_chk15 v191), ∀ a, (k0_off32 v191) a + S1x1x64.size a ≤ S125000x8x64.size a := fun v191 k0_hw15 => k0_hw15

def k0_off33 (k0_t1 : Fin k0_t1_loop.trips) (c14_i32 : BitVec 32) : Fin 2 → Nat :=
  let c0_i32_1 : BitVec 32 := 0#32
  let c1_i32 : BitVec 32 := 1#32
  let arg10 : BitVec 32 := Scf.iv c0_i32_1 c1_i32 k0_t1
  let c16_i32_119 : BitVec 32 := 16#32
  let v194 : BitVec 32 := Scalar.muli arg10 c16_i32_119
  let v195 : BitVec 32 := Scalar.addi v194 c14_i32
  let c0_i32_122 : BitVec 32 := 0#32
  ![v195.toNat, 0]
def k0_off34 (v203 : BitVec 32) : Fin 3 → Nat :=
  let c3_i32_124 : BitVec 32 := 3#32
  let v204 : BitVec 32 := Scalar.shrui v203 c3_i32_124
  let c7_i32_125 : BitVec 32 := 7#32
  let v205 : BitVec 32 := Scalar.andi v203 c7_i32_125
  let c0_i32_128 : BitVec 32 := 0#32
  ![v204.toNat, v205.toNat, 0]

def k0_chk16 (v203 : BitVec 32) : Prop :=
  (∀ a, (k0_off34 v203) a + S1x1x64.size a ≤ S125000x8x64.size a)
instance k0_chk16.dec : ∀ (v203 : BitVec 32), Decidable (k0_chk16 v203) := fun v203 => decidable_of_iff' _ (Iff.of_eq (k0_chk16.eq_1 v203))
theorem k0_off34_inb : ∀ (v203 : BitVec 32) (k0_hw16 : k0_chk16 v203), ∀ a, (k0_off34 v203) a + S1x1x64.size a ≤ S125000x8x64.size a := fun v203 k0_hw16 => k0_hw16

def k0_off35 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_126 : BitVec 32 := 16#32
  let v206 : BitVec 32 := Scalar.muli arg10 c16_i32_126
  let c15_i32 : BitVec 32 := 15#32
  let v207 : BitVec 32 := Scalar.addi v206 c15_i32
  let c0_i32_129 : BitVec 32 := 0#32
  ![v207.toNat, 0]
@[reducible] def k0_t2_loop : Scf.Loop 32 :=
  let c0_i32_4 : BitVec 32 := 0#32
  let c640_i32 : BitVec 32 := 640#32
  let v3 : BitVec 32 := Scalar.addi c0_i32_4 c640_i32
  let c1_i32_5 : BitVec 32 := 1#32
  ⟨c0_i32_4, v3, c1_i32_5⟩
def k0_off36 (k0_t2 : Fin k0_t2_loop.trips) : Fin 2 → Nat :=
  let c0_i32_4 : BitVec 32 := 0#32
  let c1_i32_5 : BitVec 32 := 1#32
  let arg10 : BitVec 32 := Scf.iv c0_i32_4 c1_i32_5 k0_t2
  let c0_i32_17 : BitVec 32 := 0#32
  ![arg10.toNat, 0]
@[reducible] def k0_t3_loop : Scf.Loop 32 :=
  let c0_i32_12 : BitVec 32 := 0#32
  let c32_i32 : BitVec 32 := 32#32
  let v16 : BitVec 32 := Scalar.addi c0_i32_12 c32_i32
  let c1_i32_13 : BitVec 32 := 1#32
  ⟨c0_i32_12, v16, c1_i32_13⟩
def k0_off37 (k0_t3 : Fin k0_t3_loop.trips) (c0_i32_16 : BitVec 32) : Fin 2 → Nat :=
  let c0_i32_12 : BitVec 32 := 0#32
  let c1_i32_13 : BitVec 32 := 1#32
  let arg10 : BitVec 32 := Scf.iv c0_i32_12 c1_i32_13 k0_t3
  let c20_i32 : BitVec 32 := 20#32
  let v18 : BitVec 32 := Scalar.muli arg10 c20_i32
  let v19 : BitVec 32 := Scalar.addi v18 c0_i32_16
  let v20 : Index := Scalar.indexCast v19
  let c0_17 : Index := 0#32
  ![v20.toNat, 0]
def k0_off38 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v145 : Index := Scalar.indexCast arg10
  let c0_i32_39 : BitVec 32 := 0#32
  let v146 : Index := Scalar.indexCast c0_i32_39
  let c0_40 : Index := 0#32
  ![v145.toNat, 0, 0]
def k0_off39 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v150 : Index := Scalar.indexCast arg10
  let c1_i32_41 : BitVec 32 := 1#32
  let v151 : Index := Scalar.indexCast c1_i32_41
  let c0_42 : Index := 0#32
  ![v150.toNat, 1, 0]
def k0_off40 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v155 : Index := Scalar.indexCast arg10
  let c2_i32_43 : BitVec 32 := 2#32
  let v156 : Index := Scalar.indexCast c2_i32_43
  let c0_44 : Index := 0#32
  ![v155.toNat, 2, 0]
def k0_off41 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v160 : Index := Scalar.indexCast arg10
  let c3_i32_45 : BitVec 32 := 3#32
  let v161 : Index := Scalar.indexCast c3_i32_45
  let c0_46 : Index := 0#32
  ![v160.toNat, 3, 0]
def k0_off42 (k0_t3 : Fin k0_t3_loop.trips) (c0_i32_47 : BitVec 32) : Fin 2 → Nat :=
  let c0_i32_12 : BitVec 32 := 0#32
  let c1_i32_13 : BitVec 32 := 1#32
  let arg10 : BitVec 32 := Scf.iv c0_i32_12 c1_i32_13 k0_t3
  let c20_i32 : BitVec 32 := 20#32
  let v18 : BitVec 32 := Scalar.muli arg10 c20_i32
  let v165 : BitVec 32 := Scalar.addi v18 c0_i32_47
  let v166 : Index := Scalar.indexCast v165
  let c16_48 : Index := 16#32
  ![v166.toNat, 16]
def k0_off43 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v291 : Index := Scalar.indexCast arg10
  let c0_i32_87 : BitVec 32 := 0#32
  let v292 : Index := Scalar.indexCast c0_i32_87
  let c16_88 : Index := 16#32
  ![v291.toNat, 0, 16]
def k0_off44 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v296 : Index := Scalar.indexCast arg10
  let c1_i32_89 : BitVec 32 := 1#32
  let v297 : Index := Scalar.indexCast c1_i32_89
  let c16_90 : Index := 16#32
  ![v296.toNat, 1, 16]
def k0_off45 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v301 : Index := Scalar.indexCast arg10
  let c2_i32_91 : BitVec 32 := 2#32
  let v302 : Index := Scalar.indexCast c2_i32_91
  let c16_92 : Index := 16#32
  ![v301.toNat, 2, 16]
def k0_off46 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v306 : Index := Scalar.indexCast arg10
  let c3_i32_93 : BitVec 32 := 3#32
  let v307 : Index := Scalar.indexCast c3_i32_93
  let c16_94 : Index := 16#32
  ![v306.toNat, 3, 16]
def k0_off47 (k0_t3 : Fin k0_t3_loop.trips) (c0_i32_95 : BitVec 32) : Fin 2 → Nat :=
  let c0_i32_12 : BitVec 32 := 0#32
  let c1_i32_13 : BitVec 32 := 1#32
  let arg10 : BitVec 32 := Scf.iv c0_i32_12 c1_i32_13 k0_t3
  let c20_i32 : BitVec 32 := 20#32
  let v18 : BitVec 32 := Scalar.muli arg10 c20_i32
  let v311 : BitVec 32 := Scalar.addi v18 c0_i32_95
  let v312 : Index := Scalar.indexCast v311
  let c32_96 : Index := 32#32
  ![v312.toNat, 32]
def k0_off48 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v437 : Index := Scalar.indexCast arg10
  let c0_i32_135 : BitVec 32 := 0#32
  let v438 : Index := Scalar.indexCast c0_i32_135
  let c32_136 : Index := 32#32
  ![v437.toNat, 0, 32]
def k0_off49 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v442 : Index := Scalar.indexCast arg10
  let c1_i32_137 : BitVec 32 := 1#32
  let v443 : Index := Scalar.indexCast c1_i32_137
  let c32_138 : Index := 32#32
  ![v442.toNat, 1, 32]
def k0_off50 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v447 : Index := Scalar.indexCast arg10
  let c2_i32_139 : BitVec 32 := 2#32
  let v448 : Index := Scalar.indexCast c2_i32_139
  let c32_140 : Index := 32#32
  ![v447.toNat, 2, 32]
def k0_off51 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v452 : Index := Scalar.indexCast arg10
  let c3_i32_141 : BitVec 32 := 3#32
  let v453 : Index := Scalar.indexCast c3_i32_141
  let c32_142 : Index := 32#32
  ![v452.toNat, 3, 32]
def k0_off52 (k0_t3 : Fin k0_t3_loop.trips) (c0_i32_143 : BitVec 32) : Fin 2 → Nat :=
  let c0_i32_12 : BitVec 32 := 0#32
  let c1_i32_13 : BitVec 32 := 1#32
  let arg10 : BitVec 32 := Scf.iv c0_i32_12 c1_i32_13 k0_t3
  let c20_i32 : BitVec 32 := 20#32
  let v18 : BitVec 32 := Scalar.muli arg10 c20_i32
  let v457 : BitVec 32 := Scalar.addi v18 c0_i32_143
  let v458 : Index := Scalar.indexCast v457
  let c48_144 : Index := 48#32
  ![v458.toNat, 48]
def k0_off53 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v583 : Index := Scalar.indexCast arg10
  let c0_i32_183 : BitVec 32 := 0#32
  let v584 : Index := Scalar.indexCast c0_i32_183
  let c48_184 : Index := 48#32
  ![v583.toNat, 0, 48]
def k0_off54 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v588 : Index := Scalar.indexCast arg10
  let c1_i32_185 : BitVec 32 := 1#32
  let v589 : Index := Scalar.indexCast c1_i32_185
  let c48_186 : Index := 48#32
  ![v588.toNat, 1, 48]
def k0_off55 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v593 : Index := Scalar.indexCast arg10
  let c2_i32_187 : BitVec 32 := 2#32
  let v594 : Index := Scalar.indexCast c2_i32_187
  let c48_188 : Index := 48#32
  ![v593.toNat, 2, 48]
def k0_off56 (k0_t3 : Fin k0_t3_loop.trips) : Fin 3 → Nat :=
  let c0_i32_12 : BitVec 32 := 0#32
  let c1_i32_13 : BitVec 32 := 1#32
  let arg10 : BitVec 32 := Scf.iv c0_i32_12 c1_i32_13 k0_t3
  let v598 : Index := Scalar.indexCast arg10
  let c3_i32_189 : BitVec 32 := 3#32
  let v599 : Index := Scalar.indexCast c3_i32_189
  let c48_190 : Index := 48#32
  ![v598.toNat, 3, 48]
def k0_off57 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v17 : BitVec 32 := Scalar.muli v1 c32_i32_15
  let c0_i32_16_r2 : BitVec 32 := 0#32
  let c0_i32_17_r2 : BitVec 32 := 0#32
  ![v17.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x20_S32x640 : S1024x20.ShapeCasts S32x640
  shapeCasts_S1000000x64_S125000x8x64 : S1000000x64.ShapeCasts S125000x8x64
  inb_S656_S640_0 : ∀ a, (![0] : Fin 1 → Nat) a + S640.size a ≤ S656.size a
  squeezes_S1x640_S640 : S1x640.Squeezes S640
  inb_S125000x8x64_S1x1x64_0_0_0 : ∀ a, (![0, 0, 0] : Fin 3 → Nat) a + S1x1x64.size a ≤ S125000x8x64.size a
  squeezes_S1x1x64_S1x64 : S1x1x64.Squeezes S1x64
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S1x64_S1x16_0_0 : ∀ a, (![0, 0] : Fin 2 → Nat) a + S1x16.size a ≤ S1x64.size a
  h_S1x16 : 0 < S1x16.numel
  shapeCasts_S1x16_S1x16 : S1x16.ShapeCasts S1x16
  shapeCasts_S1x16_S16 : S1x16.ShapeCasts S16
  inb_S1x64_S1x16_0_16 : ∀ a, (![0, 16] : Fin 2 → Nat) a + S1x16.size a ≤ S1x64.size a
  inb_S1x64_S1x16_0_32 : ∀ a, (![0, 32] : Fin 2 → Nat) a + S1x16.size a ≤ S1x64.size a
  inb_S1x64_S1x16_0_48 : ∀ a, (![0, 48] : Fin 2 → Nat) a + S1x16.size a ≤ S1x64.size a
  h_S1x1x16 : 0 < S1x1x16.numel
  shapeCasts_S1x1x16_S16 : S1x1x16.ShapeCasts S16
  shapeCasts_S16_S1x1x16 : S16.ShapeCasts S1x1x16
  hcc0_scratch4 : 0 + S_.numel ≤ 4
  hcc0_scoped0 : 1 + S_.numel ≤ 4
  hcc0_scoped1 : 2 + S_.numel ≤ 4
  hcc0_scoped2 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x640.size a ≤ S32x640.size a
  k0_t1_ok : k0_t1_loop.OK
  k0_off2_inb : ∀ k0_t1 : Fin k0_t1_loop.trips, ∀ a, (k0_off2 k0_t1) a + S16.size a ≤ S656.size a
  k0_off3_inb : ∀ k0_t1 : Fin k0_t1_loop.trips, ∀ a, (k0_off3 k0_t1) a + S1x64.size a ≤ S640x64.size a
  k0_off5_inb : ∀ k0_t1 : Fin k0_t1_loop.trips, ∀ (r : Fin 2), ∀ a, (k0_off5 k0_t1 (BitVec.ofNat 32 r.val)) a + S1x64.size a ≤ S640x64.size a
  k0_off7_inb : ∀ k0_t1 : Fin k0_t1_loop.trips, ∀ (r : Fin 2), ∀ a, (k0_off7 k0_t1 (BitVec.ofNat 32 (1 + r.val))) a + S1x64.size a ≤ S640x64.size a
  k0_off9_inb : ∀ k0_t1 : Fin k0_t1_loop.trips, ∀ (r : Fin 2), ∀ a, (k0_off9 k0_t1 (BitVec.ofNat 32 (2 + r.val))) a + S1x64.size a ≤ S640x64.size a
  k0_off11_inb : ∀ k0_t1 : Fin k0_t1_loop.trips, ∀ (r : Fin 2), ∀ a, (k0_off11 k0_t1 (BitVec.ofNat 32 (3 + r.val))) a + S1x64.size a ≤ S640x64.size a
  k0_off13_inb : ∀ k0_t1 : Fin k0_t1_loop.trips, ∀ (r : Fin 2), ∀ a, (k0_off13 k0_t1 (BitVec.ofNat 32 (4 + r.val))) a + S1x64.size a ≤ S640x64.size a
  k0_off15_inb : ∀ k0_t1 : Fin k0_t1_loop.trips, ∀ (r : Fin 2), ∀ a, (k0_off15 k0_t1 (BitVec.ofNat 32 (5 + r.val))) a + S1x64.size a ≤ S640x64.size a
  k0_off17_inb : ∀ k0_t1 : Fin k0_t1_loop.trips, ∀ (r : Fin 2), ∀ a, (k0_off17 k0_t1 (BitVec.ofNat 32 (6 + r.val))) a + S1x64.size a ≤ S640x64.size a
  k0_off19_inb : ∀ k0_t1 : Fin k0_t1_loop.trips, ∀ (r : Fin 2), ∀ a, (k0_off19 k0_t1 (BitVec.ofNat 32 (7 + r.val))) a + S1x64.size a ≤ S640x64.size a
  k0_off21_inb : ∀ k0_t1 : Fin k0_t1_loop.trips, ∀ (r : Fin 2), ∀ a, (k0_off21 k0_t1 (BitVec.ofNat 32 (8 + r.val))) a + S1x64.size a ≤ S640x64.size a
  k0_off23_inb : ∀ k0_t1 : Fin k0_t1_loop.trips, ∀ (r : Fin 2), ∀ a, (k0_off23 k0_t1 (BitVec.ofNat 32 (9 + r.val))) a + S1x64.size a ≤ S640x64.size a
  k0_off25_inb : ∀ k0_t1 : Fin k0_t1_loop.trips, ∀ (r : Fin 2), ∀ a, (k0_off25 k0_t1 (BitVec.ofNat 32 (10 + r.val))) a + S1x64.size a ≤ S640x64.size a
  k0_off27_inb : ∀ k0_t1 : Fin k0_t1_loop.trips, ∀ (r : Fin 2), ∀ a, (k0_off27 k0_t1 (BitVec.ofNat 32 (11 + r.val))) a + S1x64.size a ≤ S640x64.size a
  k0_off29_inb : ∀ k0_t1 : Fin k0_t1_loop.trips, ∀ (r : Fin 2), ∀ a, (k0_off29 k0_t1 (BitVec.ofNat 32 (12 + r.val))) a + S1x64.size a ≤ S640x64.size a
  k0_off31_inb : ∀ k0_t1 : Fin k0_t1_loop.trips, ∀ (r : Fin 2), ∀ a, (k0_off31 k0_t1 (BitVec.ofNat 32 (13 + r.val))) a + S1x64.size a ≤ S640x64.size a
  k0_off33_inb : ∀ k0_t1 : Fin k0_t1_loop.trips, ∀ (r : Fin 2), ∀ a, (k0_off33 k0_t1 (BitVec.ofNat 32 (14 + r.val))) a + S1x64.size a ≤ S640x64.size a
  k0_off35_inb : ∀ k0_t1 : Fin k0_t1_loop.trips, ∀ a, (k0_off35 k0_t1) a + S1x64.size a ≤ S640x64.size a
  k0_t2_ok : k0_t2_loop.OK
  k0_off36_inb : ∀ k0_t2 : Fin k0_t2_loop.trips, ∀ a, (k0_off36 k0_t2) a + S1x64.size a ≤ S640x64.size a
  k0_t3_ok : k0_t3_loop.OK
  k0_off37_inb : ∀ k0_t3 : Fin k0_t3_loop.trips, ∀ (r : Fin 20), ∀ a, (k0_off37 k0_t3 (BitVec.ofNat 32 r.val)) a + S1x16.size a ≤ S640x64.size a
  k0_off38_inb : ∀ k0_t3 : Fin k0_t3_loop.trips, ∀ a, (k0_off38 k0_t3) a + S1x1x16.size a ≤ S32x4x64.size a
  k0_off39_inb : ∀ k0_t3 : Fin k0_t3_loop.trips, ∀ a, (k0_off39 k0_t3) a + S1x1x16.size a ≤ S32x4x64.size a
  k0_off40_inb : ∀ k0_t3 : Fin k0_t3_loop.trips, ∀ a, (k0_off40 k0_t3) a + S1x1x16.size a ≤ S32x4x64.size a
  k0_off41_inb : ∀ k0_t3 : Fin k0_t3_loop.trips, ∀ a, (k0_off41 k0_t3) a + S1x1x16.size a ≤ S32x4x64.size a
  k0_off42_inb : ∀ k0_t3 : Fin k0_t3_loop.trips, ∀ (r : Fin 20), ∀ a, (k0_off42 k0_t3 (BitVec.ofNat 32 r.val)) a + S1x16.size a ≤ S640x64.size a
  k0_off43_inb : ∀ k0_t3 : Fin k0_t3_loop.trips, ∀ a, (k0_off43 k0_t3) a + S1x1x16.size a ≤ S32x4x64.size a
  k0_off44_inb : ∀ k0_t3 : Fin k0_t3_loop.trips, ∀ a, (k0_off44 k0_t3) a + S1x1x16.size a ≤ S32x4x64.size a
  k0_off45_inb : ∀ k0_t3 : Fin k0_t3_loop.trips, ∀ a, (k0_off45 k0_t3) a + S1x1x16.size a ≤ S32x4x64.size a
  k0_off46_inb : ∀ k0_t3 : Fin k0_t3_loop.trips, ∀ a, (k0_off46 k0_t3) a + S1x1x16.size a ≤ S32x4x64.size a
  k0_off47_inb : ∀ k0_t3 : Fin k0_t3_loop.trips, ∀ (r : Fin 20), ∀ a, (k0_off47 k0_t3 (BitVec.ofNat 32 r.val)) a + S1x16.size a ≤ S640x64.size a
  k0_off48_inb : ∀ k0_t3 : Fin k0_t3_loop.trips, ∀ a, (k0_off48 k0_t3) a + S1x1x16.size a ≤ S32x4x64.size a
  k0_off49_inb : ∀ k0_t3 : Fin k0_t3_loop.trips, ∀ a, (k0_off49 k0_t3) a + S1x1x16.size a ≤ S32x4x64.size a
  k0_off50_inb : ∀ k0_t3 : Fin k0_t3_loop.trips, ∀ a, (k0_off50 k0_t3) a + S1x1x16.size a ≤ S32x4x64.size a
  k0_off51_inb : ∀ k0_t3 : Fin k0_t3_loop.trips, ∀ a, (k0_off51 k0_t3) a + S1x1x16.size a ≤ S32x4x64.size a
  k0_off52_inb : ∀ k0_t3 : Fin k0_t3_loop.trips, ∀ (r : Fin 20), ∀ a, (k0_off52 k0_t3 (BitVec.ofNat 32 r.val)) a + S1x16.size a ≤ S640x64.size a
  k0_off53_inb : ∀ k0_t3 : Fin k0_t3_loop.trips, ∀ a, (k0_off53 k0_t3) a + S1x1x16.size a ≤ S32x4x64.size a
  k0_off54_inb : ∀ k0_t3 : Fin k0_t3_loop.trips, ∀ a, (k0_off54 k0_t3) a + S1x1x16.size a ≤ S32x4x64.size a
  k0_off55_inb : ∀ k0_t3 : Fin k0_t3_loop.trips, ∀ a, (k0_off55 k0_t3) a + S1x1x16.size a ≤ S32x4x64.size a
  k0_off56_inb : ∀ k0_t3 : Fin k0_t3_loop.trips, ∀ a, (k0_off56 k0_t3) a + S1x1x16.size a ≤ S32x4x64.size a
  k0_off57_inb : ∀ i : grid0.Coords, ∀ a, (k0_off57 i) a + S32x4x64.size a ≤ S1024x4x64.size a

variable [Facts₀]

abbrev cc0_scratch4 : DmaSems sig S_ := SemArray.consecutive 0 S_ hcc0_scratch4
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2

class Facts : Prop extends Facts₀ where

variable [Facts]
-- ==== ReferenceIdeal.lean ====
abbrev S1024x20 : Shape := ⟨2, ![1024, 20]⟩
abbrev S1000000x64 : Shape := ⟨2, ![1000000, 64]⟩
abbrev S2 : Shape := ⟨1, ![2]⟩
abbrev S_ : Shape := ⟨0, ![]⟩
abbrev S4 : Shape := ⟨1, ![4]⟩
abbrev S20 : Shape := ⟨1, ![20]⟩
abbrev S20x1 : Shape := ⟨2, ![20, 1]⟩
abbrev S1x4 : Shape := ⟨2, ![1, 4]⟩
abbrev S20x4 : Shape := ⟨2, ![20, 4]⟩
abbrev S20x4x1 : Shape := ⟨3, ![20, 4, 1]⟩
abbrev S1024x20x4 : Shape := ⟨3, ![1024, 20, 4]⟩
abbrev S1x20x4 : Shape := ⟨3, ![1, 20, 4]⟩
abbrev S1024x20x4x1 : Shape := ⟨4, ![1024, 20, 4, 1]⟩
abbrev S1 : Shape := ⟨1, ![1]⟩
abbrev S1x1x1x1 : Shape := ⟨4, ![1, 1, 1, 1]⟩
abbrev S1024x20x4x64 : Shape := ⟨4, ![1024, 20, 4, 64]⟩
abbrev S1024x4x64 : Shape := ⟨3, ![1024, 4, 64]⟩

abbrev nBuf : Space → Nat
  | .hbm => 73
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1000000x64, .f32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i32⟩
  | .hbm, ⟨6, _⟩ => ⟨S2, .i32⟩
  | .hbm, ⟨7, _⟩ => ⟨S2, .i32⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S4, .i32⟩
  | .hbm, ⟨12, _⟩ => ⟨S20, .i32⟩
  | .hbm, ⟨13, _⟩ => ⟨S20x1, .i32⟩
  | .hbm, ⟨14, _⟩ => ⟨S1x4, .i32⟩
  | .hbm, ⟨15, _⟩ => ⟨S20x4, .i32⟩
  | .hbm, ⟨16, _⟩ => ⟨S20x4, .i32⟩
  | .hbm, ⟨17, _⟩ => ⟨S20x4, .i32⟩
  | .hbm, ⟨18, _⟩ => ⟨S_, .i32⟩
  | .hbm, ⟨19, _⟩ => ⟨S20x4, .i32⟩
  | .hbm, ⟨20, _⟩ => ⟨S20x4, .i1⟩
  | .hbm, ⟨21, _⟩ => ⟨S_, .i32⟩
  | .hbm, ⟨22, _⟩ => ⟨S20x4, .i32⟩
  | .hbm, ⟨23, _⟩ => ⟨S20x4, .i1⟩
  | .hbm, ⟨24, _⟩ => ⟨S20x4, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S20x4, .i32⟩
  | .hbm, ⟨29, _⟩ => ⟨S20x4, .i32⟩
  | .hbm, ⟨30, _⟩ => ⟨S_, .i32⟩
  | .hbm, ⟨31, _⟩ => ⟨S20x4, .i32⟩
  | .hbm, ⟨32, _⟩ => ⟨S20x4, .i32⟩
  | .hbm, ⟨33, _⟩ => ⟨S_, .i32⟩
  | .hbm, ⟨34, _⟩ => ⟨S20x4, .i32⟩
  | .hbm, ⟨35, _⟩ => ⟨S20x4, .i1⟩
  | .hbm, ⟨36, _⟩ => ⟨S_, .i32⟩
  | .hbm, ⟨37, _⟩ => ⟨S20x4, .i32⟩
  | .hbm, ⟨38, _⟩ => ⟨S20x4, .i32⟩
  | .hbm, ⟨39, _⟩ => ⟨S20x4, .i32⟩
  | .hbm, ⟨40, _⟩ => ⟨S20x4x1, .i32⟩
  | .hbm, ⟨41, _⟩ => ⟨S1024x20x4, .i32⟩
  | .hbm, ⟨42, _⟩ => ⟨S1x20x4, .i1⟩
  | .hbm, ⟨43, _⟩ => ⟨S_, .i32⟩
  | .hbm, ⟨44, _⟩ => ⟨S_, .i32⟩
  | .hbm, ⟨45, _⟩ => ⟨S1024x20x4, .i1⟩
  | .hbm, ⟨46, _⟩ => ⟨S1024x20x4, .i32⟩
  | .hbm, ⟨47, _⟩ => ⟨S1024x20x4, .i32⟩
  | .hbm, ⟨48, _⟩ => ⟨S_, .i32⟩
  | .hbm, ⟨49, _⟩ => ⟨S1024x20x4, .i32⟩
  | .hbm, ⟨50, _⟩ => ⟨S1024x20x4, .i1⟩
  | .hbm, ⟨51, _⟩ => ⟨S_, .i32⟩
  | .hbm, ⟨52, _⟩ => ⟨S1024x20x4, .i32⟩
  | .hbm, ⟨53, _⟩ => ⟨S1024x20x4, .i32⟩
  | .hbm, ⟨54, _⟩ => ⟨S1024x20x4, .i32⟩
  | .hbm, ⟨55, _⟩ => ⟨S1024x20x4x1, .i32⟩
  | .hbm, ⟨56, _⟩ => ⟨S1, .i32⟩
  | .hbm, ⟨57, _⟩ => ⟨S_, .i32⟩
  | .hbm, ⟨58, _⟩ => ⟨S1024x20x4x1, .i32⟩
  | .hbm, ⟨59, _⟩ => ⟨S1024x20x4x1, .i1⟩
  | .hbm, ⟨60, _⟩ => ⟨S1x1x1x1, .i32⟩
  | .hbm, ⟨61, _⟩ => ⟨S1024x20x4x1, .i32⟩
  | .hbm, ⟨62, _⟩ => ⟨S1024x20x4x1, .i1⟩
  | .hbm, ⟨63, _⟩ => ⟨S1024x20x4x1, .i1⟩
  | .hbm, ⟨64, _⟩ => ⟨S_, .i1⟩
  | .hbm, ⟨65, _⟩ => ⟨S1024x20x4, .i1⟩
  | .hbm, ⟨66, _⟩ => ⟨S1024x20x4x64, .f32⟩
  | .hbm, ⟨67, _⟩ => ⟨S1024x20x4x64, .i1⟩
  | .hbm, ⟨68, _⟩ => ⟨S_, .f32⟩
  | .hbm, ⟨69, _⟩ => ⟨S1024x20x4x64, .f32⟩
  | .hbm, ⟨70, _⟩ => ⟨S1024x20x4x64, .f32⟩
  | .hbm, ⟨71, _⟩ => ⟨S_, .f32⟩
  | .hbm, ⟨72, _⟩ => ⟨S1024x4x64, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v29 : Ref sig .tc := ⟨.hbm, 70, rfl⟩
abbrev main_cst : Ref sig .tc := ⟨.hbm, 71, rfl⟩
abbrev main_v30 : Ref sig .tc := ⟨.hbm, 72, rfl⟩

abbrev nD : Nat := 1
abbrev τ : Topo := Topo.v7x

variable {F : FTy → Type} [FloatOps F]

class Facts₀ : Prop where
  bcast_S_S2 : S_.BroadcastsInDim S2 (![] : Fin 0 → Fin S2.rank)
  concatenates_S2_S2_S4_d0 : Shape.Concatenates [S2, S2] S4 0
  bcast_S20_S20x1_0 : S20.BroadcastsInDim S20x1 (![0] : Fin 1 → Fin S20x1.rank)
  bcast_S4_S1x4_1 : S4.BroadcastsInDim S1x4 (![1] : Fin 1 → Fin S1x4.rank)
  bcast_S20x1_S20x4_0_1 : S20x1.BroadcastsInDim S20x4 (![0, 1] : Fin 2 → Fin S20x4.rank)
  bcast_S1x4_S20x4_0_1 : S1x4.BroadcastsInDim S20x4 (![0, 1] : Fin 2 → Fin S20x4.rank)
  bcast_S_S20x4 : S_.BroadcastsInDim S20x4 (![] : Fin 0 → Fin S20x4.rank)
  bcast_S20x4_S20x4x1_0_1 : S20x4.BroadcastsInDim S20x4x1 (![0, 1] : Fin 2 → Fin S20x4x1.rank)
  bcast_S20x4_S1x20x4_1_2 : S20x4.BroadcastsInDim S1x20x4 (![1, 2] : Fin 2 → Fin S1x20x4.rank)
  bcast_S1x20x4_S1024x20x4_0_1_2 : S1x20x4.BroadcastsInDim S1024x20x4 (![0, 1, 2] : Fin 3 → Fin S1024x20x4.rank)
  bcast_S_S1024x20x4 : S_.BroadcastsInDim S1024x20x4 (![] : Fin 0 → Fin S1024x20x4.rank)
  bcast_S1024x20x4_S1024x20x4x1_0_1_2 : S1024x20x4.BroadcastsInDim S1024x20x4x1 (![0, 1, 2] : Fin 3 → Fin S1024x20x4x1.rank)
  bcast_S_S1024x20x4x1 : S_.BroadcastsInDim S1024x20x4x1 (![] : Fin 0 → Fin S1024x20x4x1.rank)
  bcast_S1_S1x1x1x1_3 : S1.BroadcastsInDim S1x1x1x1 (![3] : Fin 1 → Fin S1x1x1x1.rank)
  bcast_S1x1x1x1_S1024x20x4x1_0_1_2_3 : S1x1x1x1.BroadcastsInDim S1024x20x4x1 (![0, 1, 2, 3] : Fin 4 → Fin S1024x20x4x1.rank)
  reducesTo_S1024x20x4x1_S1024x20x4_d3 : S1024x20x4x1.ReducesTo [3] S1024x20x4
  h_S_ : 0 < S_.numel
  bcast_S1024x20x4_S1024x20x4x64_0_1_2 : S1024x20x4.BroadcastsInDim S1024x20x4x64 (![0, 1, 2] : Fin 3 → Fin S1024x20x4x64.rank)
  bcast_S_S1024x20x4x64 : S_.BroadcastsInDim S1024x20x4x64 (![] : Fin 0 → Fin S1024x20x4x64.rank)
  reducesTo_S1024x20x4x64_S1024x4x64_d1 : S1024x20x4x64.ReducesTo [1] S1024x4x64
  gather_S1024x20_S20x4x1_S1024x20x4_0_1_n_n_1_2_10241_wf : GatherDims.WF S1024x20 S20x4x1 S1024x20x4 [0] [1] [] [1] [] 2 ![1024, 1]
  gather_S1000000x64_S1024x20x4x1_S1024x20x4x64_3_0_n_n_0_3_164_wf : GatherDims.WF S1000000x64 S1024x20x4x1 S1024x20x4x64 [3] [0] [] [0] [] 3 ![1, 64]

variable [Facts₀]

def gather_S1024x20_S20x4x1_S1024x20x4_0_1_n_n_1_2_10241 : GatherDims S1024x20 S20x4x1 S1024x20x4 where
  offsetDims := [0]
  collapsedSliceDims := [1]
  operandBatchingDims := []
  startIndicesBatchingDims := []
  startIndexMap := [1]
  indexVectorDim := 2
  sliceSizes := ![1024, 1]
  wf := gather_S1024x20_S20x4x1_S1024x20x4_0_1_n_n_1_2_10241_wf
def gather_S1000000x64_S1024x20x4x1_S1024x20x4x64_3_0_n_n_0_3_164 : GatherDims S1000000x64 S1024x20x4x1 S1024x20x4x64 where
  offsetDims := [3]
  collapsedSliceDims := [0]
  operandBatchingDims := []
  startIndicesBatchingDims := []
  startIndexMap := [0]
  indexVectorDim := 3
  sliceSizes := ![1, 64]
  wf := gather_S1000000x64_S1024x20x4x1_S1024x20x4x64_3_0_n_n_0_3_164_wf

class Facts : Prop extends Facts₀ where

variable [Facts]
-- ==== Proof.KernelIdeal.Setup.lean ====
/-
  The kernel's program as the launch theorem for SparseCore programs sees it, and the vocabulary of its proof.

  One vector-subcore call on 2 SparseCores × 16 subcores; tile (c, s) is worker `w = 2 s + c` and owns rows
  `32 w … 32 w + 31` of the result. The two argument arrays are re-laid by the host before the call (`x` as
  [32, 640], one row of 640 tokens per worker; `W` as [125000, 8, 64]); every tile only READS those two, so each is
  dealt a read share of the whole of each, and full ownership of its own slab of the result.
  The kernel's transfers are local copies waited for by the tile that started them: the ghost state is the launch's
  handshake rounds beside the transfers' counters, with no schedule of the kernel's own.
-/
import proofs.«204099_g60593398612478_cont_9to1c4b_39_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«204099_g60593398612478_cont_9to1c4b_39_23_alg».proof.Proof.Gen.KernelIdeal
import proofs.«204099_g60593398612478_cont_9to1c4b_39_23_alg».proof.Proof.Gen.KernelIdeal.Skeleton

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays -/

/-- The two arguments, their re-laid copies, and the result, as locations of device `d`. -/
abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

/-- The kernel's memrefs as the body table passes them. -/
abbrev xV : Memref sig .scVector .hbm S32x640 .i32 := Memref.whole main_v0_scv
abbrev wV : Memref sig .scVector .hbm S125000x8x64 .f32 := Memref.whole main_v1_scv
abbrev oV : Memref sig .scVector .hbm S1024x4x64 .f32 := Memref.whole main_v2_scv
/-- A tile's scratch: its tokens, the gathered rows, table row 0, its slab of the result. -/
abbrev sI : Memref sig .scVector .vmem S656 .i32 := Memref.whole cc0_scratch0
abbrev sR : Memref sig .scVector .vmem S640x64 .f32 := Memref.whole cc0_scratch1
abbrev sZ : Memref sig .scVector .vmem S1x64 .f32 := Memref.whole cc0_scratch2
abbrev sO : Memref sig .scVector .vmem S32x4x64 .f32 := Memref.whole cc0_scratch3

/-- A grid point's SparseCore and subcore. -/
abbrev cV (L : grid0.Coords) : Fin τ.nSC := (L 0).castLE hcore0
abbrev jV (L : grid0.Coords) : Fin τ.nSub := (L 1).castLE hsub0

/-- The tile's thread. -/
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KernelIdeal

end
-- ==== Proof.Spec.lean ====
/-
  The function both programs compute, stated once over the argument arrays and imported by no program.

  A row of tokens `x[b, 0..19]` and a table `W` of 1,000,000 rows of 64 entries. For every row `b`, context slot
  `c ∈ {0,1,2,3}` (offsets −1, −2, +1, +2) and column `e`, the result is the sum over the positions `j` of the row of
  the table row named by the token the slot's offset away from `j`, or by token 0 where that position falls outside
  the row:  `out[b, c, e] = Σ_{j < 20} W[ctxTok x b j c, e]`.
-/
import Idealize.ShloMosaic.PureOps.Ideal
import Idealize.ShloMosaic.Lib.ValueIdx

noncomputable section

open scoped BigOperators

namespace Cert.Cbow

open Idealize.ShloMosaic Idealize.ShloMosaic.ValueIdx

abbrev SX : Shape := ⟨2, ![1024, 20]⟩
abbrev SW : Shape := ⟨2, ![1000000, 64]⟩
abbrev SO : Shape := ⟨3, ![1024, 4, 64]⟩

/-- The table row a natural number names; a number past the table names row 0 (no token does, under the
    precondition `0 ≤ x ≤ 999999`). -/
def rowOf (n : Nat) : Fin 1000000 := if h : n < 1000000 then ⟨n, h⟩ else ⟨0, by decide⟩

theorem rowOf_of_lt {n : Nat} (h : n < 1000000) : rowOf n = ⟨n, h⟩ := dif_pos h

/-- The token of row `b` at position `p`, as a natural number. -/
def tok (x : IVec SX 32) (b : Fin 1024) (p : Fin 20) : Nat := (x (ix2 b p)).toNat

/-- The token context slot `c` of position `j` of row `b` reads: the one `c`'s offset away (−1, −2, +1, +2), or token 0
    where that position is outside the row. -/
def ctxTok (x : IVec SX 32) (b : Fin 1024) (j : Fin 20) (c : Fin 4) : Nat :=
  match c with
  | 0 => if h : 1 ≤ j.val then tok x b ⟨j.val - 1, by omega⟩ else 0
  | 1 => if h : 2 ≤ j.val then tok x b ⟨j.val - 2, by omega⟩ else 0
  | 2 => if h : j.val + 1 < 20 then tok x b ⟨j.val + 1, h⟩ else 0
  | 3 => if h : j.val + 2 < 20 then tok x b ⟨j.val + 2, h⟩ else 0

/-- One entry of the result. -/
def specAt (x : IVec SX 32) (W : FVec Ideal SW .f32) (b : Fin 1024) (c : Fin 4) (e : Fin 64) : EReal :=
  ∑ j : Fin 20, W (ix2 (rowOf (ctxTok x b j c)) e)

/-- The result array. -/
def spec (x : IVec SX 32) (W : FVec Ideal SW .f32) : FVec Ideal SO .f32 :=
  fun i => specAt x W (i 0) (i 1) (i 2)

theorem spec_apply (x : IVec SX 32) (W : FVec Ideal SW .f32) (b : Fin 1024) (c : Fin 4) (e : Fin 64) :
    spec x W (ix3 b c e) = specAt x W b c e := rfl

/-! ## The same entries as the kernel adds them up -/

/-- Twenty numbers added left to right: `((r 0 + r 1) + r 2) + … + r 19`. -/
def sum20 (r : Fin 20 → EReal) : EReal :=
  r 0 + r 1 + r 2 + r 3 + r 4 + r 5 + r 6 + r 7 + r 8 + r 9 + r 10 + r 11 + r 12 + r 13 + r 14 + r 15 + r 16 + r 17 + r 18 + r 19

/-- The four context sums of one row and column as the kernel forms them from the row's twenty gathered entries `r`
    and the entry `w0` of table row 0: the whole sum plus one `w0`, less the entry that slot never sees; the second slot
    of each side adds one more `w0` and drops one more entry. -/
def kernAt (r : Fin 20 → EReal) (w0 : EReal) : Fin 4 → EReal
  | 0 => sum20 r + w0 - r 19
  | 1 => sum20 r + w0 - r 19 + w0 - r 18
  | 2 => sum20 r + w0 - r 0
  | 3 => sum20 r + w0 - r 0 + w0 - r 1

/-- The kernel's entry of the result for row `b`, slot `c`, column `e`, from the argument arrays. -/
def kernEntry (x : IVec SX 32) (W : FVec Ideal SW .f32) (b : Fin 1024) (c : Fin 4) (e : Fin 64) : EReal :=
  kernAt (fun p => W (ix2 (rowOf (tok x b p)) e)) (W (ix2 (rowOf 0) e)) c

end Cert.Cbow

end
-- ==== Proof.KernF.lean ====
/-
  The kernel's four context sums over any float instance: the same grouping as `Cert.Cbow.kernAt`, written with the
  scalar operations the vector unit applies lane by lane; at the extended reals it IS `Cert.Cbow.kernAt`.
-/
import proofs.«204099_g60593398612478_cont_9to1c4b_39_23_alg».proof.Proof.Spec
import Idealize.ShloMosaic.PureOps

noncomputable section

namespace Cert.Cbow

open Idealize.ShloMosaic

variable {F : FTy → Type} [FloatOps F]

/-- Twenty values added left to right. -/
def sum20F (r : Fin 20 → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (r 0) (r 1)) (r 2)) (r 3)) (r 4)) (r 5)) (r 6)) (r 7)) (r 8)) (r 9)) (r 10)) (r 11)) (r 12)) (r 13)) (r 14)) (r 15)) (r 16)) (r 17)) (r 18)) (r 19)

/-- The kernel's four sums from a row's twenty entries `r` and the entry `w0` of table row 0: the whole sum plus
    `w0` less the entry the slot never sees; the second slot of each side adds one more `w0` and drops one more entry. -/
def kernAtF (r : Fin 20 → F .f32) (w0 : F .f32) : Fin 4 → F .f32
  | 0 => FloatOps.subf (FloatOps.addf (sum20F r) w0) (r 19)
  | 1 => FloatOps.subf (FloatOps.addf (FloatOps.subf (FloatOps.addf (sum20F r) w0) (r 19)) w0) (r 18)
  | 2 => FloatOps.subf (FloatOps.addf (sum20F r) w0) (r 0)
  | 3 => FloatOps.subf (FloatOps.addf (FloatOps.subf (FloatOps.addf (sum20F r) w0) (r 0)) w0) (r 1)

theorem kernAtF_ideal (r : Fin 20 → EReal) (w0 : EReal) (c : Fin 4) :
    kernAtF (F := Ideal) r w0 c = kernAt r w0 c := by
  match c with
  | 0 => rfl
  | 1 => rfl
  | 2 => rfl
  | 3 => rfl

end Cert.Cbow

end
-- ==== Proof.KernelIdeal.Pay.lean ====
/-
  What the one SparseCore call carries, and what each tile is asked to do.

  The host re-lays `x` as [32, 640] and `W` as [125000, 8, 64] before the call. Worker `w` (tile (c, s), w = 2 s + c)
  is dealt a read share of the whole of each re-laid array and rows `32 w … 32 w + 31` of the result; it hands those
  rows back holding the result `G`: entry (32 w + b, c, e) is the kernel's sum for slot c over the twenty table rows
  the tokens x2[w, 20 b … 20 b + 19] name, at column e. Neither re-laid array is handed back: nothing reads them
  after the call.
-/
import proofs.«204099_g60593398612478_cont_9to1c4b_39_23_alg».proof.Proof.KernelIdeal.Setup
import proofs.«204099_g60593398612478_cont_9to1c4b_39_23_alg».proof.Proof.KernF
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (m : (ℓ : Loc nD τ sig) → Buf (Elt F) ℓ)

/-! ## The arrays' contents -/

/-- The re-laid arguments as the host leaves them before the call. -/
def X2 (d : Dev nD) : Buf (Elt F) (xLoc d) := shapeCast S32x640 (m (a0Loc d)) shapeCasts_S1024x20_S32x640
def W3 (d : Dev nD) : Buf (Elt F) (wLoc d) := shapeCast S125000x8x64 (m (a1Loc d)) shapeCasts_S1000000x64_S125000x8x64

/-- The 64 entries a token word names in the re-laid table: row `tok / 8`, sub-row `tok % 8`. -/
def W3row (d : Dev nD) (v : BitVec 32) (e : Fin 64) : F .f32 :=
  W3 m d (ix3 (⟨v.toNat / 8 % 125000, Nat.mod_lt _ (by decide)⟩ : Fin 125000) (⟨v.toNat % 8, Nat.mod_lt _ (by decide)⟩ : Fin 8) e)

/-- Token `t` of worker `w`. -/
def tokW (d : Dev nD) (w : Fin 32) (t : Fin 640) : BitVec 32 := X2 m d (ix2 w t)

/-- One entry of the result: row `r = 32 w + b`, slot `c`, column `e`. -/
def Gat (d : Dev nD) (r : Fin 1024) (c : Fin 4) (e : Fin 64) : F .f32 :=
  kernAtF (fun p => W3row m d (tokW m d ⟨r.val / 32, by omega⟩ ⟨20 * (r.val % 32) + p.val, by omega⟩) e)
    (W3 m d (ix3 (0 : Fin 125000) (0 : Fin 8) e)) c

/-- The result array. -/
def G (d : Dev nD) : Buf (Elt F) (oLoc d) := fun i : S1024x4x64.Idx => Gat m d (i 0) (i 1) (i 2)

/-- What the proof asks of the launch memory: every token is a row of the table (the certificate's precondition). -/
def PreOK : Prop := ∀ (d : Dev nD) (i : S1024x20.Idx), (m (a0Loc d) i).toNat ≤ 999999

/-! ## The workers and their slabs of the result -/

theorem hdivO : 32 ∣ S1024x4x64.size 0 := ⟨32, rfl⟩
/-- Rows `32 w … 32 w + 31` of the result. -/
abbrev slab (w : Fin 32) : Rect S1024x4x64 := Rect.part (s := S1024x4x64) (a₀ := 0) hdivO w
abbrev slabSet (w : Fin 32) : Finset S1024x4x64.Idx := ((oV : Memref sig .scVector .hbm S1024x4x64 .f32).view.slice (slab w)).set

/-- Tile (c, s) is worker `2 s + c`. -/
def wid (c : Fin 2) (s : Fin 16) : Fin 32 := ⟨2 * s.val + c.val, by omega⟩
theorem bound_zero : grid0.bound 0 = 2 := rfl
theorem bound_one : grid0.bound 1 = 16 := rfl
def widL (L : grid0.Coords) : Fin 32 := wid (Fin.cast bound_zero (L 0)) (Fin.cast bound_one (L 1))

/-- What worker `w` is handed: a read share of each re-laid array, and its slab of the result at the launch contents. -/
def goRes (d : Dev nD) (w : Fin 32) : sProp 𝕄 :=
  iprop((xLoc d ↦{Transfers.shareTok fullShare 32 w} X2 m d) ∗ (wLoc d ↦{Transfers.shareTok fullShare 32 w} W3 m d)
    ∗ (oLoc d ↦[slabSet w]{fullShare} m (oLoc d)))
/-- What it hands back: its slab holding the result. -/
def tdRes (d : Dev nD) (w : Fin 32) : sProp 𝕄 := oLoc d ↦[slabSet w]{fullShare} G m d

/-- The one call's payloads: a SparseCore's is its sixteen tiles'; nothing of the launch's is consumed. -/
def P : (K (F := F)).Pay (nD := nD) (Val := Elt F) (Name := ℕ) (U := UU) where
  st := fun q d c => match q with
    | 0 => bigSep Finset.univ fun s : Fin 16 => goRes m d (wid (Fin.cast nCore_zero c) s)
  dn := fun q d c => match q with
    | 0 => bigSep Finset.univ fun s : Fin 16 => tdRes m d (wid (Fin.cast nCore_zero c) s)
  go := fun q d c s => match q with
    | 0 => goRes m d (wid (Fin.cast nCore_zero c) (Fin.cast nSub_zero s))
  td := fun q d c s => match q with
    | 0 => tdRes m d (wid (Fin.cast nCore_zero c) (Fin.cast nSub_zero s))
  x := fun _ _ => iprop(emp)

/-- One tile's task, as the launch needs it: from the levels, its share of the arrays, its scratch and semaphores and
    what it owes the launch, the kernel's body runs and hands back its slab at the result. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (widL L)
        ∗ scopedBufs (thr d L) ∗ scopedSems0 (thr d L) ∗ owes (thr d L) O W : sProp 𝕄)
      ⊢ wp frame (wpE (defs₀ (F := F)) 𝒱₀ (thr d L) none) Set.univ
          (cc0__cbow_body L xV (Memref.isWhole_whole _) wV (Memref.isWhole_whole _) oV (Memref.isWhole_whole _)
            sI (Memref.isWhole_whole _) sR (Memref.isWhole_whole _) sZ (Memref.isWhole_whole _) sO (Memref.isWhole_whole _)
            cc0_scratch4 cc0_scoped0 cc0_scoped1 cc0_scoped2)
          fun _ => iprop(tdRes m d (widL L) ∗ scopedBufs (thr d L) ∗ scopedSems0 (thr d L)
            ∗ ∃ W', ⌜∀ p ∈ W', p ∈ W ∨ p.2 = none⌝ ∗ owes (thr d L) O W')

end Cert.Proof.KernelIdeal

end
-- ==== Proof.KernelIdeal.Launch.lean ====
/-
  The kernel's program run: the launch of its one SparseCore call.

  The TensorCore re-lays the two arguments (two reshapes), deals every worker a read share of each re-laid array and
  its own slab of thirty-two rows of the result, starts the call and waits for it; the workers hand their slabs back
  holding the result, and the slabs join into the whole array. The arguments never leave the TensorCore.
-/
import proofs.«204099_g60593398612478_cont_9to1c4b_39_23_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (m : (ℓ : Loc nD τ sig) → Buf (Elt F) ℓ) (ρ : Dev nD → PrngReg)

/-! ## The payloads, field by field -/

theorem P_x (q : Fin 1) (t : Thread nD τ) : (P (F := F) m).x q t = iprop(emp) := rfl
theorem P_st (d : Dev nD) (c : Fin ((K (F := F)).nCore 0)) :
    (P (F := F) m).st 0 d c = bigSep Finset.univ fun s : Fin 16 => goRes m d (wid (Fin.cast nCore_zero c) s) := rfl
theorem P_dn (d : Dev nD) (c : Fin ((K (F := F)).nCore 0)) :
    (P (F := F) m).dn 0 d c = bigSep Finset.univ fun s : Fin 16 => tdRes m d (wid (Fin.cast nCore_zero c) s) := rfl
theorem P_go (d : Dev nD) (c : Fin ((K (F := F)).nCore 0)) (i : Fin ((K (F := F)).nSub 0)) :
    (P (F := F) m).go 0 d c i = goRes m d (wid (Fin.cast nCore_zero c) (Fin.cast nSub_zero i)) := rfl
theorem P_td (d : Dev nD) (c : Fin ((K (F := F)).nCore 0)) (i : Fin ((K (F := F)).nSub 0)) :
    (P (F := F) m).td 0 d c i = tdRes m d (wid (Fin.cast nCore_zero c) (Fin.cast nSub_zero i)) := rfl

instance goRes_storable (d : Dev nD) (w : Fin 32) : BI.Storable (upEmb : UEmb _ 𝕄) (goRes m d w) := by
  unfold goRes; infer_instance
instance tdRes_storable (d : Dev nD) (w : Fin 32) : BI.Storable (upEmb : UEmb _ 𝕄) (tdRes m d w) := by
  unfold tdRes; infer_instance

instance P_storable : (P (F := F) m).IsStorable where
  st q d c := match q with
    | 0 => (inferInstance : BI.Storable (upEmb : UEmb _ 𝕄)
        (bigSep Finset.univ fun s : Fin 16 => goRes m d (wid (Fin.cast nCore_zero c) s)))
  dn q d c := match q with
    | 0 => (inferInstance : BI.Storable (upEmb : UEmb _ 𝕄)
        (bigSep Finset.univ fun s : Fin 16 => tdRes m d (wid (Fin.cast nCore_zero c) s)))
  go q d c i := match q with
    | 0 => (inferInstance : BI.Storable (upEmb : UEmb _ 𝕄) (goRes m d (wid (Fin.cast nCore_zero c) (Fin.cast nSub_zero i))))
  td q d c i := match q with
    | 0 => (inferInstance : BI.Storable (upEmb : UEmb _ 𝕄) (tdRes m d (wid (Fin.cast nCore_zero c) (Fin.cast nSub_zero i))))

/-! ## One tile's task as the launch asks it -/

theorem defs₀_vector (c : Fin τ.nSC) (s : Fin τ.nSub) :
    defs₀ (F := F) (.scVector c s) 0 ()
      = SparseCore.onTile hcore0 hsub0 (fun c s => cc0__cbow_body (coordsV c s)
          xV (Memref.isWhole_whole _) wV (Memref.isWhole_whole _) oV (Memref.isWhole_whole _)
          sI (Memref.isWhole_whole _) sR (Memref.isWhole_whole _) sZ (Memref.isWhole_whole _) sO (Memref.isWhole_whole _)
          cc0_scratch4 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The worker of the grid point a tile of the call stands at. -/
theorem widL_coords (c : Fin ((K (F := F)).nCore 0)) (i : Fin ((K (F := F)).nSub 0))
    (h0 : ((K (F := F)).core 0 c).val < grid0.bound 0) (h1 : ((K (F := F)).sub 0 i).val < grid0.bound 1) :
    widL (coordsV ⟨_, h0⟩ ⟨_, h1⟩) = wid (Fin.cast nCore_zero c) (Fin.cast nSub_zero i) := rfl

theorem tileObl (htile : TileBody m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td, ← widL_coords c i hc.1 hc.2]
  exact (htile d (coordsV ⟨_, hc.1⟩ ⟨_, hc.2⟩) O W hO).trans (wp_mono frame _ _ fun _ => obl_post)

/-! ## A SparseCore's operands are its sixteen tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun s => goRes m d (wid (Fin.cast nCore_zero c) s)),
    bigSep_tasks (F := F) (fun s => tdRes m d (wid (Fin.cast nCore_zero c) s))]
  iintro H; imodintro
  isplitl [H]; · iexact H
  iintro H; iexact H

/-! ## The launch element: the handshakes' rounds; the transfers' counters start empty -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays and the two reshapes -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev op0 : HloOp τ sig (Elt F) := StableHlo.reshape main_arg0 main_v0 rfl shapeCasts_S1024x20_S32x640
abbrev op1 : HloOp τ sig (Elt F) := StableHlo.reshape main_arg1 main_v1 rfl shapeCasts_S1000000x64_S125000x8x64

/-- The TensorCore's arrays, all unscoped. -/
abbrev S5 : Finset (DevRef τ sig) := {a0', a1', x', w', o'}

theorem held_S5 (d : Dev nD) (W : Valuation τ sig (Elt F)) :
    (held (T d) S5 W : sProp 𝕄) = iprop((a0Loc d ↦{fullShare} W a0') ∗ (a1Loc d ↦{fullShare} W a1') ∗ (xLoc d ↦{fullShare} W x')
      ∗ (wLoc d ↦{fullShare} W w') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (xLoc d ↦{fullShare} W main_v0) ∗ (wLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) :
    (unscopedBufs d (fun b => m ((SparseCore.T d).loc b)) : sProp 𝕄) = held (T d) S5 (V0 m d) := by
  rw [unscopedBufs_eq, held_S5]; rfl

local macro "hlo_results" : tactic =>
  `(tactic| repeat (first | rw [StableHlo.reshape_result] | (rw [StableHlo.reshape_result_ne]; rotate_left; decide)))

theorem V2_a0 (d : Dev nD) : (op1 (F := F)).result ((op0 (F := F)).result (V0 m d)) a0' = m (a0Loc d) := by
  hlo_results; rfl
theorem V2_a1 (d : Dev nD) : (op1 (F := F)).result ((op0 (F := F)).result (V0 m d)) a1' = m (a1Loc d) := by
  hlo_results; rfl
theorem V2_x (d : Dev nD) : (op1 (F := F)).result ((op0 (F := F)).result (V0 m d)) x' = X2 m d := by
  hlo_results; rfl
theorem V2_w (d : Dev nD) : (op1 (F := F)).result ((op0 (F := F)).result (V0 m d)) w' = W3 m d := by
  hlo_results; rfl
theorem V2_o (d : Dev nD) : (op1 (F := F)).result ((op0 (F := F)).result (V0 m d)) o' = m (oLoc d) := by
  hlo_results; rfl

/-- After the two reshapes: the arguments and the result's buffer as launched, the re-laid copies written. -/
theorem held_V2 (d : Dev nD) :
    (held (T d) S5 ((op1 (F := F)).result ((op0 (F := F)).result (V0 m d))) : sProp 𝕄)
      = iprop((a0Loc d ↦{fullShare} m (a0Loc d)) ∗ (a1Loc d ↦{fullShare} m (a1Loc d)) ∗ (xLoc d ↦{fullShare} X2 m d)
        ∗ (wLoc d ↦{fullShare} W3 m d) ∗ (oLoc d ↦{fullShare} m (oLoc d))) := by
  rw [held_S5, V2_a0, V2_a1, V2_x, V2_w, V2_o]

theorem hop0 : (op0 (F := F)).bufs ⊆ S5 := show ({a0', x'} : Finset (DevRef τ sig)) ⊆ S5 by decide
theorem hop1 : (op1 (F := F)).bufs ⊆ S5 := show ({a1', w'} : Finset (DevRef τ sig)) ⊆ S5 by decide

/-! ## The result's thirty-two slabs -/

theorem slabSet_eq (w : Fin 32) : slabSet w = (slab w).set := by
  show ((View.whole (main_v2_scv : Ref sig .scVector)).slice (slab w)).set = _
  rw [View.set_slice]; exact Finset.map_refl
theorem slabs_disjoint : ∀ i ∈ (Finset.univ : Finset (Fin 32)), ∀ j ∈ (Finset.univ : Finset (Fin 32)), i ≠ j → Disjoint (slabSet i) (slabSet j) :=
  fun i _ j _ h => by rw [slabSet_eq, slabSet_eq]; exact Rect.part_disjoint hdivO h
theorem slabs_cover : (Finset.univ : Finset (Fin 32)).biUnion slabSet = Finset.univ :=
  (Finset.biUnion_congr rfl fun i _ => slabSet_eq i).trans (Rect.biUnion_part hdivO)

theorem oPts_slabs (d : Dev nD) (f : Buf (Elt F) (oLoc d)) :
    (oLoc d ↦{fullShare} f : sProp 𝕄) = bigSep Finset.univ fun w : Fin 32 => oLoc d ↦[slabSet w]{fullShare} f := by
  rw [← pointsTo_biUnion Finset.univ (ℓ := oLoc d) slabSet slabs_disjoint, slabs_cover]; try rfl

/-! ## Thirty-two workers are two SparseCores of sixteen tiles -/

theorem wid_inj : Set.InjOn (fun p : Fin 2 × Fin 16 => wid p.1 p.2) ((Finset.univ ×ˢ Finset.univ : Finset (Fin 2 × Fin 16)) : Set _) := by
  intro a _ b _ e
  have h : 2 * a.2.val + a.1.val = 2 * b.2.val + b.1.val := congrArg Fin.val e
  have ha := a.1.isLt
  have hb := b.1.isLt
  exact Prod.ext (Fin.ext (by omega)) (Fin.ext (by omega))

theorem wid_image : ((Finset.univ ×ˢ Finset.univ : Finset (Fin 2 × Fin 16)).image fun p => wid p.1 p.2) = Finset.univ := by
  refine Finset.eq_univ_iff_forall.mpr fun w => Finset.mem_image.mpr
    ⟨(⟨w.val % 2, Nat.mod_lt _ (by decide)⟩, ⟨w.val / 2, by have := w.isLt; omega⟩), Finset.mem_product.mpr ⟨Finset.mem_univ _, Finset.mem_univ _⟩, Fin.ext ?_⟩
  show 2 * (w.val / 2) + w.val % 2 = w.val
  omega

theorem bigSep_wid (Φ : Fin 32 → sProp 𝕄) :
    bigSep Finset.univ Φ = bigSep Finset.univ fun c : Fin 2 => bigSep Finset.univ fun s : Fin 16 => Φ (wid c s) := by
  rw [← wid_image, SparseCore.bigSep_image_of_injOn wid_inj Φ, SparseCore.bigSep_product]

theorem st0_eq (d : Dev nD) :
    (bigSep Finset.univ fun c : Fin ((K (F := F)).nCore 0) => (P m).st 0 d c) = bigSep Finset.univ fun w : Fin 32 => goRes m d w := by
  rw [bigSep_wid (F := F) (goRes m d)]
  exact bigSep_cores (F := F) (fun c => bigSep Finset.univ fun s : Fin 16 => goRes m d (wid c s))
theorem dn0_eq (d : Dev nD) :
    (bigSep Finset.univ fun c : Fin ((K (F := F)).nCore 0) => (P m).dn 0 d c) = bigSep Finset.univ fun w : Fin 32 => tdRes m d w := by
  rw [bigSep_wid (F := F) (tdRes m d)]
  exact bigSep_cores (F := F) (fun c => bigSep Finset.univ fun s : Fin 16 => tdRes m d (wid c s))

/-! ## @main on the TensorCore -/

/-- What @main leaves the claim: the arguments at their launch contents, the result's buffer at the result. -/
abbrev FIN (d : Dev nD) : sProp 𝕄 :=
  iprop((a0Loc d ↦{fullShare} m (a0Loc d)) ∗ (a1Loc d ↦{fullShare} m (a1Loc d)) ∗ (oLoc d ↦{fullShare} G m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes
  iapply (wp_hlo_within 𝒱 (SparseCore.T d) none Set.univ (op := op0) (S := S5) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S5) hop1 (V := (op0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Hx, Hw, Ho⟩
  -- every worker a read share of each re-laid array, and its slab of the result
  ihave Hx' := (Transfers.pointsTo_toks_split fullShare 32) $$ Hx
  icases Hx' with ⟨-, Hxs⟩
  ihave Hw' := (Transfers.pointsTo_toks_split fullShare 32) $$ Hw
  icases Hw' with ⟨-, Hws⟩
  ihave Hos := (Entails.of_eq (oPts_slabs (F := F) d (m (oLoc d)))) $$ Ho
  -- the call
  iapply ((K (F := F)).wp_run (D (F := F)) 𝒱 (EH := EH) (P := P m) κ d 0) $$ [Hst Hxs Hws Hos Ha0 Ha1]
  isplitr; · iexact Hctx
  isplitl [Hst]; · iexact Hst
  isplitl [Hxs Hws Hos]
  · rw [st0_eq]; unfold goRes
    rw [bigSep_sep', bigSep_sep']
    isplitl [Hxs]; · iexact Hxs
    isplitl [Hws]; · iexact Hws
    iexact Hos
  iintro ⟨Hst, Hdn⟩
  ihave Hdn' := (Entails.of_eq (dn0_eq m d)) $$ Hdn
  unfold tdRes
  ihave Ho := (Entails.of_eq (oPts_slabs (F := F) d (G m d)).symm) $$ Hdn'
  imodintro
  isplitl [Hst]; · iexact Hst
  isplitl [Ha0]; · iexact Ha0
  isplitl [Ha1]; · iexact Ha1
  iexact Ho

def fq (d : Dev nD) (s' : Phys nD τ sig (Elt F)) : Prop :=
  s'.mem.mem (oLoc d) = G m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := oLoc d) (I := Finset.univ) (q := fullShare) (f := G m d)) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

def QC : PUnit × MemSt nD τ sig (Elt F) → Prop := fun r =>
  ∀ c : Dev nD, r.2.mem (oLoc c) = G m c ∧ r.2.mem (a0Loc c) = m (a0Loc c) ∧ r.2.mem (a1Loc c) = m (a1Loc c)

theorem run_main (htile : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdeal

end
-- ==== Proof.Kernel.Setup.lean ====
/-
  The kernel's program as the launch theorem for SparseCore programs sees it, and the vocabulary of its proof.

  One vector-subcore call on 2 SparseCores × 16 subcores; tile (c, s) is worker `w = 2 s + c` and owns rows
  `32 w … 32 w + 31` of the result. The two argument arrays are re-laid by the host before the call (`x` as
  [32, 640], one row of 640 tokens per worker; `W` as [125000, 8, 64]); every tile only READS those two, so each is
  dealt a read share of the whole of each, and full ownership of its own slab of the result.
  The kernel's transfers are local copies waited for by the tile that started them: the ghost state is the launch's
  handshake rounds beside the transfers' counters, with no schedule of the kernel's own.
-/
import proofs.«204099_g60593398612478_cont_9to1c4b_39_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«204099_g60593398612478_cont_9to1c4b_39_23_alg».proof.Proof.Gen.Kernel
import proofs.«204099_g60593398612478_cont_9to1c4b_39_23_alg».proof.Proof.Gen.Kernel.Skeleton

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays -/

/-- The two arguments, their re-laid copies, and the result, as locations of device `d`. -/
abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

/-- The kernel's memrefs as the body table passes them. -/
abbrev xV : Memref sig .scVector .hbm S32x640 .i32 := Memref.whole main_v0_scv
abbrev wV : Memref sig .scVector .hbm S125000x8x64 .f32 := Memref.whole main_v1_scv
abbrev oV : Memref sig .scVector .hbm S1024x4x64 .f32 := Memref.whole main_v2_scv
/-- A tile's scratch: its tokens, the gathered rows, table row 0, its slab of the result. -/
abbrev sI : Memref sig .scVector .vmem S656 .i32 := Memref.whole cc0_scratch0
abbrev sR : Memref sig .scVector .vmem S640x64 .f32 := Memref.whole cc0_scratch1
abbrev sZ : Memref sig .scVector .vmem S1x64 .f32 := Memref.whole cc0_scratch2
abbrev sO : Memref sig .scVector .vmem S32x4x64 .f32 := Memref.whole cc0_scratch3

/-- A grid point's SparseCore and subcore. -/
abbrev cV (L : grid0.Coords) : Fin τ.nSC := (L 0).castLE hcore0
abbrev jV (L : grid0.Coords) : Fin τ.nSub := (L 1).castLE hsub0

/-- The tile's thread. -/
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

end Cert.Proof.Kernel

end
-- ==== Proof.Kernel.Pay.lean ====
/-
  What the one SparseCore call carries, and what each tile is asked to do.

  The host re-lays `x` as [32, 640] and `W` as [125000, 8, 64] before the call. Worker `w` (tile (c, s), w = 2 s + c)
  is dealt a read share of the whole of each re-laid array and rows `32 w … 32 w + 31` of the result; it hands those
  rows back holding the result `G`: entry (32 w + b, c, e) is the kernel's sum for slot c over the twenty table rows
  the tokens x2[w, 20 b … 20 b + 19] name, at column e. Neither re-laid array is handed back: nothing reads them
  after the call.
-/
import proofs.«204099_g60593398612478_cont_9to1c4b_39_23_alg».proof.Proof.Kernel.Setup
import proofs.«204099_g60593398612478_cont_9to1c4b_39_23_alg».proof.Proof.KernF
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (m : (ℓ : Loc nD τ sig) → Buf (Elt F) ℓ)

/-! ## The arrays' contents -/

/-- The re-laid arguments as the host leaves them before the call. -/
def X2 (d : Dev nD) : Buf (Elt F) (xLoc d) := shapeCast S32x640 (m (a0Loc d)) shapeCasts_S1024x20_S32x640
def W3 (d : Dev nD) : Buf (Elt F) (wLoc d) := shapeCast S125000x8x64 (m (a1Loc d)) shapeCasts_S1000000x64_S125000x8x64

/-- The 64 entries a token word names in the re-laid table: row `tok / 8`, sub-row `tok % 8`. -/
def W3row (d : Dev nD) (v : BitVec 32) (e : Fin 64) : F .f32 :=
  W3 m d (ix3 (⟨v.toNat / 8 % 125000, Nat.mod_lt _ (by decide)⟩ : Fin 125000) (⟨v.toNat % 8, Nat.mod_lt _ (by decide)⟩ : Fin 8) e)

/-- Token `t` of worker `w`. -/
def tokW (d : Dev nD) (w : Fin 32) (t : Fin 640) : BitVec 32 := X2 m d (ix2 w t)

/-- One entry of the result: row `r = 32 w + b`, slot `c`, column `e`. -/
def Gat (d : Dev nD) (r : Fin 1024) (c : Fin 4) (e : Fin 64) : F .f32 :=
  kernAtF (fun p => W3row m d (tokW m d ⟨r.val / 32, by omega⟩ ⟨20 * (r.val % 32) + p.val, by omega⟩) e)
    (W3 m d (ix3 (0 : Fin 125000) (0 : Fin 8) e)) c

/-- The result array. -/
def G (d : Dev nD) : Buf (Elt F) (oLoc d) := fun i : S1024x4x64.Idx => Gat m d (i 0) (i 1) (i 2)

/-- What the proof asks of the launch memory: every token is a row of the table (the certificate's precondition). -/
def PreOK : Prop := ∀ (d : Dev nD) (i : S1024x20.Idx), (m (a0Loc d) i).toNat ≤ 999999

/-! ## The workers and their slabs of the result -/

theorem hdivO : 32 ∣ S1024x4x64.size 0 := ⟨32, rfl⟩
/-- Rows `32 w … 32 w + 31` of the result. -/
abbrev slab (w : Fin 32) : Rect S1024x4x64 := Rect.part (s := S1024x4x64) (a₀ := 0) hdivO w
abbrev slabSet (w : Fin 32) : Finset S1024x4x64.Idx := ((oV : Memref sig .scVector .hbm S1024x4x64 .f32).view.slice (slab w)).set

/-- Tile (c, s) is worker `2 s + c`. -/
def wid (c : Fin 2) (s : Fin 16) : Fin 32 := ⟨2 * s.val + c.val, by omega⟩
theorem bound_zero : grid0.bound 0 = 2 := rfl
theorem bound_one : grid0.bound 1 = 16 := rfl
def widL (L : grid0.Coords) : Fin 32 := wid (Fin.cast bound_zero (L 0)) (Fin.cast bound_one (L 1))

/-- What worker `w` is handed: a read share of each re-laid array, and its slab of the result at the launch contents. -/
def goRes (d : Dev nD) (w : Fin 32) : sProp 𝕄 :=
  iprop((xLoc d ↦{Transfers.shareTok fullShare 32 w} X2 m d) ∗ (wLoc d ↦{Transfers.shareTok fullShare 32 w} W3 m d)
    ∗ (oLoc d ↦[slabSet w]{fullShare} m (oLoc d)))
/-- What it hands back: its slab holding the result. -/
def tdRes (d : Dev nD) (w : Fin 32) : sProp 𝕄 := oLoc d ↦[slabSet w]{fullShare} G m d

/-- The one call's payloads: a SparseCore's is its sixteen tiles'; nothing of the launch's is consumed. -/
def P : (K (F := F)).Pay (nD := nD) (Val := Elt F) (Name := ℕ) (U := UU) where
  st := fun q d c => match q with
    | 0 => bigSep Finset.univ fun s : Fin 16 => goRes m d (wid (Fin.cast nCore_zero c) s)
  dn := fun q d c => match q with
    | 0 => bigSep Finset.univ fun s : Fin 16 => tdRes m d (wid (Fin.cast nCore_zero c) s)
  go := fun q d c s => match q with
    | 0 => goRes m d (wid (Fin.cast nCore_zero c) (Fin.cast nSub_zero s))
  td := fun q d c s => match q with
    | 0 => tdRes m d (wid (Fin.cast nCore_zero c) (Fin.cast nSub_zero s))
  x := fun _ _ => iprop(emp)

/-- One tile's task, as the launch needs it: from the levels, its share of the arrays, its scratch and semaphores and
    what it owes the launch, the kernel's body runs and hands back its slab at the result. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (widL L)
        ∗ scopedBufs (thr d L) ∗ scopedSems0 (thr d L) ∗ owes (thr d L) O W : sProp 𝕄)
      ⊢ wp frame (wpE (defs₀ (F := F)) 𝒱₀ (thr d L) none) Set.univ
          (cc0__cbow_body L xV (Memref.isWhole_whole _) wV (Memref.isWhole_whole _) oV (Memref.isWhole_whole _)
            sI (Memref.isWhole_whole _) sR (Memref.isWhole_whole _) sZ (Memref.isWhole_whole _) sO (Memref.isWhole_whole _)
            cc0_scratch4 cc0_scoped0 cc0_scoped1 cc0_scoped2)
          fun _ => iprop(tdRes m d (widL L) ∗ scopedBufs (thr d L) ∗ scopedSems0 (thr d L)
            ∗ ∃ W', ⌜∀ p ∈ W', p ∈ W ∨ p.2 = none⌝ ∗ owes (thr d L) O W')

end Cert.Proof.Kernel

end
-- ==== Proof.Kernel.Launch.lean ====
/-
  The kernel's program run: the launch of its one SparseCore call.

  The TensorCore re-lays the two arguments (two reshapes), deals every worker a read share of each re-laid array and
  its own slab of thirty-two rows of the result, starts the call and waits for it; the workers hand their slabs back
  holding the result, and the slabs join into the whole array. The arguments never leave the TensorCore.
-/
import proofs.«204099_g60593398612478_cont_9to1c4b_39_23_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (m : (ℓ : Loc nD τ sig) → Buf (Elt F) ℓ) (ρ : Dev nD → PrngReg)

/-! ## The payloads, field by field -/

theorem P_x (q : Fin 1) (t : Thread nD τ) : (P (F := F) m).x q t = iprop(emp) := rfl
theorem P_st (d : Dev nD) (c : Fin ((K (F := F)).nCore 0)) :
    (P (F := F) m).st 0 d c = bigSep Finset.univ fun s : Fin 16 => goRes m d (wid (Fin.cast nCore_zero c) s) := rfl
theorem P_dn (d : Dev nD) (c : Fin ((K (F := F)).nCore 0)) :
    (P (F := F) m).dn 0 d c = bigSep Finset.univ fun s : Fin 16 => tdRes m d (wid (Fin.cast nCore_zero c) s) := rfl
theorem P_go (d : Dev nD) (c : Fin ((K (F := F)).nCore 0)) (i : Fin ((K (F := F)).nSub 0)) :
    (P (F := F) m).go 0 d c i = goRes m d (wid (Fin.cast nCore_zero c) (Fin.cast nSub_zero i)) := rfl
theorem P_td (d : Dev nD) (c : Fin ((K (F := F)).nCore 0)) (i : Fin ((K (F := F)).nSub 0)) :
    (P (F := F) m).td 0 d c i = tdRes m d (wid (Fin.cast nCore_zero c) (Fin.cast nSub_zero i)) := rfl

instance goRes_storable (d : Dev nD) (w : Fin 32) : BI.Storable (upEmb : UEmb _ 𝕄) (goRes m d w) := by
  unfold goRes; infer_instance
instance tdRes_storable (d : Dev nD) (w : Fin 32) : BI.Storable (upEmb : UEmb _ 𝕄) (tdRes m d w) := by
  unfold tdRes; infer_instance

instance P_storable : (P (F := F) m).IsStorable where
  st q d c := match q with
    | 0 => (inferInstance : BI.Storable (upEmb : UEmb _ 𝕄)
        (bigSep Finset.univ fun s : Fin 16 => goRes m d (wid (Fin.cast nCore_zero c) s)))
  dn q d c := match q with
    | 0 => (inferInstance : BI.Storable (upEmb : UEmb _ 𝕄)
        (bigSep Finset.univ fun s : Fin 16 => tdRes m d (wid (Fin.cast nCore_zero c) s)))
  go q d c i := match q with
    | 0 => (inferInstance : BI.Storable (upEmb : UEmb _ 𝕄) (goRes m d (wid (Fin.cast nCore_zero c) (Fin.cast nSub_zero i))))
  td q d c i := match q with
    | 0 => (inferInstance : BI.Storable (upEmb : UEmb _ 𝕄) (tdRes m d (wid (Fin.cast nCore_zero c) (Fin.cast nSub_zero i))))

/-! ## One tile's task as the launch asks it -/

theorem defs₀_vector (c : Fin τ.nSC) (s : Fin τ.nSub) :
    defs₀ (F := F) (.scVector c s) 0 ()
      = SparseCore.onTile hcore0 hsub0 (fun c s => cc0__cbow_body (coordsV c s)
          xV (Memref.isWhole_whole _) wV (Memref.isWhole_whole _) oV (Memref.isWhole_whole _)
          sI (Memref.isWhole_whole _) sR (Memref.isWhole_whole _) sZ (Memref.isWhole_whole _) sO (Memref.isWhole_whole _)
          cc0_scratch4 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The worker of the grid point a tile of the call stands at. -/
theorem widL_coords (c : Fin ((K (F := F)).nCore 0)) (i : Fin ((K (F := F)).nSub 0))
    (h0 : ((K (F := F)).core 0 c).val < grid0.bound 0) (h1 : ((K (F := F)).sub 0 i).val < grid0.bound 1) :
    widL (coordsV ⟨_, h0⟩ ⟨_, h1⟩) = wid (Fin.cast nCore_zero c) (Fin.cast nSub_zero i) := rfl

theorem tileObl (htile : TileBody m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td, ← widL_coords c i hc.1 hc.2]
  exact (htile d (coordsV ⟨_, hc.1⟩ ⟨_, hc.2⟩) O W hO).trans (wp_mono frame _ _ fun _ => obl_post)

/-! ## A SparseCore's operands are its sixteen tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun s => goRes m d (wid (Fin.cast nCore_zero c) s)),
    bigSep_tasks (F := F) (fun s => tdRes m d (wid (Fin.cast nCore_zero c) s))]
  iintro H; imodintro
  isplitl [H]; · iexact H
  iintro H; iexact H

/-! ## The launch element: the handshakes' rounds; the transfers' counters start empty -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays and the two reshapes -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev op0 : HloOp τ sig (Elt F) := StableHlo.reshape main_arg0 main_v0 rfl shapeCasts_S1024x20_S32x640
abbrev op1 : HloOp τ sig (Elt F) := StableHlo.reshape main_arg1 main_v1 rfl shapeCasts_S1000000x64_S125000x8x64

/-- The TensorCore's arrays, all unscoped. -/
abbrev S5 : Finset (DevRef τ sig) := {a0', a1', x', w', o'}

theorem held_S5 (d : Dev nD) (W : Valuation τ sig (Elt F)) :
    (held (T d) S5 W : sProp 𝕄) = iprop((a0Loc d ↦{fullShare} W a0') ∗ (a1Loc d ↦{fullShare} W a1') ∗ (xLoc d ↦{fullShare} W x')
      ∗ (wLoc d ↦{fullShare} W w') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (xLoc d ↦{fullShare} W main_v0) ∗ (wLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) :
    (unscopedBufs d (fun b => m ((SparseCore.T d).loc b)) : sProp 𝕄) = held (T d) S5 (V0 m d) := by
  rw [unscopedBufs_eq, held_S5]; rfl

local macro "hlo_results" : tactic =>
  `(tactic| repeat (first | rw [StableHlo.reshape_result] | (rw [StableHlo.reshape_result_ne]; rotate_left; decide)))

theorem V2_a0 (d : Dev nD) : (op1 (F := F)).result ((op0 (F := F)).result (V0 m d)) a0' = m (a0Loc d) := by
  hlo_results; rfl
theorem V2_a1 (d : Dev nD) : (op1 (F := F)).result ((op0 (F := F)).result (V0 m d)) a1' = m (a1Loc d) := by
  hlo_results; rfl
theorem V2_x (d : Dev nD) : (op1 (F := F)).result ((op0 (F := F)).result (V0 m d)) x' = X2 m d := by
  hlo_results; rfl
theorem V2_w (d : Dev nD) : (op1 (F := F)).result ((op0 (F := F)).result (V0 m d)) w' = W3 m d := by
  hlo_results; rfl
theorem V2_o (d : Dev nD) : (op1 (F := F)).result ((op0 (F := F)).result (V0 m d)) o' = m (oLoc d) := by
  hlo_results; rfl

/-- After the two reshapes: the arguments and the result's buffer as launched, the re-laid copies written. -/
theorem held_V2 (d : Dev nD) :
    (held (T d) S5 ((op1 (F := F)).result ((op0 (F := F)).result (V0 m d))) : sProp 𝕄)
      = iprop((a0Loc d ↦{fullShare} m (a0Loc d)) ∗ (a1Loc d ↦{fullShare} m (a1Loc d)) ∗ (xLoc d ↦{fullShare} X2 m d)
        ∗ (wLoc d ↦{fullShare} W3 m d) ∗ (oLoc d ↦{fullShare} m (oLoc d))) := by
  rw [held_S5, V2_a0, V2_a1, V2_x, V2_w, V2_o]

theorem hop0 : (op0 (F := F)).bufs ⊆ S5 := show ({a0', x'} : Finset (DevRef τ sig)) ⊆ S5 by decide
theorem hop1 : (op1 (F := F)).bufs ⊆ S5 := show ({a1', w'} : Finset (DevRef τ sig)) ⊆ S5 by decide

/-! ## The result's thirty-two slabs -/

theorem slabSet_eq (w : Fin 32) : slabSet w = (slab w).set := by
  show ((View.whole (main_v2_scv : Ref sig .scVector)).slice (slab w)).set = _
  rw [View.set_slice]; exact Finset.map_refl
theorem slabs_disjoint : ∀ i ∈ (Finset.univ : Finset (Fin 32)), ∀ j ∈ (Finset.univ : Finset (Fin 32)), i ≠ j → Disjoint (slabSet i) (slabSet j) :=
  fun i _ j _ h => by rw [slabSet_eq, slabSet_eq]; exact Rect.part_disjoint hdivO h
theorem slabs_cover : (Finset.univ : Finset (Fin 32)).biUnion slabSet = Finset.univ :=
  (Finset.biUnion_congr rfl fun i _ => slabSet_eq i).trans (Rect.biUnion_part hdivO)

theorem oPts_slabs (d : Dev nD) (f : Buf (Elt F) (oLoc d)) :
    (oLoc d ↦{fullShare} f : sProp 𝕄) = bigSep Finset.univ fun w : Fin 32 => oLoc d ↦[slabSet w]{fullShare} f := by
  rw [← pointsTo_biUnion Finset.univ (ℓ := oLoc d) slabSet slabs_disjoint, slabs_cover]; try rfl

/-! ## Thirty-two workers are two SparseCores of sixteen tiles -/

theorem wid_inj : Set.InjOn (fun p : Fin 2 × Fin 16 => wid p.1 p.2) ((Finset.univ ×ˢ Finset.univ : Finset (Fin 2 × Fin 16)) : Set _) := by
  intro a _ b _ e
  have h : 2 * a.2.val + a.1.val = 2 * b.2.val + b.1.val := congrArg Fin.val e
  have ha := a.1.isLt
  have hb := b.1.isLt
  exact Prod.ext (Fin.ext (by omega)) (Fin.ext (by omega))

theorem wid_image : ((Finset.univ ×ˢ Finset.univ : Finset (Fin 2 × Fin 16)).image fun p => wid p.1 p.2) = Finset.univ := by
  refine Finset.eq_univ_iff_forall.mpr fun w => Finset.mem_image.mpr
    ⟨(⟨w.val % 2, Nat.mod_lt _ (by decide)⟩, ⟨w.val / 2, by have := w.isLt; omega⟩), Finset.mem_product.mpr ⟨Finset.mem_univ _, Finset.mem_univ _⟩, Fin.ext ?_⟩
  show 2 * (w.val / 2) + w.val % 2 = w.val
  omega

theorem bigSep_wid (Φ : Fin 32 → sProp 𝕄) :
    bigSep Finset.univ Φ = bigSep Finset.univ fun c : Fin 2 => bigSep Finset.univ fun s : Fin 16 => Φ (wid c s) := by
  rw [← wid_image, SparseCore.bigSep_image_of_injOn wid_inj Φ, SparseCore.bigSep_product]

theorem st0_eq (d : Dev nD) :
    (bigSep Finset.univ fun c : Fin ((K (F := F)).nCore 0) => (P m).st 0 d c) = bigSep Finset.univ fun w : Fin 32 => goRes m d w := by
  rw [bigSep_wid (F := F) (goRes m d)]
  exact bigSep_cores (F := F) (fun c => bigSep Finset.univ fun s : Fin 16 => goRes m d (wid c s))
theorem dn0_eq (d : Dev nD) :
    (bigSep Finset.univ fun c : Fin ((K (F := F)).nCore 0) => (P m).dn 0 d c) = bigSep Finset.univ fun w : Fin 32 => tdRes m d w := by
  rw [bigSep_wid (F := F) (tdRes m d)]
  exact bigSep_cores (F := F) (fun c => bigSep Finset.univ fun s : Fin 16 => tdRes m d (wid c s))

/-! ## @main on the TensorCore -/

/-- What @main leaves the claim: the arguments at their launch contents, the result's buffer at the result. -/
abbrev FIN (d : Dev nD) : sProp 𝕄 :=
  iprop((a0Loc d ↦{fullShare} m (a0Loc d)) ∗ (a1Loc d ↦{fullShare} m (a1Loc d)) ∗ (oLoc d ↦{fullShare} G m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes
  iapply (wp_hlo_within 𝒱 (SparseCore.T d) none Set.univ (op := op0) (S := S5) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S5) hop1 (V := (op0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Hx, Hw, Ho⟩
  -- every worker a read share of each re-laid array, and its slab of the result
  ihave Hx' := (Transfers.pointsTo_toks_split fullShare 32) $$ Hx
  icases Hx' with ⟨-, Hxs⟩
  ihave Hw' := (Transfers.pointsTo_toks_split fullShare 32) $$ Hw
  icases Hw' with ⟨-, Hws⟩
  ihave Hos := (Entails.of_eq (oPts_slabs (F := F) d (m (oLoc d)))) $$ Ho
  -- the call
  iapply ((K (F := F)).wp_run (D (F := F)) 𝒱 (EH := EH) (P := P m) κ d 0) $$ [Hst Hxs Hws Hos Ha0 Ha1]
  isplitr; · iexact Hctx
  isplitl [Hst]; · iexact Hst
  isplitl [Hxs Hws Hos]
  · rw [st0_eq]; unfold goRes
    rw [bigSep_sep', bigSep_sep']
    isplitl [Hxs]; · iexact Hxs
    isplitl [Hws]; · iexact Hws
    iexact Hos
  iintro ⟨Hst, Hdn⟩
  ihave Hdn' := (Entails.of_eq (dn0_eq m d)) $$ Hdn
  unfold tdRes
  ihave Ho := (Entails.of_eq (oPts_slabs (F := F) d (G m d)).symm) $$ Hdn'
  imodintro
  isplitl [Hst]; · iexact Hst
  isplitl [Ha0]; · iexact Ha0
  isplitl [Ha1]; · iexact Ha1
  iexact Ho

def fq (d : Dev nD) (s' : Phys nD τ sig (Elt F)) : Prop :=
  s'.mem.mem (oLoc d) = G m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := oLoc d) (I := Finset.univ) (q := fullShare) (f := G m d)) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

def QC : PUnit × MemSt nD τ sig (Elt F) → Prop := fun r =>
  ∀ c : Dev nD, r.2.mem (oLoc c) = G m c ∧ r.2.mem (a0Loc c) = m (a0Loc c) ∧ r.2.mem (a1Loc c) = m (a1Loc c)

theorem run_main (htile : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Kernel

end
-- ==== Proof.Relay.lean ====
/-
  The two arguments as the host re-lays them before the kernel runs.

  Both are row-major reshapes, so an entry keeps its position in row-major order. The token array `[1024, 20]` becomes
  `[32, 640]`: row `w` of the new array holds the 32 old rows `32 w … 32 w + 31` end to end, so its entry `t` is the old
  row `32 w + t / 20` at position `t % 20`. The table `[1000000, 64]` becomes `[125000, 8, 64]`: old row `n` is the new
  `(n / 8, n % 8)`, which is how the kernel splits a token, by a shift right by 3 and a mask with 7.
-/
import proofs.«204099_g60593398612478_cont_9to1c4b_39_23_alg».proof.Proof.Spec
import Idealize.ShloMosaic.Lib.Pipeline.Value
import Idealize.ShloMosaic.Lib.ValueIdx

noncomputable section

namespace Cert.Cbow.Relay

open Idealize.ShloMosaic Idealize.ShloMosaic.ValueIdx

/-- The token array re-laid as `[32, 640]`, read at `(w, t)`. -/
theorem x2_apply (x : IVec SX 32) (h : SX.ShapeCasts ⟨2, ![32, 640]⟩) (w : Fin 32) (t : Fin 640) :
    shapeCast ⟨2, ![32, 640]⟩ x h (ix2 w t)
      = x (ix2 ⟨32 * w.val + t.val / 20, by omega⟩ ⟨t.val % 20, Nat.mod_lt _ (by decide)⟩) :=
  shapeCast_apply x h _ _ (by
    rw [Shape.rowMajor_val_two, Shape.rowMajor_val_two]
    show (32 * w.val + t.val / 20) * 20 + t.val % 20 = w.val * 640 + t.val
    omega)

/-- The table re-laid as `[125000, 8, 64]`, read at `(a, b, e)`: old row `8 a + b`. -/
theorem w3_apply {F : FTy → Type} (W : FVec F SW .f32) (h : SW.ShapeCasts ⟨3, ![125000, 8, 64]⟩)
    (a : Fin 125000) (b : Fin 8) (e : Fin 64) :
    shapeCast ⟨3, ![125000, 8, 64]⟩ W h (ix3 a b e) = W (ix2 ⟨8 * a.val + b.val, by omega⟩ e) :=
  shapeCast_apply W h _ _ (by
    rw [Shape.rowMajor_val_two, Shape.rowMajor_val_three]
    show (8 * a.val + b.val) * 64 + e.val = (a.val * 8 + b.val) * 64 + e.val
    omega)

/-- The re-laid table at the quotient and remainder by 8 of a token in range is the table row the token names. -/
theorem w3_tok {F : FTy → Type} (W : FVec F SW .f32) (h : SW.ShapeCasts ⟨3, ![125000, 8, 64]⟩)
    (n : Nat) (hn : n ≤ 999999) (a : Fin 125000) (b : Fin 8) (ha : a.val = n / 8) (hb : b.val = n % 8) (e : Fin 64) :
    shapeCast ⟨3, ![125000, 8, 64]⟩ W h (ix3 a b e) = W (ix2 (rowOf n) e) := by
  obtain rfl : n = 8 * a.val + b.val := by omega
  rw [w3_apply W h a b e, rowOf_of_lt (by omega)]

/-- A 32-bit word shifted right by 3 is its value divided by 8. -/
theorem shr3_toNat (v : BitVec 32) : (Scalar.shrui v 3#32).toNat = v.toNat / 8 := by
  unfold Scalar.shrui IntOp.shrui
  rw [if_pos (by decide)]
  rw [BitVec.ushiftRight_eq', BitVec.toNat_ushiftRight, Nat.shiftRight_eq_div_pow]
  rfl

/-- A 32-bit word masked with 7 is its value modulo 8. -/
theorem and7_toNat (v : BitVec 32) : (Scalar.andi v 7#32).toNat = v.toNat % 8 := by
  show (v &&& 7#32).toNat = _
  rw [BitVec.toNat_and]
  exact Nat.and_two_pow_sub_one_eq_mod v.toNat 3

end Cert.Cbow.Relay

end
-- ==== Proof.Algebra.lean ====
/-
  The kernel's way of adding is the specification's.

  For one row and column write `r p` for the table entry the row's token at position `p` names and `w0` for the
  entry of table row 0. Context slot `c` of position `j` reads the token `c`'s offset away from `j`, or token 0 where
  that position is outside the row, so the specification's sum over `j` is a sum of `r` over a shifted window of the
  row plus one `w0` for each position that fell outside:

    slot 0 (offset −1):  w0 + Σ_{p ≤ 18} r p        slot 2 (offset +1):  Σ_{p ≥ 1} r p + w0
    slot 1 (offset −2):  2·w0 + Σ_{p ≤ 17} r p      slot 3 (offset +2):  Σ_{p ≥ 2} r p + 2·w0

  The kernel forms each of these as the whole sum `Σ_p r p` plus the `w0`s less the entries the slot never sees.
  Taking an entry away again is sound only where it is a real number (on the extended reals `a + b − b = a` fails
  at the infinities), which is what the hypothesis on the table provides.
-/
import proofs.«204099_g60593398612478_cont_9to1c4b_39_23_alg».proof.Proof.Spec

noncomputable section

open scoped BigOperators

namespace Cert.Cbow

open Idealize.ShloMosaic Idealize.ShloMosaic.ValueIdx

/-- A sum over twenty indices, written out left to right. -/
theorem sum_fin20 {M : Type*} [AddCommMonoid M] (f : Fin 20 → M) :
    ∑ j, f j = f 0 + f 1 + f 2 + f 3 + f 4 + f 5 + f 6 + f 7 + f 8 + f 9 + f 10 + f 11 + f 12 + f 13 + f 14 + f 15 + f 16 + f 17 + f 18 + f 19 := by
  simp only [Fin.sum_univ_succ, Fin.sum_univ_zero, add_zero, ← add_assoc]
  rfl

/-- What context slot `c` of position `j` contributes, over the row's twenty entries `r` and the entry `w0` of
    token 0: the entry `c`'s offset away from `j`, or `w0` where that position is outside the row. -/
def ctxSel {α : Type*} (r : Fin 20 → α) (w0 : α) (j : Fin 20) (c : Fin 4) : α :=
  match c with
  | 0 => if h : 1 ≤ j.val then r ⟨j.val - 1, by omega⟩ else w0
  | 1 => if h : 2 ≤ j.val then r ⟨j.val - 2, by omega⟩ else w0
  | 2 => if h : j.val + 1 < 20 then r ⟨j.val + 1, h⟩ else w0
  | 3 => if h : j.val + 2 < 20 then r ⟨j.val + 2, h⟩ else w0

/-- The specification's summand is that contribution, for the entries the row's tokens name. -/
theorem entry_ctxTok (x : IVec SX 32) (W : FVec Ideal SW .f32) (b : Fin 1024) (j : Fin 20) (c : Fin 4) (e : Fin 64) :
    W (ix2 (rowOf (ctxTok x b j c)) e)
      = ctxSel (fun p => W (ix2 (rowOf (tok x b p)) e)) (W (ix2 (rowOf 0) e)) j c := by
  match c with
  | 0 => simp only [ctxTok, ctxSel]; split <;> rfl
  | 1 => simp only [ctxTok, ctxSel]; split <;> rfl
  | 2 => simp only [ctxTok, ctxSel]; split <;> rfl
  | 3 => simp only [ctxTok, ctxSel]; split <;> rfl

/-- Over real entries the four context sums are the kernel's: the whole sum plus the `w0`s, less the entries the
    slot never sees. -/
theorem sum_ctxSel_coe (a : Fin 20 → ℝ) (v : ℝ) : ∀ c : Fin 4,
    ∑ j, ctxSel (fun p => (a p : EReal)) (v : EReal) j c = kernAt (fun p => (a p : EReal)) (v : EReal) c
  | 0 => by
    rw [sum_fin20]
    show (v : EReal) + (a 0 : EReal) + (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal)
      = (a 0 : EReal) + (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal) + (a 19 : EReal) + (v : EReal) - (a 19 : EReal)
    simp only [← EReal.coe_add, ← EReal.coe_sub]
    congr 1
    ring
  | 1 => by
    rw [sum_fin20]
    show (v : EReal) + (v : EReal) + (a 0 : EReal) + (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal)
      = (a 0 : EReal) + (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal) + (a 19 : EReal) + (v : EReal) - (a 19 : EReal) + (v : EReal) - (a 18 : EReal)
    simp only [← EReal.coe_add, ← EReal.coe_sub]
    congr 1
    ring
  | 2 => by
    rw [sum_fin20]
    show (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal) + (a 19 : EReal) + (v : EReal)
      = (a 0 : EReal) + (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal) + (a 19 : EReal) + (v : EReal) - (a 0 : EReal)
    simp only [← EReal.coe_add, ← EReal.coe_sub]
    congr 1
    ring
  | 3 => by
    rw [sum_fin20]
    show (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal) + (a 19 : EReal) + (v : EReal) + (v : EReal)
      = (a 0 : EReal) + (a 1 : EReal) + (a 2 : EReal) + (a 3 : EReal) + (a 4 : EReal) + (a 5 : EReal) + (a 6 : EReal) + (a 7 : EReal) + (a 8 : EReal) + (a 9 : EReal) + (a 10 : EReal) + (a 11 : EReal) + (a 12 : EReal) + (a 13 : EReal) + (a 14 : EReal) + (a 15 : EReal) + (a 16 : EReal) + (a 17 : EReal) + (a 18 : EReal) + (a 19 : EReal) + (v : EReal) - (a 0 : EReal) + (v : EReal) - (a 1 : EReal)
    simp only [← EReal.coe_add, ← EReal.coe_sub]
    congr 1
    ring

/-- The same for extended-real entries that are all real. -/
theorem sum_ctxSel (r : Fin 20 → EReal) (w0 : EReal) (hr : ∀ p, ∃ a : ℝ, r p = (a : EReal))
    (hw : ∃ v : ℝ, w0 = (v : EReal)) (c : Fin 4) : ∑ j, ctxSel r w0 j c = kernAt r w0 c := by
  choose a ha using hr
  obtain ⟨v, rfl⟩ := hw
  obtain rfl : r = fun p => (a p : EReal) := funext ha
  exact sum_ctxSel_coe a v c

/-- On a table of real entries the kernel's entry of the result is the specification's. -/
theorem kernEntry_eq_specAt (x : IVec SX 32) (W : FVec Ideal SW .f32)
    (hW : ∀ i, ∃ r : ℝ, W i = (r : EReal)) (b : Fin 1024) (c : Fin 4) (e : Fin 64) :
    kernEntry x W b c e = specAt x W b c e := by
  unfold kernEntry specAt
  simp only [entry_ctxTok]
  exact (sum_ctxSel _ _ (fun _ => hW _) (hW _) c).symm

end Cert.Cbow

end
-- ==== Proof.KernelIdeal.GSpec.lean ====
/-
  The result the tiles hand back is the specification's.

  Entry `(r, c, e)` of the result is the kernel's sum for slot `c` over the table rows named by the twenty tokens of
  worker `r / 32` at positions `20 (r % 32) … 20 (r % 32) + 19` of its row of the re-laid token array, read from
  the re-laid table. Re-laying is a row-major reshape: those tokens are the twenty tokens of row `r` of the token
  array, and the re-laid table at a token's quotient and remainder by 8 is the table row the token names. So the entry
  is the kernel's way of adding the specification's entries, which on a table of real entries is the specification.
-/
import proofs.«204099_g60593398612478_cont_9to1c4b_39_23_alg».proof.Proof.KernelIdeal.Pay
import proofs.«204099_g60593398612478_cont_9to1c4b_39_23_alg».proof.Proof.Relay
import proofs.«204099_g60593398612478_cont_9to1c4b_39_23_alg».proof.Proof.Algebra
import proofs.«204099_g60593398612478_cont_9to1c4b_39_23_alg».proof.Proof.KernF

noncomputable section

namespace Cert.Proof.KernelIdeal

open Cert.KernelIdeal Cert.KernelIdeal.Gen
open Idealize.ShloMosaic Idealize.ShloMosaic.ValueIdx
open Cert.Cbow

variable (m : (ℓ : Loc nD τ sig) → Buf (Elt Ideal) ℓ)

/-- The tokens a result row's sums read are the twenty tokens of that row of the token array. -/
theorem tokW_eq (d : Dev nD) (r : Fin 1024) (p : Fin 20) :
    tokW m d ⟨r.val / 32, by omega⟩ ⟨20 * (r.val % 32) + p.val, by omega⟩
      = (show IVec SX 32 from m (a0Loc d)) (ix2 r p) := by
  unfold tokW X2
  refine (Relay.x2_apply (show IVec SX 32 from m (a0Loc d)) shapeCasts_S1024x20_S32x640 _ _).trans ?_
  have h1 : 32 * (r.val / 32) + (20 * (r.val % 32) + p.val) / 20 = r.val := by omega
  have h2 : (20 * (r.val % 32) + p.val) % 20 = p.val := by omega
  refine congrArg (show IVec SX 32 from m (a0Loc d)) (funext fun a => ?_)
  match a with
  | ⟨0, _⟩ => exact Fin.ext h1
  | ⟨1, _⟩ => exact Fin.ext h2

/-- The entries a token in range names in the re-laid table are the table row it names. -/
theorem W3row_eq (d : Dev nD) (v : BitVec 32) (hv : v.toNat ≤ 999999) (e : Fin 64) :
    W3row m d v e = (show FVec Ideal SW .f32 from m (a1Loc d)) (ix2 (rowOf v.toNat) e) := by
  unfold W3row W3
  exact Relay.w3_tok (show FVec Ideal SW .f32 from m (a1Loc d)) shapeCasts_S1000000x64_S125000x8x64 v.toNat hv _ _
    (Nat.mod_eq_of_lt (by omega)) rfl e

/-- Under the precondition, on a table of real entries, the result is the specification. -/
theorem G_eq_spec (hpre : PreOK m)
    (hreal : ∀ (d : Dev nD) (i : S1000000x64.Idx), ∃ r : ℝ, m (a1Loc d) i = (r : EReal)) (d : Dev nD) :
    G (F := Ideal) m d = Cert.Cbow.spec (m (a0Loc d)) (m (a1Loc d)) := by
  funext i
  obtain ⟨r, c, e, rfl⟩ : ∃ (r : Fin 1024) (c : Fin 4) (e : Fin 64), i = ix3 r c e :=
    ⟨i 0, i 1, i 2, eq_ix3 (n0 := 1024) (n1 := 4) (n2 := 64) i⟩
  show Gat m d r c e = specAt (m (a0Loc d)) (m (a1Loc d)) r c e
  refine Eq.trans ?_ (kernEntry_eq_specAt (m (a0Loc d)) (m (a1Loc d)) (hreal d) r c e)
  unfold Gat kernEntry
  refine (kernAtF_ideal _ _ c).trans ?_
  congr 1
  · funext p
    rw [tokW_eq m d r p]
    exact W3row_eq m d _ (hpre d (ix2 r p)) e
  · exact Relay.w3_tok (show FVec Ideal SW .f32 from m (a1Loc d)) shapeCasts_S1000000x64_S125000x8x64 0 (by omega) 0 0 rfl rfl e

end Cert.Proof.KernelIdeal

end
-- ==== Proof.RefTerm.lean ====
/-
  The reference function's value as one composed term of its two argument arrays, built in the stages the
  program computes: the four offsets, the grid of positions, the validity mask, the clipped positions, the
  gathered tokens with token 0 outside the row, the table lookup with its bounds mask, and the sum over the
  row's positions.
-/
import proofs.«204099_g60593398612478_cont_9to1c4b_39_23_alg».proof.Proof.Gen.ReferenceIdeal
import proofs.«204099_g60593398612478_cont_9to1c4b_39_23_alg».proof.Proof.Spec

noncomputable section

namespace Cert.ReferenceIdeal.RefRun

open Cert.ReferenceIdeal Cert.ReferenceIdeal.Facts₀ Idealize.ShloMosaic

variable {F : FTy → Type} [FloatOps F]

/-- The constant `1, 2`: one plus the counter `0, 1`. -/
def onePlus : IVec S2 32 :=
  addi (broadcastInDim S2 ![] bcast_S_S2 (constantI S_ 32 1#32)) (iotaInDim S2 32 0)

/-- The four offsets `-1, -2, 1, 2`. -/
def offs : IVec S4 32 :=
  concatenate S4 0 [⟨S2, negi onePlus⟩, ⟨S2, onePlus⟩] concatenates_S2_S2_S4_d0

/-- The position each slot of each row position reads: `j + offs c`. -/
def pos : IVec S20x4 32 :=
  addi (broadcastInDim S20x4 ![0, 1] bcast_S20x1_S20x4_0_1 (broadcastInDim S20x1 ![0] bcast_S20_S20x1_0 (iotaInDim S20 32 0)))
    (broadcastInDim S20x4 ![0, 1] bcast_S1x4_S20x4_0_1 (broadcastInDim S1x4 ![1] bcast_S4_S1x4_1 offs))

/-- Whether that position lies in the row: `0 ≤ pos < 20`. -/
def valid : IVec S20x4 1 :=
  andi (cmpi .sge pos (broadcastInDim S20x4 ![] bcast_S_S20x4 (constantI S_ 32 0#32)))
    (cmpi .slt pos (broadcastInDim S20x4 ![] bcast_S_S20x4 (constantI S_ 32 20#32)))

/-- The position clipped to `0 … 19`. -/
def clipped : IVec S20x4 32 :=
  minsi (broadcastInDim S20x4 ![] bcast_S_S20x4 (id (constantI S_ 32 19#32)))
    (maxsi (broadcastInDim S20x4 ![] bcast_S_S20x4 (id (constantI S_ 32 0#32))) pos)

/-- The clipped position as a gather index: a negative one wrapped by the row's length (none is negative). -/
def posIdx : IVec S20x4 32 :=
  select (cmpi .slt clipped (broadcastInDim S20x4 ![] bcast_S_S20x4 (constantI S_ 32 0#32)))
    (addi clipped (broadcastInDim S20x4 ![] bcast_S_S20x4 (constantI S_ 32 20#32))) clipped

/-- The token each slot reads: the row's token at the clipped position where the position is valid, token 0 elsewhere. -/
def ctx (x : IVec S1024x20 32) : IVec S1024x20x4 32 :=
  select
    (broadcastInDim S1024x20x4 ![0, 1, 2] bcast_S1x20x4_S1024x20x4_0_1_2
      (broadcastInDim S1x20x4 ![1, 2] bcast_S20x4_S1x20x4_1_2 valid))
    (Host.gather gather_S1024x20_S20x4x1_S1024x20x4_0_1_n_n_1_2_10241 x
      (broadcastInDim S20x4x1 ![0, 1] bcast_S20x4_S20x4x1_0_1 posIdx))
    (broadcastInDim S1024x20x4 ![] bcast_S_S1024x20x4 (id (constantI S_ 32 0#32)))

/-- The token as a table row number: a negative one wrapped by the table's length. -/
def wrapped (x : IVec S1024x20 32) : IVec S1024x20x4 32 :=
  select (cmpi .slt (ctx x) (broadcastInDim S1024x20x4 ![] bcast_S_S1024x20x4 (constantI S_ 32 0#32)))
    (addi (ctx x) (broadcastInDim S1024x20x4 ![] bcast_S_S1024x20x4 (constantI S_ 32 1000000#32))) (ctx x)

/-- The row numbers as the lookup's index table (one trailing axis of length one). -/
def idx (x : IVec S1024x20 32) : IVec S1024x20x4x1 32 :=
  broadcastInDim S1024x20x4x1 ![0, 1, 2] bcast_S1024x20x4_S1024x20x4x1_0_1_2 (wrapped x)

/-- Whether the row number lies in the table: `0 ≤ idx ≤ 999999`. -/
def inBounds (x : IVec S1024x20 32) : IVec S1024x20x4 1 :=
  Host.reduce IntOp.andi
    (andi (cmpi .sge (idx x) (broadcastInDim S1024x20x4x1 ![] bcast_S_S1024x20x4x1 (constantI S_ 32 0#32)))
      (cmpi .sle (idx x)
        (broadcastInDim S1024x20x4x1 ![0, 1, 2, 3] bcast_S1x1x1x1_S1024x20x4x1_0_1_2_3
          (broadcastInDim S1x1x1x1 ![3] bcast_S1_S1x1x1x1_3 (constantI S1 32 999999#32)))))
    (constantI S_ 1 1#1) reducesTo_S1024x20x4x1_S1024x20x4_d3 h_S_

/-- The table rows looked up: the row where the number is in the table, the not-a-number constant elsewhere. -/
def emb (x : IVec S1024x20 32) (W : FVec F S1000000x64 .f32) : FVec F S1024x20x4x64 .f32 :=
  select (broadcastInDim S1024x20x4x64 ![0, 1, 2] bcast_S1024x20x4_S1024x20x4x64_0_1_2 (inBounds x))
    (Host.gather gather_S1000000x64_S1024x20x4x1_S1024x20x4x64_3_0_n_n_0_3_164 W (idx x))
    (broadcastInDim S1024x20x4x64 ![] bcast_S_S1024x20x4x64 (constant S_ .f32 0x7FC00000#32))

/-- The looked-up rows summed over the row's twenty positions. -/
def term (x : IVec S1024x20 32) (W : FVec F S1000000x64 .f32) : FVec F S1024x4x64 .f32 :=
  Host.reduceAdd (emb x W) (constant S_ .f32 0x00000000#32) reducesTo_S1024x20x4x64_S1024x4x64_d1 h_S_

/-- The operations' composed pure term of the two argument arrays. -/
def refTerm (x : IVec Cert.Cbow.SX 32) (W : FVec Ideal Cert.Cbow.SW .f32) : FVec Ideal Cert.Cbow.SO .f32 :=
  term (F := Ideal) x W

theorem refTerm_def (x : IVec Cert.Cbow.SX 32) (W : FVec Ideal Cert.Cbow.SW .f32) :
    refTerm x W = term (F := Ideal) x W := rfl

end Cert.ReferenceIdeal.RefRun

end
-- ==== Proof.RefRun.lean ====
/-
  The reference program's run. Its @main is a straight line of seventy-one host operations once the four
  outlined functions (the clip, the two selects, the table lookup) are unfolded at their calls; every weakly
  fair execution terminates with the result buffer at the operations' composed term of the two argument
  arrays, and the arguments unchanged.
-/
import proofs.«204099_g60593398612478_cont_9to1c4b_39_23_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's operations in order, each called function's operations listed at its call over that call's buffers. -/
abbrev ops : List (HloOp τ sig (Elt F)) :=
  [
    StableHlo.nullary main_v0 (iotaInDim S2 32 0),
    StableHlo.nullary main_c (constantI S_ 32 1#32),
    StableHlo.unary main_c main_v1 (broadcastInDim S2 ![] bcast_S_S2 : (⟨S_, .i32⟩ : BufTy).Contents (Elt F) → (⟨S2, .i32⟩ : BufTy).Contents (Elt F)),
    StableHlo.binary main_v1 main_v0 main_v2 (addi : (⟨S2, .i32⟩ : BufTy).Contents (Elt F) → (⟨S2, .i32⟩ : BufTy).Contents (Elt F) → (⟨S2, .i32⟩ : BufTy).Contents (Elt F)),
    StableHlo.unary main_v2 main_v3 (negi : (⟨S2, .i32⟩ : BufTy).Contents (Elt F) → (⟨S2, .i32⟩ : BufTy).Contents (Elt F)),
    StableHlo.nullary main_v4 (iotaInDim S2 32 0),
    StableHlo.nullary main_c_0 (constantI S_ 32 1#32),
    StableHlo.unary main_c_0 main_v5 (broadcastInDim S2 ![] bcast_S_S2 : (⟨S_, .i32⟩ : BufTy).Contents (Elt F) → (⟨S2, .i32⟩ : BufTy).Contents (Elt F)),
    StableHlo.binary main_v5 main_v4 main_v6 (addi : (⟨S2, .i32⟩ : BufTy).Contents (Elt F) → (⟨S2, .i32⟩ : BufTy).Contents (Elt F) → (⟨S2, .i32⟩ : BufTy).Contents (Elt F)),
    StableHlo.binary main_v3 main_v6 main_v7 ((fun a b => concatenate S4 0 [⟨S2, a⟩, ⟨S2, b⟩] concatenates_S2_S2_S4_d0) : (⟨S2, .i32⟩ : BufTy).Contents (Elt F) → (⟨S2, .i32⟩ : BufTy).Contents (Elt F) → (⟨S4, .i32⟩ : BufTy).Contents (Elt F)),
    StableHlo.nullary main_v8 (iotaInDim S20 32 0),
    StableHlo.unary main_v8 main_v9 (broadcastInDim S20x1 ![0] bcast_S20_S20x1_0 : (⟨S20, .i32⟩ : BufTy).Contents (Elt F) → (⟨S20x1, .i32⟩ : BufTy).Contents (Elt F)),
    StableHlo.unary main_v7 main_v10 (broadcastInDim S1x4 ![1] bcast_S4_S1x4_1 : (⟨S4, .i32⟩ : BufTy).Contents (Elt F) → (⟨S1x4, .i32⟩ : BufTy).Contents (Elt F)),
    StableHlo.unary main_v9 main_v11 (broadcastInDim S20x4 ![0, 1] bcast_S20x1_S20x4_0_1 : (⟨S20x1, .i32⟩ : BufTy).Contents (Elt F) → (⟨S20x4, .i32⟩ : BufTy).Contents (Elt F)),
    StableHlo.unary main_v10 main_v12 (broadcastInDim S20x4 ![0, 1] bcast_S1x4_S20x4_0_1 : (⟨S1x4, .i32⟩ : BufTy).Contents (Elt F) → (⟨S20x4, .i32⟩ : BufTy).Contents (Elt F)),
    StableHlo.binary main_v11 main_v12 main_v13 (addi : (⟨S20x4, .i32⟩ : BufTy).Contents (Elt F) → (⟨S20x4, .i32⟩ : BufTy).Contents (Elt F) → (⟨S20x4, .i32⟩ : BufTy).Contents (Elt F)),
    StableHlo.nullary main_c_1 (constantI S_ 32 0#32),
    StableHlo.unary main_c_1 main_v14 (broadcastInDim S20x4 ![] bcast_S_S20x4 : (⟨S_, .i32⟩ : BufTy).Contents (Elt F) → (⟨S20x4, .i32⟩ : BufTy).Contents (Elt F)),
    StableHlo.binary main_v13 main_v14 main_v15 (cmpi .sge : (⟨S20x4, .i32⟩ : BufTy).Contents (Elt F) → (⟨S20x4, .i32⟩ : BufTy).Contents (Elt F) → (⟨S20x4, .i1⟩ : BufTy).Contents (Elt F)),
    StableHlo.nullary main_c_2 (constantI S_ 32 20#32),
    StableHlo.unary main_c_2 main_v16 (broadcastInDim S20x4 ![] bcast_S_S20x4 : (⟨S_, .i32⟩ : BufTy).Contents (Elt F) → (⟨S20x4, .i32⟩ : BufTy).Contents (Elt F)),
    StableHlo.binary main_v13 main_v16 main_v17 (cmpi .slt : (⟨S20x4, .i32⟩ : BufTy).Contents (Elt F) → (⟨S20x4, .i32⟩ : BufTy).Contents (Elt F) → (⟨S20x4, .i1⟩ : BufTy).Contents (Elt F)),
    StableHlo.binary main_v15 main_v17 main_v18 (andi : (⟨S20x4, .i1⟩ : BufTy).Contents (Elt F) → (⟨S20x4, .i1⟩ : BufTy).Contents (Elt F) → (⟨S20x4, .i1⟩ : BufTy).Contents (Elt F)),
    StableHlo.nullary main_c_3 (constantI S_ 32 0#32),
    StableHlo.nullary main_c_4 (constantI S_ 32 19#32),
    StableHlo.TRef.unary (TRef.of main_c_3 : TRef sig ⟨S_, .i32⟩) main_call0.v0 id,
    StableHlo.TRef.unary main_call0.v0 main_call0.v1 (broadcastInDim S20x4 ![] bcast_S_S20x4),
    StableHlo.TRef.binary main_call0.v1 (TRef.of main_v13 : TRef sig ⟨S20x4, .i32⟩) main_call0.v2 maxsi,
    StableHlo.TRef.unary (TRef.of main_c_4 : TRef sig ⟨S_, .i32⟩) main_call0.v3 id,
    StableHlo.TRef.unary main_call0.v3 main_call0.v4 (broadcastInDim S20x4 ![] bcast_S_S20x4),
    StableHlo.TRef.binary main_call0.v4 main_call0.v2 main_call0.v5 minsi,
    StableHlo.nullary main_c_5 (constantI S_ 32 0#32),
    StableHlo.unary main_c_5 main_v20 (broadcastInDim S20x4 ![] bcast_S_S20x4 : (⟨S_, .i32⟩ : BufTy).Contents (Elt F) → (⟨S20x4, .i32⟩ : BufTy).Contents (Elt F)),
    StableHlo.binary main_v19 main_v20 main_v21 (cmpi .slt : (⟨S20x4, .i32⟩ : BufTy).Contents (Elt F) → (⟨S20x4, .i32⟩ : BufTy).Contents (Elt F) → (⟨S20x4, .i1⟩ : BufTy).Contents (Elt F)),
    StableHlo.nullary main_c_6 (constantI S_ 32 20#32),
    StableHlo.unary main_c_6 main_v22 (broadcastInDim S20x4 ![] bcast_S_S20x4 : (⟨S_, .i32⟩ : BufTy).Contents (Elt F) → (⟨S20x4, .i32⟩ : BufTy).Contents (Elt F)),
    StableHlo.binary main_v19 main_v22 main_v23 (addi : (⟨S20x4, .i32⟩ : BufTy).Contents (Elt F) → (⟨S20x4, .i32⟩ : BufTy).Contents (Elt F) → (⟨S20x4, .i32⟩ : BufTy).Contents (Elt F)),
    StableHlo.ternary main_v21 main_v23 main_v19 main_v24 (select : (⟨S20x4, .i1⟩ : BufTy).Contents (Elt F) → (⟨S20x4, .i32⟩ : BufTy).Contents (Elt F) → (⟨S20x4, .i32⟩ : BufTy).Contents (Elt F) → (⟨S20x4, .i32⟩ : BufTy).Contents (Elt F)),
    StableHlo.unary main_v24 main_v25 (broadcastInDim S20x4x1 ![0, 1] bcast_S20x4_S20x4x1_0_1 : (⟨S20x4, .i32⟩ : BufTy).Contents (Elt F) → (⟨S20x4x1, .i32⟩ : BufTy).Contents (Elt F)),
    StableHlo.binary main_arg0 main_v25 main_v26 ((fun x i => Host.gather gather_S1024x20_S20x4x1_S1024x20x4_0_1_n_n_1_2_10241 x i) : (⟨S1024x20, .i32⟩ : BufTy).Contents (Elt F) → (⟨S20x4x1, .i32⟩ : BufTy).Contents (Elt F) → (⟨S1024x20x4, .i32⟩ : BufTy).Contents (Elt F)),
    StableHlo.unary main_v18 main_v27 (broadcastInDim S1x20x4 ![1, 2] bcast_S20x4_S1x20x4_1_2 : (⟨S20x4, .i1⟩ : BufTy).Contents (Elt F) → (⟨S1x20x4, .i1⟩ : BufTy).Contents (Elt F)),
    StableHlo.nullary main_c_7 (constantI S_ 32 0#32),
    StableHlo.TRef.unary (TRef.of main_c_7 : TRef sig ⟨S_, .i32⟩) main_call1.v0 id,
    StableHlo.TRef.unary (TRef.of main_v27 : TRef sig ⟨S1x20x4, .i1⟩) main_call1.v1 (broadcastInDim S1024x20x4 ![0, 1, 2] bcast_S1x20x4_S1024x20x4_0_1_2),
    StableHlo.TRef.unary main_call1.v0 main_call1.v2 (broadcastInDim S1024x20x4 ![] bcast_S_S1024x20x4),
    StableHlo.TRef.ternary main_call1.v1 (TRef.of main_v26 : TRef sig ⟨S1024x20x4, .i32⟩) main_call1.v2 main_call1.v3 select,
    StableHlo.TRef.nullary main_call2.c (constantI S_ 32 0#32),
    StableHlo.TRef.unary main_call2.c main_call2.v0 (broadcastInDim S1024x20x4 ![] bcast_S_S1024x20x4),
    StableHlo.TRef.binary (TRef.of main_v28 : TRef sig ⟨S1024x20x4, .i32⟩) main_call2.v0 main_call2.v1 (cmpi .slt),
    StableHlo.TRef.nullary main_call2.c_0 (constantI S_ 32 1000000#32),
    StableHlo.TRef.unary main_call2.c_0 main_call2.v2 (broadcastInDim S1024x20x4 ![] bcast_S_S1024x20x4),
    StableHlo.TRef.binary (TRef.of main_v28 : TRef sig ⟨S1024x20x4, .i32⟩) main_call2.v2 main_call2.v3 addi,
    StableHlo.TRef.ternary main_call2.v1 main_call2.v3 (TRef.of main_v28 : TRef sig ⟨S1024x20x4, .i32⟩) main_call2.call0.v0 select,
    StableHlo.TRef.unary main_call2.call0.v0 main_call2.v5 (broadcastInDim S1024x20x4x1 ![0, 1, 2] bcast_S1024x20x4_S1024x20x4x1_0_1_2),
    StableHlo.TRef.nullary main_call2.c_1 (constantI S1 32 999999#32),
    StableHlo.TRef.nullary main_call2.c_2 (constantI S_ 32 0#32),
    StableHlo.TRef.unary main_call2.c_2 main_call2.v6 (broadcastInDim S1024x20x4x1 ![] bcast_S_S1024x20x4x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S1024x20x4x1 ![0, 1, 2, 3] bcast_S1x1x1x1_S1024x20x4x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x20x4x1_S1024x20x4_d3 h_S_),
    StableHlo.TRef.binary (TRef.of main_arg1 : TRef sig ⟨S1000000x64, .f32⟩) main_call2.v5 main_call2.v13 (fun x i => Host.gather gather_S1000000x64_S1024x20x4x1_S1024x20x4x64_3_0_n_n_0_3_164 x i),
    StableHlo.TRef.unary main_call2.v12 main_call2.v14 (broadcastInDim S1024x20x4x64 ![0, 1, 2] bcast_S1024x20x4_S1024x20x4x64_0_1_2),
    StableHlo.TRef.nullary main_call2.cst (constant S_ .f32 0x7FC00000#32),
    StableHlo.TRef.unary main_call2.cst main_call2.v15 (broadcastInDim S1024x20x4x64 ![] bcast_S_S1024x20x4x64),
    StableHlo.TRef.ternary main_call2.v14 main_call2.v13 main_call2.v15 main_call2.v16 select,
    StableHlo.nullary main_cst (constant S_ .f32 0x00000000#32),
    StableHlo.binary main_v29 main_cst main_v30 ((fun x v => Host.reduceAdd x v reducesTo_S1024x20x4x64_S1024x4x64_d1 h_S_) : (⟨S1024x20x4x64, .f32⟩ : BufTy).Contents (Elt F) → (⟨S_, .f32⟩ : BufTy).Contents (Elt F) → (⟨S1024x4x64, .f32⟩ : BufTy).Contents (Elt F)) ]

set_option maxRecDepth 8192 in
set_option maxHeartbeats 4000000 in
/-- @main is that straight line: the functions' definitions unfold at their calls and sequencing reassociates, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., nullary_bufs_sub ..,
    nullary_bufs_sub .., unary_bufs_sub .., binary_bufs_sub .., binary_bufs_sub .., nullary_bufs_sub .., unary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    unary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., binary_bufs_sub ..⟩

/-- From any memory with zero counters every weakly fair execution of @main terminates with every buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd in
set_option maxRecDepth 8192 in
set_option maxHeartbeats 4000000 in
/-- The fold at the result buffer is the composed term of the contents at the two argument buffers. -/
theorem out_eq (V : Valuation τ sig (Elt F)) :
    after ops V (main_v30 : DevRef τ sig) = term (F := F) (V (main_arg0 : DevRef τ sig)) (V (main_arg1 : DevRef τ sig)) := by
  after_results_simp
  rfl

set_option maxRecDepth 8192 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes the second argument's buffer. -/
theorem arg1_eq (V : Valuation τ sig (Elt F)) :
    after ops V (main_arg1 : DevRef τ sig) = V (main_arg1 : DevRef τ sig) := by
  after_results_simp

/-- On every device, from any memory with zero counters: every weakly fair execution of @main terminates with the
    result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans (out_eq _), (h c main_arg0).trans (arg0_eq _),
      (h c main_arg1).trans (arg1_eq _)⟩) (run_main m ρ)

end Cert.ReferenceIdeal.RefRun

end
-- ==== Proof.RefGrid.lean ====
/-
  The integer stages of the reference on their 20 × 4 grid: for row position `j` and context slot `c`, whether the
  position the slot reads lies inside the row, and which position the gather then reads. Both are closed
  computations over the grid and are decided.
-/
import proofs.«204099_g60593398612478_cont_9to1c4b_39_23_alg».proof.Proof.RefTerm
import Idealize.ShloMosaic.Lib.ValueIdx

noncomputable section

namespace Cert.ReferenceIdeal.RefRun

open Cert.ReferenceIdeal Idealize.ShloMosaic Idealize.ShloMosaic.ValueIdx

/-- Whether slot `c` of position `j` reads inside the row (offsets −1, −2, +1, +2). -/
def inRow (j : Fin 20) (c : Fin 4) : Bool :=
  match c with
  | 0 => decide (1 ≤ j.val)
  | 1 => decide (2 ≤ j.val)
  | 2 => decide (j.val + 1 < 20)
  | 3 => decide (j.val + 2 < 20)

/-- The position it reads. -/
def srcPos (j : Fin 20) (c : Fin 4) : Nat :=
  match c with
  | 0 => j.val - 1
  | 1 => j.val - 2
  | 2 => j.val + 1
  | 3 => j.val + 2

theorem srcPos_lt : ∀ (j : Fin 20) (c : Fin 4), inRow j c = true → srcPos j c < 20 := by decide

/-- The validity mask is "inside the row", and where it is, the clipped and wrapped position read signed and
    clamped to the row is the position itself. -/
theorem grid : ∀ (j : Fin 20) (c : Fin 4),
    valid (ix2 j c) = (if inRow j c then 1#1 else 0#1) ∧
      (inRow j c = true → min (posIdx (ix2 j c)).toInt.toNat 19 = srcPos j c) := by
  decide

/-- The specification's context token in the grid's words. -/
theorem ctxTok_eq (x : IVec Cert.Cbow.SX 32) (b : Fin 1024) (j : Fin 20) (c : Fin 4) :
    Cert.Cbow.ctxTok x b j c
      = if h : inRow j c = true then Cert.Cbow.tok x b ⟨srcPos j c, srcPos_lt j c h⟩ else 0 := by
  match c with
  | 0 =>
    by_cases hp : 1 ≤ j.val
    · have hr : inRow j 0 = true := decide_eq_true hp
      rw [dif_pos hr]
      exact (dif_pos hp : Cert.Cbow.ctxTok x b j 0 = Cert.Cbow.tok x b ⟨j.val - 1, by omega⟩)
    · have hr : ¬ inRow j 0 = true := fun h => hp (of_decide_eq_true h)
      rw [dif_neg hr]
      exact (dif_neg hp : Cert.Cbow.ctxTok x b j 0 = 0)
  | 1 =>
    by_cases hp : 2 ≤ j.val
    · have hr : inRow j 1 = true := decide_eq_true hp
      rw [dif_pos hr]
      exact (dif_pos hp : Cert.Cbow.ctxTok x b j 1 = Cert.Cbow.tok x b ⟨j.val - 2, by omega⟩)
    · have hr : ¬ inRow j 1 = true := fun h => hp (of_decide_eq_true h)
      rw [dif_neg hr]
      exact (dif_neg hp : Cert.Cbow.ctxTok x b j 1 = 0)
  | 2 =>
    by_cases hp : j.val + 1 < 20
    · have hr : inRow j 2 = true := decide_eq_true hp
      rw [dif_pos hr]
      exact (dif_pos hp : Cert.Cbow.ctxTok x b j 2 = Cert.Cbow.tok x b ⟨j.val + 1, by omega⟩)
    · have hr : ¬ inRow j 2 = true := fun h => hp (of_decide_eq_true h)
      rw [dif_neg hr]
      exact (dif_neg hp : Cert.Cbow.ctxTok x b j 2 = 0)
  | 3 =>
    by_cases hp : j.val + 2 < 20
    · have hr : inRow j 3 = true := decide_eq_true hp
      rw [dif_pos hr]
      exact (dif_pos hp : Cert.Cbow.ctxTok x b j 3 = Cert.Cbow.tok x b ⟨j.val + 2, by omega⟩)
    · have hr : ¬ inRow j 3 = true := fun h => hp (of_decide_eq_true h)
      rw [dif_neg hr]
      exact (dif_neg hp : Cert.Cbow.ctxTok x b j 3 = 0)

end Cert.ReferenceIdeal.RefRun

end
-- ==== Proof.RefGather.lean ====
/-
  The reference's two gathers read at an index: the gather of a row's tokens at the grid's positions, and the
  table lookup at the tokens. Each reads its operand at the start index taken signed and clamped into the
  operand's extent, the remaining coordinate carried over.
-/
import proofs.«204099_g60593398612478_cont_9to1c4b_39_23_alg».proof.Proof.RefTerm
import Idealize.ShloMosaic.Lib.ValueIdx

noncomputable section

namespace Cert.ReferenceIdeal.RefRun

open Cert.ReferenceIdeal Cert.ReferenceIdeal.Facts₀ Idealize.ShloMosaic Idealize.ShloMosaic.ValueIdx

/-- The gather of tokens at `(b, j, c)`: the row's token at the start index read signed and clamped to the row. -/
theorem gather_x_apply (x : IVec S1024x20 32) (i : IVec S20x4x1 32) (b : Fin 1024) (j : Fin 20) (c : Fin 4) :
    Host.gather gather_S1024x20_S20x4x1_S1024x20x4_0_1_n_n_1_2_10241 x i (ix3 b j c)
      = x (ix2 b ⟨min (i (ix3 j c 0)).toInt.toNat 19, by omega⟩) := by
  unfold Host.gather
  refine congrArg x (funext fun a => Fin.ext ?_)
  have hsi : gather_S1024x20_S20x4x1_S1024x20x4_0_1_n_n_1_2_10241.siIdx (ix3 b j c) ⟨0, by decide⟩ = ix3 j c 0 := by
    funext q; refine Fin.ext ?_
    match q with
    | ⟨0, _⟩ => rfl
    | ⟨1, _⟩ => rfl
    | ⟨2, _⟩ => rfl
  match a with
  | ⟨0, _⟩ =>
    show 0 + 0 + b.val = b.val
    omega
  | ⟨1, _⟩ =>
    show min (i (gather_S1024x20_S20x4x1_S1024x20x4_0_1_n_n_1_2_10241.siIdx (ix3 b j c) ⟨0, by decide⟩)).toInt.toNat (20 - 1) + 0 + 0 = _
    rw [hsi]
    rfl

/-- The table lookup at `(b, j, c, e)`: the table's row at the start index read signed and clamped to the table,
    column `e`. -/
theorem gather_W_apply {α : Type} (W : S1000000x64.Idx → α) (i : IVec S1024x20x4x1 32) (b : Fin 1024) (j : Fin 20) (c : Fin 4)
    (e : Fin 64) :
    Host.gather gather_S1000000x64_S1024x20x4x1_S1024x20x4x64_3_0_n_n_0_3_164 W i (ix4 b j c e)
      = W (ix2 ⟨min (i (ix4 b j c 0)).toInt.toNat 999999, by omega⟩ e) := by
  unfold Host.gather
  refine congrArg W (funext fun a => Fin.ext ?_)
  have hsi : gather_S1000000x64_S1024x20x4x1_S1024x20x4x64_3_0_n_n_0_3_164.siIdx (ix4 b j c e) ⟨0, by decide⟩ = ix4 b j c 0 := by
    funext q; refine Fin.ext ?_
    match q with
    | ⟨0, _⟩ => rfl
    | ⟨1, _⟩ => rfl
    | ⟨2, _⟩ => rfl
    | ⟨3, _⟩ => rfl
  match a with
  | ⟨0, _⟩ =>
    show min (i (gather_S1000000x64_S1024x20x4x1_S1024x20x4x64_3_0_n_n_0_3_164.siIdx (ix4 b j c e) ⟨0, by decide⟩)).toInt.toNat (1000000 - 1) + 0 + 0 = _
    rw [hsi]
    rfl
  | ⟨1, _⟩ =>
    show 0 + 0 + e.val = e.val
    omega

/-- The gather of tokens at `(b, j, c)`, the clamped start index known to be position `n`. -/
theorem gather_x_at (x : IVec S1024x20 32) (i : IVec S20x4x1 32) (b : Fin 1024) (j : Fin 20) (c : Fin 4) (n : Fin 20)
    (hn : min (i (ix3 j c 0)).toInt.toNat 19 = n.val) :
    Host.gather gather_S1024x20_S20x4x1_S1024x20x4_0_1_n_n_1_2_10241 x i (ix3 b j c) = x (ix2 b n) := by
  rw [gather_x_apply]
  exact congrArg (fun p => x (ix2 b p)) (Fin.ext hn)

/-- The table lookup at `(b, j, c, e)`, the clamped start index known to be row `r`. -/
theorem gather_W_at {α : Type} (W : S1000000x64.Idx → α) (i : IVec S1024x20x4x1 32) (b : Fin 1024) (j : Fin 20) (c : Fin 4)
    (e : Fin 64) (r : Fin 1000000) (hr : min (i (ix4 b j c 0)).toInt.toNat 999999 = r.val) :
    Host.gather gather_S1000000x64_S1024x20x4x1_S1024x20x4x64_3_0_n_n_0_3_164 W i (ix4 b j c e) = W (ix2 r e) := by
  rw [gather_W_apply]
  exact congrArg (fun p => W (ix2 p e)) (Fin.ext hr)

end Cert.ReferenceIdeal.RefRun

end
-- ==== Proof.RefVal.lean ====
/-
  The reference's composed term is the specification: read index by index. The integer stages give, at row `b`,
  position `j` and slot `c`, the token the specification names (the token the slot's offset away, or token 0 outside
  the row); with every token of the row between 0 and 999999 no index is negative or past the table, the bounds mask
  is all ones, the lookup reads that token's table row, and the sum over the row's positions is the
  specification's sum.
-/
import proofs.«204099_g60593398612478_cont_9to1c4b_39_23_alg».proof.Proof.RefGrid
import proofs.«204099_g60593398612478_cont_9to1c4b_39_23_alg».proof.Proof.RefGather
import Idealize.ShloMosaic.Lib.IdealHost
import Idealize.ShloMosaic.Lib.Affine
import Idealize.ShloMosaic.Lib.Pipeline.Value
import Idealize.ShloMosaic.PureOps.Reduce

noncomputable section

open scoped BigOperators

namespace Cert.ReferenceIdeal.RefRun

open Cert.ReferenceIdeal Cert.ReferenceIdeal.Facts₀ Idealize.ShloMosaic Idealize.ShloMosaic.ValueIdx

/-! ## Words between 0 and 999999 -/

/-- Such a word reads the same signed as unsigned. -/
theorem toInt_small (v : BitVec 32) (h : v.toNat ≤ 999999) : v.toInt = (v.toNat : Int) := by
  rw [BitVec.toInt_eq_toNat_cond]
  split <;> omega

/-- It is not negative. -/
theorem slt_zero_small (v : BitVec 32) (h : v.toNat ≤ 999999) : IntOp.cmpi .slt v 0#32 = 0#1 := by
  rcases BitVec.eq_zero_or_eq_one (IntOp.cmpi .slt v 0#32) with h0 | h1
  · exact h0
  · have hlt := IntOp.cmpi_slt.mp h1
    rw [toInt_small v h, show (0#32 : BitVec 32).toInt = 0 by decide] at hlt
    omega

/-- It is inside the table. -/
theorem in_table_small (v : BitVec 32) (h : v.toNat ≤ 999999) :
    IntOp.andi (IntOp.cmpi .sge v 0#32) (IntOp.cmpi .sle v 999999#32) = 1#1 := by
  refine IntOp.andi_eq_one.mpr ⟨IntOp.cmpi_sge.mpr ?_, IntOp.cmpi_sle.mpr ?_⟩
  · rw [toInt_small v h, show (0#32 : BitVec 32).toInt = 0 by decide]; omega
  · rw [toInt_small v h, show (999999#32 : BitVec 32).toInt = 999999 by decide]; omega

/-- Read signed and clamped to the table it is itself. -/
theorem clamp_small (v : BitVec 32) (h : v.toNat ≤ 999999) : min v.toInt.toNat 999999 = v.toNat := by
  rw [toInt_small v h, Int.toNat_natCast]
  omega

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) by decide]
    exact foldl_andi_one f l fun n hn => h n (List.mem_cons_of_mem _ hn)

/-! ## The broadcasts read at an index -/

/-- A 20 × 4 grid broadcast over the rows reads the grid at `(j, c)`. -/
theorem bcast_rows_apply {α : Type} (p : S20x4.Idx → α) (b : Fin 1024) (j : Fin 20) (c : Fin 4) :
    broadcastInDim S1024x20x4 ![0, 1, 2] bcast_S1x20x4_S1024x20x4_0_1_2
        (broadcastInDim S1x20x4 ![1, 2] bcast_S20x4_S1x20x4_1_2 p) (ix3 b j c) = p (ix2 j c) := by
  refine (broadcastInDim_apply ![0, 1, 2] bcast_S1x20x4_S1024x20x4_0_1_2 _ (ix3 b j c) (ix3 (0 : Fin 1) j c) ?_).trans
    (broadcastInDim_apply ![1, 2] bcast_S20x4_S1x20x4_1_2 p (ix3 (0 : Fin 1) j c) (ix2 j c) ?_)
  · intro a
    match a with
    | ⟨0, _⟩ =>
      show (0 : Nat) = if (1 : Nat) = 1 then 0 else b.val
      exact (if_pos rfl).symm
    | ⟨1, _⟩ =>
      show j.val = if (20 : Nat) = 1 then 0 else j.val
      exact (if_neg (by decide)).symm
    | ⟨2, _⟩ =>
      show c.val = if (4 : Nat) = 1 then 0 else c.val
      exact (if_neg (by decide)).symm
  · intro a
    match a with
    | ⟨0, _⟩ =>
      show j.val = if (20 : Nat) = 1 then 0 else j.val
      exact (if_neg (by decide)).symm
    | ⟨1, _⟩ =>
      show c.val = if (4 : Nat) = 1 then 0 else c.val
      exact (if_neg (by decide)).symm

/-- A 20 × 4 grid given a trailing unit axis reads the grid at `(j, c)`. -/
theorem bcast_unit3_apply {α : Type} (p : S20x4.Idx → α) (j : Fin 20) (c : Fin 4) (k : Fin 1) :
    broadcastInDim S20x4x1 ![0, 1] bcast_S20x4_S20x4x1_0_1 p (ix3 j c k) = p (ix2 j c) := by
  refine broadcastInDim_apply ![0, 1] bcast_S20x4_S20x4x1_0_1 p (ix3 j c k) (ix2 j c) ?_
  intro a
  match a with
  | ⟨0, _⟩ =>
    show j.val = if (20 : Nat) = 1 then 0 else j.val
    exact (if_neg (by decide)).symm
  | ⟨1, _⟩ =>
    show c.val = if (4 : Nat) = 1 then 0 else c.val
    exact (if_neg (by decide)).symm

/-- A 1024 × 20 × 4 array given a trailing unit axis reads the array at `(b, j, c)`. -/
theorem bcast_unit4_apply {α : Type} (p : S1024x20x4.Idx → α) (b : Fin 1024) (j : Fin 20) (c : Fin 4) (k : Fin 1) :
    broadcastInDim S1024x20x4x1 ![0, 1, 2] bcast_S1024x20x4_S1024x20x4x1_0_1_2 p (ix4 b j c k) = p (ix3 b j c) := by
  refine broadcastInDim_apply ![0, 1, 2] bcast_S1024x20x4_S1024x20x4x1_0_1_2 p (ix4 b j c k) (ix3 b j c) ?_
  intro a
  match a with
  | ⟨0, _⟩ =>
    show b.val = if (1024 : Nat) = 1 then 0 else b.val
    exact (if_neg (by decide)).symm
  | ⟨1, _⟩ =>
    show j.val = if (20 : Nat) = 1 then 0 else j.val
    exact (if_neg (by decide)).symm
  | ⟨2, _⟩ =>
    show c.val = if (4 : Nat) = 1 then 0 else c.val
    exact (if_neg (by decide)).symm

/-- A 1024 × 20 × 4 array broadcast over 64 columns reads the array at `(b, j, c)`. -/
theorem bcast_cols_apply {α : Type} (p : S1024x20x4.Idx → α) (b : Fin 1024) (j : Fin 20) (c : Fin 4) (e : Fin 64) :
    broadcastInDim S1024x20x4x64 ![0, 1, 2] bcast_S1024x20x4_S1024x20x4x64_0_1_2 p (ix4 b j c e) = p (ix3 b j c) := by
  refine broadcastInDim_apply ![0, 1, 2] bcast_S1024x20x4_S1024x20x4x64_0_1_2 p (ix4 b j c e) (ix3 b j c) ?_
  intro a
  match a with
  | ⟨0, _⟩ =>
    show b.val = if (1024 : Nat) = 1 then 0 else b.val
    exact (if_neg (by decide)).symm
  | ⟨1, _⟩ =>
    show j.val = if (20 : Nat) = 1 then 0 else j.val
    exact (if_neg (by decide)).symm
  | ⟨2, _⟩ =>
    show c.val = if (4 : Nat) = 1 then 0 else c.val
    exact (if_neg (by decide)).symm

/-- The index table at `(b, j, c, k)` is the wrapped token at `(b, j, c)`. -/
theorem idx_apply (x : IVec S1024x20 32) (b : Fin 1024) (j : Fin 20) (c : Fin 4) (k : Fin 1) :
    idx x (ix4 b j c k) = wrapped x (ix3 b j c) := by
  unfold idx
  exact bcast_unit4_apply _ b j c k

/-! ## The tokens -/

/-- The token slot `c` of position `j` of row `b` reads: the row's token at the slot's position inside the row, 0 outside. -/
theorem ctx_eq (x : IVec S1024x20 32) (b : Fin 1024) (j : Fin 20) (c : Fin 4) :
    ctx x (ix3 b j c) = if h : inRow j c = true then x (ix2 b ⟨srcPos j c, srcPos_lt j c h⟩) else 0#32 := by
  obtain ⟨hv, hp⟩ := grid j c
  unfold ctx
  rw [select_apply, bcast_rows_apply, hv]
  by_cases h : inRow j c = true
  · rw [dif_pos h, if_pos h, select_one]
    exact gather_x_at x _ b j c ⟨srcPos j c, srcPos_lt j c h⟩ (by rw [bcast_unit3_apply]; exact hp h)
  · rw [dif_neg h, if_neg h, select_zero]
    rfl

/-- It is the specification's context token. -/
theorem ctx_toNat (x : IVec S1024x20 32) (b : Fin 1024) (j : Fin 20) (c : Fin 4) :
    (ctx x (ix3 b j c)).toNat = Cert.Cbow.ctxTok x b j c := by
  rw [ctx_eq, ctxTok_eq]
  by_cases h : inRow j c = true
  · rw [dif_pos h, dif_pos h]; rfl
  · rw [dif_neg h, dif_neg h]; rfl

/-- With every token between 0 and 999999, so is every context token. -/
theorem ctx_le (x : IVec S1024x20 32) (hx : ∀ i, (x i).toNat ≤ 999999) (b : Fin 1024) (j : Fin 20) (c : Fin 4) :
    (ctx x (ix3 b j c)).toNat ≤ 999999 := by
  rw [ctx_eq]
  by_cases h : inRow j c = true
  · rw [dif_pos h]; exact hx _
  · rw [dif_neg h]; decide

/-- A token that is not negative is not wrapped. -/
theorem wrapped_eq (x : IVec S1024x20 32) (b : Fin 1024) (j : Fin 20) (c : Fin 4)
    (h : (ctx x (ix3 b j c)).toNat ≤ 999999) : wrapped x (ix3 b j c) = ctx x (ix3 b j c) := by
  have hlt : cmpi .slt (ctx x) (broadcastInDim S1024x20x4 ![] bcast_S_S1024x20x4 (constantI S_ 32 0#32)) (ix3 b j c) = 0#1 :=
    slt_zero_small _ h
  unfold wrapped
  rw [select_apply, hlt, select_zero]

/-- The bounds mask is all ones. -/
theorem inBounds_eq (x : IVec S1024x20 32) (hx : ∀ i, (x i).toNat ≤ 999999) (b : Fin 1024) (j : Fin 20) (c : Fin 4) :
    inBounds x (ix3 b j c) = 1#1 := by
  unfold inBounds
  rw [Host.reduce_eq_foldl]
  refine foldl_andi_one _ _ fun i _ => ?_
  obtain ⟨b', j', c', k, rfl⟩ : ∃ (b' : Fin 1024) (j' : Fin 20) (c' : Fin 4) (k : Fin 1), i = ix4 b' j' c' k :=
    ⟨i 0, i 1, i 2, i 3, eq_ix4 i⟩
  have hle := ctx_le x hx b' j' c'
  show IntOp.andi (IntOp.cmpi .sge (idx x (ix4 b' j' c' k)) 0#32) (IntOp.cmpi .sle (idx x (ix4 b' j' c' k)) 999999#32) = 1#1
  rw [idx_apply, wrapped_eq x b' j' c' hle]
  exact in_table_small _ hle

/-! ## The table rows and their sum -/

/-- The lookup at `(b, j, c, e)` reads the table row the specification names. -/
theorem emb_eq (x : IVec S1024x20 32) (W : FVec Ideal S1000000x64 .f32) (hx : ∀ i, (x i).toNat ≤ 999999)
    (b : Fin 1024) (j : Fin 20) (c : Fin 4) (e : Fin 64) :
    emb x W (ix4 b j c e) = W (ix2 (Cert.Cbow.rowOf (Cert.Cbow.ctxTok x b j c)) e) := by
  have hle := ctx_le x hx b j c
  have hct := ctx_toNat x b j c
  have hlt : Cert.Cbow.ctxTok x b j c < 1000000 := by rw [← hct]; omega
  unfold emb
  rw [select_apply, bcast_cols_apply, inBounds_eq x hx, select_one]
  refine gather_W_at W _ b j c e _ ?_
  rw [idx_apply, wrapped_eq x b j c hle, clamp_small _ hle, hct, Cert.Cbow.rowOf_of_lt hlt]

/-- The sum's shape fact in the form that names the inserted index. -/
theorem red1 : Shape.Reduces S1024x20x4x64 [1] S1024x4x64 := by decide

/-- The reference's term is the specification. -/
theorem refTerm_eq_spec (x : IVec Cert.Cbow.SX 32) (W : FVec Ideal Cert.Cbow.SW .f32)
    (hx : ∀ i, (x i).toNat ≤ 999999) : refTerm x W = Cert.Cbow.spec x W := by
  funext i
  obtain ⟨b, c, e, rfl⟩ : ∃ (b : Fin 1024) (c : Fin 4) (e : Fin 64), i = ix3 b c e := ⟨i 0, i 1, i 2, eq_ix3 i⟩
  rw [Cert.Cbow.spec_apply]
  show Host.reduceAdd (emb x W) (constant S_ .f32 0x00000000#32) reducesTo_S1024x20x4x64_S1024x4x64_d1 h_S_ (ix3 b c e) = _
  rw [hostReduceAdd_apply, Ideal.hostReduceAdd_single reducesTo_S1024x20x4x64_S1024x4x64_d1 red1]
  show Ideal.ofBits .f32 0x00000000#32 + _ = _
  rw [Ideal.ofBits_zero_f32, zero_add]
  unfold Cert.Cbow.specAt
  refine Finset.sum_congr rfl fun k _ => ?_
  have hl : red1.lift (ix3 b c e) k = ix4 b k c e :=
    funext fun a => Fin.ext (match a with | ⟨0, _⟩ => rfl | ⟨1, _⟩ => rfl | ⟨2, _⟩ => rfl | ⟨3, _⟩ => rfl)
  rw [hl]
  exact emb_eq x W hx b k c e

end Cert.ReferenceIdeal.RefRun

end
-- ==== Proof.PreFacts.lean ====
/-
  What the precondition says of the argument arrays.

  The precondition is the conjunction of two whole-array tests: every entry of the table is below `+∞` in absolute
  value, and every token lies in `[0, 999999]` read as a signed word. Each test is a reduction by `and` of a
  pointwise comparison that came out 1, so the comparison holds at every index. Read back: a token's unsigned value
  is at most 999999 (a signed word that is nonnegative reads the same unsigned), and over the extended reals every
  table entry is a real number (`max t (−t) < ⊤` excludes both infinities).
-/
import proofs.«204099_g60593398612478_cont_9to1c4b_39_23_alg».proof.Proof.Spec
import proofs.«204099_g60593398612478_cont_9to1c4b_39_23_alg».proof.Pre_input_domain
import proofs.«204099_g60593398612478_cont_9to1c4b_39_23_alg».proof.Proof.Gen.Pre_input_domain
import Idealize.ShloMosaic.Lib.ReduceAll

noncomputable section

namespace Cert.Cbow.PreFacts

open Idealize.ShloMosaic Idealize.ShloMosaic.ValueIdx

/-- The result of a reduction over every axis has one index. -/
instance : Subsingleton Cert.Pre_input_domain.S_.Idx := ⟨fun a b => funext fun d => d.elim0⟩

/-- A signed 32-bit word between 0 and 999999 has that unsigned value too. -/
theorem toNat_le_of_signed {v : BitVec 32} (h0 : (0#32 : BitVec 32).toInt ≤ v.toInt)
    (h1 : v.toInt ≤ (999999#32 : BitVec 32).toInt) : v.toNat ≤ 999999 := by
  rw [show (0#32 : BitVec 32).toInt = 0 from by decide] at h0
  rw [show (999999#32 : BitVec 32).toInt = 999999 from by decide] at h1
  have := BitVec.toInt_eq_toNat_cond v
  split at this <;> omega

/-- Under the precondition every token is at most 999999. -/
theorem tok_le_of_pre {F : FTy → Type} [FloatOps F] [Cert.Pre_input_domain.Facts]
    (x : IVec Cert.Cbow.SX 32) (W : FVec F Cert.Cbow.SW .f32)
    (h : Cert.Pre_input_domain.fn (F := F) x W = fun _ => 1#1) : ∀ i, (x i).toNat ≤ 999999 := by
  intro i
  have h0 := congrFun h ValueIdx.ix0
  dsimp only [Cert.Pre_input_domain.fn] at h0
  obtain ⟨-, h1⟩ := IntOp.andi_eq_one.1 h0
  have h2 := Host.reduce_andi_all _ _ _ _ _ h1 i
  obtain ⟨hge, hle⟩ := IntOp.andi_eq_one.1 h2
  exact toNat_le_of_signed (IntOp.cmpi_sge.1 hge) (IntOp.cmpi_sle.1 hle)

/-- Under the precondition, over the extended reals, every table entry is a real number. -/
theorem real_of_pre [Cert.Pre_input_domain.Facts]
    (x : IVec Cert.Cbow.SX 32) (W : FVec Ideal Cert.Cbow.SW .f32)
    (h : Cert.Pre_input_domain.fn (F := Ideal) x W = fun _ => 1#1) : ∀ i, ∃ r : ℝ, W i = (r : EReal) := by
  intro i
  have h0 := congrFun h ValueIdx.ix0
  dsimp only [Cert.Pre_input_domain.fn] at h0
  obtain ⟨h1, -⟩ := IntOp.andi_eq_one.1 h0
  have h2 := Host.reduce_andi_all _ _ _ _ _ h1 i
  have h3 : Ideal.cmp .olt (max (W i) (-(W i))) (Ideal.ofBits .f32 0x7F800000#32) = 1#1 := h2
  have htop : Ideal.ofBits .f32 0x7F800000#32 = ⊤ := by simp [Ideal.ofBits, Ideal.ieee]
  rw [htop] at h3
  generalize W i = y at h3 ⊢
  induction y using EReal.rec with
  | bot => simp [Ideal.cmp] at h3
  | coe r => exact ⟨r, rfl⟩
  | top => simp [Ideal.cmp] at h3

end Cert.Cbow.PreFacts

end
-- ==== Proof.Claims.lean ====
/-
  The certificate's claims from the two programs' runs.

  Each kernel program's run leaves the result at the array `G` of the kernel's context sums and the two arguments as
  they were; the reference's run leaves its result at the reference's term of the arguments. The precondition bounds
  every token by 999999 and, over the extended reals, makes every table entry real. Under it the reference's term is
  the specification, and so is `G`: the kernel's sums are the specification's once the entries taken away again are
  real. The frames are the runs with the result dropped; the word-level frame is the same run at the other instance.
-/
import proofs.«204099_g60593398612478_cont_9to1c4b_39_23_alg».proof.Defs
import proofs.«204099_g60593398612478_cont_9to1c4b_39_23_alg».proof.Proof.Gen.Kernel
import proofs.«204099_g60593398612478_cont_9to1c4b_39_23_alg».proof.Proof.Gen.KernelIdeal
import proofs.«204099_g60593398612478_cont_9to1c4b_39_23_alg».proof.Proof.Gen.ReferenceIdeal
import proofs.«204099_g60593398612478_cont_9to1c4b_39_23_alg».proof.Proof.Gen.Pre_input_domain
import proofs.«204099_g60593398612478_cont_9to1c4b_39_23_alg».proof.Proof.KernelIdeal.Launch
import proofs.«204099_g60593398612478_cont_9to1c4b_39_23_alg».proof.Proof.Kernel.Launch
import proofs.«204099_g60593398612478_cont_9to1c4b_39_23_alg».proof.Proof.KernelIdeal.GSpec
import proofs.«204099_g60593398612478_cont_9to1c4b_39_23_alg».proof.Proof.RefRun
import proofs.«204099_g60593398612478_cont_9to1c4b_39_23_alg».proof.Proof.RefVal
import proofs.«204099_g60593398612478_cont_9to1c4b_39_23_alg».proof.Proof.PreFacts
import Idealize.ShloMosaic.Adequacy
import Idealize.ShloMosaic.Init

noncomputable section

namespace Cert.Proof

open Idealize.ShloMosaic Idealize.SL.Sem

/-! ## What the precondition gives -/

/-- Under the precondition every token of the word-level program's first argument is at most 999999. -/
theorem preOK_Kernel (m : (ℓ : Loc Cert.Kernel.nD Cert.Kernel.τ Cert.Kernel.sig) → Buf (Elt Bits) ℓ)
    (hpre : Cert.Pre_Kernel (hPre_input_domain := Cert.Pre_input_domain.Gen.facts) m) : Cert.Proof.Kernel.PreOK m :=
  fun d i => Cert.Cbow.PreFacts.tok_le_of_pre (F := Bits) _ _ (hpre d) i

/-- The same over the extended reals. -/
theorem preOK_KernelIdeal (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) : Cert.Proof.KernelIdeal.PreOK m :=
  fun d i => Cert.Cbow.PreFacts.tok_le_of_pre (F := Ideal) _ _ (hpre d) i

/-- Under the precondition, over the extended reals, every table entry is a real number. -/
theorem real_KernelIdeal (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    ∀ (d : Dev Cert.KernelIdeal.nD) (i : Cert.KernelIdeal.S1000000x64.Idx),
      ∃ r : ℝ, m (Cert.Proof.KernelIdeal.a1Loc d) i = (r : EReal) :=
  fun d => Cert.Cbow.PreFacts.real_of_pre _ _ (hpre d)

/-! ## The claims -/

section
variable
  (hK : ∀ m : (ℓ : Loc Cert.Kernel.nD Cert.Kernel.τ Cert.Kernel.sig) → Buf (Elt Bits) ℓ,
    Cert.Proof.Kernel.PreOK m → Cert.Proof.Kernel.TileBody (F := Bits) m)
  (hKI : ∀ m : (ℓ : Loc Cert.KernelIdeal.nD Cert.KernelIdeal.τ Cert.KernelIdeal.sig) → Buf (Elt Ideal) ℓ,
    Cert.Proof.KernelIdeal.PreOK m → Cert.Proof.KernelIdeal.TileBody (F := Ideal) m)

include hK in
/-- The word-level program runs and leaves its arguments unchanged. -/
theorem frame_Kernel :
    Cert.frame_Kernel (hKernel := Cert.Kernel.Gen.facts) (hPre_input_domain := Cert.Pre_input_domain.Gen.facts) :=
  fun m ρ hpre => (θ_run _ _ _).mono (fun _ h c => ⟨(h c).2.1, (h c).2.2⟩)
    (Cert.Proof.Kernel.run_main (F := Bits) m ρ (hK m (preOK_Kernel m hpre)))

include hKI in
/-- The idealized program runs and leaves its arguments unchanged. -/
theorem frame_KernelIdeal :
    Cert.frame_KernelIdeal (hKernelIdeal := Cert.KernelIdeal.Gen.facts) (hPre_input_domain := Cert.Pre_input_domain.Gen.facts) :=
  fun m ρ hpre => (θ_run _ _ _).mono (fun _ h c => ⟨(h c).2.1, (h c).2.2⟩)
    (Cert.Proof.KernelIdeal.run_main (F := Ideal) m ρ (hKI m (preOK_KernelIdeal m hpre)))

/-- The reference runs and leaves its arguments unchanged. -/
theorem frame_ReferenceIdeal :
    Cert.frame_ReferenceIdeal (hReferenceIdeal := Cert.ReferenceIdeal.Gen.facts) (hPre_input_domain := Cert.Pre_input_domain.Gen.facts) :=
  fun m ρ _ => (θ_run _ _ _).mono (fun _ h c => (h c).2) (Cert.ReferenceIdeal.RefRun.run m ρ)

include hKI in
/-- Over the extended reals, from memories agreeing on the arguments, the kernel and the reference end with equal
    results: both are the specification of the arguments. -/
theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  fun m ρ m' ρ' hpre hagree =>
    ⟨fun c => Cert.Proof.KernelIdeal.G (F := Ideal) m c,
      Cert.Proof.KernelIdeal.run_main (F := Ideal) m ρ (hKI m (preOK_KernelIdeal m hpre)),
      (θ_run _ _ _).mono (fun _ h c =>
        ⟨(h c).1.trans ((congrArg₂ Cert.ReferenceIdeal.RefRun.refTerm (hagree c).1 (hagree c).2).trans
            ((Cert.ReferenceIdeal.RefRun.refTerm_eq_spec _ _ (preOK_KernelIdeal m hpre c)).trans
              (Cert.Proof.KernelIdeal.G_eq_spec m (preOK_KernelIdeal m hpre) (real_KernelIdeal m hpre) c).symm)),
          (h c).2⟩)
        (Cert.ReferenceIdeal.RefRun.run m' ρ')⟩

include hK hKI in
/-- Every claim of the certificate, from the two tile-body theorems. -/
theorem claim_of : Cert.Claim :=
  ⟨Cert.Kernel.Gen.facts, Cert.KernelIdeal.Gen.facts, Cert.ReferenceIdeal.Gen.facts, Cert.Pre_input_domain.Gen.facts,
    frame_Kernel hK, frame_KernelIdeal hKI, frame_ReferenceIdeal, trivial, algebraic hKI⟩

end

end Cert.Proof

end
-- ==== Proof.KernelIdeal.Chk.lean ====
/-
  The table slices the kernel takes are inside the table.

  For each of the sixteen tokens a loop trip extracts, the kernel takes from the re-laid table `[125000, 8, 64]` the one
  row of 64 entries at offsets `(v >>> 3, v &&& 7, 0)`, `v` the token's word: the quotient and the remainder of the token
  by 8. The slice is inside the table as soon as the quotient is below 125000, that is, the token at most 999999 (the
  remainder is below 8 and the 64 columns are the whole last axis).
-/
import proofs.«204099_g60593398612478_cont_9to1c4b_39_23_alg».proof.KernelIdeal
import proofs.«204099_g60593398612478_cont_9to1c4b_39_23_alg».proof.Proof.Relay

namespace Cert.Proof.KernelIdeal

open Idealize.ShloMosaic Cert.KernelIdeal

/-- The offsets the kernel computes from a token's word: its quotient and remainder by 8, and column 0. -/
theorem off_eq (v : BitVec 32) :
    (![(Scalar.shrui v 3#32).toNat, (Scalar.andi v 7#32).toNat, 0] : Fin 3 → Nat)
      = ![v.toNat / 8, v.toNat % 8, 0] := by
  rw [Cert.Cbow.Relay.shr3_toNat, Cert.Cbow.Relay.and7_toNat]

/-- One row of 64 entries at those offsets lies inside the table when the token is at most 999999. -/
theorem inb_of_le (v : BitVec 32) (h : v.toNat ≤ 999999) :
    ∀ a : Fin 3, (![v.toNat / 8, v.toNat % 8, 0] : Fin 3 → Nat) a + S1x1x64.size a ≤ S125000x8x64.size a
  | ⟨0, _⟩ => by show v.toNat / 8 + 1 ≤ 125000; omega
  | ⟨1, _⟩ => by show v.toNat % 8 + 1 ≤ 8; omega
  | ⟨2, _⟩ => by show 0 + 64 ≤ 64; omega

/-! ## The sixteen offset terms in closed form -/

theorem off4_eq (v : BitVec 32) : k0_off4 v = ![v.toNat / 8, v.toNat % 8, 0] := off_eq v
theorem off6_eq (v : BitVec 32) : k0_off6 v = ![v.toNat / 8, v.toNat % 8, 0] := off_eq v
theorem off8_eq (v : BitVec 32) : k0_off8 v = ![v.toNat / 8, v.toNat % 8, 0] := off_eq v
theorem off10_eq (v : BitVec 32) : k0_off10 v = ![v.toNat / 8, v.toNat % 8, 0] := off_eq v
theorem off12_eq (v : BitVec 32) : k0_off12 v = ![v.toNat / 8, v.toNat % 8, 0] := off_eq v
theorem off14_eq (v : BitVec 32) : k0_off14 v = ![v.toNat / 8, v.toNat % 8, 0] := off_eq v
theorem off16_eq (v : BitVec 32) : k0_off16 v = ![v.toNat / 8, v.toNat % 8, 0] := off_eq v
theorem off18_eq (v : BitVec 32) : k0_off18 v = ![v.toNat / 8, v.toNat % 8, 0] := off_eq v
theorem off20_eq (v : BitVec 32) : k0_off20 v = ![v.toNat / 8, v.toNat % 8, 0] := off_eq v
theorem off22_eq (v : BitVec 32) : k0_off22 v = ![v.toNat / 8, v.toNat % 8, 0] := off_eq v
theorem off24_eq (v : BitVec 32) : k0_off24 v = ![v.toNat / 8, v.toNat % 8, 0] := off_eq v
theorem off26_eq (v : BitVec 32) : k0_off26 v = ![v.toNat / 8, v.toNat % 8, 0] := off_eq v
theorem off28_eq (v : BitVec 32) : k0_off28 v = ![v.toNat / 8, v.toNat % 8, 0] := off_eq v
theorem off30_eq (v : BitVec 32) : k0_off30 v = ![v.toNat / 8, v.toNat % 8, 0] := off_eq v
theorem off32_eq (v : BitVec 32) : k0_off32 v = ![v.toNat / 8, v.toNat % 8, 0] := off_eq v
theorem off34_eq (v : BitVec 32) : k0_off34 v = ![v.toNat / 8, v.toNat % 8, 0] := off_eq v

/-! ## The sixteen side conditions, from the token's range -/

theorem chk1_of_le (v : BitVec 32) (h : v.toNat ≤ 999999) : k0_chk1 v := by
  unfold k0_chk1; rw [off4_eq]; exact inb_of_le v h
theorem chk2_of_le (v : BitVec 32) (h : v.toNat ≤ 999999) : k0_chk2 v := by
  unfold k0_chk2; rw [off6_eq]; exact inb_of_le v h
theorem chk3_of_le (v : BitVec 32) (h : v.toNat ≤ 999999) : k0_chk3 v := by
  unfold k0_chk3; rw [off8_eq]; exact inb_of_le v h
theorem chk4_of_le (v : BitVec 32) (h : v.toNat ≤ 999999) : k0_chk4 v := by
  unfold k0_chk4; rw [off10_eq]; exact inb_of_le v h
theorem chk5_of_le (v : BitVec 32) (h : v.toNat ≤ 999999) : k0_chk5 v := by
  unfold k0_chk5; rw [off12_eq]; exact inb_of_le v h
theorem chk6_of_le (v : BitVec 32) (h : v.toNat ≤ 999999) : k0_chk6 v := by
  unfold k0_chk6; rw [off14_eq]; exact inb_of_le v h
theorem chk7_of_le (v : BitVec 32) (h : v.toNat ≤ 999999) : k0_chk7 v := by
  unfold k0_chk7; rw [off16_eq]; exact inb_of_le v h
theorem chk8_of_le (v : BitVec 32) (h : v.toNat ≤ 999999) : k0_chk8 v := by
  unfold k0_chk8; rw [off18_eq]; exact inb_of_le v h
theorem chk9_of_le (v : BitVec 32) (h : v.toNat ≤ 999999) : k0_chk9 v := by
  unfold k0_chk9; rw [off20_eq]; exact inb_of_le v h
theorem chk10_of_le (v : BitVec 32) (h : v.toNat ≤ 999999) : k0_chk10 v := by
  unfold k0_chk10; rw [off22_eq]; exact inb_of_le v h
theorem chk11_of_le (v : BitVec 32) (h : v.toNat ≤ 999999) : k0_chk11 v := by
  unfold k0_chk11; rw [off24_eq]; exact inb_of_le v h
theorem chk12_of_le (v : BitVec 32) (h : v.toNat ≤ 999999) : k0_chk12 v := by
  unfold k0_chk12; rw [off26_eq]; exact inb_of_le v h
theorem chk13_of_le (v : BitVec 32) (h : v.toNat ≤ 999999) : k0_chk13 v := by
  unfold k0_chk13; rw [off28_eq]; exact inb_of_le v h
theorem chk14_of_le (v : BitVec 32) (h : v.toNat ≤ 999999) : k0_chk14 v := by
  unfold k0_chk14; rw [off30_eq]; exact inb_of_le v h
theorem chk15_of_le (v : BitVec 32) (h : v.toNat ≤ 999999) : k0_chk15 v := by
  unfold k0_chk15; rw [off32_eq]; exact inb_of_le v h
theorem chk16_of_le (v : BitVec 32) (h : v.toNat ≤ 999999) : k0_chk16 v := by
  unfold k0_chk16; rw [off34_eq]; exact inb_of_le v h

end Cert.Proof.KernelIdeal
-- ==== Proof.KernelIdeal.Fire.lean ====
/-
  The gather: 640 row copies started on one DMA semaphore before any is waited for.

  Tile worker `w` holds its 640 tokens in a scratch; token `t` names row `tok / 8`, sub-row `tok % 8` of the
  re-laid table, and its 64 entries are copied into row `t` of the gathered-rows scratch. All 640 copies are one
  counted batch on the kernel's semaphore: delivery `t` is row `t` of the scratch holding that table row. This
  module states the deliveries and proves the rule for one issue; the 16 destination slices a loop trip names are
  rows `16 k + l`.
-/
import proofs.«204099_g60593398612478_cont_9to1c4b_39_23_alg».proof.Proof.KernelIdeal.Setup
import proofs.«204099_g60593398612478_cont_9to1c4b_39_23_alg».proof.Proof.KernelIdeal.Chk
import Idealize.ShloMosaic.Lib.Pipeline.Value

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

abbrev dst0 (k : Fin k0_t1_loop.trips) : Memref sig .scVector .vmem S1x64 .f32 := sR.slice (Rect.unit (s := S640x64) (k0_off5 k 0#32) S1x64.size (k0_off5_inb k 0)) (fun _ => rfl)
abbrev dst1 (k : Fin k0_t1_loop.trips) : Memref sig .scVector .vmem S1x64 .f32 := sR.slice (Rect.unit (s := S640x64) (k0_off7 k 1#32) S1x64.size (k0_off7_inb k 0)) (fun _ => rfl)
abbrev dst2 (k : Fin k0_t1_loop.trips) : Memref sig .scVector .vmem S1x64 .f32 := sR.slice (Rect.unit (s := S640x64) (k0_off9 k 2#32) S1x64.size (k0_off9_inb k 0)) (fun _ => rfl)
abbrev dst3 (k : Fin k0_t1_loop.trips) : Memref sig .scVector .vmem S1x64 .f32 := sR.slice (Rect.unit (s := S640x64) (k0_off11 k 3#32) S1x64.size (k0_off11_inb k 0)) (fun _ => rfl)
abbrev dst4 (k : Fin k0_t1_loop.trips) : Memref sig .scVector .vmem S1x64 .f32 := sR.slice (Rect.unit (s := S640x64) (k0_off13 k 4#32) S1x64.size (k0_off13_inb k 0)) (fun _ => rfl)
abbrev dst5 (k : Fin k0_t1_loop.trips) : Memref sig .scVector .vmem S1x64 .f32 := sR.slice (Rect.unit (s := S640x64) (k0_off15 k 5#32) S1x64.size (k0_off15_inb k 0)) (fun _ => rfl)
abbrev dst6 (k : Fin k0_t1_loop.trips) : Memref sig .scVector .vmem S1x64 .f32 := sR.slice (Rect.unit (s := S640x64) (k0_off17 k 6#32) S1x64.size (k0_off17_inb k 0)) (fun _ => rfl)
abbrev dst7 (k : Fin k0_t1_loop.trips) : Memref sig .scVector .vmem S1x64 .f32 := sR.slice (Rect.unit (s := S640x64) (k0_off19 k 7#32) S1x64.size (k0_off19_inb k 0)) (fun _ => rfl)
abbrev dst8 (k : Fin k0_t1_loop.trips) : Memref sig .scVector .vmem S1x64 .f32 := sR.slice (Rect.unit (s := S640x64) (k0_off21 k 8#32) S1x64.size (k0_off21_inb k 0)) (fun _ => rfl)
abbrev dst9 (k : Fin k0_t1_loop.trips) : Memref sig .scVector .vmem S1x64 .f32 := sR.slice (Rect.unit (s := S640x64) (k0_off23 k 9#32) S1x64.size (k0_off23_inb k 0)) (fun _ => rfl)
abbrev dst10 (k : Fin k0_t1_loop.trips) : Memref sig .scVector .vmem S1x64 .f32 := sR.slice (Rect.unit (s := S640x64) (k0_off25 k 10#32) S1x64.size (k0_off25_inb k 0)) (fun _ => rfl)
abbrev dst11 (k : Fin k0_t1_loop.trips) : Memref sig .scVector .vmem S1x64 .f32 := sR.slice (Rect.unit (s := S640x64) (k0_off27 k 11#32) S1x64.size (k0_off27_inb k 0)) (fun _ => rfl)
abbrev dst12 (k : Fin k0_t1_loop.trips) : Memref sig .scVector .vmem S1x64 .f32 := sR.slice (Rect.unit (s := S640x64) (k0_off29 k 12#32) S1x64.size (k0_off29_inb k 0)) (fun _ => rfl)
abbrev dst13 (k : Fin k0_t1_loop.trips) : Memref sig .scVector .vmem S1x64 .f32 := sR.slice (Rect.unit (s := S640x64) (k0_off31 k 13#32) S1x64.size (k0_off31_inb k 0)) (fun _ => rfl)
abbrev dst14 (k : Fin k0_t1_loop.trips) : Memref sig .scVector .vmem S1x64 .f32 := sR.slice (Rect.unit (s := S640x64) (k0_off33 k 14#32) S1x64.size (k0_off33_inb k 0)) (fun _ => rfl)
abbrev dst15 (k : Fin k0_t1_loop.trips) : Memref sig .scVector .vmem S1x64 .f32 := sR.slice (Rect.unit (s := S640x64) (k0_off35 k) S1x64.size (k0_off35_inb k)) (fun _ => rfl)

/-! ## The gathered rows, row by row -/

theorem trips1 : k0_t1_loop.trips = 40 := by decide
theorem klt (k : Fin k0_t1_loop.trips) : k.val < 40 := lt_of_lt_of_eq k.isLt trips1

theorem rowM_inb (t : Fin 640) : ∀ a, (![t.val, 0] : Fin 2 → Nat) a + S1x64.size a ≤ S640x64.size a := by
  have := t.isLt
  intro a; fin_cases a
  · show t.val + 1 ≤ 640; omega
  · show 0 + 64 ≤ 64; omega
/-- Row `t` of the gathered-rows scratch, as a memref. -/
abbrev rowM (t : Fin 640) : Memref sig .scVector .vmem S1x64 .f32 :=
  sR.slice (Rect.unit (s := S640x64) ![t.val, 0] S1x64.size (rowM_inb t)) (fun _ => rfl)

/-- The table row a token names, as the kernel slices it out of the re-laid table. -/
abbrev srcM (v : BitVec 32) (hv : k0_chk1 v) : Memref sig .scVector .hbm S1x64 .f32 :=
  (wV.slice (Rect.unit (s := S125000x8x64) (k0_off4 v) S1x1x64.size (k0_off4_inb v hv)) (fun _ => rfl)).squeeze S1x64 squeezes_S1x1x64_S1x64

/-- One copy's credit on the kernel's semaphore. -/
abbrev NR : ℕ := 2048

theorem amount_row (a : Fin 2 → Nat) (pa : ∀ x, a x + S1x64.size x ≤ S640x64.size x) :
    (sR.slice (Rect.unit (s := S640x64) a S1x64.size pa) (fun _ => rfl)).view.amount (SemLoc.dma cc0_scratch4.sem) = NR := by
  show RefSig.bitCredit S1x64 .f32 = 2048; decide

section
variable (W3 : Buf (Elt F) (wLoc d)) (CI : Buf (Elt F) ((thr d L).loc cc0_scratch0)) (fR : Buf (Elt F) ((thr d L).loc cc0_scratch1))

/-- Token `t` of the tile, as its token scratch holds it. -/
def tokAt (t : Fin 640) : BitVec 32 := CI (ValueIdx.ix1 (⟨t.val, by omega⟩ : Fin 656))

/-- Lane `l` of the sixteen tokens trip `k` loads is token `16 k + l`. -/
theorem tok_eq (k : Fin k0_t1_loop.trips) (l : Nat) (hl : l < 16) (hs : S16.Slices ![l] S1) :
    extractAt ![0] (extractStridedSlice S1 ![l] (shapeCast S16 (View.readAt (Elt F) (sI).view (Rect.unit (s := S656) (k0_off2 k) S16.size (k0_off2_inb k)).toLoadRect CI) shapeCasts_S16_S16) hs) inpos_S1_p0
      = tokAt d L CI ⟨16 * k.val + l, by have := klt k; omega⟩ := by
  show CI _ = CI _
  congr 1
  funext a
  rcases a with ⟨_ | n, hn⟩
  · apply Fin.ext
    erw [Shape.reshapeEquiv_self]
    show k0_off2 k 0 + 1 * l = 16 * k.val + l
    rw [k0_off2_eq k]; simp
  · exact absurd hn (by show ¬ (n + 1 < 1); omega)

/-- Every token the tile holds is in the table's range. -/
abbrev TokOK : Prop := ∀ i : S656.Idx, (i 0).val < 640 → (CI i).toNat ≤ 999999

theorem tokAt_le (hCI : TokOK d L CI) (t : Fin 640) : (tokAt d L CI t).toNat ≤ 999999 := hCI _ t.isLt

/-- The tokens a trip extracts are in the table's range. -/
theorem tok_le (hCI : TokOK d L CI) (k : Fin k0_t1_loop.trips) (l : Nat) (hl : l < 16) (hs : S16.Slices ![l] S1) :
    (extractAt ![0] (extractStridedSlice S1 ![l] (shapeCast S16 (View.readAt (Elt F) (sI).view (Rect.unit (s := S656) (k0_off2 k) S16.size (k0_off2_inb k)).toLoadRect CI) shapeCasts_S16_S16) hs) inpos_S1_p0).toNat ≤ 999999 := by
  rw [tok_eq d L CI k l hl hs]; exact tokAt_le d L CI hCI _

/-- What row `t` of the scratch holds once its copy has landed: the table row token `t` names, written over the row. -/
def landed (hCI : TokOK d L CI) (t : Fin 640) : Buf (Elt F) ((rowM t).view.loc (thr d L)) :=
  (rowM t).view.write (Elt F) fR
    (ReadAs.same.apply ((srcM (tokAt d L CI t) (chk1_of_le _ (tokAt_le d L CI hCI t))).view.read (Elt F) W3)) Finset.univ

/-- Delivery `t` of the batch: row `t` of the scratch, landed. -/
def Dv (hCI : TokOK d L CI) (t : Fin 640) : sProp 𝕄 :=
  (rowM t).view.loc (thr d L) ↦[(rowM t).view.set]{fullShare} landed d L W3 CI fR hCI t

instance Dv_storable (hCI : TokOK d L CI) (t : Fin 640) : BI.Storable (upEmb : UEmb _ 𝕄) (Dv d L W3 CI fR hCI t) := by
  unfold Dv; infer_instance

/-- The batch on the kernel's semaphore with `j` copies issued and none waited for, behind a name. -/
def BatchH (hCI : TokOK d L CI) (j : ℕ) : sProp 𝕄 :=
  Transfers.Batch (countersEmb (U := UU)) (thr d L) (.dma cc0_scratch4.sem) (none : HIx 1) NR (Dv d L W3 CI fR hCI) j 0

/-- One issue: from a read share of the table, row `t` of the scratch (named by offsets that are `[t, 0]`) and the
    batch with `t` issued, the copy of the table row token `t` names into that row is the batch's next transfer. -/
theorem issue_rule {α : Type} (hCI : TokOK d L CI) (t : Fin 640) (a : Fin 2 → Nat) (pa : ∀ x, a x + S1x64.size x ≤ S640x64.size x)
    (ha : a = ![t.val, 0]) (v : BitVec 32) (hvt : v = tokAt d L CI t) (hv : k0_chk1 v) (q : PosShare TreeShare)
    (hsW : (srcM v hv).view.WordExact) (hdW : (sR.slice (Rect.unit (s := S640x64) a S1x64.size pa) (fun _ => rfl)).view.WordExact)
    (hsem : DmaTarget.Typed (nD := nD) Space.hbm (SemLoc.dma cc0_scratch4.sem)
      (DmaTarget.here (p := (thr d L).2) (sR.slice (Rect.unit (s := S640x64) a S1x64.size pa) (fun _ => rfl))))
    (rest : PUnit → Prog (TpuEff nD τ sig (Elt F) Λ₀ (thr d L).2) α) (Q : α → sProp 𝕄) :
    iprop(((wV).view.loc (thr d L) ↦{q} W3)
        ∗ ((sR.slice (Rect.unit (s := S640x64) a S1x64.size pa) (fun _ => rfl)).view.loc (thr d L)
            ↦[(sR.slice (Rect.unit (s := S640x64) a S1x64.size pa) (fun _ => rfl)).view.set]{fullShare} fR)
        ∗ BatchH d L W3 CI fR hCI t.val)
      ⊢ iprop((BatchH d L W3 CI fR hCI (t.val + 1) -∗ wp frame (wpE (defs₀ (F := F)) 𝒱₀ (thr d L) none) Set.univ (rest ⟨⟩) Q)
          -∗ wp frame (wpE (defs₀ (F := F)) 𝒱₀ (thr d L) none) Set.univ
              (.op (.enqueueDmaAs (srcM v hv) (.here (sR.slice (Rect.unit (s := S640x64) a S1x64.size pa) (fun _ => rfl))) .same
                (.dma cc0_scratch4.sem) hsW hdW hsem) rest) Q) := by
  subst ha; subst hvt
  unfold BatchH
  iintro ⟨Hw, Hd, HB⟩
  ihave Hw' := (pointsTo_split_subset (Finset.subset_univ _)).1 $$ Hw
  icases Hw' with ⟨Hs, -⟩
  have hD : iprop(((rowM t).view.loc (thr d L) ↦[(rowM t).view.set]{fullShare}
        ((rowM t).view.write (Elt F) fR (ReadAs.same.apply ((srcM (tokAt d L CI t) hv).view.read (Elt F) W3)) Finset.univ))
      ∗ ((srcM (tokAt d L CI t) hv).view.loc (thr d L) ↦[(srcM (tokAt d L CI t) hv).view.set]{q} W3) : sProp 𝕄)
      ⊢ Dv d L W3 CI fR hCI t := by
    iintro ⟨Hd, -⟩
    unfold Dv landed
    iexact Hd
  iapply (Transfers.wp_dmaBatch (countersEmb (U := UU)) 𝒱₀ (thr d L) none (none : HIx 1) NR (amount_row _ _) subset_rfl t.isLt (Nat.zero_le _) hD) $$ [Hs Hd HB]
  · isplitl [Hs]; · iexact Hs
    isplitl [Hd] <;> iassumption

end

end Cert.Proof.KernelIdeal

end
-- ==== Proof.KernelIdeal.Rows.lean ====
/-
  After the drain the tile holds the scratch of gathered rows one row at a time, each as its own copy left it. The
  rows are pairwise disjoint and cover the scratch, so together they are the whole scratch at ONE function: row `t`
  of it is what copy `t` landed.
-/
import proofs.«204099_g60593398612478_cont_9to1c4b_39_23_alg».proof.Proof.KernelIdeal.Fire

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

section
variable (W3 : Buf (Elt F) (wLoc d)) (CI : Buf (Elt F) ((thr d L).loc cc0_scratch0)) (fR : Buf (Elt F) ((thr d L).loc cc0_scratch1))

/-- The gathered-rows scratch as a location of the tile. -/
abbrev rLoc : Loc nD τ sig := (thr d L).loc cc0_scratch1
/-- Row `t`'s elements. -/
abbrev rowSetR (t : Fin 640) : Finset S640x64.Idx := (rowM t).view.set

theorem rowSetR_eq (t : Fin 640) : rowSetR t = (Rect.unit (s := S640x64) ![t.val, 0] S1x64.size (rowM_inb t)).set := by
  show ((View.whole (cc0_scratch1 : Ref sig .scVector)).slice _).set = _
  rw [View.set_slice]; exact Finset.map_refl

theorem mem_rowSetR (t : Fin 640) (i : S640x64.Idx) : i ∈ rowSetR t ↔ (i 0).val = t.val := by
  rw [rowSetR_eq, Rect.mem_set_unit]
  constructor
  · intro h; have h0 := h 0
    simp only [Matrix.cons_val_zero] at h0
    have : S1x64.size 0 = 1 := rfl
    omega
  · intro h a
    fin_cases a
    · simp only [Fin.zero_eta, Matrix.cons_val_zero]
      have : S1x64.size 0 = 1 := rfl
      omega
    · have h1 : (i 1).val < 64 := (i 1).isLt
      show 0 ≤ (i 1).val ∧ (i 1).val < 0 + 64
      omega

theorem rows_disjoint : ∀ t ∈ (Finset.univ : Finset (Fin 640)), ∀ t' ∈ (Finset.univ : Finset (Fin 640)), t ≠ t' → Disjoint (rowSetR t) (rowSetR t') :=
  fun t _ t' _ hne => Finset.disjoint_left.mpr fun i h1 h2 =>
    hne (Fin.ext (((mem_rowSetR t i).1 h1).symm.trans ((mem_rowSetR t' i).1 h2)))

theorem rows_cover : (Finset.univ : Finset (Fin 640)).biUnion rowSetR = Finset.univ :=
  Finset.ext fun i => ⟨fun _ => Finset.mem_univ _, fun _ =>
    Finset.mem_biUnion.mpr ⟨⟨(i 0).val, (i 0).isLt⟩, Finset.mem_univ _, (mem_rowSetR _ i).2 rfl⟩⟩

/-- The gathered rows, all landed: row `t` as copy `t` left it. -/
def Rf (hCI : TokOK d L CI) : Buf (Elt F) (rLoc d L) :=
  fun i : S640x64.Idx => landed d L W3 CI fR hCI ⟨(i 0).val, (i 0).isLt⟩ i

theorem landed_eq_Rf (hCI : TokOK d L CI) (t : Fin 640) : ∀ i ∈ rowSetR t, landed d L W3 CI fR hCI t i = Rf d L W3 CI fR hCI i := by
  intro i hi
  have e : t = ⟨(i 0).val, (i 0).isLt⟩ := Fin.ext ((mem_rowSetR t i).1 hi).symm
  unfold Rf; rw [← e]

/-- Every row landed is the whole scratch at `Rf`. -/
theorem rows_join (hCI : TokOK d L CI) :
    bigSep Finset.univ (Dv d L W3 CI fR hCI) ⊢ (rLoc d L ↦{fullShare} Rf d L W3 CI fR hCI : sProp 𝕄) := by
  have h1 : bigSep Finset.univ (Dv d L W3 CI fR hCI)
      = bigSep Finset.univ fun t : Fin 640 => (rLoc d L ↦[rowSetR t]{fullShare} Rf d L W3 CI fR hCI : sProp 𝕄) :=
    bigSep_congr fun t _ => by
      unfold Dv
      exact pointsTo_congr (landed_eq_Rf d L W3 CI fR hCI t)
  rw [h1, ← pointsTo_biUnion Finset.univ (ℓ := rLoc d L) rowSetR rows_disjoint, rows_cover]

end

end Cert.Proof.KernelIdeal

end
-- ==== Proof.KernelIdeal.Head.lean ====
/-
  What the head of the kernel's body leaves: the tile's tokens — row `w` of the re-laid `x` copied over the first 640
  words of the token scratch —, table row 0 copied into its own scratch, and the slice of the result the tile writes
  at the end.
-/
import proofs.«204099_g60593398612478_cont_9to1c4b_39_23_alg».proof.Proof.KernelIdeal.Rows
import proofs.«204099_g60593398612478_cont_9to1c4b_39_23_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

/-- Row `w` of the re-laid tokens, as the body slices it. -/
abbrev xRowM : Memref sig .scVector .hbm S640 .i32 :=
  (xV.slice (Rect.unit (s := S32x640) (k0_off1 L) S1x640.size (k0_off1_inb L)) (fun _ => rfl)).squeeze S640 squeezes_S1x640_S640
/-- Sub-row 0 of row 0 of the re-laid table. -/
abbrev w0M : Memref sig .scVector .hbm S1x64 .f32 :=
  (wV.slice (Rect.unit (s := S125000x8x64) ![0, 0, 0] S1x1x64.size inb_S125000x8x64_S1x1x64_0_0_0) (fun _ => rfl)).squeeze S1x64 squeezes_S1x1x64_S1x64
/-- The tile's rows of the result, as the body slices them. -/
abbrev oSliceM : Memref sig .scVector .hbm S32x4x64 .f32 :=
  oV.slice (Rect.unit (s := S1024x4x64) (k0_off57 L) S32x4x64.size (k0_off57_inb L)) (fun _ => rfl)

/-- The token scratch after the tokens' copy: the first 640 words are row `w` of the re-laid `x`. -/
def CI0 (X : Buf (Elt F) (xLoc d)) (fI : Buf (Elt F) ((thr d L).loc cc0_scratch0)) : Buf (Elt F) ((thr d L).loc cc0_scratch0) :=
  (sI).view.writes (Elt F) fI [⟨Rect.unit (s := S656) ![0] S640.size inb_S656_S640_0, ReadAs.same.apply ((xRowM L).view.read (Elt F) X)⟩]

/-- The row-0 scratch after its copy. -/
def Z0 (Wt : Buf (Elt F) (wLoc d)) (fZ : Buf (Elt F) ((thr d L).loc cc0_scratch2)) : Buf (Elt F) ((thr d L).loc cc0_scratch2) :=
  (sZ).view.write (Elt F) fZ (ReadAs.same.apply ((w0M).view.read (Elt F) Wt)) Finset.univ

end Cert.Proof.KernelIdeal

end
-- ==== Proof.KernelIdeal.Scoped.lean ====
/-
  A tile's own storage, named: its four DMA semaphores at zero and its four scratch buffers at some contents are among
  what the launch hands it as its scoped semaphores and buffers; the rest rides along untouched.
-/
import proofs.«204099_g60593398612478_cont_9to1c4b_39_23_alg».proof.Proof.KernelIdeal.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

abbrev c4cell : GSem nD τ sig := (thr d L, .dma cc0_scratch4.sem)
abbrev c0cell : GSem nD τ sig := (thr d L, .dma cc0_scoped0.sem)
abbrev c1cell : GSem nD τ sig := (thr d L, .dma cc0_scoped1.sem)
abbrev c2cell : GSem nD τ sig := (thr d L, .dma cc0_scoped2.sem)

omit [FloatOps F] [∀ e, Nonempty (Elt F e)] in
theorem cell_ne {s s' : DmaSem sig} (h : s ≠ s') : ((thr d L, SemLoc.dma s) : GSem nD τ sig) ≠ (thr d L, SemLoc.dma s') :=
  fun e => h (SemLoc.dma.inj (Prod.mk.inj e).2)

omit [FloatOps F] [∀ e, Nonempty (Elt F e)] in
theorem mem_own (s : DmaSem sig) : ((thr d L, SemLoc.dma s) : GSem nD τ sig) ∈ ownCells (thr d L) :=
  (mem_ownCells (g := (thr d L, SemLoc.dma s))).mpr ⟨rfl, by show (SemLoc.dma s : SemLoc sig).isScoped .scVector = true; rfl⟩

/-- The rest of the tile's semaphores. -/
abbrev restCells : Finset (GSem nD τ sig) :=
  ((((ownCells (thr d L)).erase (c4cell d L)).erase (c0cell d L)).erase (c1cell d L)).erase (c2cell d L)

omit [FloatOps F] [∀ e, Nonempty (Elt F e)] in
theorem ownSems0_V :
    (ownSems0 (thr d L) : sProp 𝕄)
      = iprop(semVal (c4cell d L) 0 ∗ semVal (c0cell d L) 0 ∗ semVal (c1cell d L) 0 ∗ semVal (c2cell d L) 0
          ∗ bigSep (restCells d L) fun g => semVal g 0) := by
  unfold SparseCore.Cfg.ownSems0
  rw [SparseCore.bigSep_erase' (mem_own d L cc0_scratch4.sem),
    SparseCore.bigSep_erase' (Finset.mem_erase.mpr ⟨cell_ne d L (by decide), mem_own d L cc0_scoped0.sem⟩),
    SparseCore.bigSep_erase' (Finset.mem_erase.mpr ⟨cell_ne d L (by decide), Finset.mem_erase.mpr ⟨cell_ne d L (by decide), mem_own d L cc0_scoped1.sem⟩⟩),
    SparseCore.bigSep_erase' (Finset.mem_erase.mpr ⟨cell_ne d L (by decide), Finset.mem_erase.mpr ⟨cell_ne d L (by decide),
      Finset.mem_erase.mpr ⟨cell_ne d L (by decide), mem_own d L cc0_scoped2.sem⟩⟩⟩)]

abbrev pV : Proc τ := Proc.scVector (cV L) (jV L)
/-- The rest of the tile's buffers. -/
abbrev restRefs : Finset (DevRef τ sig) :=
  ((((ownRefs (τ := τ) (pV L)).erase ((pV L).devRef cc0_scratch0)).erase ((pV L).devRef cc0_scratch1)).erase
    ((pV L).devRef cc0_scratch2)).erase ((pV L).devRef cc0_scratch3)

omit [FloatOps F] [∀ e, Nonempty (Elt F e)] in
theorem ref_ne {b b' : Ref sig .scVector} (h : b ≠ b') : (pV L).devRef b ≠ (pV L).devRef b' :=
  fun e => h (Proc.devRef_injective _ e)

omit [FloatOps F] [∀ e, Nonempty (Elt F e)] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨ref_ne L (by decide), SparseCore.Cfg.mem_ownRefs_of_owner (p := pV L) (b := (pV L).devRef cc0_scratch1) rfl⟩),
    SparseCore.bigSep_erase' (Finset.mem_erase.mpr ⟨ref_ne L (by decide), Finset.mem_erase.mpr ⟨ref_ne L (by decide), SparseCore.Cfg.mem_ownRefs_of_owner (p := pV L) (b := (pV L).devRef cc0_scratch2) rfl⟩⟩),
    SparseCore.bigSep_erase' (Finset.mem_erase.mpr ⟨ref_ne L (by decide), Finset.mem_erase.mpr ⟨ref_ne L (by decide),
      Finset.mem_erase.mpr ⟨ref_ne L (by decide), SparseCore.Cfg.mem_ownRefs_of_owner (p := pV L) (b := (pV L).devRef cc0_scratch3) rfl⟩⟩⟩)]

end Cert.Proof.KernelIdeal

end
-- ==== Proof.KernelIdeal.FireTrip.lean ====
/-
  One trip of the loop that starts the gather: sixteen tokens loaded, each checked to name a table row, each row's
  copy started on the kernel's semaphore — the batch's transfers `16 k … 16 k + 15`, in order. What the loop still
  holds of the scratch's rows and of its read shares of the table is what the transfers not yet issued will take.
-/
import proofs.«204099_g60593398612478_cont_9to1c4b_39_23_alg».proof.Proof.KernelIdeal.Fire

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

section
variable (W3 : Buf (Elt F) (wLoc d)) (CI : Buf (Elt F) ((thr d L).loc cc0_scratch0)) (fR : Buf (Elt F) ((thr d L).loc cc0_scratch1))

theorem rowPts_congr (a b : Fin 2 → Nat) (h : a = b) (pa : ∀ x, a x + S1x64.size x ≤ S640x64.size x) (pb : ∀ x, b x + S1x64.size x ≤ S640x64.size x) :
    (((sR.slice (Rect.unit (s := S640x64) a S1x64.size pa) (fun _ => rfl)).view.loc (thr d L)
        ↦[(sR.slice (Rect.unit (s := S640x64) a S1x64.size pa) (fun _ => rfl)).view.set]{fullShare} fR) : sProp 𝕄)
      = ((sR.slice (Rect.unit (s := S640x64) b S1x64.size pb) (fun _ => rfl)).view.loc (thr d L)
        ↦[(sR.slice (Rect.unit (s := S640x64) b S1x64.size pb) (fun _ => rfl)).view.set]{fullShare} fR) := by subst h; rfl

/-- What transfer `t` will take: a read share of the table and row `t` of the scratch. -/
abbrev pendΦ (q : Fin 640 → PosShare TreeShare) (t : Fin 640) : sProp 𝕄 :=
  iprop(((wV).view.loc (thr d L) ↦{q t} W3) ∗ ((rowM t).view.loc (thr d L) ↦[(rowM t).view.set]{fullShare} fR))

/-- The loop's invariant before trip `n`: the tokens, the shares and rows of the transfers from `16 n` on, the batch
    with `16 n` issued. -/
def invFire (hCI : TokOK d L CI) (O : CellTallies nD τ sig (HIx 1)) (W : Waits sig (HIx 1)) (q : Fin 640 → PosShare TreeShare)
    (n : Nat) (_ : PUnit) : sProp 𝕄 :=
  iprop(Transfers.MayWaits (thr d L) (none : HIx 1) O
    ∗ ((sI).view.loc (thr d L) ↦{fullShare} CI)
    ∗ bigSep (Transfers.pending (n := 640) (16 * n)) (pendΦ d L W3 fR q)
    ∗ BatchH d L W3 CI fR hCI (16 * n)
    ∗ owes (thr d L) O W)

theorem fire_trip (hCI : TokOK d L CI) (O : CellTallies nD τ sig (HIx 1)) (W : Waits sig (HIx 1)) (q : Fin 640 → PosShare TreeShare)
    (k : Fin k0_t1_loop.trips) :
    invFire d L W3 CI fR hCI O W q k.val ⟨⟩
      ⊢ wp frame (wpE (defs₀ (F := F)) 𝒱₀ (thr d L) none) Set.univ
          (k0_t1_body L xV (Memref.isWhole_whole _) wV (Memref.isWhole_whole _) oV (Memref.isWhole_whole _)
            sI (Memref.isWhole_whole _) sR (Memref.isWhole_whole _) sZ (Memref.isWhole_whole _) sO (Memref.isWhole_whole _)
            cc0_scratch4 cc0_scoped0 cc0_scoped1 cc0_scoped2 k ⟨⟩)
          fun _ => invFire d L W3 CI fR hCI O W q (k.val + 1) ⟨⟩ := by
  unfold k0_t1_body invFire
  iintro ⟨Hmw, HI, Hpend, HB, HO⟩
  ihave H0 := (Entails.of_eq (Transfers.bigSep_pending_step (pendΦ d L W3 fR q) (16 * k.val + 0) (by have := klt k; omega))) $$ Hpend
  icases H0 with ⟨⟨Hw0, Hr0⟩, Hpend⟩
  ihave Hd0 := (Entails.of_eq (rowPts_congr d L fR _ _ (k0_off5_eq k ⟨0, by decide⟩) (k0_off5_inb k 0) (rowM_inb ⟨16 * k.val + 0, by have := klt k; omega⟩)).symm) $$ Hr0
  ihave H1 := (Entails.of_eq (Transfers.bigSep_pending_step (pendΦ d L W3 fR q) (16 * k.val + 1) (by have := klt k; omega))) $$ Hpend
  icases H1 with ⟨⟨Hw1, Hr1⟩, Hpend⟩
  ihave Hd1 := (Entails.of_eq (rowPts_congr d L fR _ _ (k0_off7_eq k ⟨0, by decide⟩) (k0_off7_inb k 0) (rowM_inb ⟨16 * k.val + 1, by have := klt k; omega⟩)).symm) $$ Hr1
  ihave H2 := (Entails.of_eq (Transfers.bigSep_pending_step (pendΦ d L W3 fR q) (16 * k.val + 2) (by have := klt k; omega))) $$ Hpend
  icases H2 with ⟨⟨Hw2, Hr2⟩, Hpend⟩
  ihave Hd2 := (Entails.of_eq (rowPts_congr d L fR _ _ (k0_off9_eq k ⟨0, by decide⟩) (k0_off9_inb k 0) (rowM_inb ⟨16 * k.val + 2, by have := klt k; omega⟩)).symm) $$ Hr2
  ihave H3 := (Entails.of_eq (Transfers.bigSep_pending_step (pendΦ d L W3 fR q) (16 * k.val + 3) (by have := klt k; omega))) $$ Hpend
  icases H3 with ⟨⟨Hw3, Hr3⟩, Hpend⟩
  ihave Hd3 := (Entails.of_eq (rowPts_congr d L fR _ _ (k0_off11_eq k ⟨0, by decide⟩) (k0_off11_inb k 0) (rowM_inb ⟨16 * k.val + 3, by have := klt k; omega⟩)).symm) $$ Hr3
  ihave H4 := (Entails.of_eq (Transfers.bigSep_pending_step (pendΦ d L W3 fR q) (16 * k.val + 4) (by have := klt k; omega))) $$ Hpend
  icases H4 with ⟨⟨Hw4, Hr4⟩, Hpend⟩
  ihave Hd4 := (Entails.of_eq (rowPts_congr d L fR _ _ (k0_off13_eq k ⟨0, by decide⟩) (k0_off13_inb k 0) (rowM_inb ⟨16 * k.val + 4, by have := klt k; omega⟩)).symm) $$ Hr4
  ihave H5 := (Entails.of_eq (Transfers.bigSep_pending_step (pendΦ d L W3 fR q) (16 * k.val + 5) (by have := klt k; omega))) $$ Hpend
  icases H5 with ⟨⟨Hw5, Hr5⟩, Hpend⟩
  ihave Hd5 := (Entails.of_eq (rowPts_congr d L fR _ _ (k0_off15_eq k ⟨0, by decide⟩) (k0_off15_inb k 0) (rowM_inb ⟨16 * k.val + 5, by have := klt k; omega⟩)).symm) $$ Hr5
  ihave H6 := (Entails.of_eq (Transfers.bigSep_pending_step (pendΦ d L W3 fR q) (16 * k.val + 6) (by have := klt k; omega))) $$ Hpend
  icases H6 with ⟨⟨Hw6, Hr6⟩, Hpend⟩
  ihave Hd6 := (Entails.of_eq (rowPts_congr d L fR _ _ (k0_off17_eq k ⟨0, by decide⟩) (k0_off17_inb k 0) (rowM_inb ⟨16 * k.val + 6, by have := klt k; omega⟩)).symm) $$ Hr6
  ihave H7 := (Entails.of_eq (Transfers.bigSep_pending_step (pendΦ d L W3 fR q) (16 * k.val + 7) (by have := klt k; omega))) $$ Hpend
  icases H7 with ⟨⟨Hw7, Hr7⟩, Hpend⟩
  ihave Hd7 := (Entails.of_eq (rowPts_congr d L fR _ _ (k0_off19_eq k ⟨0, by decide⟩) (k0_off19_inb k 0) (rowM_inb ⟨16 * k.val + 7, by have := klt k; omega⟩)).symm) $$ Hr7
  ihave H8 := (Entails.of_eq (Transfers.bigSep_pending_step (pendΦ d L W3 fR q) (16 * k.val + 8) (by have := klt k; omega))) $$ Hpend
  icases H8 with ⟨⟨Hw8, Hr8⟩, Hpend⟩
  ihave Hd8 := (Entails.of_eq (rowPts_congr d L fR _ _ (k0_off21_eq k ⟨0, by decide⟩) (k0_off21_inb k 0) (rowM_inb ⟨16 * k.val + 8, by have := klt k; omega⟩)).symm) $$ Hr8
  ihave H9 := (Entails.of_eq (Transfers.bigSep_pending_step (pendΦ d L W3 fR q) (16 * k.val + 9) (by have := klt k; omega))) $$ Hpend
  icases H9 with ⟨⟨Hw9, Hr9⟩, Hpend⟩
  ihave Hd9 := (Entails.of_eq (rowPts_congr d L fR _ _ (k0_off23_eq k ⟨0, by decide⟩) (k0_off23_inb k 0) (rowM_inb ⟨16 * k.val + 9, by have := klt k; omega⟩)).symm) $$ Hr9
  ihave H10 := (Entails.of_eq (Transfers.bigSep_pending_step (pendΦ d L W3 fR q) (16 * k.val + 10) (by have := klt k; omega))) $$ Hpend
  icases H10 with ⟨⟨Hw10, Hr10⟩, Hpend⟩
  ihave Hd10 := (Entails.of_eq (rowPts_congr d L fR _ _ (k0_off25_eq k ⟨0, by decide⟩) (k0_off25_inb k 0) (rowM_inb ⟨16 * k.val + 10, by have := klt k; omega⟩)).symm) $$ Hr10
  ihave H11 := (Entails.of_eq (Transfers.bigSep_pending_step (pendΦ d L W3 fR q) (16 * k.val + 11) (by have := klt k; omega))) $$ Hpend
  icases H11 with ⟨⟨Hw11, Hr11⟩, Hpend⟩
  ihave Hd11 := (Entails.of_eq (rowPts_congr d L fR _ _ (k0_off27_eq k ⟨0, by decide⟩) (k0_off27_inb k 0) (rowM_inb ⟨16 * k.val + 11, by have := klt k; omega⟩)).symm) $$ Hr11
  ihave H12 := (Entails.of_eq (Transfers.bigSep_pending_step (pendΦ d L W3 fR q) (16 * k.val + 12) (by have := klt k; omega))) $$ Hpend
  icases H12 with ⟨⟨Hw12, Hr12⟩, Hpend⟩
  ihave Hd12 := (Entails.of_eq (rowPts_congr d L fR _ _ (k0_off29_eq k ⟨0, by decide⟩) (k0_off29_inb k 0) (rowM_inb ⟨16 * k.val + 12, by have := klt k; omega⟩)).symm) $$ Hr12
  ihave H13 := (Entails.of_eq (Transfers.bigSep_pending_step (pendΦ d L W3 fR q) (16 * k.val + 13) (by have := klt k; omega))) $$ Hpend
  icases H13 with ⟨⟨Hw13, Hr13⟩, Hpend⟩
  ihave Hd13 := (Entails.of_eq (rowPts_congr d L fR _ _ (k0_off31_eq k ⟨0, by decide⟩) (k0_off31_inb k 0) (rowM_inb ⟨16 * k.val + 13, by have := klt k; omega⟩)).symm) $$ Hr13
  ihave H14 := (Entails.of_eq (Transfers.bigSep_pending_step (pendΦ d L W3 fR q) (16 * k.val + 14) (by have := klt k; omega))) $$ Hpend
  icases H14 with ⟨⟨Hw14, Hr14⟩, Hpend⟩
  ihave Hd14 := (Entails.of_eq (rowPts_congr d L fR _ _ (k0_off33_eq k ⟨0, by decide⟩) (k0_off33_inb k 0) (rowM_inb ⟨16 * k.val + 14, by have := klt k; omega⟩)).symm) $$ Hr14
  ihave H15 := (Entails.of_eq (Transfers.bigSep_pending_step (pendΦ d L W3 fR q) (16 * k.val + 15) (by have := klt k; omega))) $$ Hpend
  icases H15 with ⟨⟨Hw15, Hr15⟩, Hpend⟩
  ihave Hd15 := (Entails.of_eq (rowPts_congr d L fR _ _ (k0_off35_eq k) (k0_off35_inb k) (rowM_inb ⟨16 * k.val + 15, by have := klt k; omega⟩)).symm) $$ Hr15
  -- token 0 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 0, by have := klt k; omega⟩ _ _ (k0_off5_eq k ⟨0, by decide⟩) _ (tok_eq d L CI k 0 (by decide) _) (chk1_of_le _ (tok_le d L CI hCI k 0 (by decide) _)) (q ⟨16 * k.val + 0, by have := klt k; omega⟩) _ _ _ _ _) $$ [Hw0 Hd0 HB]
  · isplitl [Hw0]; · iexact Hw0
    isplitl [Hd0] <;> iassumption
  iintro HB
  -- token 1 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 1, by have := klt k; omega⟩ _ _ (k0_off7_eq k ⟨0, by decide⟩) _ (tok_eq d L CI k 1 (by decide) _) (chk1_of_le _ (tok_le d L CI hCI k 1 (by decide) _)) (q ⟨16 * k.val + 1, by have := klt k; omega⟩) _ _ _ _ _) $$ [Hw1 Hd1 HB]
  · isplitl [Hw1]; · iexact Hw1
    isplitl [Hd1] <;> iassumption
  iintro HB
  -- token 2 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 2, by have := klt k; omega⟩ _ _ (k0_off9_eq k ⟨0, by decide⟩) _ (tok_eq d L CI k 2 (by decide) _) (chk1_of_le _ (tok_le d L CI hCI k 2 (by decide) _)) (q ⟨16 * k.val + 2, by have := klt k; omega⟩) _ _ _ _ _) $$ [Hw2 Hd2 HB]
  · isplitl [Hw2]; · iexact Hw2
    isplitl [Hd2] <;> iassumption
  iintro HB
  -- token 3 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 3, by have := klt k; omega⟩ _ _ (k0_off11_eq k ⟨0, by decide⟩) _ (tok_eq d L CI k 3 (by decide) _) (chk1_of_le _ (tok_le d L CI hCI k 3 (by decide) _)) (q ⟨16 * k.val + 3, by have := klt k; omega⟩) _ _ _ _ _) $$ [Hw3 Hd3 HB]
  · isplitl [Hw3]; · iexact Hw3
    isplitl [Hd3] <;> iassumption
  iintro HB
  -- token 4 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 4, by have := klt k; omega⟩ _ _ (k0_off13_eq k ⟨0, by decide⟩) _ (tok_eq d L CI k 4 (by decide) _) (chk1_of_le _ (tok_le d L CI hCI k 4 (by decide) _)) (q ⟨16 * k.val + 4, by have := klt k; omega⟩) _ _ _ _ _) $$ [Hw4 Hd4 HB]
  · isplitl [Hw4]; · iexact Hw4
    isplitl [Hd4] <;> iassumption
  iintro HB
  -- token 5 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 5, by have := klt k; omega⟩ _ _ (k0_off15_eq k ⟨0, by decide⟩) _ (tok_eq d L CI k 5 (by decide) _) (chk1_of_le _ (tok_le d L CI hCI k 5 (by decide) _)) (q ⟨16 * k.val + 5, by have := klt k; omega⟩) _ _ _ _ _) $$ [Hw5 Hd5 HB]
  · isplitl [Hw5]; · iexact Hw5
    isplitl [Hd5] <;> iassumption
  iintro HB
  -- token 6 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 6, by have := klt k; omega⟩ _ _ (k0_off17_eq k ⟨0, by decide⟩) _ (tok_eq d L CI k 6 (by decide) _) (chk1_of_le _ (tok_le d L CI hCI k 6 (by decide) _)) (q ⟨16 * k.val + 6, by have := klt k; omega⟩) _ _ _ _ _) $$ [Hw6 Hd6 HB]
  · isplitl [Hw6]; · iexact Hw6
    isplitl [Hd6] <;> iassumption
  iintro HB
  -- token 7 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 7, by have := klt k; omega⟩ _ _ (k0_off19_eq k ⟨0, by decide⟩) _ (tok_eq d L CI k 7 (by decide) _) (chk1_of_le _ (tok_le d L CI hCI k 7 (by decide) _)) (q ⟨16 * k.val + 7, by have := klt k; omega⟩) _ _ _ _ _) $$ [Hw7 Hd7 HB]
  · isplitl [Hw7]; · iexact Hw7
    isplitl [Hd7] <;> iassumption
  iintro HB
  -- token 8 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 8, by have := klt k; omega⟩ _ _ (k0_off21_eq k ⟨0, by decide⟩) _ (tok_eq d L CI k 8 (by decide) _) (chk1_of_le _ (tok_le d L CI hCI k 8 (by decide) _)) (q ⟨16 * k.val + 8, by have := klt k; omega⟩) _ _ _ _ _) $$ [Hw8 Hd8 HB]
  · isplitl [Hw8]; · iexact Hw8
    isplitl [Hd8] <;> iassumption
  iintro HB
  -- token 9 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 9, by have := klt k; omega⟩ _ _ (k0_off23_eq k ⟨0, by decide⟩) _ (tok_eq d L CI k 9 (by decide) _) (chk1_of_le _ (tok_le d L CI hCI k 9 (by decide) _)) (q ⟨16 * k.val + 9, by have := klt k; omega⟩) _ _ _ _ _) $$ [Hw9 Hd9 HB]
  · isplitl [Hw9]; · iexact Hw9
    isplitl [Hd9] <;> iassumption
  iintro HB
  -- token 10 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 10, by have := klt k; omega⟩ _ _ (k0_off25_eq k ⟨0, by decide⟩) _ (tok_eq d L CI k 10 (by decide) _) (chk1_of_le _ (tok_le d L CI hCI k 10 (by decide) _)) (q ⟨16 * k.val + 10, by have := klt k; omega⟩) _ _ _ _ _) $$ [Hw10 Hd10 HB]
  · isplitl [Hw10]; · iexact Hw10
    isplitl [Hd10] <;> iassumption
  iintro HB
  -- token 11 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 11, by have := klt k; omega⟩ _ _ (k0_off27_eq k ⟨0, by decide⟩) _ (tok_eq d L CI k 11 (by decide) _) (chk1_of_le _ (tok_le d L CI hCI k 11 (by decide) _)) (q ⟨16 * k.val + 11, by have := klt k; omega⟩) _ _ _ _ _) $$ [Hw11 Hd11 HB]
  · isplitl [Hw11]; · iexact Hw11
    isplitl [Hd11] <;> iassumption
  iintro HB
  -- token 12 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 12, by have := klt k; omega⟩ _ _ (k0_off29_eq k ⟨0, by decide⟩) _ (tok_eq d L CI k 12 (by decide) _) (chk1_of_le _ (tok_le d L CI hCI k 12 (by decide) _)) (q ⟨16 * k.val + 12, by have := klt k; omega⟩) _ _ _ _ _) $$ [Hw12 Hd12 HB]
  · isplitl [Hw12]; · iexact Hw12
    isplitl [Hd12] <;> iassumption
  iintro HB
  -- token 13 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 13, by have := klt k; omega⟩ _ _ (k0_off31_eq k ⟨0, by decide⟩) _ (tok_eq d L CI k 13 (by decide) _) (chk1_of_le _ (tok_le d L CI hCI k 13 (by decide) _)) (q ⟨16 * k.val + 13, by have := klt k; omega⟩) _ _ _ _ _) $$ [Hw13 Hd13 HB]
  · isplitl [Hw13]; · iexact Hw13
    isplitl [Hd13] <;> iassumption
  iintro HB
  -- token 14 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 14, by have := klt k; omega⟩ _ _ (k0_off33_eq k ⟨0, by decide⟩) _ (tok_eq d L CI k 14 (by decide) _) (chk1_of_le _ (tok_le d L CI hCI k 14 (by decide) _)) (q ⟨16 * k.val + 14, by have := klt k; omega⟩) _ _ _ _ _) $$ [Hw14 Hd14 HB]
  · isplitl [Hw14]; · iexact Hw14
    isplitl [Hd14] <;> iassumption
  iintro HB
  -- token 15 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 15, by have := klt k; omega⟩ _ _ (k0_off35_eq k) _ (tok_eq d L CI k 15 (by decide) _) (chk1_of_le _ (tok_le d L CI hCI k 15 (by decide) _)) (q ⟨16 * k.val + 15, by have := klt k; omega⟩) _ _ _ _ _) $$ [Hw15 Hd15 HB]
  · isplitl [Hw15]; · iexact Hw15
    isplitl [Hd15] <;> iassumption
  iintro HB
  sl_exec
  sl_step
  isplitl [Hmw]; · iexact Hmw
  isplitl [HI]; · iexact HI
  isplitl [Hpend]
  · rw [show 16 * (k.val + 1) = 16 * k.val + 15 + 1 by omega]; iexact Hpend
  isplitl [HB]
  · rw [show 16 * (k.val + 1) = 16 * k.val + 15 + 1 by omega]; iexact HB
  iexact HO

end

end Cert.Proof.KernelIdeal

end
-- ==== Proof.KernelIdeal.Drain.lean ====
/-
  The drain: 640 waits of one row's credit on the kernel's semaphore. The first 639 hand the tile nothing — a wait of
  one row's credit can pass on instalments of several copies with none complete —; the last brings the units consumed
  to the whole batch's, so every copy has landed, and hands back every row of the scratch and the semaphore at zero.
-/
import proofs.«204099_g60593398612478_cont_9to1c4b_39_23_alg».proof.Proof.KernelIdeal.Fire

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

section
variable (W3 : Buf (Elt F) (wLoc d)) (CI : Buf (Elt F) ((thr d L).loc cc0_scratch0)) (fR : Buf (Elt F) ((thr d L).loc cc0_scratch1))

theorem trips2 : k0_t2_loop.trips = 640 := by decide

theorem credit_row (a : Fin 2 → Nat) (pa : ∀ x, a x + S1x64.size x ≤ S640x64.size x) :
    (sR.slice (Rect.unit (s := S640x64) a S1x64.size pa) (fun _ => rfl)).view.dmaCredit = NR := by
  show RefSig.bitCredit S1x64 .f32 = 2048; decide

/-- The batch with every copy issued and `n` waits done, behind a name. -/
def BatchD (hCI : TokOK d L CI) (n : ℕ) : sProp 𝕄 :=
  Transfers.Batch (countersEmb (U := UU)) (thr d L) (.dma cc0_scratch4.sem) (none : HIx 1) NR (Dv d L W3 CI fR hCI) 640 (n * NR)

/-- The drain's invariant before wait `n`: the batch with `n` waits done, or after the last every row landed and the
    semaphore at zero; the waits recorded. -/
def invDrain (hCI : TokOK d L CI) (O : CellTallies nD τ sig (HIx 1)) (W : Waits sig (HIx 1)) (n : Nat) (_ : PUnit) : sProp 𝕄 :=
  iprop(Transfers.MayWaits (thr d L) (none : HIx 1) O
    ∗ (if n < 640 then BatchD d L W3 CI fR hCI n
        else iprop(bigSep Finset.univ (Dv d L W3 CI fR hCI) ∗ semVal (thr d L, SemLoc.dma cc0_scratch4.sem) 0))
    ∗ ∃ W', ⌜∀ p ∈ W', p ∈ W ∨ p.2 = none⌝ ∗ owes (thr d L) O W')

theorem drain_trip (hCI : TokOK d L CI) (O : CellTallies nD τ sig (HIx 1)) (W : Waits sig (HIx 1)) (k : Fin k0_t2_loop.trips) :
    invDrain d L W3 CI fR hCI O W k.val ⟨⟩
      ⊢ wp frame (wpE (defs₀ (F := F)) 𝒱₀ (thr d L) none) Set.univ
          (k0_t2_body L xV (Memref.isWhole_whole _) wV (Memref.isWhole_whole _) oV (Memref.isWhole_whole _)
            sI (Memref.isWhole_whole _) sR (Memref.isWhole_whole _) sZ (Memref.isWhole_whole _) sO (Memref.isWhole_whole _)
            cc0_scratch4 cc0_scoped0 cc0_scoped1 cc0_scoped2 k ⟨⟩)
          fun _ => invDrain d L W3 CI fR hCI O W (k.val + 1) ⟨⟩ := by
  have hk : k.val < 640 := lt_of_lt_of_eq k.isLt trips2
  unfold k0_t2_body invDrain
  rw [if_pos hk]
  iintro ⟨#Hmw, HB, %W', %hW', HO⟩
  ihave Hmw1 := (Transfers.MayWaits.elim (SemLoc.dma cc0_scratch4.sem)) $$ Hmw
  sl_exec
  have hins : ∀ p ∈ insert ((SemLoc.dma cc0_scratch4.sem : SemLoc sig), (none : HIx 1)) W', p ∈ W ∨ p.2 = none := by
    intro p hp
    rcases Finset.mem_insert.mp hp with hp | hp
    · exact .inr (hp ▸ rfl)
    · exact hW' p hp
  by_cases hl : k.val + 1 = 640
  · -- the last wait: every copy has landed
    rw [if_neg (show ¬ (k.val + 1 < 640) by omega)]
    unfold BatchD
    iapply (Transfers.wp_waitBatchLastO (countersEmb (U := UU)) 𝒱₀ (thr d L) none (none : HIx 1) (credit_row _ _) (by decide)
      (show k.val * 2048 + 2048 = 2048 * 640 by omega)) $$ [HB HO Hmw1]
    · isplitl [HB]; · iexact HB
      isplitl [HO]; · iexact HO
      iexact Hmw1
    iintro ⟨HD, Hsem, HO⟩
    sl_exec
    sl_step
    isplitr; · iexact Hmw
    isplitl [HD Hsem]
    · isplitl [HD] <;> iassumption
    iexists _; isplitr
    · ipureintro; exact hins
    · iexact HO
  · -- a wait short of the last: nothing of any row
    rw [if_pos (show k.val + 1 < 640 by omega)]
    unfold BatchD
    iapply (Transfers.wp_waitBatchO (countersEmb (U := UU)) 𝒱₀ (thr d L) none (none : HIx 1) (credit_row _ _)
      (show k.val * 2048 + 2048 < 2048 * 640 by omega)) $$ [HB HO Hmw1]
    · isplitl [HB]; · iexact HB
      isplitl [HO]; · iexact HO
      iexact Hmw1
    iintro ⟨HB, HO⟩
    sl_exec
    sl_step
    isplitr; · iexact Hmw
    isplitl [HB]
    · rw [show (k.val + 1) * NR = k.val * NR + NR from Nat.succ_mul _ _]; iexact HB
    iexists _; isplitr
    · ipureintro; exact hins
    · iexact HO

end

end Cert.Proof.KernelIdeal

end
-- ==== Proof.KernelIdeal.ComputeLemmas.lean ====
/-
  The compute loop's vocabulary: the result scratch after the first
  rows, and what a load, a recast and a store of sixteen lanes are at one lane.

  Trip `k` of the loop reads, for each of the four groups of sixteen columns, the twenty gathered rows
  `20 k … 20 k + 19` and the sixteen lanes of table row 0, forms the four context sums lane by lane and stores them
  to row `k` of the tile's slab `[32, 4, 64]`. So after `n` trips rows below `n` of the slab hold the sums and
  the others what they held before (`outAfter`); one trip's sixteen stores cover exactly row `k`.
-/
import proofs.«204099_g60593398612478_cont_9to1c4b_39_23_alg».proof.Proof.KernelIdeal.Setup
import proofs.«204099_g60593398612478_cont_9to1c4b_39_23_alg».proof.Proof.KernF
import Idealize.ShloMosaic.Lib.Pipeline.Value
import Idealize.ShloMosaic.Lib.ValueIdx
import Idealize.ShloMosaic.Lib.Writes

noncomputable section
namespace Cert.Proof.KernelIdeal
open Cert.KernelIdeal Cert.KernelIdeal.Gen
open Idealize.ShloMosaic Idealize.ShloMosaic.ValueIdx
open Cert.Cbow
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

/-! ## The result scratch after the first rows -/

/-- Entry `(b, c, e)` of the tile's result slab once its first `n` rows are done: the kernel's sum for slot `c` over
    the twenty gathered rows `20 b … 20 b + 19` at column `e` for `b < n`, the prior contents otherwise. -/
def outAt (R : S640x64.Idx → F .f32) (Z : S1x64.Idx → F .f32) (f0 : S32x4x64.Idx → F .f32) (n : Nat)
    (b : Fin 32) (c : Fin 4) (e : Fin 64) : F .f32 :=
  if b.val < n then kernAtF (fun p => R (ix2 ⟨20 * b.val + p.val, by omega⟩ e)) (Z (ix2 0 e)) c else f0 (ix3 b c e)

/-- The result scratch once the first `n` rows of the tile are done. -/
def outAfter (R : Buf (Elt F) ((thr d L).loc cc0_scratch1)) (Z : Buf (Elt F) ((thr d L).loc cc0_scratch2))
    (f0 : Buf (Elt F) ((thr d L).loc cc0_scratch3)) (n : Nat) : Buf (Elt F) ((thr d L).loc cc0_scratch3) :=
  fun i : S32x4x64.Idx => outAt R Z f0 n (i 0) (i 1) (i 2)

/-- Lane `l` of column group `g` of gathered row `20 k + p`. -/
def rowE (R : S640x64.Idx → F .f32) (k : Fin k0_t3_loop.trips) (g : Fin 4) (p : Fin 20) (l : Fin 16) : F .f32 :=
  R (ix2 ⟨20 * k.val + p.val, by have hk : k.val < 32 := k.isLt; show _ < 640; omega⟩ ⟨16 * g.val + l.val, by show _ < 64; omega⟩)

/-- Lane `l` of column group `g` of table row 0. -/
def zE (Z : S1x64.Idx → F .f32) (g : Fin 4) (l : Fin 16) : F .f32 :=
  Z (ix2 0 ⟨16 * g.val + l.val, by show _ < 64; omega⟩)

/-! ## Layout operations and loads read at a lane -/

/-- A `[1, 16]` vector recast to itself and then to `[16]`, at lane `l`. -/
theorem cast16_apply (v : Vec F S1x16 .f32) (h1 : S1x16.ShapeCasts S1x16) (h2 : S1x16.ShapeCasts S16) (l : Fin 16) :
    shapeCast S16 (shapeCast S1x16 v h1) h2 (ix1 l) = v (ix2 0 l) := by
  refine (shapeCast_apply _ h2 (ix1 l) (ix2 0 l) ?_).trans (shapeCast_apply v h1 (ix2 0 l) (ix2 0 l) rfl)
  rw [Shape.rowMajor_val_two, Shape.rowMajor_val_one]
  show 0 * 16 + l.val = l.val
  omega

/-- The same for a vector of floats (the element type spelt as the float type itself). -/
theorem cast16_apply' (v : FVec F S1x16 .f32) (h1 : S1x16.ShapeCasts S1x16) (h2 : S1x16.ShapeCasts S16) (l : Fin 16) :
    shapeCast S16 (shapeCast S1x16 v h1) h2 (ix1 l) = v (ix2 0 l) := by
  refine (shapeCast_apply _ h2 (ix1 l) (ix2 0 l) ?_).trans (shapeCast_apply v h1 (ix2 0 l) (ix2 0 l) rfl)
  rw [Shape.rowMajor_val_two, Shape.rowMajor_val_one]
  show 0 * 16 + l.val = l.val
  omega

/-- A `[16]` vector recast to `[1, 1, 16]`, at lane `l`. -/
theorem cast3_apply (u : FVec F S16 .f32) (h : S16.ShapeCasts S1x1x16) (a b : Fin 1) (l : Fin 16) :
    shapeCast S1x1x16 u h (ix3 a b l) = u (ix1 l) :=
  shapeCast_apply u h _ _ (by
    have := a.isLt; have := b.isLt
    rw [Shape.rowMajor_val_one, Shape.rowMajor_val_three]
    show l.val = (a.val * 1 + b.val) * 16 + l.val
    omega)

/-- A load of sixteen lanes of one gathered row, at lane `l`. -/
theorem readR (R : Buf (Elt F) ((thr d L).loc cc0_scratch1)) (k : Fin k0_t3_loop.trips) (g : Fin 4) (p : Fin 20)
    (off : Fin 2 → Nat) (hoff : off = ![20 * k.val + p.val, 16 * g.val])
    (inb : ∀ a, off a + S1x16.size a ≤ S640x64.size a) (l : Fin 16) :
    View.readAt (Elt F) (sR).view (Rect.unit (s := S640x64) off S1x16.size inb).toLoadRect R (ix2 0 l) = rowE R k g p l := by
  subst hoff
  show R _ = R _
  congr 1
  funext a
  match a with
  | ⟨0, _⟩ => exact Fin.ext (by show 20 * k.val + p.val + 1 * 0 = 20 * k.val + p.val; omega)
  | ⟨1, _⟩ => exact Fin.ext (by show 16 * g.val + 1 * l.val = 16 * g.val + l.val; omega)

theorem readZ_0 (Z : Buf (Elt F) ((thr d L).loc cc0_scratch2)) (l : Fin 16) :
    View.readAt (Elt F) (sZ).view (Rect.unit (s := S1x64) ![0, 0] S1x16.size inb_S1x64_S1x16_0_0).toLoadRect Z (ix2 0 l)
      = zE Z 0 l := by
  show Z _ = Z _
  congr 1
  funext a
  match a with
  | ⟨0, _⟩ => exact Fin.ext (by show 0 + 1 * 0 = 0; omega)
  | ⟨1, _⟩ => exact Fin.ext (by show 0 + 1 * l.val = 16 * 0 + l.val; omega)
theorem readZ_1 (Z : Buf (Elt F) ((thr d L).loc cc0_scratch2)) (l : Fin 16) :
    View.readAt (Elt F) (sZ).view (Rect.unit (s := S1x64) ![0, 16] S1x16.size inb_S1x64_S1x16_0_16).toLoadRect Z (ix2 0 l)
      = zE Z 1 l := by
  show Z _ = Z _
  congr 1
  funext a
  match a with
  | ⟨0, _⟩ => exact Fin.ext (by show 0 + 1 * 0 = 0; omega)
  | ⟨1, _⟩ => exact Fin.ext (by show 16 + 1 * l.val = 16 * 1 + l.val; omega)
theorem readZ_2 (Z : Buf (Elt F) ((thr d L).loc cc0_scratch2)) (l : Fin 16) :
    View.readAt (Elt F) (sZ).view (Rect.unit (s := S1x64) ![0, 32] S1x16.size inb_S1x64_S1x16_0_32).toLoadRect Z (ix2 0 l)
      = zE Z 2 l := by
  show Z _ = Z _
  congr 1
  funext a
  match a with
  | ⟨0, _⟩ => exact Fin.ext (by show 0 + 1 * 0 = 0; omega)
  | ⟨1, _⟩ => exact Fin.ext (by show 32 + 1 * l.val = 16 * 2 + l.val; omega)
theorem readZ_3 (Z : Buf (Elt F) ((thr d L).loc cc0_scratch2)) (l : Fin 16) :
    View.readAt (Elt F) (sZ).view (Rect.unit (s := S1x64) ![0, 48] S1x16.size inb_S1x64_S1x16_0_48).toLoadRect Z (ix2 0 l)
      = zE Z 3 l := by
  show Z _ = Z _
  congr 1
  funext a
  match a with
  | ⟨0, _⟩ => exact Fin.ext (by show 0 + 1 * 0 = 0; omega)
  | ⟨1, _⟩ => exact Fin.ext (by show 48 + 1 * l.val = 16 * 3 + l.val; omega)

/-! ## A load of sixteen lanes as a vector of the scratch's entries -/

/-- The sixteen lanes of column group `g` of gathered row `20 k + p`, as the `[1, 16]` vector a load answers. -/
def rowV (R : S640x64.Idx → F .f32) (k : Fin k0_t3_loop.trips) (g : Fin 4) (p : Fin 20) : FVec F S1x16 .f32 :=
  fun j => rowE R k g p (j 1)

/-- The sixteen lanes of column group `g` of table row 0, likewise. -/
def zV (Z : S1x64.Idx → F .f32) (g : Fin 4) : FVec F S1x16 .f32 := fun j => zE Z g (j 1)

theorem rowV_apply (R : S640x64.Idx → F .f32) (k : Fin k0_t3_loop.trips) (g : Fin 4) (p : Fin 20) (l : Fin 16) :
    rowV R k g p (ix2 0 l) = rowE R k g p l := rfl

theorem zV_apply (Z : S1x64.Idx → F .f32) (g : Fin 4) (l : Fin 16) : zV Z g (ix2 0 l) = zE Z g l := rfl

/-- A load of sixteen lanes of one gathered row is that vector. -/
theorem rd (R : Buf (Elt F) ((thr d L).loc cc0_scratch1)) (k : Fin k0_t3_loop.trips) (g : Fin 4) (p : Fin 20)
    {off : Fin 2 → Nat} (hoff : off = ![20 * k.val + p.val, 16 * g.val])
    (inb : ∀ a, off a + S1x16.size a ≤ S640x64.size a) :
    View.readAt (Elt F) (sR).view (Rect.unit (s := S640x64) off S1x16.size inb).toLoadRect R = rowV R k g p := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readR d L R k g p off hoff inb l

theorem rd_0_0 (R : Buf (Elt F) ((thr d L).loc cc0_scratch1)) (k : Fin k0_t3_loop.trips)
    (inb : ∀ a, (k0_off37 k 0#32) a + S1x16.size a ≤ S640x64.size a) :
    View.readAt (Elt F) (sR).view (Rect.unit (s := S640x64) (k0_off37 k 0#32) S1x16.size inb).toLoadRect R = rowV R k 0 0 :=
  rd d L R k 0 0 (k0_off37_eq k ⟨0, by decide⟩) inb
theorem rd_0_1 (R : Buf (Elt F) ((thr d L).loc cc0_scratch1)) (k : Fin k0_t3_loop.trips)
    (inb : ∀ a, (k0_off37 k 1#32) a + S1x16.size a ≤ S640x64.size a) :
    View.readAt (Elt F) (sR).view (Rect.unit (s := S640x64) (k0_off37 k 1#32) S1x16.size inb).toLoadRect R = rowV R k 0 1 :=
  rd d L R k 0 1 (k0_off37_eq k ⟨1, by decide⟩) inb
theorem rd_0_2 (R : Buf (Elt F) ((thr d L).loc cc0_scratch1)) (k : Fin k0_t3_loop.trips)
    (inb : ∀ a, (k0_off37 k 2#32) a + S1x16.size a ≤ S640x64.size a) :
    View.readAt (Elt F) (sR).view (Rect.unit (s := S640x64) (k0_off37 k 2#32) S1x16.size inb).toLoadRect R = rowV R k 0 2 :=
  rd d L R k 0 2 (k0_off37_eq k ⟨2, by decide⟩) inb
theorem rd_0_3 (R : Buf (Elt F) ((thr d L).loc cc0_scratch1)) (k : Fin k0_t3_loop.trips)
    (inb : ∀ a, (k0_off37 k 3#32) a + S1x16.size a ≤ S640x64.size a) :
    View.readAt (Elt F) (sR).view (Rect.unit (s := S640x64) (k0_off37 k 3#32) S1x16.size inb).toLoadRect R = rowV R k 0 3 :=
  rd d L R k 0 3 (k0_off37_eq k ⟨3, by decide⟩) inb
theorem rd_0_4 (R : Buf (Elt F) ((thr d L).loc cc0_scratch1)) (k : Fin k0_t3_loop.trips)
    (inb : ∀ a, (k0_off37 k 4#32) a + S1x16.size a ≤ S640x64.size a) :
    View.readAt (Elt F) (sR).view (Rect.unit (s := S640x64) (k0_off37 k 4#32) S1x16.size inb).toLoadRect R = rowV R k 0 4 :=
  rd d L R k 0 4 (k0_off37_eq k ⟨4, by decide⟩) inb
theorem rd_0_5 (R : Buf (Elt F) ((thr d L).loc cc0_scratch1)) (k : Fin k0_t3_loop.trips)
    (inb : ∀ a, (k0_off37 k 5#32) a + S1x16.size a ≤ S640x64.size a) :
    View.readAt (Elt F) (sR).view (Rect.unit (s := S640x64) (k0_off37 k 5#32) S1x16.size inb).toLoadRect R = rowV R k 0 5 :=
  rd d L R k 0 5 (k0_off37_eq k ⟨5, by decide⟩) inb
theorem rd_0_6 (R : Buf (Elt F) ((thr d L).loc cc0_scratch1)) (k : Fin k0_t3_loop.trips)
    (inb : ∀ a, (k0_off37 k 6#32) a + S1x16.size a ≤ S640x64.size a) :
    View.readAt (Elt F) (sR).view (Rect.unit (s := S640x64) (k0_off37 k 6#32) S1x16.size inb).toLoadRect R = rowV R k 0 6 :=
  rd d L R k 0 6 (k0_off37_eq k ⟨6, by decide⟩) inb
theorem rd_0_7 (R : Buf (Elt F) ((thr d L).loc cc0_scratch1)) (k : Fin k0_t3_loop.trips)
    (inb : ∀ a, (k0_off37 k 7#32) a + S1x16.size a ≤ S640x64.size a) :
    View.readAt (Elt F) (sR).view (Rect.unit (s := S640x64) (k0_off37 k 7#32) S1x16.size inb).toLoadRect R = rowV R k 0 7 :=
  rd d L R k 0 7 (k0_off37_eq k ⟨7, by decide⟩) inb
theorem rd_0_8 (R : Buf (Elt F) ((thr d L).loc cc0_scratch1)) (k : Fin k0_t3_loop.trips)
    (inb : ∀ a, (k0_off37 k 8#32) a + S1x16.size a ≤ S640x64.size a) :
    View.readAt (Elt F) (sR).view (Rect.unit (s := S640x64) (k0_off37 k 8#32) S1x16.size inb).toLoadRect R = rowV R k 0 8 :=
  rd d L R k 0 8 (k0_off37_eq k ⟨8, by decide⟩) inb
theorem rd_0_9 (R : Buf (Elt F) ((thr d L).loc cc0_scratch1)) (k : Fin k0_t3_loop.trips)
    (inb : ∀ a, (k0_off37 k 9#32) a + S1x16.size a ≤ S640x64.size a) :
    View.readAt (Elt F) (sR).view (Rect.unit (s := S640x64) (k0_off37 k 9#32) S1x16.size inb).toLoadRect R = rowV R k 0 9 :=
  rd d L R k 0 9 (k0_off37_eq k ⟨9, by decide⟩) inb
theorem rd_0_10 (R : Buf (Elt F) ((thr d L).loc cc0_scratch1)) (k : Fin k0_t3_loop.trips)
    (inb : ∀ a, (k0_off37 k 10#32) a + S1x16.size a ≤ S640x64.size a) :
    View.readAt (Elt F) (sR).view (Rect.unit (s := S640x64) (k0_off37 k 10#32) S1x16.size inb).toLoadRect R = rowV R k 0 10 :=
  rd d L R k 0 10 (k0_off37_eq k ⟨10, by decide⟩) inb
theorem rd_0_11 (R : Buf (Elt F) ((thr d L).loc cc0_scratch1)) (k : Fin k0_t3_loop.trips)
    (inb : ∀ a, (k0_off37 k 11#32) a + S1x16.size a ≤ S640x64.size a) :
    View.readAt (Elt F) (sR).view (Rect.unit (s := S640x64) (k0_off37 k 11#32) S1x16.size inb).toLoadRect R = rowV R k 0 11 :=
  rd d L R k 0 11 (k0_off37_eq k ⟨11, by decide⟩) inb
theorem rd_0_12 (R : Buf (Elt F) ((thr d L).loc cc0_scratch1)) (k : Fin k0_t3_loop.trips)
    (inb : ∀ a, (k0_off37 k 12#32) a + S1x16.size a ≤ S640x64.size a) :
    View.readAt (Elt F) (sR).view (Rect.unit (s := S640x64) (k0_off37 k 12#32) S1x16.size inb).toLoadRect R = rowV R k 0 12 :=
  rd d L R k 0 12 (k0_off37_eq k ⟨12, by decide⟩) inb
theorem rd_0_13 (R : Buf (Elt F) ((thr d L).loc cc0_scratch1)) (k : Fin k0_t3_loop.trips)
    (inb : ∀ a, (k0_off37 k 13#32) a + S1x16.size a ≤ S640x64.size a) :
    View.readAt (Elt F) (sR).view (Rect.unit (s := S640x64) (k0_off37 k 13#32) S1x16.size inb).toLoadRect R = rowV R k 0 13 :=
  rd d L R k 0 13 (k0_off37_eq k ⟨13, by decide⟩) inb
theorem rd_0_14 (R : Buf (Elt F) ((thr d L).loc cc0_scratch1)) (k : Fin k0_t3_loop.trips)
    (inb : ∀ a, (k0_off37 k 14#32) a + S1x16.size a ≤ S640x64.size a) :
    View.readAt (Elt F) (sR).view (Rect.unit (s := S640x64) (k0_off37 k 14#32) S1x16.size inb).toLoadRect R = rowV R k 0 14 :=
  rd d L R k 0 14 (k0_off37_eq k ⟨14, by decide⟩) inb
theorem rd_0_15 (R : Buf (Elt F) ((thr d L).loc cc0_scratch1)) (k : Fin k0_t3_loop.trips)
    (inb : ∀ a, (k0_off37 k 15#32) a + S1x16.size a ≤ S640x64.size a) :
    View.readAt (Elt F) (sR).view (Rect.unit (s := S640x64) (k0_off37 k 15#32) S1x16.size inb).toLoadRect R = rowV R k 0 15 :=
  rd d L R k 0 15 (k0_off37_eq k ⟨15, by decide⟩) inb
theorem rd_0_16 (R : Buf (Elt F) ((thr d L).loc cc0_scratch1)) (k : Fin k0_t3_loop.trips)
    (inb : ∀ a, (k0_off37 k 16#32) a + S1x16.size a ≤ S640x64.size a) :
    View.readAt (Elt F) (sR).view (Rect.unit (s := S640x64) (k0_off37 k 16#32) S1x16.size inb).toLoadRect R = rowV R k 0 16 :=
  rd d L R k 0 16 (k0_off37_eq k ⟨16, by decide⟩) inb
theorem rd_0_17 (R : Buf (Elt F) ((thr d L).loc cc0_scratch1)) (k : Fin k0_t3_loop.trips)
    (inb : ∀ a, (k0_off37 k 17#32) a + S1x16.size a ≤ S640x64.size a) :
    View.readAt (Elt F) (sR).view (Rect.unit (s := S640x64) (k0_off37 k 17#32) S1x16.size inb).toLoadRect R = rowV R k 0 17 :=
  rd d L R k 0 17 (k0_off37_eq k ⟨17, by decide⟩) inb
theorem rd_0_18 (R : Buf (Elt F) ((thr d L).loc cc0_scratch1)) (k : Fin k0_t3_loop.trips)
    (inb : ∀ a, (k0_off37 k 18#32) a + S1x16.size a ≤ S640x64.size a) :
    View.readAt (Elt F) (sR).view (Rect.unit (s := S640x64) (k0_off37 k 18#32) S1x16.size inb).toLoadRect R = rowV R k 0 18 :=
  rd d L R k 0 18 (k0_off37_eq k ⟨18, by decide⟩) inb
theorem rd_0_19 (R : Buf (Elt F) ((thr d L).loc cc0_scratch1)) (k : Fin k0_t3_loop.trips)
    (inb : ∀ a, (k0_off37 k 19#32) a + S1x16.size a ≤ S640x64.size a) :
    View.readAt (Elt F) (sR).view (Rect.unit (s := S640x64) (k0_off37 k 19#32) S1x16.size inb).toLoadRect R = rowV R k 0 19 :=
  rd d L R k 0 19 (k0_off37_eq k ⟨19, by decide⟩) inb
theorem rd_1_0 (R : Buf (Elt F) ((thr d L).loc cc0_scratch1)) (k : Fin k0_t3_loop.trips)
    (inb : ∀ a, (k0_off42 k 0#32) a + S1x16.size a ≤ S640x64.size a) :
    View.readAt (Elt F) (sR).view (Rect.unit (s := S640x64) (k0_off42 k 0#32) S1x16.size inb).toLoadRect R = rowV R k 1 0 :=
  rd d L R k 1 0 (k0_off42_eq k ⟨0, by decide⟩) inb
theorem rd_1_1 (R : Buf (Elt F) ((thr d L).loc cc0_scratch1)) (k : Fin k0_t3_loop.trips)
    (inb : ∀ a, (k0_off42 k 1#32) a + S1x16.size a ≤ S640x64.size a) :
    View.readAt (Elt F) (sR).view (Rect.unit (s := S640x64) (k0_off42 k 1#32) S1x16.size inb).toLoadRect R = rowV R k 1 1 :=
  rd d L R k 1 1 (k0_off42_eq k ⟨1, by decide⟩) inb
theorem rd_1_2 (R : Buf (Elt F) ((thr d L).loc cc0_scratch1)) (k : Fin k0_t3_loop.trips)
    (inb : ∀ a, (k0_off42 k 2#32) a + S1x16.size a ≤ S640x64.size a) :
    View.readAt (Elt F) (sR).view (Rect.unit (s := S640x64) (k0_off42 k 2#32) S1x16.size inb).toLoadRect R = rowV R k 1 2 :=
  rd d L R k 1 2 (k0_off42_eq k ⟨2, by decide⟩) inb
theorem rd_1_3 (R : Buf (Elt F) ((thr d L).loc cc0_scratch1)) (k : Fin k0_t3_loop.trips)
    (inb : ∀ a, (k0_off42 k 3#32) a + S1x16.size a ≤ S640x64.size a) :
    View.readAt (Elt F) (sR).view (Rect.unit (s := S640x64) (k0_off42 k 3#32) S1x16.size inb).toLoadRect R = rowV R k 1 3 :=
  rd d L R k 1 3 (k0_off42_eq k ⟨3, by decide⟩) inb
theorem rd_1_4 (R : Buf (Elt F) ((thr d L).loc cc0_scratch1)) (k : Fin k0_t3_loop.trips)
    (inb : ∀ a, (k0_off42 k 4#32) a + S1x16.size a ≤ S640x64.size a) :
    View.readAt (Elt F) (sR).view (Rect.unit (s := S640x64) (k0_off42 k 4#32) S1x16.size inb).toLoadRect R = rowV R k 1 4 :=
  rd d L R k 1 4 (k0_off42_eq k ⟨4, by decide⟩) inb
theorem rd_1_5 (R : Buf (Elt F) ((thr d L).loc cc0_scratch1)) (k : Fin k0_t3_loop.trips)
    (inb : ∀ a, (k0_off42 k 5#32) a + S1x16.size a ≤ S640x64.size a) :
    View.readAt (Elt F) (sR).view (Rect.unit (s := S640x64) (k0_off42 k 5#32) S1x16.size inb).toLoadRect R = rowV R k 1 5 :=
  rd d L R k 1 5 (k0_off42_eq k ⟨5, by decide⟩) inb
theorem rd_1_6 (R : Buf (Elt F) ((thr d L).loc cc0_scratch1)) (k : Fin k0_t3_loop.trips)
    (inb : ∀ a, (k0_off42 k 6#32) a + S1x16.size a ≤ S640x64.size a) :
    View.readAt (Elt F) (sR).view (Rect.unit (s := S640x64) (k0_off42 k 6#32) S1x16.size inb).toLoadRect R = rowV R k 1 6 :=
  rd d L R k 1 6 (k0_off42_eq k ⟨6, by decide⟩) inb
theorem rd_1_7 (R : Buf (Elt F) ((thr d L).loc cc0_scratch1)) (k : Fin k0_t3_loop.trips)
    (inb : ∀ a, (k0_off42 k 7#32) a + S1x16.size a ≤ S640x64.size a) :
    View.readAt (Elt F) (sR).view (Rect.unit (s := S640x64) (k0_off42 k 7#32) S1x16.size inb).toLoadRect R = rowV R k 1 7 :=
  rd d L R k 1 7 (k0_off42_eq k ⟨7, by decide⟩) inb
theorem rd_1_8 (R : Buf (Elt F) ((thr d L).loc cc0_scratch1)) (k : Fin k0_t3_loop.trips)
    (inb : ∀ a, (k0_off42 k 8#32) a + S1x16.size a ≤ S640x64.size a) :
    View.readAt (Elt F) (sR).view (Rect.unit (s := S640x64) (k0_off42 k 8#32) S1x16.size inb).toLoadRect R = rowV R k 1 8 :=
  rd d L R k 1 8 (k0_off42_eq k ⟨8, by decide⟩) inb
theorem rd_1_9 (R : Buf (Elt F) ((thr d L).loc cc0_scratch1)) (k : Fin k0_t3_loop.trips)
    (inb : ∀ a, (k0_off42 k 9#32) a + S1x16.size a ≤ S640x64.size a) :
    View.readAt (Elt F) (sR).view (Rect.unit (s := S640x64) (k0_off42 k 9#32) S1x16.size inb).toLoadRect R = rowV R k 1 9 :=
  rd d L R k 1 9 (k0_off42_eq k ⟨9, by decide⟩) inb
theorem rd_1_10 (R : Buf (Elt F) ((thr d L).loc cc0_scratch1)) (k : Fin k0_t3_loop.trips)
    (inb : ∀ a, (k0_off42 k 10#32) a + S1x16.size a ≤ S640x64.size a) :
    View.readAt (Elt F) (sR).view (Rect.unit (s := S640x64) (k0_off42 k 10#32) S1x16.size inb).toLoadRect R = rowV R k 1 10 :=
  rd d L R k 1 10 (k0_off42_eq k ⟨10, by decide⟩) inb
theorem rd_1_11 (R : Buf (Elt F) ((thr d L).loc cc0_scratch1)) (k : Fin k0_t3_loop.trips)
    (inb : ∀ a, (k0_off42 k 11#32) a + S1x16.size a ≤ S640x64.size a) :
    View.readAt (Elt F) (sR).view (Rect.unit (s := S640x64) (k0_off42 k 11#32) S1x16.size inb).toLoadRect R = rowV R k 1 11 :=
  rd d L R k 1 11 (k0_off42_eq k ⟨11, by decide⟩) inb
theorem rd_1_12 (R : Buf (Elt F) ((thr d L).loc cc0_scratch1)) (k : Fin k0_t3_loop.trips)
    (inb : ∀ a, (k0_off42 k 12#32) a + S1x16.size a ≤ S640x64.size a) :
    View.readAt (Elt F) (sR).view (Rect.unit (s := S640x64) (k0_off42 k 12#32) S1x16.size inb).toLoadRect R = rowV R k 1 12 :=
  rd d L R k 1 12 (k0_off42_eq k ⟨12, by decide⟩) inb
theorem rd_1_13 (R : Buf (Elt F) ((thr d L).loc cc0_scratch1)) (k : Fin k0_t3_loop.trips)
    (inb : ∀ a, (k0_off42 k 13#32) a + S1x16.size a ≤ S640x64.size a) :
    View.readAt (Elt F) (sR).view (Rect.unit (s := S640x64) (k0_off42 k 13#32) S1x16.size inb).toLoadRect R = rowV R k 1 13 :=
  rd d L R k 1 13 (k0_off42_eq k ⟨13, by decide⟩) inb
theorem rd_1_14 (R : Buf (Elt F) ((thr d L).loc cc0_scratch1)) (k : Fin k0_t3_loop.trips)
    (inb : ∀ a, (k0_off42 k 14#32) a + S1x16.size a ≤ S640x64.size a) :
    View.readAt (Elt F) (sR).view (Rect.unit (s := S640x64) (k0_off42 k 14#32) S1x16.size inb).toLoadRect R = rowV R k 1 14 :=
  rd d L R k 1 14 (k0_off42_eq k ⟨14, by decide⟩) inb
theorem rd_1_15 (R : Buf (Elt F) ((thr d L).loc cc0_scratch1)) (k : Fin k0_t3_loop.trips)
    (inb : ∀ a, (k0_off42 k 15#32) a + S1x16.size a ≤ S640x64.size a) :
    View.readAt (Elt F) (sR).view (Rect.unit (s := S640x64) (k0_off42 k 15#32) S1x16.size inb).toLoadRect R = rowV R k 1 15 :=
  rd d L R k 1 15 (k0_off42_eq k ⟨15, by decide⟩) inb
theorem rd_1_16 (R : Buf (Elt F) ((thr d L).loc cc0_scratch1)) (k : Fin k0_t3_loop.trips)
    (inb : ∀ a, (k0_off42 k 16#32) a + S1x16.size a ≤ S640x64.size a) :
    View.readAt (Elt F) (sR).view (Rect.unit (s := S640x64) (k0_off42 k 16#32) S1x16.size inb).toLoadRect R = rowV R k 1 16 :=
  rd d L R k 1 16 (k0_off42_eq k ⟨16, by decide⟩) inb
theorem rd_1_17 (R : Buf (Elt F) ((thr d L).loc cc0_scratch1)) (k : Fin k0_t3_loop.trips)
    (inb : ∀ a, (k0_off42 k 17#32) a + S1x16.size a ≤ S640x64.size a) :
    View.readAt (Elt F) (sR).view (Rect.unit (s := S640x64) (k0_off42 k 17#32) S1x16.size inb).toLoadRect R = rowV R k 1 17 :=
  rd d L R k 1 17 (k0_off42_eq k ⟨17, by decide⟩) inb
theorem rd_1_18 (R : Buf (Elt F) ((thr d L).loc cc0_scratch1)) (k : Fin k0_t3_loop.trips)
    (inb : ∀ a, (k0_off42 k 18#32) a + S1x16.size a ≤ S640x64.size a) :
    View.readAt (Elt F) (sR).view (Rect.unit (s := S640x64) (k0_off42 k 18#32) S1x16.size inb).toLoadRect R = rowV R k 1 18 :=
  rd d L R k 1 18 (k0_off42_eq k ⟨18, by decide⟩) inb
theorem rd_1_19 (R : Buf (Elt F) ((thr d L).loc cc0_scratch1)) (k : Fin k0_t3_loop.trips)
    (inb : ∀ a, (k0_off42 k 19#32) a + S1x16.size a ≤ S640x64.size a) :
    View.readAt (Elt F) (sR).view (Rect.unit (s := S640x64) (k0_off42 k 19#32) S1x16.size inb).toLoadRect R = rowV R k 1 19 :=
  rd d L R k 1 19 (k0_off42_eq k ⟨19, by decide⟩) inb
theorem rd_2_0 (R : Buf (Elt F) ((thr d L).loc cc0_scratch1)) (k : Fin k0_t3_loop.trips)
    (inb : ∀ a, (k0_off47 k 0#32) a + S1x16.size a ≤ S640x64.size a) :
    View.readAt (Elt F) (sR).view (Rect.unit (s := S640x64) (k0_off47 k 0#32) S1x16.size inb).toLoadRect R = rowV R k 2 0 :=
  rd d L R k 2 0 (k0_off47_eq k ⟨0, by decide⟩) inb
theorem rd_2_1 (R : Buf (Elt F) ((thr d L).loc cc0_scratch1)) (k : Fin k0_t3_loop.trips)
    (inb : ∀ a, (k0_off47 k 1#32) a + S1x16.size a ≤ S640x64.size a) :
    View.readAt (Elt F) (sR).view (Rect.unit (s := S640x64) (k0_off47 k 1#32) S1x16.size inb).toLoadRect R = rowV R k 2 1 :=
  rd d L R k 2 1 (k0_off47_eq k ⟨1, by decide⟩) inb
theorem rd_2_2 (R : Buf (Elt F) ((thr d L).loc cc0_scratch1)) (k : Fin k0_t3_loop.trips)
    (inb : ∀ a, (k0_off47 k 2#32) a + S1x16.size a ≤ S640x64.size a) :
    View.readAt (Elt F) (sR).view (Rect.unit (s := S640x64) (k0_off47 k 2#32) S1x16.size inb).toLoadRect R = rowV R k 2 2 :=
  rd d L R k 2 2 (k0_off47_eq k ⟨2, by decide⟩) inb
theorem rd_2_3 (R : Buf (Elt F) ((thr d L).loc cc0_scratch1)) (k : Fin k0_t3_loop.trips)
    (inb : ∀ a, (k0_off47 k 3#32) a + S1x16.size a ≤ S640x64.size a) :
    View.readAt (Elt F) (sR).view (Rect.unit (s := S640x64) (k0_off47 k 3#32) S1x16.size inb).toLoadRect R = rowV R k 2 3 :=
  rd d L R k 2 3 (k0_off47_eq k ⟨3, by decide⟩) inb
theorem rd_2_4 (R : Buf (Elt F) ((thr d L).loc cc0_scratch1)) (k : Fin k0_t3_loop.trips)
    (inb : ∀ a, (k0_off47 k 4#32) a + S1x16.size a ≤ S640x64.size a) :
    View.readAt (Elt F) (sR).view (Rect.unit (s := S640x64) (k0_off47 k 4#32) S1x16.size inb).toLoadRect R = rowV R k 2 4 :=
  rd d L R k 2 4 (k0_off47_eq k ⟨4, by decide⟩) inb
theorem rd_2_5 (R : Buf (Elt F) ((thr d L).loc cc0_scratch1)) (k : Fin k0_t3_loop.trips)
    (inb : ∀ a, (k0_off47 k 5#32) a + S1x16.size a ≤ S640x64.size a) :
    View.readAt (Elt F) (sR).view (Rect.unit (s := S640x64) (k0_off47 k 5#32) S1x16.size inb).toLoadRect R = rowV R k 2 5 :=
  rd d L R k 2 5 (k0_off47_eq k ⟨5, by decide⟩) inb
theorem rd_2_6 (R : Buf (Elt F) ((thr d L).loc cc0_scratch1)) (k : Fin k0_t3_loop.trips)
    (inb : ∀ a, (k0_off47 k 6#32) a + S1x16.size a ≤ S640x64.size a) :
    View.readAt (Elt F) (sR).view (Rect.unit (s := S640x64) (k0_off47 k 6#32) S1x16.size inb).toLoadRect R = rowV R k 2 6 :=
  rd d L R k 2 6 (k0_off47_eq k ⟨6, by decide⟩) inb
theorem rd_2_7 (R : Buf (Elt F) ((thr d L).loc cc0_scratch1)) (k : Fin k0_t3_loop.trips)
    (inb : ∀ a, (k0_off47 k 7#32) a + S1x16.size a ≤ S640x64.size a) :
    View.readAt (Elt F) (sR).view (Rect.unit (s := S640x64) (k0_off47 k 7#32) S1x16.size inb).toLoadRect R = rowV R k 2 7 :=
  rd d L R k 2 7 (k0_off47_eq k ⟨7, by decide⟩) inb
theorem rd_2_8 (R : Buf (Elt F) ((thr d L).loc cc0_scratch1)) (k : Fin k0_t3_loop.trips)
    (inb : ∀ a, (k0_off47 k 8#32) a + S1x16.size a ≤ S640x64.size a) :
    View.readAt (Elt F) (sR).view (Rect.unit (s := S640x64) (k0_off47 k 8#32) S1x16.size inb).toLoadRect R = rowV R k 2 8 :=
  rd d L R k 2 8 (k0_off47_eq k ⟨8, by decide⟩) inb
theorem rd_2_9 (R : Buf (Elt F) ((thr d L).loc cc0_scratch1)) (k : Fin k0_t3_loop.trips)
    (inb : ∀ a, (k0_off47 k 9#32) a + S1x16.size a ≤ S640x64.size a) :
    View.readAt (Elt F) (sR).view (Rect.unit (s := S640x64) (k0_off47 k 9#32) S1x16.size inb).toLoadRect R = rowV R k 2 9 :=
  rd d L R k 2 9 (k0_off47_eq k ⟨9, by decide⟩) inb
theorem rd_2_10 (R : Buf (Elt F) ((thr d L).loc cc0_scratch1)) (k : Fin k0_t3_loop.trips)
    (inb : ∀ a, (k0_off47 k 10#32) a + S1x16.size a ≤ S640x64.size a) :
    View.readAt (Elt F) (sR).view (Rect.unit (s := S640x64) (k0_off47 k 10#32) S1x16.size inb).toLoadRect R = rowV R k 2 10 :=
  rd d L R k 2 10 (k0_off47_eq k ⟨10, by decide⟩) inb
theorem rd_2_11 (R : Buf (Elt F) ((thr d L).loc cc0_scratch1)) (k : Fin k0_t3_loop.trips)
    (inb : ∀ a, (k0_off47 k 11#32) a + S1x16.size a ≤ S640x64.size a) :
    View.readAt (Elt F) (sR).view (Rect.unit (s := S640x64) (k0_off47 k 11#32) S1x16.size inb).toLoadRect R = rowV R k 2 11 :=
  rd d L R k 2 11 (k0_off47_eq k ⟨11, by decide⟩) inb
theorem rd_2_12 (R : Buf (Elt F) ((thr d L).loc cc0_scratch1)) (k : Fin k0_t3_loop.trips)
    (inb : ∀ a, (k0_off47 k 12#32) a + S1x16.size a ≤ S640x64.size a) :
    View.readAt (Elt F) (sR).view (Rect.unit (s := S640x64) (k0_off47 k 12#32) S1x16.size inb).toLoadRect R = rowV R k 2 12 :=
  rd d L R k 2 12 (k0_off47_eq k ⟨12, by decide⟩) inb
theorem rd_2_13 (R : Buf (Elt F) ((thr d L).loc cc0_scratch1)) (k : Fin k0_t3_loop.trips)
    (inb : ∀ a, (k0_off47 k 13#32) a + S1x16.size a ≤ S640x64.size a) :
    View.readAt (Elt F) (sR).view (Rect.unit (s := S640x64) (k0_off47 k 13#32) S1x16.size inb).toLoadRect R = rowV R k 2 13 :=
  rd d L R k 2 13 (k0_off47_eq k ⟨13, by decide⟩) inb
theorem rd_2_14 (R : Buf (Elt F) ((thr d L).loc cc0_scratch1)) (k : Fin k0_t3_loop.trips)
    (inb : ∀ a, (k0_off47 k 14#32) a + S1x16.size a ≤ S640x64.size a) :
    View.readAt (Elt F) (sR).view (Rect.unit (s := S640x64) (k0_off47 k 14#32) S1x16.size inb).toLoadRect R = rowV R k 2 14 :=
  rd d L R k 2 14 (k0_off47_eq k ⟨14, by decide⟩) inb
theorem rd_2_15 (R : Buf (Elt F) ((thr d L).loc cc0_scratch1)) (k : Fin k0_t3_loop.trips)
    (inb : ∀ a, (k0_off47 k 15#32) a + S1x16.size a ≤ S640x64.size a) :
    View.readAt (Elt F) (sR).view (Rect.unit (s := S640x64) (k0_off47 k 15#32) S1x16.size inb).toLoadRect R = rowV R k 2 15 :=
  rd d L R k 2 15 (k0_off47_eq k ⟨15, by decide⟩) inb
theorem rd_2_16 (R : Buf (Elt F) ((thr d L).loc cc0_scratch1)) (k : Fin k0_t3_loop.trips)
    (inb : ∀ a, (k0_off47 k 16#32) a + S1x16.size a ≤ S640x64.size a) :
    View.readAt (Elt F) (sR).view (Rect.unit (s := S640x64) (k0_off47 k 16#32) S1x16.size inb).toLoadRect R = rowV R k 2 16 :=
  rd d L R k 2 16 (k0_off47_eq k ⟨16, by decide⟩) inb
theorem rd_2_17 (R : Buf (Elt F) ((thr d L).loc cc0_scratch1)) (k : Fin k0_t3_loop.trips)
    (inb : ∀ a, (k0_off47 k 17#32) a + S1x16.size a ≤ S640x64.size a) :
    View.readAt (Elt F) (sR).view (Rect.unit (s := S640x64) (k0_off47 k 17#32) S1x16.size inb).toLoadRect R = rowV R k 2 17 :=
  rd d L R k 2 17 (k0_off47_eq k ⟨17, by decide⟩) inb
theorem rd_2_18 (R : Buf (Elt F) ((thr d L).loc cc0_scratch1)) (k : Fin k0_t3_loop.trips)
    (inb : ∀ a, (k0_off47 k 18#32) a + S1x16.size a ≤ S640x64.size a) :
    View.readAt (Elt F) (sR).view (Rect.unit (s := S640x64) (k0_off47 k 18#32) S1x16.size inb).toLoadRect R = rowV R k 2 18 :=
  rd d L R k 2 18 (k0_off47_eq k ⟨18, by decide⟩) inb
theorem rd_2_19 (R : Buf (Elt F) ((thr d L).loc cc0_scratch1)) (k : Fin k0_t3_loop.trips)
    (inb : ∀ a, (k0_off47 k 19#32) a + S1x16.size a ≤ S640x64.size a) :
    View.readAt (Elt F) (sR).view (Rect.unit (s := S640x64) (k0_off47 k 19#32) S1x16.size inb).toLoadRect R = rowV R k 2 19 :=
  rd d L R k 2 19 (k0_off47_eq k ⟨19, by decide⟩) inb
theorem rd_3_0 (R : Buf (Elt F) ((thr d L).loc cc0_scratch1)) (k : Fin k0_t3_loop.trips)
    (inb : ∀ a, (k0_off52 k 0#32) a + S1x16.size a ≤ S640x64.size a) :
    View.readAt (Elt F) (sR).view (Rect.unit (s := S640x64) (k0_off52 k 0#32) S1x16.size inb).toLoadRect R = rowV R k 3 0 :=
  rd d L R k 3 0 (k0_off52_eq k ⟨0, by decide⟩) inb
theorem rd_3_1 (R : Buf (Elt F) ((thr d L).loc cc0_scratch1)) (k : Fin k0_t3_loop.trips)
    (inb : ∀ a, (k0_off52 k 1#32) a + S1x16.size a ≤ S640x64.size a) :
    View.readAt (Elt F) (sR).view (Rect.unit (s := S640x64) (k0_off52 k 1#32) S1x16.size inb).toLoadRect R = rowV R k 3 1 :=
  rd d L R k 3 1 (k0_off52_eq k ⟨1, by decide⟩) inb
theorem rd_3_2 (R : Buf (Elt F) ((thr d L).loc cc0_scratch1)) (k : Fin k0_t3_loop.trips)
    (inb : ∀ a, (k0_off52 k 2#32) a + S1x16.size a ≤ S640x64.size a) :
    View.readAt (Elt F) (sR).view (Rect.unit (s := S640x64) (k0_off52 k 2#32) S1x16.size inb).toLoadRect R = rowV R k 3 2 :=
  rd d L R k 3 2 (k0_off52_eq k ⟨2, by decide⟩) inb
theorem rd_3_3 (R : Buf (Elt F) ((thr d L).loc cc0_scratch1)) (k : Fin k0_t3_loop.trips)
    (inb : ∀ a, (k0_off52 k 3#32) a + S1x16.size a ≤ S640x64.size a) :
    View.readAt (Elt F) (sR).view (Rect.unit (s := S640x64) (k0_off52 k 3#32) S1x16.size inb).toLoadRect R = rowV R k 3 3 :=
  rd d L R k 3 3 (k0_off52_eq k ⟨3, by decide⟩) inb
theorem rd_3_4 (R : Buf (Elt F) ((thr d L).loc cc0_scratch1)) (k : Fin k0_t3_loop.trips)
    (inb : ∀ a, (k0_off52 k 4#32) a + S1x16.size a ≤ S640x64.size a) :
    View.readAt (Elt F) (sR).view (Rect.unit (s := S640x64) (k0_off52 k 4#32) S1x16.size inb).toLoadRect R = rowV R k 3 4 :=
  rd d L R k 3 4 (k0_off52_eq k ⟨4, by decide⟩) inb
theorem rd_3_5 (R : Buf (Elt F) ((thr d L).loc cc0_scratch1)) (k : Fin k0_t3_loop.trips)
    (inb : ∀ a, (k0_off52 k 5#32) a + S1x16.size a ≤ S640x64.size a) :
    View.readAt (Elt F) (sR).view (Rect.unit (s := S640x64) (k0_off52 k 5#32) S1x16.size inb).toLoadRect R = rowV R k 3 5 :=
  rd d L R k 3 5 (k0_off52_eq k ⟨5, by decide⟩) inb
theorem rd_3_6 (R : Buf (Elt F) ((thr d L).loc cc0_scratch1)) (k : Fin k0_t3_loop.trips)
    (inb : ∀ a, (k0_off52 k 6#32) a + S1x16.size a ≤ S640x64.size a) :
    View.readAt (Elt F) (sR).view (Rect.unit (s := S640x64) (k0_off52 k 6#32) S1x16.size inb).toLoadRect R = rowV R k 3 6 :=
  rd d L R k 3 6 (k0_off52_eq k ⟨6, by decide⟩) inb
theorem rd_3_7 (R : Buf (Elt F) ((thr d L).loc cc0_scratch1)) (k : Fin k0_t3_loop.trips)
    (inb : ∀ a, (k0_off52 k 7#32) a + S1x16.size a ≤ S640x64.size a) :
    View.readAt (Elt F) (sR).view (Rect.unit (s := S640x64) (k0_off52 k 7#32) S1x16.size inb).toLoadRect R = rowV R k 3 7 :=
  rd d L R k 3 7 (k0_off52_eq k ⟨7, by decide⟩) inb
theorem rd_3_8 (R : Buf (Elt F) ((thr d L).loc cc0_scratch1)) (k : Fin k0_t3_loop.trips)
    (inb : ∀ a, (k0_off52 k 8#32) a + S1x16.size a ≤ S640x64.size a) :
    View.readAt (Elt F) (sR).view (Rect.unit (s := S640x64) (k0_off52 k 8#32) S1x16.size inb).toLoadRect R = rowV R k 3 8 :=
  rd d L R k 3 8 (k0_off52_eq k ⟨8, by decide⟩) inb
theorem rd_3_9 (R : Buf (Elt F) ((thr d L).loc cc0_scratch1)) (k : Fin k0_t3_loop.trips)
    (inb : ∀ a, (k0_off52 k 9#32) a + S1x16.size a ≤ S640x64.size a) :
    View.readAt (Elt F) (sR).view (Rect.unit (s := S640x64) (k0_off52 k 9#32) S1x16.size inb).toLoadRect R = rowV R k 3 9 :=
  rd d L R k 3 9 (k0_off52_eq k ⟨9, by decide⟩) inb
theorem rd_3_10 (R : Buf (Elt F) ((thr d L).loc cc0_scratch1)) (k : Fin k0_t3_loop.trips)
    (inb : ∀ a, (k0_off52 k 10#32) a + S1x16.size a ≤ S640x64.size a) :
    View.readAt (Elt F) (sR).view (Rect.unit (s := S640x64) (k0_off52 k 10#32) S1x16.size inb).toLoadRect R = rowV R k 3 10 :=
  rd d L R k 3 10 (k0_off52_eq k ⟨10, by decide⟩) inb
theorem rd_3_11 (R : Buf (Elt F) ((thr d L).loc cc0_scratch1)) (k : Fin k0_t3_loop.trips)
    (inb : ∀ a, (k0_off52 k 11#32) a + S1x16.size a ≤ S640x64.size a) :
    View.readAt (Elt F) (sR).view (Rect.unit (s := S640x64) (k0_off52 k 11#32) S1x16.size inb).toLoadRect R = rowV R k 3 11 :=
  rd d L R k 3 11 (k0_off52_eq k ⟨11, by decide⟩) inb
theorem rd_3_12 (R : Buf (Elt F) ((thr d L).loc cc0_scratch1)) (k : Fin k0_t3_loop.trips)
    (inb : ∀ a, (k0_off52 k 12#32) a + S1x16.size a ≤ S640x64.size a) :
    View.readAt (Elt F) (sR).view (Rect.unit (s := S640x64) (k0_off52 k 12#32) S1x16.size inb).toLoadRect R = rowV R k 3 12 :=
  rd d L R k 3 12 (k0_off52_eq k ⟨12, by decide⟩) inb
theorem rd_3_13 (R : Buf (Elt F) ((thr d L).loc cc0_scratch1)) (k : Fin k0_t3_loop.trips)
    (inb : ∀ a, (k0_off52 k 13#32) a + S1x16.size a ≤ S640x64.size a) :
    View.readAt (Elt F) (sR).view (Rect.unit (s := S640x64) (k0_off52 k 13#32) S1x16.size inb).toLoadRect R = rowV R k 3 13 :=
  rd d L R k 3 13 (k0_off52_eq k ⟨13, by decide⟩) inb
theorem rd_3_14 (R : Buf (Elt F) ((thr d L).loc cc0_scratch1)) (k : Fin k0_t3_loop.trips)
    (inb : ∀ a, (k0_off52 k 14#32) a + S1x16.size a ≤ S640x64.size a) :
    View.readAt (Elt F) (sR).view (Rect.unit (s := S640x64) (k0_off52 k 14#32) S1x16.size inb).toLoadRect R = rowV R k 3 14 :=
  rd d L R k 3 14 (k0_off52_eq k ⟨14, by decide⟩) inb
theorem rd_3_15 (R : Buf (Elt F) ((thr d L).loc cc0_scratch1)) (k : Fin k0_t3_loop.trips)
    (inb : ∀ a, (k0_off52 k 15#32) a + S1x16.size a ≤ S640x64.size a) :
    View.readAt (Elt F) (sR).view (Rect.unit (s := S640x64) (k0_off52 k 15#32) S1x16.size inb).toLoadRect R = rowV R k 3 15 :=
  rd d L R k 3 15 (k0_off52_eq k ⟨15, by decide⟩) inb
theorem rd_3_16 (R : Buf (Elt F) ((thr d L).loc cc0_scratch1)) (k : Fin k0_t3_loop.trips)
    (inb : ∀ a, (k0_off52 k 16#32) a + S1x16.size a ≤ S640x64.size a) :
    View.readAt (Elt F) (sR).view (Rect.unit (s := S640x64) (k0_off52 k 16#32) S1x16.size inb).toLoadRect R = rowV R k 3 16 :=
  rd d L R k 3 16 (k0_off52_eq k ⟨16, by decide⟩) inb
theorem rd_3_17 (R : Buf (Elt F) ((thr d L).loc cc0_scratch1)) (k : Fin k0_t3_loop.trips)
    (inb : ∀ a, (k0_off52 k 17#32) a + S1x16.size a ≤ S640x64.size a) :
    View.readAt (Elt F) (sR).view (Rect.unit (s := S640x64) (k0_off52 k 17#32) S1x16.size inb).toLoadRect R = rowV R k 3 17 :=
  rd d L R k 3 17 (k0_off52_eq k ⟨17, by decide⟩) inb
theorem rd_3_18 (R : Buf (Elt F) ((thr d L).loc cc0_scratch1)) (k : Fin k0_t3_loop.trips)
    (inb : ∀ a, (k0_off52 k 18#32) a + S1x16.size a ≤ S640x64.size a) :
    View.readAt (Elt F) (sR).view (Rect.unit (s := S640x64) (k0_off52 k 18#32) S1x16.size inb).toLoadRect R = rowV R k 3 18 :=
  rd d L R k 3 18 (k0_off52_eq k ⟨18, by decide⟩) inb
theorem rd_3_19 (R : Buf (Elt F) ((thr d L).loc cc0_scratch1)) (k : Fin k0_t3_loop.trips)
    (inb : ∀ a, (k0_off52 k 19#32) a + S1x16.size a ≤ S640x64.size a) :
    View.readAt (Elt F) (sR).view (Rect.unit (s := S640x64) (k0_off52 k 19#32) S1x16.size inb).toLoadRect R = rowV R k 3 19 :=
  rd d L R k 3 19 (k0_off52_eq k ⟨19, by decide⟩) inb

theorem rdZ_0 (Z : Buf (Elt F) ((thr d L).loc cc0_scratch2)) :
    View.readAt (Elt F) (sZ).view (Rect.unit (s := S1x64) ![0, 0] S1x16.size inb_S1x64_S1x16_0_0).toLoadRect Z = zV Z 0 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_0 d L Z l
theorem rdZ_1 (Z : Buf (Elt F) ((thr d L).loc cc0_scratch2)) :
    View.readAt (Elt F) (sZ).view (Rect.unit (s := S1x64) ![0, 16] S1x16.size inb_S1x64_S1x16_0_16).toLoadRect Z = zV Z 1 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_1 d L Z l
theorem rdZ_2 (Z : Buf (Elt F) ((thr d L).loc cc0_scratch2)) :
    View.readAt (Elt F) (sZ).view (Rect.unit (s := S1x64) ![0, 32] S1x16.size inb_S1x64_S1x16_0_32).toLoadRect Z = zV Z 2 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_2 d L Z l
theorem rdZ_3 (Z : Buf (Elt F) ((thr d L).loc cc0_scratch2)) :
    View.readAt (Elt F) (sZ).view (Rect.unit (s := S1x64) ![0, 48] S1x16.size inb_S1x64_S1x16_0_48).toLoadRect Z = zV Z 3 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_3 d L Z l

/-! ## One trip's stores over the scratch -/

/-- Stores that write exactly row `k` of the slab, each piece a block of the slab as it stands after `k + 1` rows,
    take the slab after `k` rows to the slab after `k + 1`. -/
theorem writes_step (R : Buf (Elt F) ((thr d L).loc cc0_scratch1)) (Z : Buf (Elt F) ((thr d L).loc cc0_scratch2))
    (f0 : Buf (Elt F) ((thr d L).loc cc0_scratch3)) (k : Fin k0_t3_loop.trips)
    (Lp : List (View.Piece (Elt F) S32x4x64 .f32))
    (hG : ∀ p ∈ Lp, ∀ x : p.1.shape.Idx, p.2 x = outAfter d L R Z f0 (k.val + 1) (p.1.emb x))
    (hrow : ∀ p ∈ Lp, ∀ y ∈ p.1.set, (y 0).val = k.val)
    (hcov : ∀ y : S32x4x64.Idx, (y 0).val = k.val → ∃ p ∈ Lp, y ∈ p.1.set) :
    (sO).view.writes (Elt F) (outAfter d L R Z f0 k.val) Lp = outAfter d L R Z f0 (k.val + 1) := by
  funext y
  show (sO).view.read (Elt F) ((sO).view.writes (Elt F) (outAfter d L R Z f0 k.val) Lp) y = _
  by_cases hy : (y 0).val = k.val
  · exact View.read_writes_apply_of_pieces _ _ (outAfter d L R Z f0 (k.val + 1)) Lp hG y (hcov y hy)
  · rw [View.read_writes_apply_of_forall_not_mem _ _ y Lp (fun p hp hm => hy (hrow p hp y hm))]
    show outAt R Z f0 k.val (y 0) (y 1) (y 2) = outAt R Z f0 (k.val + 1) (y 0) (y 1) (y 2)
    unfold outAt
    have hiff : ((y 0).val < k.val) ↔ ((y 0).val < k.val + 1) := by omega
    simp only [hiff]

/-- A store of sixteen lanes at row `k`, slot `c`, column group `g` whose payload is the kernel's sum for that slot
    at each lane is a block of the slab after `k + 1` rows. -/
theorem piece_ok (R : Buf (Elt F) ((thr d L).loc cc0_scratch1)) (Z : Buf (Elt F) ((thr d L).loc cc0_scratch2))
    (f0 : Buf (Elt F) ((thr d L).loc cc0_scratch3)) (k : Fin k0_t3_loop.trips) (g c : Fin 4)
    {off : Fin 3 → Nat} (hoff : off = ![k.val, c.val, 16 * g.val])
    {inb : ∀ a, off a + S1x1x16.size a ≤ S32x4x64.size a} {w : S1x1x16.Idx → F .f32}
    (hw : ∀ l : Fin 16, w (ix3 0 0 l) = kernAtF (fun p => rowE R k g p l) (zE Z g l) c) :
    ∀ x : (Rect.unit (s := S32x4x64) off S1x1x16.size inb).shape.Idx,
      w x = outAfter d L R Z f0 (k.val + 1) ((Rect.unit (s := S32x4x64) off S1x1x16.size inb).emb x) := by
  subst hoff
  intro x
  obtain ⟨a, b, l, rfl⟩ : ∃ (a b : Fin 1) (l : Fin 16), x = ix3 a b l := ⟨x 0, x 1, x 2, eq_ix3 (n0 := 1) (n1 := 1) (n2 := 16) x⟩
  obtain rfl : a = 0 := Subsingleton.elim _ _
  obtain rfl : b = 0 := Subsingleton.elim _ _
  rw [hw l]
  show _ = outAt R Z f0 (k.val + 1) ⟨k.val + 1 * 0, _⟩ ⟨c.val + 1 * 0, _⟩ ⟨16 * g.val + 1 * l.val, _⟩
  unfold outAt
  rw [if_pos (show k.val + 1 * 0 < k.val + 1 by omega)]
  have hc : (⟨c.val + 1 * 0, by have := c.isLt; omega⟩ : Fin 4) = c := Fin.ext (by show c.val + 1 * 0 = c.val; omega)
  have he : (⟨16 * g.val + 1 * l.val, by omega⟩ : Fin 64) = ⟨16 * g.val + l.val, by omega⟩ := Fin.ext (by show 16 * g.val + 1 * l.val = 16 * g.val + l.val; omega)
  simp only [hc, he, Nat.mul_zero, Nat.add_zero]
  rfl

/-- Membership in one store's rectangle: row `k`, slot `c`, the sixteen columns of group `g`. -/
theorem mem_piece (k : Fin k0_t3_loop.trips) (g c : Nat) {off : Fin 3 → Nat} (hoff : off = ![k.val, c, 16 * g])
    {inb : ∀ a, off a + S1x1x16.size a ≤ S32x4x64.size a} (y : S32x4x64.Idx) :
    y ∈ (Rect.unit (s := S32x4x64) off S1x1x16.size inb).set ↔
      (y 0).val = k.val ∧ (y 1).val = c ∧ 16 * g ≤ (y 2).val ∧ (y 2).val < 16 * g + 16 := by
  subst hoff
  rw [Rect.mem_set_unit]
  constructor
  · intro h
    have h0 := h ⟨0, by decide⟩; have h1 := h ⟨1, by decide⟩; have h2 := h ⟨2, by decide⟩
    change k.val ≤ (y 0).val ∧ (y 0).val < k.val + 1 at h0
    change c ≤ (y 1).val ∧ (y 1).val < c + 1 at h1
    change 16 * g ≤ (y 2).val ∧ (y 2).val < 16 * g + 16 at h2
    omega
  · rintro ⟨h0, h1, h2, h3⟩ a
    match a with
    | ⟨0, _⟩ => show k.val ≤ (y 0).val ∧ (y 0).val < k.val + 1; omega
    | ⟨1, _⟩ => show c ≤ (y 1).val ∧ (y 1).val < c + 1; omega
    | ⟨2, _⟩ => show 16 * g ≤ (y 2).val ∧ (y 2).val < 16 * g + 16; omega

end Cert.Proof.KernelIdeal
end
-- ==== Proof.KernelIdeal.Compute.lean ====
/-
  One trip of the compute loop, at a symbolic trip number.

  Trip `k` loads, for each of the four groups of sixteen columns, the twenty gathered rows `20 k … 20 k + 19`, adds them
  left to right, adds the lanes of table row 0 and takes away the rows each context slot never sees, and stores the
  four sums to row `k` of the tile's slab. Run from the slab as it stands after `k` rows, the sixteen stores leave the
  slab as it stands after `k + 1` rows: each stored block is, lane by lane, the kernel's sum for its slot, and the
  sixteen blocks are exactly row `k`.
-/
import proofs.«204099_g60593398612478_cont_9to1c4b_39_23_alg».proof.Proof.KernelIdeal.ComputeLemmas

noncomputable section
namespace Cert.Proof.KernelIdeal
open Cert.KernelIdeal Cert.KernelIdeal.Gen
open Idealize.ShloMosaic Idealize.ShloMosaic.ValueIdx
open Cert.Cbow
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

/-- One stored block read at a lane, its loads already named: the payload definitions opened, the vector operations and
    recasts read at the lane, against the kernel's sum opened the same way. -/
local macro "pay_at_lane" : tactic => `(tactic| simp only [k0_pay1, k0_pay2, k0_pay3, k0_pay4, k0_pay5, k0_pay6, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, Idealize.ShloMosaic.addf, Idealize.ShloMosaic.subf, cast3_apply, cast16_apply, cast16_apply', rowV_apply, zV_apply, kernAtF, sum20F])

set_option maxHeartbeats 4000000 in
theorem compute_trip (R : Buf (Elt F) ((thr d L).loc cc0_scratch1)) (Z : Buf (Elt F) ((thr d L).loc cc0_scratch2))
    (f0 : Buf (Elt F) ((thr d L).loc cc0_scratch3)) (k : Fin k0_t3_loop.trips) :
    iprop(((sR).view.loc (thr d L) ↦{fullShare} R) ∗ ((sO).view.loc (thr d L) ↦{fullShare} outAfter d L R Z f0 k.val) : sProp 𝕄)
      ⊢ wp frame (wpE (defs₀ (F := F)) 𝒱₀ (thr d L) none) Set.univ
          (k0_t3_body L xV (Memref.isWhole_whole _) wV (Memref.isWhole_whole _) oV (Memref.isWhole_whole _) sI (Memref.isWhole_whole _) sR (Memref.isWhole_whole _) sZ (Memref.isWhole_whole _) sO (Memref.isWhole_whole _) cc0_scratch4 cc0_scoped0 cc0_scoped1 cc0_scoped2
            (View.readAt (Elt F) (sZ).view (Rect.unit (s := S1x64) ![0, 0] S1x16.size inb_S1x64_S1x16_0_0).toLoadRect Z)
            (View.readAt (Elt F) (sZ).view (Rect.unit (s := S1x64) ![0, 16] S1x16.size inb_S1x64_S1x16_0_16).toLoadRect Z)
            (View.readAt (Elt F) (sZ).view (Rect.unit (s := S1x64) ![0, 32] S1x16.size inb_S1x64_S1x16_0_32).toLoadRect Z)
            (View.readAt (Elt F) (sZ).view (Rect.unit (s := S1x64) ![0, 48] S1x16.size inb_S1x64_S1x16_0_48).toLoadRect Z) k ⟨⟩)
          fun _ => iprop(((sR).view.loc (thr d L) ↦{fullShare} R) ∗ ((sO).view.loc (thr d L) ↦{fullShare} outAfter d L R Z f0 (k.val + 1))) := by
  unfold k0_t3_body
  iintro ⟨HR, HO⟩
  sl_exec
  sl_unfold_run_names
  sl_step
  rw [writes_step d L R Z f0 k _ ?hG ?hrow ?hcov]
  · isplitl [HR]
    · iexact HR
    · iexact HO
  case hG =>
    refine List.forall_mem_cons.2 ⟨?_, ?_⟩
    · refine piece_ok d L R Z f0 k 3 3 (k0_off56_eq k) (inb := k0_off56_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 3 2 (k0_off55_eq k) (inb := k0_off55_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 3 1 (k0_off54_eq k) (inb := k0_off54_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 3 0 (k0_off53_eq k) (inb := k0_off53_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 2 3 (k0_off51_eq k) (inb := k0_off51_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 2 2 (k0_off50_eq k) (inb := k0_off50_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 2 1 (k0_off49_eq k) (inb := k0_off49_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 2 0 (k0_off48_eq k) (inb := k0_off48_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 1 3 (k0_off46_eq k) (inb := k0_off46_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 1 2 (k0_off45_eq k) (inb := k0_off45_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 1 1 (k0_off44_eq k) (inb := k0_off44_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 1 0 (k0_off43_eq k) (inb := k0_off43_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 0 3 (k0_off41_eq k) (inb := k0_off41_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    refine List.forall_mem_cons.2 ⟨?_, ?_⟩
    · refine piece_ok d L R Z f0 k 0 2 (k0_off40_eq k) (inb := k0_off40_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    refine List.forall_mem_cons.2 ⟨?_, ?_⟩
    · refine piece_ok d L R Z f0 k 0 1 (k0_off39_eq k) (inb := k0_off39_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    refine List.forall_mem_cons.2 ⟨?_, ?_⟩
    · refine piece_ok d L R Z f0 k 0 0 (k0_off38_eq k) (inb := k0_off38_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    exact fun _ h => absurd h List.not_mem_nil
  case hrow =>
    refine List.forall_mem_cons.2 ⟨fun y hy => ((mem_piece k 3 3 (k0_off56_eq k) (inb := k0_off56_inb k) y).1 hy).1, ?_⟩
    refine List.forall_mem_cons.2 ⟨fun y hy => ((mem_piece k 3 2 (k0_off55_eq k) (inb := k0_off55_inb k) y).1 hy).1, ?_⟩
    refine List.forall_mem_cons.2 ⟨fun y hy => ((mem_piece k 3 1 (k0_off54_eq k) (inb := k0_off54_inb k) y).1 hy).1, ?_⟩
    refine List.forall_mem_cons.2 ⟨fun y hy => ((mem_piece k 3 0 (k0_off53_eq k) (inb := k0_off53_inb k) y).1 hy).1, ?_⟩
    refine List.forall_mem_cons.2 ⟨fun y hy => ((mem_piece k 2 3 (k0_off51_eq k) (inb := k0_off51_inb k) y).1 hy).1, ?_⟩
    refine List.forall_mem_cons.2 ⟨fun y hy => ((mem_piece k 2 2 (k0_off50_eq k) (inb := k0_off50_inb k) y).1 hy).1, ?_⟩
    refine List.forall_mem_cons.2 ⟨fun y hy => ((mem_piece k 2 1 (k0_off49_eq k) (inb := k0_off49_inb k) y).1 hy).1, ?_⟩
    refine List.forall_mem_cons.2 ⟨fun y hy => ((mem_piece k 2 0 (k0_off48_eq k) (inb := k0_off48_inb k) y).1 hy).1, ?_⟩
    refine List.forall_mem_cons.2 ⟨fun y hy => ((mem_piece k 1 3 (k0_off46_eq k) (inb := k0_off46_inb k) y).1 hy).1, ?_⟩
    refine List.forall_mem_cons.2 ⟨fun y hy => ((mem_piece k 1 2 (k0_off45_eq k) (inb := k0_off45_inb k) y).1 hy).1, ?_⟩
    refine List.forall_mem_cons.2 ⟨fun y hy => ((mem_piece k 1 1 (k0_off44_eq k) (inb := k0_off44_inb k) y).1 hy).1, ?_⟩
    refine List.forall_mem_cons.2 ⟨fun y hy => ((mem_piece k 1 0 (k0_off43_eq k) (inb := k0_off43_inb k) y).1 hy).1, ?_⟩
    refine List.forall_mem_cons.2 ⟨fun y hy => ((mem_piece k 0 3 (k0_off41_eq k) (inb := k0_off41_inb k) y).1 hy).1, ?_⟩
    refine List.forall_mem_cons.2 ⟨fun y hy => ((mem_piece k 0 2 (k0_off40_eq k) (inb := k0_off40_inb k) y).1 hy).1, ?_⟩
    refine List.forall_mem_cons.2 ⟨fun y hy => ((mem_piece k 0 1 (k0_off39_eq k) (inb := k0_off39_inb k) y).1 hy).1, ?_⟩
    refine List.forall_mem_cons.2 ⟨fun y hy => ((mem_piece k 0 0 (k0_off38_eq k) (inb := k0_off38_inb k) y).1 hy).1, ?_⟩
    exact fun _ h => absurd h List.not_mem_nil
  case hcov =>
    intro y hy
    have h1 : (y 1).val < 4 := (y 1).isLt
    have h2 : (y 2).val < 64 := (y 2).isLt
    rcases (show (y 1).val = 0 ∨ (y 1).val = 1 ∨ (y 1).val = 2 ∨ (y 1).val = 3 by omega) with hc | hc | hc | hc
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem_piece k 0 0 (k0_off38_eq k) (inb := k0_off38_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem_piece k 1 0 (k0_off43_eq k) (inb := k0_off43_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_piece k 2 0 (k0_off48_eq k) (inb := k0_off48_inb k) y).2 ⟨hy, hc, by omega, by omega⟩⟩
      · exact ⟨_, List.mem_cons_of_mem _ (List.mem_cons_of_mem _ (List.mem_cons_of_mem _ (List.mem_cons_self))), (mem_piece k 3 0 (k0_off53_eq k) (inb := k0_off53_inb k) y).2 ⟨hy, hc, by omega, by omega⟩⟩
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem_piece k 0 1 (k0_off39_eq k) (inb := k0_off39_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem_piece k 1 1 (k0_off44_eq k) (inb := k0_off44_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_self)))))), (mem_piece k 2 1 (k0_off49_eq k) (inb := k0_off49_inb k) y).2 ⟨hy, hc, by omega, by omega⟩⟩
      · exact ⟨_, List.mem_cons_of_mem _ (List.mem_cons_of_mem _ (List.mem_cons_self)), (mem_piece k 3 1 (k0_off54_eq k) (inb := k0_off54_inb k) y).2 ⟨hy, hc, by omega, by omega⟩⟩
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem_piece k 0 2 (k0_off40_eq k) (inb := k0_off40_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem_piece k 1 2 (k0_off45_eq k) (inb := k0_off45_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_self))))), (mem_piece k 2 2 (k0_off50_eq k) (inb := k0_off50_inb k) y).2 ⟨hy, hc, by omega, by omega⟩⟩
      · exact ⟨_, List.mem_cons_of_mem _ (List.mem_cons_self), (mem_piece k 3 2 (k0_off55_eq k) (inb := k0_off55_inb k) y).2 ⟨hy, hc, by omega, by omega⟩⟩
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem_piece k 0 3 (k0_off41_eq k) (inb := k0_off41_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem_piece k 1 3 (k0_off46_eq k) (inb := k0_off46_inb k) y).2 ⟨hy, hc, by omega, by omega⟩⟩
      · exact ⟨_, List.mem_cons_of_mem _ (List.mem_cons_of_mem _ (List.mem_cons_of_mem _ (List.mem_cons_of_mem _ (List.mem_cons_self)))), (mem_piece k 2 3 (k0_off51_eq k) (inb := k0_off51_inb k) y).2 ⟨hy, hc, by omega, by omega⟩⟩
      · exact ⟨_, List.mem_cons_self, (mem_piece k 3 3 (k0_off56_eq k) (inb := k0_off56_inb k) y).2 ⟨hy, hc, by omega, by omega⟩⟩

end Cert.Proof.KernelIdeal
end
-- ==== Proof.KernelIdeal.Values.lean ====
/-
  What the tile's scratches hold, read at an index.

  The token scratch holds row `w` of the re-laid tokens; row `t` of the gathered-rows scratch holds the 64 entries
  of the table row token `t` names (row `tok / 8`, sub-row `tok % 8` of the re-laid table); the row-0 scratch holds
  table row 0. From these the four context sums the tile forms for row `b` of its slab are the result's entries at
  row `32 w + b`.
-/
import proofs.«204099_g60593398612478_cont_9to1c4b_39_23_alg».proof.Proof.KernelIdeal.Head
import proofs.«204099_g60593398612478_cont_9to1c4b_39_23_alg».proof.Proof.Relay
import proofs.«204099_g60593398612478_cont_9to1c4b_39_23_alg».proof.Proof.KernelIdeal.Chk

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (m : (ℓ : Loc nD τ sig) → Buf (Elt F) ℓ)

/-! ## Where the slices' indices sit in their arrays -/

/-- Word `t` of the first 640 words of the token scratch is word `t` of the scratch. -/
theorem head640_emb (t : Fin 640) :
    (Rect.unit (s := S656) ![0] S640.size inb_S656_S640_0).emb (ix1 t) = (ix1 (⟨t.val, by omega⟩ : Fin 656) : S656.Idx) := by
  funext a; apply Fin.ext
  match a with
  | ⟨0, _⟩ => show 0 + 1 * t.val = t.val; omega

/-- Entry `t` of row `w` of the re-laid tokens, as the body slices and squeezes it, is entry `(w, t)`. -/
theorem xRow_emb (L : grid0.Coords) (t : Fin 640) :
    ((xRowM L).view.emb (ix1 t) : S32x640.Idx) = ix2 (widL L) t := by
  have hre : Shape.reshapeEquiv (squeezes_S1x640_S640).numel_eq (ix1 t) = (ix2 (0 : Fin 1) t : S1x640.Idx) :=
    Shape.reshapeEquiv_eq_of_rowMajor _ (by
      rw [Shape.rowMajor_val_two, Shape.rowMajor_val_one]; show 0 * 640 + t.val = t.val; omega)
  show (Rect.unit (s := S32x640) (k0_off1 L) S1x640.size (k0_off1_inb L)).emb (Shape.reshapeEquiv _ (ix1 t)) = _
  rw [hre]
  funext a; apply Fin.ext
  rw [Rect.emb_apply, Rect.off_unit, Rect.stride_unit]
  have h0 : k0_off1 L 0 = 2 * (L 1).val + (L 0).val := congrFun (k0_off1_eq L) 0
  have h1 : k0_off1 L 1 = 0 := congrFun (k0_off1_eq L) 1
  match a with
  | ⟨0, _⟩ => show k0_off1 L 0 + 1 * 0 = 2 * (L 1).val + (L 0).val; omega
  | ⟨1, _⟩ => show k0_off1 L 1 + 1 * t.val = t.val; omega

/-- Entry `e` of row `t` of the gathered-rows scratch is entry `(t, e)`. -/
theorem rowM_emb (t : Fin 640) (e : Fin 64) : ((rowM t).view.emb (ix2 (0 : Fin 1) e) : S640x64.Idx) = ix2 t e := by
  funext a; apply Fin.ext
  match a with
  | ⟨0, _⟩ => show t.val + 1 * 0 = t.val; omega
  | ⟨1, _⟩ => show 0 + 1 * e.val = e.val; omega

/-- A unit row of 64 entries squeezed out of one sub-row: entry `e` is entry `(0, 0, e)` of the sub-row's slice. -/
theorem squeeze64 (e : Fin 64) :
    Shape.reshapeEquiv (squeezes_S1x1x64_S1x64).numel_eq (ix2 (0 : Fin 1) e) = (ix3 (0 : Fin 1) (0 : Fin 1) e : S1x1x64.Idx) :=
  Shape.reshapeEquiv_eq_of_rowMajor _ (by
    rw [Shape.rowMajor_val_three, Shape.rowMajor_val_two]; show (0 * 1 + 0) * 64 + e.val = 0 * 64 + e.val; omega)

/-- Entry `e` of the table row a token in range names is entry `(tok / 8, tok % 8, e)` of the re-laid table. -/
theorem srcM_emb (v : BitVec 32) (hv : k0_chk1 v) (hle : v.toNat ≤ 999999) (e : Fin 64) :
    ((srcM v hv).view.emb (ix2 (0 : Fin 1) e) : S125000x8x64.Idx)
      = ix3 (⟨v.toNat / 8, by omega⟩ : Fin 125000) (⟨v.toNat % 8, Nat.mod_lt _ (by decide)⟩ : Fin 8) e := by
  show (Rect.unit (s := S125000x8x64) (k0_off4 v) S1x1x64.size (k0_off4_inb v hv)).emb (Shape.reshapeEquiv _ (ix2 (0 : Fin 1) e)) = _
  rw [squeeze64]
  funext a; apply Fin.ext
  rw [Rect.emb_apply, Rect.off_unit, Rect.stride_unit]
  have h0 : k0_off4 v 0 = v.toNat / 8 := congrFun (off4_eq v) 0
  have h1 : k0_off4 v 1 = v.toNat % 8 := congrFun (off4_eq v) 1
  have h2 : k0_off4 v 2 = 0 := congrFun (off4_eq v) 2
  match a with
  | ⟨0, _⟩ => show k0_off4 v 0 + 1 * 0 = v.toNat / 8; omega
  | ⟨1, _⟩ => show k0_off4 v 1 + 1 * 0 = v.toNat % 8; omega
  | ⟨2, _⟩ => show k0_off4 v 2 + 1 * e.val = e.val; omega

/-- Entry `e` of sub-row 0 of row 0 of the re-laid table is entry `(0, 0, e)`. -/
theorem w0M_emb (e : Fin 64) :
    ((w0M).view.emb (ix2 (0 : Fin 1) e) : S125000x8x64.Idx) = ix3 (0 : Fin 125000) (0 : Fin 8) e := by
  show (Rect.unit (s := S125000x8x64) ![0, 0, 0] S1x1x64.size inb_S125000x8x64_S1x1x64_0_0_0).emb (Shape.reshapeEquiv _ (ix2 (0 : Fin 1) e)) = _
  rw [squeeze64]
  funext a; apply Fin.ext
  match a with
  | ⟨0, _⟩ => show 0 + 1 * 0 = 0; omega
  | ⟨1, _⟩ => show 0 + 1 * 0 = 0; omega
  | ⟨2, _⟩ => show 0 + 1 * e.val = e.val; omega

/-! ## The tokens -/

/-- Token `t` of the tile, once its tokens are copied, is token `t` of worker `w`'s row of the re-laid tokens. -/
theorem tokAt_CI0 (d : Dev nD) (L : grid0.Coords) (fI : Buf (Elt F) ((thr d L).loc cc0_scratch0)) (t : Fin 640) :
    tokAt d L (CI0 d L (X2 m d) fI) t = tokW m d (widL L) t := by
  unfold tokAt CI0 tokW
  rw [← head640_emb t]
  have h := View.read_writes_cons_emb (sI : Memref sig .scVector .vmem S656 .i32).view fI
    (Rect.unit (s := S656) ![0] S640.size inb_S656_S640_0) (ReadAs.same.apply ((xRowM L).view.read (Elt F) (X2 m d))) [] (ix1 t)
  refine h.trans ?_
  show (xRowM L).view.read (Elt F) (X2 m d) (ix1 t) = _
  rw [View.read_apply, xRow_emb]
  rfl

/-- With every token of the arguments a row of the table, so is every token the tile holds. -/
theorem tokOK_CI0 (hpre : PreOK m) (d : Dev nD) (L : grid0.Coords) (fI : Buf (Elt F) ((thr d L).loc cc0_scratch0)) :
    TokOK d L (CI0 d L (X2 m d) fI) := by
  intro i hi
  have h := tokAt_CI0 m d L fI ⟨(i 0).val, hi⟩
  unfold tokAt at h
  have hi' : i = ix1 (⟨(i 0).val, by omega⟩ : Fin 656) := eq_ix1 i
  rw [hi', h]
  unfold tokW X2
  rw [Cert.Cbow.Relay.x2_apply (m (a0Loc d)) shapeCasts_S1024x20_S32x640 (widL L) ⟨(i 0).val, hi⟩]
  exact hpre d _

/-! ## The gathered rows and row 0 -/

theorem Rf_apply (d : Dev nD) (L : grid0.Coords) (Wt : Buf (Elt F) (wLoc d)) (CI : Buf (Elt F) ((thr d L).loc cc0_scratch0))
    (fR : Buf (Elt F) ((thr d L).loc cc0_scratch1)) (hCI : TokOK d L CI) (t : Fin 640) (e : Fin 64) :
    Rf d L Wt CI fR hCI (ix2 t e)
      = Wt (ix3 (⟨(tokAt d L CI t).toNat / 8, by have := tokAt_le d L CI hCI t; omega⟩ : Fin 125000)
          (⟨(tokAt d L CI t).toNat % 8, Nat.mod_lt _ (by decide)⟩ : Fin 8) e) := by
  have hle := tokAt_le d L CI hCI t
  show landed d L Wt CI fR hCI t (ix2 t e) = _
  unfold landed
  rw [← rowM_emb t e, View.write_emb_of_mem _ _ (Finset.mem_univ _)]
  show (srcM (tokAt d L CI t) (chk1_of_le _ hle)).view.read (Elt F) Wt (ix2 (0 : Fin 1) e) = _
  rw [View.read_apply, srcM_emb _ _ hle]
  rfl

theorem Rf_row (d : Dev nD) (L : grid0.Coords) (CI : Buf (Elt F) ((thr d L).loc cc0_scratch0))
    (fR : Buf (Elt F) ((thr d L).loc cc0_scratch1)) (hCI : TokOK d L CI) (t : Fin 640) (e : Fin 64) :
    Rf d L (W3 m d) CI fR hCI (ix2 t e) = W3row m d (tokAt d L CI t) e := by
  have hle := tokAt_le d L CI hCI t
  rw [Rf_apply]
  unfold W3row
  exact congrArg (fun a => W3 m d (ix3 a (⟨(tokAt d L CI t).toNat % 8, Nat.mod_lt _ (by decide)⟩ : Fin 8) e))
    (Fin.ext (Nat.mod_eq_of_lt (by omega)).symm)

theorem Z0_apply (d : Dev nD) (L : grid0.Coords) (fZ : Buf (Elt F) ((thr d L).loc cc0_scratch2)) (e : Fin 64) :
    Z0 d L (W3 m d) fZ (ix2 (0 : Fin 1) e) = W3 m d (ix3 (0 : Fin 125000) (0 : Fin 8) e) := by
  unfold Z0
  have h := View.write_emb_of_mem (v := (sZ : Memref sig .scVector .vmem S1x64 .f32).view) (Val := Elt F) fZ
    (ReadAs.same.apply ((w0M).view.read (Elt F) (W3 m d))) (M := Finset.univ) (x := ix2 (0 : Fin 1) e) (Finset.mem_univ _)
  refine h.trans ?_
  show (w0M).view.read (Elt F) (W3 m d) (ix2 (0 : Fin 1) e) = _
  rw [View.read_apply, w0M_emb]
  rfl

/-! ## The slab -/

theorem slab_value (d : Dev nD) (L : grid0.Coords) (fI : Buf (Elt F) ((thr d L).loc cc0_scratch0))
    (fR : Buf (Elt F) ((thr d L).loc cc0_scratch1)) (fZ : Buf (Elt F) ((thr d L).loc cc0_scratch2))
    (hCI : TokOK d L (CI0 d L (X2 m d) fI)) (b : Fin 32) (c : Fin 4) (e : Fin 64) :
    kernAtF (fun p : Fin 20 => Rf d L (W3 m d) (CI0 d L (X2 m d) fI) fR hCI (ix2 (⟨20 * b.val + p.val, by omega⟩ : Fin 640) e))
        (Z0 d L (W3 m d) fZ (ix2 (0 : Fin 1) e)) c
      = Gat m d (⟨32 * (widL L).val + b.val, by have := (widL L).isLt; omega⟩ : Fin 1024) c e := by
  have hw := (widL L).isLt
  have hb := b.isLt
  have h1 : (32 * (widL L).val + b.val) / 32 = (widL L).val := by omega
  have h2 : (32 * (widL L).val + b.val) % 32 = b.val := by omega
  unfold Gat
  refine congrArg₂ (fun r z => kernAtF r z c) (funext fun p => ?_) (Z0_apply m d L fZ e)
  rw [Rf_row, tokAt_CI0]
  exact congrArg₂ (fun a t => W3row m d (tokW m d a t) e) (Fin.ext h1.symm)
    (Fin.ext (by show 20 * b.val + p.val = 20 * ((32 * (widL L).val + b.val) % 32) + p.val; rw [h2]))

end Cert.Proof.KernelIdeal

end
-- ==== Proof.KernelIdeal.Tile.lean ====
/-
  One tile's task, whole: the head's two copies, the gather's 640 issues and 640 waits, the sums, and the copy of the
  tile's slab of the result back to the result array.
-/
import proofs.«204099_g60593398612478_cont_9to1c4b_39_23_alg».proof.Proof.KernelIdeal.Head
import proofs.«204099_g60593398612478_cont_9to1c4b_39_23_alg».proof.Proof.KernelIdeal.Scoped
import proofs.«204099_g60593398612478_cont_9to1c4b_39_23_alg».proof.Proof.KernelIdeal.FireTrip
import proofs.«204099_g60593398612478_cont_9to1c4b_39_23_alg».proof.Proof.KernelIdeal.Drain
import proofs.«204099_g60593398612478_cont_9to1c4b_39_23_alg».proof.Proof.KernelIdeal.Compute
import proofs.«204099_g60593398612478_cont_9to1c4b_39_23_alg».proof.Proof.KernelIdeal.Values

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (d : Dev nD) (L : grid0.Coords)

variable (m : (ℓ : Loc nD τ sig) → Buf (Elt F) ℓ)

/-! ## The tile's slab, as the body slices it -/

omit [FloatOps F] [∀ e, Nonempty (Elt F e)] in
theorem oRect_eq : Rect.unit (s := S1024x4x64) (k0_off57 L) S32x4x64.size (k0_off57_inb L) = slab (widL L) := by
  unfold slab Rect.part Rect.block
  congr 1 <;> funext a
  · rw [k0_off57_eq]
    match a with
    | 0 =>
      show 64 * (L 1).val + 32 * (L 0).val = (2 * (L 1).val + (L 0).val) * (1024 / 32)
      omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] [∀ e, Nonempty (Elt F e)] in
theorem set_oSlice : (oSliceM L).view.set = slabSet (widL L) := by
  show ((oV : Memref sig .scVector .hbm S1024x4x64 .f32).view.slice (Rect.unit (s := S1024x4x64) (k0_off57 L) S32x4x64.size (k0_off57_inb L))).set
    = ((oV : Memref sig .scVector .hbm S1024x4x64 .f32).view.slice (slab (widL L))).set
  exact oRect_eq L ▸ rfl

theorem outAfter_zero (d : Dev nD) (L : grid0.Coords) (R : Buf (Elt F) ((thr d L).loc cc0_scratch1)) (Z : Buf (Elt F) ((thr d L).loc cc0_scratch2))
    (f0 : Buf (Elt F) ((thr d L).loc cc0_scratch3)) : outAfter d L R Z f0 0 = f0 := by
  funext i
  unfold outAfter outAt
  rw [if_neg (Nat.not_lt_zero _)]
  exact congrArg f0 (ValueIdx.eq_ix3 i).symm

theorem trips3 : k0_t3_loop.trips = 32 := by decide

/-- On the tile's slab, what the final copy wrote is the result. -/
theorem final_value (fI : Buf (Elt F) ((thr d L).loc cc0_scratch0)) (fR : Buf (Elt F) ((thr d L).loc cc0_scratch1)) (fZ : Buf (Elt F) ((thr d L).loc cc0_scratch2))
    (fO : Buf (Elt F) ((thr d L).loc cc0_scratch3)) (hCI : TokOK d L (CI0 d L (X2 m d) fI)) :
    ∀ i ∈ (oSliceM L).view.set,
      (oSliceM L).view.writes (Elt F) (m (oLoc d)) [⟨Rect.whole S32x4x64, ReadAs.same.apply ((sO).view.read (Elt F)
        (outAfter d L (Rf d L (W3 m d) (CI0 d L (X2 m d) fI) fR hCI) (Z0 d L (W3 m d) fZ) fO 32))⟩] i = G m d i := by
  intro i hi
  rw [← View.write_univ_eq_writes_whole]
  obtain ⟨y, -, rfl⟩ := Finset.mem_map.mp hi
  rw [View.write_emb_of_mem _ _ (Finset.mem_univ y)]
  show outAfter d L (Rf d L (W3 m d) (CI0 d L (X2 m d) fI) fR hCI) (Z0 d L (W3 m d) fZ) fO 32 y = G m d ((oSliceM L).view.emb y)
  unfold outAfter outAt G
  rw [if_pos (show (y 0).val < 32 from (y 0).isLt)]
  refine (slab_value m d L fI fR fZ hCI (y 0) (y 1) (y 2)).trans ?_
  have e0 : (oSliceM L).view.emb y 0 = (⟨32 * (widL L).val + (y 0).val, by have := (widL L).isLt; have h32 : (y 0).val < 32 := (y 0).isLt; omega⟩ : Fin 1024) := by
    apply Fin.ext
    show k0_off57 L 0 + 1 * (y 0).val = 32 * (2 * (L 1).val + (L 0).val) + (y 0).val
    rw [k0_off57_eq]
    show 64 * (L 1).val + 32 * (L 0).val + 1 * (y 0).val = _
    omega
  have e1 : (oSliceM L).view.emb y 1 = y 1 := by
    apply Fin.ext
    show k0_off57 L 1 + 1 * (y 1).val = (y 1).val
    rw [k0_off57_eq]; show 0 + 1 * (y 1).val = _; omega
  have e2 : (oSliceM L).view.emb y 2 = y 2 := by
    apply Fin.ext
    show k0_off57 L 2 + 1 * (y 2).val = (y 2).val
    rw [k0_off57_eq]; show 0 + 1 * (y 2).val = _; omega
  rw [e0, e1, e2]

/-! ## The task -/

/-- One tile's task: from its shares of the re-laid arrays, its slab of the result, its scratch and semaphores, the body
    runs to its end and leaves the slab at the result. -/
theorem tile_body (hpre : PreOK m) : TileBody (F := F) m := by
  intro d L O W hO
  rw [cc0__cbow_body_eq_skeleton]; unfold cc0__cbow_body_skel
  rw [(K (F := F)).scopedBufs_V facts d (cV L) (jV L), SparseCore.Cfg.scopedSems0_V (Val := Elt F) d (cV L) (jV L)]
  show iprop(_ ∗ _ ∗ _ ∗ ownBufs (thr d L) ∗ ownSems0 (thr d L) ∗ _) ⊢ wp _ _ _ _ (fun _ => iprop(_ ∗ ownBufs (thr d L) ∗ ownSems0 (thr d L) ∗ _))
  rw [ownSems0_V, ownBufs_V]
  unfold goRes
  iintro ⟨#Hlv, -, ⟨Hx, Hw, Ho⟩, ⟨⟨%fI, HI⟩, ⟨%fR, HR⟩, ⟨%fZ, HZ⟩, ⟨%fO, HO3⟩, Hbufs⟩, ⟨Hs4, Hs0, Hs1, Hs2, Hsems⟩, HO⟩
  ihave Hmw := ((K (F := F)).mayWaits_none (thr := thr d L) hO) $$ Hlv
  ihave Hx' := (Entails.of_eq (show (xLoc d ↦{Transfers.shareTok fullShare 32 (widL L)} X2 m d : sProp 𝕄) = ((xV).view.loc (thr d L) ↦{Transfers.shareTok fullShare 32 (widL L)} X2 m d) from rfl)) $$ Hx
  ihave Hw' := (Entails.of_eq (show (wLoc d ↦{Transfers.shareTok fullShare 32 (widL L)} W3 m d : sProp 𝕄) = ((wV).view.loc (thr d L) ↦{Transfers.shareTok fullShare 32 (widL L)} W3 m d) from rfl)) $$ Hw
  ihave HI' := (Entails.of_eq (show ((thr d L).loc cc0_scratch0 ↦{fullShare} fI : sProp 𝕄) = ((sI).view.loc (thr d L) ↦{fullShare} fI) from rfl)) $$ HI
  ihave HZ' := (Entails.of_eq (show ((thr d L).loc cc0_scratch2 ↦{fullShare} fZ : sProp 𝕄) = ((sZ).view.loc (thr d L) ↦{fullShare} fZ) from rfl)) $$ HZ
  -- the head: the tile's tokens and table row 0 copied in, each copy waited for
  sl_exec
  -- the gather's batch, allocated on the kernel's semaphore at zero before the first issue
  have hCI : TokOK d L (CI0 d L (X2 m d) fI) := tokOK_CI0 m hpre d L fI
  imod (Transfers.batch_alloc' (Lvl := ℕ) (countersEmb (U := UU)) (thr d L) (none : HIx 1) NR (Dv d L (W3 m d) (CI0 d L (X2 m d) fI) fR hCI)
    (sm := .dma cc0_scratch4.sem) (E := Set.univ)) $$ Hs4 with HB
  -- a read share of the table per transfer, and the scratch row by row
  ihave Hw2 := (Transfers.pointsTo_toks_split (ℓ := (wV).view.loc (thr d L)) (S := Finset.univ) (f := W3 m d) (Transfers.shareTok fullShare 32 (widL L)) 640) $$ Hw'
  icases Hw2 with ⟨-, Hwtoks⟩
  ihave HRr := (Entails.of_eq (show ((thr d L).loc cc0_scratch1 ↦{fullShare} fR : sProp 𝕄)
      = bigSep Finset.univ fun t : Fin 640 => (rLoc d L ↦[rowSetR t]{fullShare} fR : sProp 𝕄) from by
    rw [← pointsTo_biUnion Finset.univ (ℓ := rLoc d L) rowSetR rows_disjoint, rows_cover])) $$ HR
  sl_for (invFire d L (W3 m d) (CI0 d L (X2 m d) fI) fR hCI O (insert ((SemLoc.dma cc0_scoped1.sem : SemLoc sig), (default : HIx 1)) (insert ((SemLoc.dma cc0_scoped0.sem : SemLoc sig), (default : HIx 1)) W)) (fun t : Fin 640 => Transfers.shareTok (Transfers.shareTok fullShare 32 (widL L)) 640 t)) $$ [Hmw HI' Hwtoks HRr HB HO]
  case region =>
    intro k _
    exact fire_trip d L (W3 m d) (CI0 d L (X2 m d) fI) fR hCI O _ _ k
  · unfold invFire
    isplitr; · iexact Hmw
    isplitl [HI']; · iexact HI'
    isplitl [Hwtoks HRr]
    · rw [show 16 * 0 = 0 from rfl, ← Transfers.bigSep_pending_zero, bigSep_sep']
      isplitl [Hwtoks]; · iexact Hwtoks
      iexact HRr
    isplitl [HB]; · unfold BatchH; iexact HB
    iexact HO
  iintro %_ Hinv
  -- every copy is issued: the batch at 640, nothing waited for
  ihave Hinv' := (Entails.of_eq (show invFire d L (W3 m d) (CI0 d L (X2 m d) fI) fR hCI O (insert ((SemLoc.dma cc0_scoped1.sem : SemLoc sig), (default : HIx 1)) (insert ((SemLoc.dma cc0_scoped0.sem : SemLoc sig), (default : HIx 1)) W)) (fun t : Fin 640 => Transfers.shareTok (Transfers.shareTok fullShare 32 (widL L)) 640 t) (Scf.trips k0_t1_loop.lb k0_t1_loop.ub k0_t1_loop.st) ⟨⟩
      = iprop(Transfers.MayWaits (thr d L) (none : HIx 1) O ∗ ((sI).view.loc (thr d L) ↦{fullShare} (CI0 d L (X2 m d) fI))
          ∗ bigSep (Transfers.pending (n := 640) 640) (pendΦ d L (W3 m d) fR (fun t : Fin 640 => Transfers.shareTok (Transfers.shareTok fullShare 32 (widL L)) 640 t))
          ∗ BatchD d L (W3 m d) (CI0 d L (X2 m d) fI) fR hCI 0 ∗ owes (thr d L) O (insert ((SemLoc.dma cc0_scoped1.sem : SemLoc sig), (default : HIx 1)) (insert ((SemLoc.dma cc0_scoped0.sem : SemLoc sig), (default : HIx 1)) W))) from by
    unfold invFire BatchH BatchD; rw [show Scf.trips k0_t1_loop.lb k0_t1_loop.ub k0_t1_loop.st = 40 from trips1]; rfl)) $$ Hinv
  icases Hinv' with ⟨-, HI', -, HB, HO⟩
  sl_exec
  sl_for (invDrain d L (W3 m d) (CI0 d L (X2 m d) fI) fR hCI O (insert ((SemLoc.dma cc0_scoped1.sem : SemLoc sig), (default : HIx 1)) (insert ((SemLoc.dma cc0_scoped0.sem : SemLoc sig), (default : HIx 1)) W))) $$ [Hmw HB HO]
  case region =>
    intro k _
    exact drain_trip d L (W3 m d) (CI0 d L (X2 m d) fI) fR hCI O _ k
  · unfold invDrain
    rw [if_pos (show 0 < 640 by decide)]
    isplitr; · iexact Hmw
    isplitl [HB]; · iexact HB
    iexists _; isplitr
    · ipureintro; exact fun p hp => .inl hp
    · iexact HO
  iintro %_ Hinv2
  ihave Hinv2' := (Entails.of_eq (show invDrain d L (W3 m d) (CI0 d L (X2 m d) fI) fR hCI O (insert ((SemLoc.dma cc0_scoped1.sem : SemLoc sig), (default : HIx 1)) (insert ((SemLoc.dma cc0_scoped0.sem : SemLoc sig), (default : HIx 1)) W)) (Scf.trips k0_t2_loop.lb k0_t2_loop.ub k0_t2_loop.st) ⟨⟩
      = iprop(Transfers.MayWaits (thr d L) (none : HIx 1) O
          ∗ iprop(bigSep Finset.univ (Dv d L (W3 m d) (CI0 d L (X2 m d) fI) fR hCI) ∗ semVal (thr d L, SemLoc.dma cc0_scratch4.sem) 0)
          ∗ ∃ W', ⌜∀ p ∈ W', p ∈ (insert ((SemLoc.dma cc0_scoped1.sem : SemLoc sig), (default : HIx 1)) (insert ((SemLoc.dma cc0_scoped0.sem : SemLoc sig), (default : HIx 1)) W)) ∨ p.2 = none⌝ ∗ owes (thr d L) O W') from by
    unfold invDrain; rw [show Scf.trips k0_t2_loop.lb k0_t2_loop.ub k0_t2_loop.st = 640 from trips2, if_neg (show ¬ (640 < 640) by decide)])) $$ Hinv2
  icases Hinv2' with ⟨-, ⟨HD, Hs4⟩, %W2, %hW2, HO⟩
  -- the 640 landed rows are the whole scratch
  ihave HRf := (rows_join d L (W3 m d) (CI0 d L (X2 m d) fI) fR hCI) $$ HD
  ihave HR' := (Entails.of_eq (show (rLoc d L ↦{fullShare} Rf d L (W3 m d) (CI0 d L (X2 m d) fI) fR hCI : sProp 𝕄)
      = ((sR).view.loc (thr d L) ↦{fullShare} Rf d L (W3 m d) (CI0 d L (X2 m d) fI) fR hCI) from rfl)) $$ HRf
  ihave HO3' := (Entails.of_eq (show ((thr d L).loc cc0_scratch3 ↦{fullShare} fO : sProp 𝕄) = ((sO).view.loc (thr d L) ↦{fullShare} fO) from rfl)) $$ HO3
  sl_exec
  -- the sums: thirty-two trips, one row of the slab each
  sl_for (fun (n : Nat) (_ : PUnit) => iprop(((sR).view.loc (thr d L) ↦{fullShare} (Rf d L (W3 m d) (CI0 d L (X2 m d) fI) fR hCI))
      ∗ ((sO).view.loc (thr d L) ↦{fullShare} outAfter d L (Rf d L (W3 m d) (CI0 d L (X2 m d) fI) fR hCI) (Z0 d L (W3 m d) fZ) fO n) : sProp 𝕄)) $$ [HR' HO3']
  case region =>
    intro k _
    exact compute_trip d L (Rf d L (W3 m d) (CI0 d L (X2 m d) fI) fR hCI) (Z0 d L (W3 m d) fZ) fO k
  · isplitl [HR']; · iexact HR'
    rw [outAfter_zero]; iexact HO3'
  iintro %_ Hinv3
  icases Hinv3 with ⟨HR', HO3'⟩
  -- the tile's slab copied out to the result and the copy waited for
  ihave Ho' := (Entails.of_eq (show (oLoc d ↦[slabSet (widL L)]{fullShare} m (oLoc d) : sProp 𝕄)
      = ((oSliceM L).view.loc (thr d L) ↦[(oSliceM L).view.set]{fullShare} m (oLoc d)) from by rw [set_oSlice])) $$ Ho
  sl_exec
  sl_unfold_run_names
  sl_step
  -- the slab holds the result
  isplitl [Ho']
  · unfold tdRes
    ihave Ho2 := (Entails.of_eq (show (((oSliceM L).view.loc (thr d L) ↦[(oSliceM L).view.set]{fullShare} ((oSliceM L).view.writes (Elt F) (m (oLoc d)) [⟨Rect.whole S32x4x64, ReadAs.same.apply ((sO).view.read (Elt F)
        (outAfter d L (Rf d L (W3 m d) (CI0 d L (X2 m d) fI) fR hCI) (Z0 d L (W3 m d) fZ) fO (Scf.trips k0_t3_loop.lb k0_t3_loop.ub k0_t3_loop.st)))⟩])) : sProp 𝕄)
        = (oLoc d ↦[slabSet (widL L)]{fullShare} G m d) from by
      rw [show Scf.trips k0_t3_loop.lb k0_t3_loop.ub k0_t3_loop.st = 32 from trips3, ← set_oSlice]
      exact pointsTo_congr (final_value d L m fI fR fZ fO hCI))) $$ Ho'
    iexact Ho2
  -- the scratch and the semaphores go back as they came: at some contents, at zero
  isplitl [HI' HR' HZ' HO3' Hbufs]
  · isplitl [HI']; · iexists _; iexact HI'
    isplitl [HR']; · iexists _; iexact HR'
    isplitl [HZ']; · iexists _; iexact HZ'
    isplitl [HO3']; · iexists _; iexact HO3'
    iexact Hbufs
  isplitl [Hs4 Hs0 Hs1 Hs2 Hsems]
  · isplitl [Hs4]; · iexact Hs4
    isplitl [Hs0]; · iexact Hs0
    isplitl [Hs1]; · iexact Hs1
    isplitl [Hs2]; · iexact Hs2
    iexact Hsems
  iexists (insert ((SemLoc.dma cc0_scoped2.sem : SemLoc sig), (default : HIx 1)) W2); isplitr
  · ipureintro
    intro p hp
    rcases Finset.mem_insert.mp hp with hp | hp
    · exact .inr (by subst hp; rfl)
    · rcases hW2 p hp with h | h
      · rcases Finset.mem_insert.mp h with h | h
        · exact .inr (by subst h; rfl)
        · rcases Finset.mem_insert.mp h with h | h
          · exact .inr (by subst h; rfl)
          · exact .inl h
      · exact .inr h
  · iexact HO

end Cert.Proof.KernelIdeal

end
-- ==== Proof.Kernel.Chk.lean ====
/-
  The table slices the kernel takes are inside the table.

  For each of the sixteen tokens a loop trip extracts, the kernel takes from the re-laid table `[125000, 8, 64]` the one
  row of 64 entries at offsets `(v >>> 3, v &&& 7, 0)`, `v` the token's word: the quotient and the remainder of the token
  by 8. The slice is inside the table as soon as the quotient is below 125000, that is, the token at most 999999 (the
  remainder is below 8 and the 64 columns are the whole last axis).
-/
import proofs.«204099_g60593398612478_cont_9to1c4b_39_23_alg».proof.Kernel
import proofs.«204099_g60593398612478_cont_9to1c4b_39_23_alg».proof.Proof.Relay

namespace Cert.Proof.Kernel

open Idealize.ShloMosaic Cert.Kernel

/-- The offsets the kernel computes from a token's word: its quotient and remainder by 8, and column 0. -/
theorem off_eq (v : BitVec 32) :
    (![(Scalar.shrui v 3#32).toNat, (Scalar.andi v 7#32).toNat, 0] : Fin 3 → Nat)
      = ![v.toNat / 8, v.toNat % 8, 0] := by
  rw [Cert.Cbow.Relay.shr3_toNat, Cert.Cbow.Relay.and7_toNat]

/-- One row of 64 entries at those offsets lies inside the table when the token is at most 999999. -/
theorem inb_of_le (v : BitVec 32) (h : v.toNat ≤ 999999) :
    ∀ a : Fin 3, (![v.toNat / 8, v.toNat % 8, 0] : Fin 3 → Nat) a + S1x1x64.size a ≤ S125000x8x64.size a
  | ⟨0, _⟩ => by show v.toNat / 8 + 1 ≤ 125000; omega
  | ⟨1, _⟩ => by show v.toNat % 8 + 1 ≤ 8; omega
  | ⟨2, _⟩ => by show 0 + 64 ≤ 64; omega

/-! ## The sixteen offset terms in closed form -/

theorem off4_eq (v : BitVec 32) : k0_off4 v = ![v.toNat / 8, v.toNat % 8, 0] := off_eq v
theorem off6_eq (v : BitVec 32) : k0_off6 v = ![v.toNat / 8, v.toNat % 8, 0] := off_eq v
theorem off8_eq (v : BitVec 32) : k0_off8 v = ![v.toNat / 8, v.toNat % 8, 0] := off_eq v
theorem off10_eq (v : BitVec 32) : k0_off10 v = ![v.toNat / 8, v.toNat % 8, 0] := off_eq v
theorem off12_eq (v : BitVec 32) : k0_off12 v = ![v.toNat / 8, v.toNat % 8, 0] := off_eq v
theorem off14_eq (v : BitVec 32) : k0_off14 v = ![v.toNat / 8, v.toNat % 8, 0] := off_eq v
theorem off16_eq (v : BitVec 32) : k0_off16 v = ![v.toNat / 8, v.toNat % 8, 0] := off_eq v
theorem off18_eq (v : BitVec 32) : k0_off18 v = ![v.toNat / 8, v.toNat % 8, 0] := off_eq v
theorem off20_eq (v : BitVec 32) : k0_off20 v = ![v.toNat / 8, v.toNat % 8, 0] := off_eq v
theorem off22_eq (v : BitVec 32) : k0_off22 v = ![v.toNat / 8, v.toNat % 8, 0] := off_eq v
theorem off24_eq (v : BitVec 32) : k0_off24 v = ![v.toNat / 8, v.toNat % 8, 0] := off_eq v
theorem off26_eq (v : BitVec 32) : k0_off26 v = ![v.toNat / 8, v.toNat % 8, 0] := off_eq v
theorem off28_eq (v : BitVec 32) : k0_off28 v = ![v.toNat / 8, v.toNat % 8, 0] := off_eq v
theorem off30_eq (v : BitVec 32) : k0_off30 v = ![v.toNat / 8, v.toNat % 8, 0] := off_eq v
theorem off32_eq (v : BitVec 32) : k0_off32 v = ![v.toNat / 8, v.toNat % 8, 0] := off_eq v
theorem off34_eq (v : BitVec 32) : k0_off34 v = ![v.toNat / 8, v.toNat % 8, 0] := off_eq v

/-! ## The sixteen side conditions, from the token's range -/

theorem chk1_of_le (v : BitVec 32) (h : v.toNat ≤ 999999) : k0_chk1 v := by
  unfold k0_chk1; rw [off4_eq]; exact inb_of_le v h
theorem chk2_of_le (v : BitVec 32) (h : v.toNat ≤ 999999) : k0_chk2 v := by
  unfold k0_chk2; rw [off6_eq]; exact inb_of_le v h
theorem chk3_of_le (v : BitVec 32) (h : v.toNat ≤ 999999) : k0_chk3 v := by
  unfold k0_chk3; rw [off8_eq]; exact inb_of_le v h
theorem chk4_of_le (v : BitVec 32) (h : v.toNat ≤ 999999) : k0_chk4 v := by
  unfold k0_chk4; rw [off10_eq]; exact inb_of_le v h
theorem chk5_of_le (v : BitVec 32) (h : v.toNat ≤ 999999) : k0_chk5 v := by
  unfold k0_chk5; rw [off12_eq]; exact inb_of_le v h
theorem chk6_of_le (v : BitVec 32) (h : v.toNat ≤ 999999) : k0_chk6 v := by
  unfold k0_chk6; rw [off14_eq]; exact inb_of_le v h
theorem chk7_of_le (v : BitVec 32) (h : v.toNat ≤ 999999) : k0_chk7 v := by
  unfold k0_chk7; rw [off16_eq]; exact inb_of_le v h
theorem chk8_of_le (v : BitVec 32) (h : v.toNat ≤ 999999) : k0_chk8 v := by
  unfold k0_chk8; rw [off18_eq]; exact inb_of_le v h
theorem chk9_of_le (v : BitVec 32) (h : v.toNat ≤ 999999) : k0_chk9 v := by
  unfold k0_chk9; rw [off20_eq]; exact inb_of_le v h
theorem chk10_of_le (v : BitVec 32) (h : v.toNat ≤ 999999) : k0_chk10 v := by
  unfold k0_chk10; rw [off22_eq]; exact inb_of_le v h
theorem chk11_of_le (v : BitVec 32) (h : v.toNat ≤ 999999) : k0_chk11 v := by
  unfold k0_chk11; rw [off24_eq]; exact inb_of_le v h
theorem chk12_of_le (v : BitVec 32) (h : v.toNat ≤ 999999) : k0_chk12 v := by
  unfold k0_chk12; rw [off26_eq]; exact inb_of_le v h
theorem chk13_of_le (v : BitVec 32) (h : v.toNat ≤ 999999) : k0_chk13 v := by
  unfold k0_chk13; rw [off28_eq]; exact inb_of_le v h
theorem chk14_of_le (v : BitVec 32) (h : v.toNat ≤ 999999) : k0_chk14 v := by
  unfold k0_chk14; rw [off30_eq]; exact inb_of_le v h
theorem chk15_of_le (v : BitVec 32) (h : v.toNat ≤ 999999) : k0_chk15 v := by
  unfold k0_chk15; rw [off32_eq]; exact inb_of_le v h
theorem chk16_of_le (v : BitVec 32) (h : v.toNat ≤ 999999) : k0_chk16 v := by
  unfold k0_chk16; rw [off34_eq]; exact inb_of_le v h

end Cert.Proof.Kernel
-- ==== Proof.Kernel.Fire.lean ====
/-
  The gather: 640 row copies started on one DMA semaphore before any is waited for.

  Tile worker `w` holds its 640 tokens in a scratch; token `t` names row `tok / 8`, sub-row `tok % 8` of the
  re-laid table, and its 64 entries are copied into row `t` of the gathered-rows scratch. All 640 copies are one
  counted batch on the kernel's semaphore: delivery `t` is row `t` of the scratch holding that table row. This
  module states the deliveries and proves the rule for one issue; the 16 destination slices a loop trip names are
  rows `16 k + l`.
-/
import proofs.«204099_g60593398612478_cont_9to1c4b_39_23_alg».proof.Proof.Kernel.Setup
import proofs.«204099_g60593398612478_cont_9to1c4b_39_23_alg».proof.Proof.Kernel.Chk
import Idealize.ShloMosaic.Lib.Pipeline.Value

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

abbrev dst0 (k : Fin k0_t1_loop.trips) : Memref sig .scVector .vmem S1x64 .f32 := sR.slice (Rect.unit (s := S640x64) (k0_off5 k 0#32) S1x64.size (k0_off5_inb k 0)) (fun _ => rfl)
abbrev dst1 (k : Fin k0_t1_loop.trips) : Memref sig .scVector .vmem S1x64 .f32 := sR.slice (Rect.unit (s := S640x64) (k0_off7 k 1#32) S1x64.size (k0_off7_inb k 0)) (fun _ => rfl)
abbrev dst2 (k : Fin k0_t1_loop.trips) : Memref sig .scVector .vmem S1x64 .f32 := sR.slice (Rect.unit (s := S640x64) (k0_off9 k 2#32) S1x64.size (k0_off9_inb k 0)) (fun _ => rfl)
abbrev dst3 (k : Fin k0_t1_loop.trips) : Memref sig .scVector .vmem S1x64 .f32 := sR.slice (Rect.unit (s := S640x64) (k0_off11 k 3#32) S1x64.size (k0_off11_inb k 0)) (fun _ => rfl)
abbrev dst4 (k : Fin k0_t1_loop.trips) : Memref sig .scVector .vmem S1x64 .f32 := sR.slice (Rect.unit (s := S640x64) (k0_off13 k 4#32) S1x64.size (k0_off13_inb k 0)) (fun _ => rfl)
abbrev dst5 (k : Fin k0_t1_loop.trips) : Memref sig .scVector .vmem S1x64 .f32 := sR.slice (Rect.unit (s := S640x64) (k0_off15 k 5#32) S1x64.size (k0_off15_inb k 0)) (fun _ => rfl)
abbrev dst6 (k : Fin k0_t1_loop.trips) : Memref sig .scVector .vmem S1x64 .f32 := sR.slice (Rect.unit (s := S640x64) (k0_off17 k 6#32) S1x64.size (k0_off17_inb k 0)) (fun _ => rfl)
abbrev dst7 (k : Fin k0_t1_loop.trips) : Memref sig .scVector .vmem S1x64 .f32 := sR.slice (Rect.unit (s := S640x64) (k0_off19 k 7#32) S1x64.size (k0_off19_inb k 0)) (fun _ => rfl)
abbrev dst8 (k : Fin k0_t1_loop.trips) : Memref sig .scVector .vmem S1x64 .f32 := sR.slice (Rect.unit (s := S640x64) (k0_off21 k 8#32) S1x64.size (k0_off21_inb k 0)) (fun _ => rfl)
abbrev dst9 (k : Fin k0_t1_loop.trips) : Memref sig .scVector .vmem S1x64 .f32 := sR.slice (Rect.unit (s := S640x64) (k0_off23 k 9#32) S1x64.size (k0_off23_inb k 0)) (fun _ => rfl)
abbrev dst10 (k : Fin k0_t1_loop.trips) : Memref sig .scVector .vmem S1x64 .f32 := sR.slice (Rect.unit (s := S640x64) (k0_off25 k 10#32) S1x64.size (k0_off25_inb k 0)) (fun _ => rfl)
abbrev dst11 (k : Fin k0_t1_loop.trips) : Memref sig .scVector .vmem S1x64 .f32 := sR.slice (Rect.unit (s := S640x64) (k0_off27 k 11#32) S1x64.size (k0_off27_inb k 0)) (fun _ => rfl)
abbrev dst12 (k : Fin k0_t1_loop.trips) : Memref sig .scVector .vmem S1x64 .f32 := sR.slice (Rect.unit (s := S640x64) (k0_off29 k 12#32) S1x64.size (k0_off29_inb k 0)) (fun _ => rfl)
abbrev dst13 (k : Fin k0_t1_loop.trips) : Memref sig .scVector .vmem S1x64 .f32 := sR.slice (Rect.unit (s := S640x64) (k0_off31 k 13#32) S1x64.size (k0_off31_inb k 0)) (fun _ => rfl)
abbrev dst14 (k : Fin k0_t1_loop.trips) : Memref sig .scVector .vmem S1x64 .f32 := sR.slice (Rect.unit (s := S640x64) (k0_off33 k 14#32) S1x64.size (k0_off33_inb k 0)) (fun _ => rfl)
abbrev dst15 (k : Fin k0_t1_loop.trips) : Memref sig .scVector .vmem S1x64 .f32 := sR.slice (Rect.unit (s := S640x64) (k0_off35 k) S1x64.size (k0_off35_inb k)) (fun _ => rfl)

/-! ## The gathered rows, row by row -/

theorem trips1 : k0_t1_loop.trips = 40 := by decide
theorem klt (k : Fin k0_t1_loop.trips) : k.val < 40 := lt_of_lt_of_eq k.isLt trips1

theorem rowM_inb (t : Fin 640) : ∀ a, (![t.val, 0] : Fin 2 → Nat) a + S1x64.size a ≤ S640x64.size a := by
  have := t.isLt
  intro a; fin_cases a
  · show t.val + 1 ≤ 640; omega
  · show 0 + 64 ≤ 64; omega
/-- Row `t` of the gathered-rows scratch, as a memref. -/
abbrev rowM (t : Fin 640) : Memref sig .scVector .vmem S1x64 .f32 :=
  sR.slice (Rect.unit (s := S640x64) ![t.val, 0] S1x64.size (rowM_inb t)) (fun _ => rfl)

/-- The table row a token names, as the kernel slices it out of the re-laid table. -/
abbrev srcM (v : BitVec 32) (hv : k0_chk1 v) : Memref sig .scVector .hbm S1x64 .f32 :=
  (wV.slice (Rect.unit (s := S125000x8x64) (k0_off4 v) S1x1x64.size (k0_off4_inb v hv)) (fun _ => rfl)).squeeze S1x64 squeezes_S1x1x64_S1x64

/-- One copy's credit on the kernel's semaphore. -/
abbrev NR : ℕ := 2048

theorem amount_row (a : Fin 2 → Nat) (pa : ∀ x, a x + S1x64.size x ≤ S640x64.size x) :
    (sR.slice (Rect.unit (s := S640x64) a S1x64.size pa) (fun _ => rfl)).view.amount (SemLoc.dma cc0_scratch4.sem) = NR := by
  show RefSig.bitCredit S1x64 .f32 = 2048; decide

section
variable (W3 : Buf (Elt F) (wLoc d)) (CI : Buf (Elt F) ((thr d L).loc cc0_scratch0)) (fR : Buf (Elt F) ((thr d L).loc cc0_scratch1))

/-- Token `t` of the tile, as its token scratch holds it. -/
def tokAt (t : Fin 640) : BitVec 32 := CI (ValueIdx.ix1 (⟨t.val, by omega⟩ : Fin 656))

/-- Lane `l` of the sixteen tokens trip `k` loads is token `16 k + l`. -/
theorem tok_eq (k : Fin k0_t1_loop.trips) (l : Nat) (hl : l < 16) (hs : S16.Slices ![l] S1) :
    extractAt ![0] (extractStridedSlice S1 ![l] (shapeCast S16 (View.readAt (Elt F) (sI).view (Rect.unit (s := S656) (k0_off2 k) S16.size (k0_off2_inb k)).toLoadRect CI) shapeCasts_S16_S16) hs) inpos_S1_p0
      = tokAt d L CI ⟨16 * k.val + l, by have := klt k; omega⟩ := by
  show CI _ = CI _
  congr 1
  funext a
  rcases a with ⟨_ | n, hn⟩
  · apply Fin.ext
    erw [Shape.reshapeEquiv_self]
    show k0_off2 k 0 + 1 * l = 16 * k.val + l
    rw [k0_off2_eq k]; simp
  · exact absurd hn (by show ¬ (n + 1 < 1); omega)

/-- Every token the tile holds is in the table's range. -/
abbrev TokOK : Prop := ∀ i : S656.Idx, (i 0).val < 640 → (CI i).toNat ≤ 999999

theorem tokAt_le (hCI : TokOK d L CI) (t : Fin 640) : (tokAt d L CI t).toNat ≤ 999999 := hCI _ t.isLt

/-- The tokens a trip extracts are in the table's range. -/
theorem tok_le (hCI : TokOK d L CI) (k : Fin k0_t1_loop.trips) (l : Nat) (hl : l < 16) (hs : S16.Slices ![l] S1) :
    (extractAt ![0] (extractStridedSlice S1 ![l] (shapeCast S16 (View.readAt (Elt F) (sI).view (Rect.unit (s := S656) (k0_off2 k) S16.size (k0_off2_inb k)).toLoadRect CI) shapeCasts_S16_S16) hs) inpos_S1_p0).toNat ≤ 999999 := by
  rw [tok_eq d L CI k l hl hs]; exact tokAt_le d L CI hCI _

/-- What row `t` of the scratch holds once its copy has landed: the table row token `t` names, written over the row. -/
def landed (hCI : TokOK d L CI) (t : Fin 640) : Buf (Elt F) ((rowM t).view.loc (thr d L)) :=
  (rowM t).view.write (Elt F) fR
    (ReadAs.same.apply ((srcM (tokAt d L CI t) (chk1_of_le _ (tokAt_le d L CI hCI t))).view.read (Elt F) W3)) Finset.univ

/-- Delivery `t` of the batch: row `t` of the scratch, landed. -/
def Dv (hCI : TokOK d L CI) (t : Fin 640) : sProp 𝕄 :=
  (rowM t).view.loc (thr d L) ↦[(rowM t).view.set]{fullShare} landed d L W3 CI fR hCI t

instance Dv_storable (hCI : TokOK d L CI) (t : Fin 640) : BI.Storable (upEmb : UEmb _ 𝕄) (Dv d L W3 CI fR hCI t) := by
  unfold Dv; infer_instance

/-- The batch on the kernel's semaphore with `j` copies issued and none waited for, behind a name. -/
def BatchH (hCI : TokOK d L CI) (j : ℕ) : sProp 𝕄 :=
  Transfers.Batch (countersEmb (U := UU)) (thr d L) (.dma cc0_scratch4.sem) (none : HIx 1) NR (Dv d L W3 CI fR hCI) j 0

/-- One issue: from a read share of the table, row `t` of the scratch (named by offsets that are `[t, 0]`) and the
    batch with `t` issued, the copy of the table row token `t` names into that row is the batch's next transfer. -/
theorem issue_rule {α : Type} (hCI : TokOK d L CI) (t : Fin 640) (a : Fin 2 → Nat) (pa : ∀ x, a x + S1x64.size x ≤ S640x64.size x)
    (ha : a = ![t.val, 0]) (v : BitVec 32) (hvt : v = tokAt d L CI t) (hv : k0_chk1 v) (q : PosShare TreeShare)
    (hsW : (srcM v hv).view.WordExact) (hdW : (sR.slice (Rect.unit (s := S640x64) a S1x64.size pa) (fun _ => rfl)).view.WordExact)
    (hsem : DmaTarget.Typed (nD := nD) Space.hbm (SemLoc.dma cc0_scratch4.sem)
      (DmaTarget.here (p := (thr d L).2) (sR.slice (Rect.unit (s := S640x64) a S1x64.size pa) (fun _ => rfl))))
    (rest : PUnit → Prog (TpuEff nD τ sig (Elt F) Λ₀ (thr d L).2) α) (Q : α → sProp 𝕄) :
    iprop(((wV).view.loc (thr d L) ↦{q} W3)
        ∗ ((sR.slice (Rect.unit (s := S640x64) a S1x64.size pa) (fun _ => rfl)).view.loc (thr d L)
            ↦[(sR.slice (Rect.unit (s := S640x64) a S1x64.size pa) (fun _ => rfl)).view.set]{fullShare} fR)
        ∗ BatchH d L W3 CI fR hCI t.val)
      ⊢ iprop((BatchH d L W3 CI fR hCI (t.val + 1) -∗ wp frame (wpE (defs₀ (F := F)) 𝒱₀ (thr d L) none) Set.univ (rest ⟨⟩) Q)
          -∗ wp frame (wpE (defs₀ (F := F)) 𝒱₀ (thr d L) none) Set.univ
              (.op (.enqueueDmaAs (srcM v hv) (.here (sR.slice (Rect.unit (s := S640x64) a S1x64.size pa) (fun _ => rfl))) .same
                (.dma cc0_scratch4.sem) hsW hdW hsem) rest) Q) := by
  subst ha; subst hvt
  unfold BatchH
  iintro ⟨Hw, Hd, HB⟩
  ihave Hw' := (pointsTo_split_subset (Finset.subset_univ _)).1 $$ Hw
  icases Hw' with ⟨Hs, -⟩
  have hD : iprop(((rowM t).view.loc (thr d L) ↦[(rowM t).view.set]{fullShare}
        ((rowM t).view.write (Elt F) fR (ReadAs.same.apply ((srcM (tokAt d L CI t) hv).view.read (Elt F) W3)) Finset.univ))
      ∗ ((srcM (tokAt d L CI t) hv).view.loc (thr d L) ↦[(srcM (tokAt d L CI t) hv).view.set]{q} W3) : sProp 𝕄)
      ⊢ Dv d L W3 CI fR hCI t := by
    iintro ⟨Hd, -⟩
    unfold Dv landed
    iexact Hd
  iapply (Transfers.wp_dmaBatch (countersEmb (U := UU)) 𝒱₀ (thr d L) none (none : HIx 1) NR (amount_row _ _) subset_rfl t.isLt (Nat.zero_le _) hD) $$ [Hs Hd HB]
  · isplitl [Hs]; · iexact Hs
    isplitl [Hd] <;> iassumption

end

end Cert.Proof.Kernel

end
-- ==== Proof.Kernel.Rows.lean ====
/-
  After the drain the tile holds the scratch of gathered rows one row at a time, each as its own copy left it. The
  rows are pairwise disjoint and cover the scratch, so together they are the whole scratch at ONE function: row `t`
  of it is what copy `t` landed.
-/
import proofs.«204099_g60593398612478_cont_9to1c4b_39_23_alg».proof.Proof.Kernel.Fire

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

section
variable (W3 : Buf (Elt F) (wLoc d)) (CI : Buf (Elt F) ((thr d L).loc cc0_scratch0)) (fR : Buf (Elt F) ((thr d L).loc cc0_scratch1))

/-- The gathered-rows scratch as a location of the tile. -/
abbrev rLoc : Loc nD τ sig := (thr d L).loc cc0_scratch1
/-- Row `t`'s elements. -/
abbrev rowSetR (t : Fin 640) : Finset S640x64.Idx := (rowM t).view.set

theorem rowSetR_eq (t : Fin 640) : rowSetR t = (Rect.unit (s := S640x64) ![t.val, 0] S1x64.size (rowM_inb t)).set := by
  show ((View.whole (cc0_scratch1 : Ref sig .scVector)).slice _).set = _
  rw [View.set_slice]; exact Finset.map_refl

theorem mem_rowSetR (t : Fin 640) (i : S640x64.Idx) : i ∈ rowSetR t ↔ (i 0).val = t.val := by
  rw [rowSetR_eq, Rect.mem_set_unit]
  constructor
  · intro h; have h0 := h 0
    simp only [Matrix.cons_val_zero] at h0
    have : S1x64.size 0 = 1 := rfl
    omega
  · intro h a
    fin_cases a
    · simp only [Fin.zero_eta, Matrix.cons_val_zero]
      have : S1x64.size 0 = 1 := rfl
      omega
    · have h1 : (i 1).val < 64 := (i 1).isLt
      show 0 ≤ (i 1).val ∧ (i 1).val < 0 + 64
      omega

theorem rows_disjoint : ∀ t ∈ (Finset.univ : Finset (Fin 640)), ∀ t' ∈ (Finset.univ : Finset (Fin 640)), t ≠ t' → Disjoint (rowSetR t) (rowSetR t') :=
  fun t _ t' _ hne => Finset.disjoint_left.mpr fun i h1 h2 =>
    hne (Fin.ext (((mem_rowSetR t i).1 h1).symm.trans ((mem_rowSetR t' i).1 h2)))

theorem rows_cover : (Finset.univ : Finset (Fin 640)).biUnion rowSetR = Finset.univ :=
  Finset.ext fun i => ⟨fun _ => Finset.mem_univ _, fun _ =>
    Finset.mem_biUnion.mpr ⟨⟨(i 0).val, (i 0).isLt⟩, Finset.mem_univ _, (mem_rowSetR _ i).2 rfl⟩⟩

/-- The gathered rows, all landed: row `t` as copy `t` left it. -/
def Rf (hCI : TokOK d L CI) : Buf (Elt F) (rLoc d L) :=
  fun i : S640x64.Idx => landed d L W3 CI fR hCI ⟨(i 0).val, (i 0).isLt⟩ i

theorem landed_eq_Rf (hCI : TokOK d L CI) (t : Fin 640) : ∀ i ∈ rowSetR t, landed d L W3 CI fR hCI t i = Rf d L W3 CI fR hCI i := by
  intro i hi
  have e : t = ⟨(i 0).val, (i 0).isLt⟩ := Fin.ext ((mem_rowSetR t i).1 hi).symm
  unfold Rf; rw [← e]

/-- Every row landed is the whole scratch at `Rf`. -/
theorem rows_join (hCI : TokOK d L CI) :
    bigSep Finset.univ (Dv d L W3 CI fR hCI) ⊢ (rLoc d L ↦{fullShare} Rf d L W3 CI fR hCI : sProp 𝕄) := by
  have h1 : bigSep Finset.univ (Dv d L W3 CI fR hCI)
      = bigSep Finset.univ fun t : Fin 640 => (rLoc d L ↦[rowSetR t]{fullShare} Rf d L W3 CI fR hCI : sProp 𝕄) :=
    bigSep_congr fun t _ => by
      unfold Dv
      exact pointsTo_congr (landed_eq_Rf d L W3 CI fR hCI t)
  rw [h1, ← pointsTo_biUnion Finset.univ (ℓ := rLoc d L) rowSetR rows_disjoint, rows_cover]

end

end Cert.Proof.Kernel

end
-- ==== Proof.Kernel.Head.lean ====
/-
  What the head of the kernel's body leaves: the tile's tokens — row `w` of the re-laid `x` copied over the first 640
  words of the token scratch —, table row 0 copied into its own scratch, and the slice of the result the tile writes
  at the end.
-/
import proofs.«204099_g60593398612478_cont_9to1c4b_39_23_alg».proof.Proof.Kernel.Rows
import proofs.«204099_g60593398612478_cont_9to1c4b_39_23_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

/-- Row `w` of the re-laid tokens, as the body slices it. -/
abbrev xRowM : Memref sig .scVector .hbm S640 .i32 :=
  (xV.slice (Rect.unit (s := S32x640) (k0_off1 L) S1x640.size (k0_off1_inb L)) (fun _ => rfl)).squeeze S640 squeezes_S1x640_S640
/-- Sub-row 0 of row 0 of the re-laid table. -/
abbrev w0M : Memref sig .scVector .hbm S1x64 .f32 :=
  (wV.slice (Rect.unit (s := S125000x8x64) ![0, 0, 0] S1x1x64.size inb_S125000x8x64_S1x1x64_0_0_0) (fun _ => rfl)).squeeze S1x64 squeezes_S1x1x64_S1x64
/-- The tile's rows of the result, as the body slices them. -/
abbrev oSliceM : Memref sig .scVector .hbm S32x4x64 .f32 :=
  oV.slice (Rect.unit (s := S1024x4x64) (k0_off57 L) S32x4x64.size (k0_off57_inb L)) (fun _ => rfl)

/-- The token scratch after the tokens' copy: the first 640 words are row `w` of the re-laid `x`. -/
def CI0 (X : Buf (Elt F) (xLoc d)) (fI : Buf (Elt F) ((thr d L).loc cc0_scratch0)) : Buf (Elt F) ((thr d L).loc cc0_scratch0) :=
  (sI).view.writes (Elt F) fI [⟨Rect.unit (s := S656) ![0] S640.size inb_S656_S640_0, ReadAs.same.apply ((xRowM L).view.read (Elt F) X)⟩]

/-- The row-0 scratch after its copy. -/
def Z0 (Wt : Buf (Elt F) (wLoc d)) (fZ : Buf (Elt F) ((thr d L).loc cc0_scratch2)) : Buf (Elt F) ((thr d L).loc cc0_scratch2) :=
  (sZ).view.write (Elt F) fZ (ReadAs.same.apply ((w0M).view.read (Elt F) Wt)) Finset.univ

end Cert.Proof.Kernel

end
-- ==== Proof.Kernel.Scoped.lean ====
/-
  A tile's own storage, named: its four DMA semaphores at zero and its four scratch buffers at some contents are among
  what the launch hands it as its scoped semaphores and buffers; the rest rides along untouched.
-/
import proofs.«204099_g60593398612478_cont_9to1c4b_39_23_alg».proof.Proof.Kernel.Setup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

abbrev c4cell : GSem nD τ sig := (thr d L, .dma cc0_scratch4.sem)
abbrev c0cell : GSem nD τ sig := (thr d L, .dma cc0_scoped0.sem)
abbrev c1cell : GSem nD τ sig := (thr d L, .dma cc0_scoped1.sem)
abbrev c2cell : GSem nD τ sig := (thr d L, .dma cc0_scoped2.sem)

omit [FloatOps F] [∀ e, Nonempty (Elt F e)] in
theorem cell_ne {s s' : DmaSem sig} (h : s ≠ s') : ((thr d L, SemLoc.dma s) : GSem nD τ sig) ≠ (thr d L, SemLoc.dma s') :=
  fun e => h (SemLoc.dma.inj (Prod.mk.inj e).2)

omit [FloatOps F] [∀ e, Nonempty (Elt F e)] in
theorem mem_own (s : DmaSem sig) : ((thr d L, SemLoc.dma s) : GSem nD τ sig) ∈ ownCells (thr d L) :=
  (mem_ownCells (g := (thr d L, SemLoc.dma s))).mpr ⟨rfl, by show (SemLoc.dma s : SemLoc sig).isScoped .scVector = true; rfl⟩

/-- The rest of the tile's semaphores. -/
abbrev restCells : Finset (GSem nD τ sig) :=
  ((((ownCells (thr d L)).erase (c4cell d L)).erase (c0cell d L)).erase (c1cell d L)).erase (c2cell d L)

omit [FloatOps F] [∀ e, Nonempty (Elt F e)] in
theorem ownSems0_V :
    (ownSems0 (thr d L) : sProp 𝕄)
      = iprop(semVal (c4cell d L) 0 ∗ semVal (c0cell d L) 0 ∗ semVal (c1cell d L) 0 ∗ semVal (c2cell d L) 0
          ∗ bigSep (restCells d L) fun g => semVal g 0) := by
  unfold SparseCore.Cfg.ownSems0
  rw [SparseCore.bigSep_erase' (mem_own d L cc0_scratch4.sem),
    SparseCore.bigSep_erase' (Finset.mem_erase.mpr ⟨cell_ne d L (by decide), mem_own d L cc0_scoped0.sem⟩),
    SparseCore.bigSep_erase' (Finset.mem_erase.mpr ⟨cell_ne d L (by decide), Finset.mem_erase.mpr ⟨cell_ne d L (by decide), mem_own d L cc0_scoped1.sem⟩⟩),
    SparseCore.bigSep_erase' (Finset.mem_erase.mpr ⟨cell_ne d L (by decide), Finset.mem_erase.mpr ⟨cell_ne d L (by decide),
      Finset.mem_erase.mpr ⟨cell_ne d L (by decide), mem_own d L cc0_scoped2.sem⟩⟩⟩)]

abbrev pV : Proc τ := Proc.scVector (cV L) (jV L)
/-- The rest of the tile's buffers. -/
abbrev restRefs : Finset (DevRef τ sig) :=
  ((((ownRefs (τ := τ) (pV L)).erase ((pV L).devRef cc0_scratch0)).erase ((pV L).devRef cc0_scratch1)).erase
    ((pV L).devRef cc0_scratch2)).erase ((pV L).devRef cc0_scratch3)

omit [FloatOps F] [∀ e, Nonempty (Elt F e)] in
theorem ref_ne {b b' : Ref sig .scVector} (h : b ≠ b') : (pV L).devRef b ≠ (pV L).devRef b' :=
  fun e => h (Proc.devRef_injective _ e)

omit [FloatOps F] [∀ e, Nonempty (Elt F e)] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨ref_ne L (by decide), SparseCore.Cfg.mem_ownRefs_of_owner (p := pV L) (b := (pV L).devRef cc0_scratch1) rfl⟩),
    SparseCore.bigSep_erase' (Finset.mem_erase.mpr ⟨ref_ne L (by decide), Finset.mem_erase.mpr ⟨ref_ne L (by decide), SparseCore.Cfg.mem_ownRefs_of_owner (p := pV L) (b := (pV L).devRef cc0_scratch2) rfl⟩⟩),
    SparseCore.bigSep_erase' (Finset.mem_erase.mpr ⟨ref_ne L (by decide), Finset.mem_erase.mpr ⟨ref_ne L (by decide),
      Finset.mem_erase.mpr ⟨ref_ne L (by decide), SparseCore.Cfg.mem_ownRefs_of_owner (p := pV L) (b := (pV L).devRef cc0_scratch3) rfl⟩⟩⟩)]

end Cert.Proof.Kernel

end
-- ==== Proof.Kernel.FireTrip.lean ====
/-
  One trip of the loop that starts the gather: sixteen tokens loaded, each checked to name a table row, each row's
  copy started on the kernel's semaphore — the batch's transfers `16 k … 16 k + 15`, in order. What the loop still
  holds of the scratch's rows and of its read shares of the table is what the transfers not yet issued will take.
-/
import proofs.«204099_g60593398612478_cont_9to1c4b_39_23_alg».proof.Proof.Kernel.Fire

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

section
variable (W3 : Buf (Elt F) (wLoc d)) (CI : Buf (Elt F) ((thr d L).loc cc0_scratch0)) (fR : Buf (Elt F) ((thr d L).loc cc0_scratch1))

theorem rowPts_congr (a b : Fin 2 → Nat) (h : a = b) (pa : ∀ x, a x + S1x64.size x ≤ S640x64.size x) (pb : ∀ x, b x + S1x64.size x ≤ S640x64.size x) :
    (((sR.slice (Rect.unit (s := S640x64) a S1x64.size pa) (fun _ => rfl)).view.loc (thr d L)
        ↦[(sR.slice (Rect.unit (s := S640x64) a S1x64.size pa) (fun _ => rfl)).view.set]{fullShare} fR) : sProp 𝕄)
      = ((sR.slice (Rect.unit (s := S640x64) b S1x64.size pb) (fun _ => rfl)).view.loc (thr d L)
        ↦[(sR.slice (Rect.unit (s := S640x64) b S1x64.size pb) (fun _ => rfl)).view.set]{fullShare} fR) := by subst h; rfl

/-- What transfer `t` will take: a read share of the table and row `t` of the scratch. -/
abbrev pendΦ (q : Fin 640 → PosShare TreeShare) (t : Fin 640) : sProp 𝕄 :=
  iprop(((wV).view.loc (thr d L) ↦{q t} W3) ∗ ((rowM t).view.loc (thr d L) ↦[(rowM t).view.set]{fullShare} fR))

/-- The loop's invariant before trip `n`: the tokens, the shares and rows of the transfers from `16 n` on, the batch
    with `16 n` issued. -/
def invFire (hCI : TokOK d L CI) (O : CellTallies nD τ sig (HIx 1)) (W : Waits sig (HIx 1)) (q : Fin 640 → PosShare TreeShare)
    (n : Nat) (_ : PUnit) : sProp 𝕄 :=
  iprop(Transfers.MayWaits (thr d L) (none : HIx 1) O
    ∗ ((sI).view.loc (thr d L) ↦{fullShare} CI)
    ∗ bigSep (Transfers.pending (n := 640) (16 * n)) (pendΦ d L W3 fR q)
    ∗ BatchH d L W3 CI fR hCI (16 * n)
    ∗ owes (thr d L) O W)

theorem fire_trip (hCI : TokOK d L CI) (O : CellTallies nD τ sig (HIx 1)) (W : Waits sig (HIx 1)) (q : Fin 640 → PosShare TreeShare)
    (k : Fin k0_t1_loop.trips) :
    invFire d L W3 CI fR hCI O W q k.val ⟨⟩
      ⊢ wp frame (wpE (defs₀ (F := F)) 𝒱₀ (thr d L) none) Set.univ
          (k0_t1_body L xV (Memref.isWhole_whole _) wV (Memref.isWhole_whole _) oV (Memref.isWhole_whole _)
            sI (Memref.isWhole_whole _) sR (Memref.isWhole_whole _) sZ (Memref.isWhole_whole _) sO (Memref.isWhole_whole _)
            cc0_scratch4 cc0_scoped0 cc0_scoped1 cc0_scoped2 k ⟨⟩)
          fun _ => invFire d L W3 CI fR hCI O W q (k.val + 1) ⟨⟩ := by
  unfold k0_t1_body invFire
  iintro ⟨Hmw, HI, Hpend, HB, HO⟩
  ihave H0 := (Entails.of_eq (Transfers.bigSep_pending_step (pendΦ d L W3 fR q) (16 * k.val + 0) (by have := klt k; omega))) $$ Hpend
  icases H0 with ⟨⟨Hw0, Hr0⟩, Hpend⟩
  ihave Hd0 := (Entails.of_eq (rowPts_congr d L fR _ _ (k0_off5_eq k ⟨0, by decide⟩) (k0_off5_inb k 0) (rowM_inb ⟨16 * k.val + 0, by have := klt k; omega⟩)).symm) $$ Hr0
  ihave H1 := (Entails.of_eq (Transfers.bigSep_pending_step (pendΦ d L W3 fR q) (16 * k.val + 1) (by have := klt k; omega))) $$ Hpend
  icases H1 with ⟨⟨Hw1, Hr1⟩, Hpend⟩
  ihave Hd1 := (Entails.of_eq (rowPts_congr d L fR _ _ (k0_off7_eq k ⟨0, by decide⟩) (k0_off7_inb k 0) (rowM_inb ⟨16 * k.val + 1, by have := klt k; omega⟩)).symm) $$ Hr1
  ihave H2 := (Entails.of_eq (Transfers.bigSep_pending_step (pendΦ d L W3 fR q) (16 * k.val + 2) (by have := klt k; omega))) $$ Hpend
  icases H2 with ⟨⟨Hw2, Hr2⟩, Hpend⟩
  ihave Hd2 := (Entails.of_eq (rowPts_congr d L fR _ _ (k0_off9_eq k ⟨0, by decide⟩) (k0_off9_inb k 0) (rowM_inb ⟨16 * k.val + 2, by have := klt k; omega⟩)).symm) $$ Hr2
  ihave H3 := (Entails.of_eq (Transfers.bigSep_pending_step (pendΦ d L W3 fR q) (16 * k.val + 3) (by have := klt k; omega))) $$ Hpend
  icases H3 with ⟨⟨Hw3, Hr3⟩, Hpend⟩
  ihave Hd3 := (Entails.of_eq (rowPts_congr d L fR _ _ (k0_off11_eq k ⟨0, by decide⟩) (k0_off11_inb k 0) (rowM_inb ⟨16 * k.val + 3, by have := klt k; omega⟩)).symm) $$ Hr3
  ihave H4 := (Entails.of_eq (Transfers.bigSep_pending_step (pendΦ d L W3 fR q) (16 * k.val + 4) (by have := klt k; omega))) $$ Hpend
  icases H4 with ⟨⟨Hw4, Hr4⟩, Hpend⟩
  ihave Hd4 := (Entails.of_eq (rowPts_congr d L fR _ _ (k0_off13_eq k ⟨0, by decide⟩) (k0_off13_inb k 0) (rowM_inb ⟨16 * k.val + 4, by have := klt k; omega⟩)).symm) $$ Hr4
  ihave H5 := (Entails.of_eq (Transfers.bigSep_pending_step (pendΦ d L W3 fR q) (16 * k.val + 5) (by have := klt k; omega))) $$ Hpend
  icases H5 with ⟨⟨Hw5, Hr5⟩, Hpend⟩
  ihave Hd5 := (Entails.of_eq (rowPts_congr d L fR _ _ (k0_off15_eq k ⟨0, by decide⟩) (k0_off15_inb k 0) (rowM_inb ⟨16 * k.val + 5, by have := klt k; omega⟩)).symm) $$ Hr5
  ihave H6 := (Entails.of_eq (Transfers.bigSep_pending_step (pendΦ d L W3 fR q) (16 * k.val + 6) (by have := klt k; omega))) $$ Hpend
  icases H6 with ⟨⟨Hw6, Hr6⟩, Hpend⟩
  ihave Hd6 := (Entails.of_eq (rowPts_congr d L fR _ _ (k0_off17_eq k ⟨0, by decide⟩) (k0_off17_inb k 0) (rowM_inb ⟨16 * k.val + 6, by have := klt k; omega⟩)).symm) $$ Hr6
  ihave H7 := (Entails.of_eq (Transfers.bigSep_pending_step (pendΦ d L W3 fR q) (16 * k.val + 7) (by have := klt k; omega))) $$ Hpend
  icases H7 with ⟨⟨Hw7, Hr7⟩, Hpend⟩
  ihave Hd7 := (Entails.of_eq (rowPts_congr d L fR _ _ (k0_off19_eq k ⟨0, by decide⟩) (k0_off19_inb k 0) (rowM_inb ⟨16 * k.val + 7, by have := klt k; omega⟩)).symm) $$ Hr7
  ihave H8 := (Entails.of_eq (Transfers.bigSep_pending_step (pendΦ d L W3 fR q) (16 * k.val + 8) (by have := klt k; omega))) $$ Hpend
  icases H8 with ⟨⟨Hw8, Hr8⟩, Hpend⟩
  ihave Hd8 := (Entails.of_eq (rowPts_congr d L fR _ _ (k0_off21_eq k ⟨0, by decide⟩) (k0_off21_inb k 0) (rowM_inb ⟨16 * k.val + 8, by have := klt k; omega⟩)).symm) $$ Hr8
  ihave H9 := (Entails.of_eq (Transfers.bigSep_pending_step (pendΦ d L W3 fR q) (16 * k.val + 9) (by have := klt k; omega))) $$ Hpend
  icases H9 with ⟨⟨Hw9, Hr9⟩, Hpend⟩
  ihave Hd9 := (Entails.of_eq (rowPts_congr d L fR _ _ (k0_off23_eq k ⟨0, by decide⟩) (k0_off23_inb k 0) (rowM_inb ⟨16 * k.val + 9, by have := klt k; omega⟩)).symm) $$ Hr9
  ihave H10 := (Entails.of_eq (Transfers.bigSep_pending_step (pendΦ d L W3 fR q) (16 * k.val + 10) (by have := klt k; omega))) $$ Hpend
  icases H10 with ⟨⟨Hw10, Hr10⟩, Hpend⟩
  ihave Hd10 := (Entails.of_eq (rowPts_congr d L fR _ _ (k0_off25_eq k ⟨0, by decide⟩) (k0_off25_inb k 0) (rowM_inb ⟨16 * k.val + 10, by have := klt k; omega⟩)).symm) $$ Hr10
  ihave H11 := (Entails.of_eq (Transfers.bigSep_pending_step (pendΦ d L W3 fR q) (16 * k.val + 11) (by have := klt k; omega))) $$ Hpend
  icases H11 with ⟨⟨Hw11, Hr11⟩, Hpend⟩
  ihave Hd11 := (Entails.of_eq (rowPts_congr d L fR _ _ (k0_off27_eq k ⟨0, by decide⟩) (k0_off27_inb k 0) (rowM_inb ⟨16 * k.val + 11, by have := klt k; omega⟩)).symm) $$ Hr11
  ihave H12 := (Entails.of_eq (Transfers.bigSep_pending_step (pendΦ d L W3 fR q) (16 * k.val + 12) (by have := klt k; omega))) $$ Hpend
  icases H12 with ⟨⟨Hw12, Hr12⟩, Hpend⟩
  ihave Hd12 := (Entails.of_eq (rowPts_congr d L fR _ _ (k0_off29_eq k ⟨0, by decide⟩) (k0_off29_inb k 0) (rowM_inb ⟨16 * k.val + 12, by have := klt k; omega⟩)).symm) $$ Hr12
  ihave H13 := (Entails.of_eq (Transfers.bigSep_pending_step (pendΦ d L W3 fR q) (16 * k.val + 13) (by have := klt k; omega))) $$ Hpend
  icases H13 with ⟨⟨Hw13, Hr13⟩, Hpend⟩
  ihave Hd13 := (Entails.of_eq (rowPts_congr d L fR _ _ (k0_off31_eq k ⟨0, by decide⟩) (k0_off31_inb k 0) (rowM_inb ⟨16 * k.val + 13, by have := klt k; omega⟩)).symm) $$ Hr13
  ihave H14 := (Entails.of_eq (Transfers.bigSep_pending_step (pendΦ d L W3 fR q) (16 * k.val + 14) (by have := klt k; omega))) $$ Hpend
  icases H14 with ⟨⟨Hw14, Hr14⟩, Hpend⟩
  ihave Hd14 := (Entails.of_eq (rowPts_congr d L fR _ _ (k0_off33_eq k ⟨0, by decide⟩) (k0_off33_inb k 0) (rowM_inb ⟨16 * k.val + 14, by have := klt k; omega⟩)).symm) $$ Hr14
  ihave H15 := (Entails.of_eq (Transfers.bigSep_pending_step (pendΦ d L W3 fR q) (16 * k.val + 15) (by have := klt k; omega))) $$ Hpend
  icases H15 with ⟨⟨Hw15, Hr15⟩, Hpend⟩
  ihave Hd15 := (Entails.of_eq (rowPts_congr d L fR _ _ (k0_off35_eq k) (k0_off35_inb k) (rowM_inb ⟨16 * k.val + 15, by have := klt k; omega⟩)).symm) $$ Hr15
  -- token 0 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 0, by have := klt k; omega⟩ _ _ (k0_off5_eq k ⟨0, by decide⟩) _ (tok_eq d L CI k 0 (by decide) _) (chk1_of_le _ (tok_le d L CI hCI k 0 (by decide) _)) (q ⟨16 * k.val + 0, by have := klt k; omega⟩) _ _ _ _ _) $$ [Hw0 Hd0 HB]
  · isplitl [Hw0]; · iexact Hw0
    isplitl [Hd0] <;> iassumption
  iintro HB
  -- token 1 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 1, by have := klt k; omega⟩ _ _ (k0_off7_eq k ⟨0, by decide⟩) _ (tok_eq d L CI k 1 (by decide) _) (chk1_of_le _ (tok_le d L CI hCI k 1 (by decide) _)) (q ⟨16 * k.val + 1, by have := klt k; omega⟩) _ _ _ _ _) $$ [Hw1 Hd1 HB]
  · isplitl [Hw1]; · iexact Hw1
    isplitl [Hd1] <;> iassumption
  iintro HB
  -- token 2 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 2, by have := klt k; omega⟩ _ _ (k0_off9_eq k ⟨0, by decide⟩) _ (tok_eq d L CI k 2 (by decide) _) (chk1_of_le _ (tok_le d L CI hCI k 2 (by decide) _)) (q ⟨16 * k.val + 2, by have := klt k; omega⟩) _ _ _ _ _) $$ [Hw2 Hd2 HB]
  · isplitl [Hw2]; · iexact Hw2
    isplitl [Hd2] <;> iassumption
  iintro HB
  -- token 3 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 3, by have := klt k; omega⟩ _ _ (k0_off11_eq k ⟨0, by decide⟩) _ (tok_eq d L CI k 3 (by decide) _) (chk1_of_le _ (tok_le d L CI hCI k 3 (by decide) _)) (q ⟨16 * k.val + 3, by have := klt k; omega⟩) _ _ _ _ _) $$ [Hw3 Hd3 HB]
  · isplitl [Hw3]; · iexact Hw3
    isplitl [Hd3] <;> iassumption
  iintro HB
  -- token 4 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 4, by have := klt k; omega⟩ _ _ (k0_off13_eq k ⟨0, by decide⟩) _ (tok_eq d L CI k 4 (by decide) _) (chk1_of_le _ (tok_le d L CI hCI k 4 (by decide) _)) (q ⟨16 * k.val + 4, by have := klt k; omega⟩) _ _ _ _ _) $$ [Hw4 Hd4 HB]
  · isplitl [Hw4]; · iexact Hw4
    isplitl [Hd4] <;> iassumption
  iintro HB
  -- token 5 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 5, by have := klt k; omega⟩ _ _ (k0_off15_eq k ⟨0, by decide⟩) _ (tok_eq d L CI k 5 (by decide) _) (chk1_of_le _ (tok_le d L CI hCI k 5 (by decide) _)) (q ⟨16 * k.val + 5, by have := klt k; omega⟩) _ _ _ _ _) $$ [Hw5 Hd5 HB]
  · isplitl [Hw5]; · iexact Hw5
    isplitl [Hd5] <;> iassumption
  iintro HB
  -- token 6 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 6, by have := klt k; omega⟩ _ _ (k0_off17_eq k ⟨0, by decide⟩) _ (tok_eq d L CI k 6 (by decide) _) (chk1_of_le _ (tok_le d L CI hCI k 6 (by decide) _)) (q ⟨16 * k.val + 6, by have := klt k; omega⟩) _ _ _ _ _) $$ [Hw6 Hd6 HB]
  · isplitl [Hw6]; · iexact Hw6
    isplitl [Hd6] <;> iassumption
  iintro HB
  -- token 7 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 7, by have := klt k; omega⟩ _ _ (k0_off19_eq k ⟨0, by decide⟩) _ (tok_eq d L CI k 7 (by decide) _) (chk1_of_le _ (tok_le d L CI hCI k 7 (by decide) _)) (q ⟨16 * k.val + 7, by have := klt k; omega⟩) _ _ _ _ _) $$ [Hw7 Hd7 HB]
  · isplitl [Hw7]; · iexact Hw7
    isplitl [Hd7] <;> iassumption
  iintro HB
  -- token 8 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 8, by have := klt k; omega⟩ _ _ (k0_off21_eq k ⟨0, by decide⟩) _ (tok_eq d L CI k 8 (by decide) _) (chk1_of_le _ (tok_le d L CI hCI k 8 (by decide) _)) (q ⟨16 * k.val + 8, by have := klt k; omega⟩) _ _ _ _ _) $$ [Hw8 Hd8 HB]
  · isplitl [Hw8]; · iexact Hw8
    isplitl [Hd8] <;> iassumption
  iintro HB
  -- token 9 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 9, by have := klt k; omega⟩ _ _ (k0_off23_eq k ⟨0, by decide⟩) _ (tok_eq d L CI k 9 (by decide) _) (chk1_of_le _ (tok_le d L CI hCI k 9 (by decide) _)) (q ⟨16 * k.val + 9, by have := klt k; omega⟩) _ _ _ _ _) $$ [Hw9 Hd9 HB]
  · isplitl [Hw9]; · iexact Hw9
    isplitl [Hd9] <;> iassumption
  iintro HB
  -- token 10 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 10, by have := klt k; omega⟩ _ _ (k0_off25_eq k ⟨0, by decide⟩) _ (tok_eq d L CI k 10 (by decide) _) (chk1_of_le _ (tok_le d L CI hCI k 10 (by decide) _)) (q ⟨16 * k.val + 10, by have := klt k; omega⟩) _ _ _ _ _) $$ [Hw10 Hd10 HB]
  · isplitl [Hw10]; · iexact Hw10
    isplitl [Hd10] <;> iassumption
  iintro HB
  -- token 11 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 11, by have := klt k; omega⟩ _ _ (k0_off27_eq k ⟨0, by decide⟩) _ (tok_eq d L CI k 11 (by decide) _) (chk1_of_le _ (tok_le d L CI hCI k 11 (by decide) _)) (q ⟨16 * k.val + 11, by have := klt k; omega⟩) _ _ _ _ _) $$ [Hw11 Hd11 HB]
  · isplitl [Hw11]; · iexact Hw11
    isplitl [Hd11] <;> iassumption
  iintro HB
  -- token 12 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 12, by have := klt k; omega⟩ _ _ (k0_off29_eq k ⟨0, by decide⟩) _ (tok_eq d L CI k 12 (by decide) _) (chk1_of_le _ (tok_le d L CI hCI k 12 (by decide) _)) (q ⟨16 * k.val + 12, by have := klt k; omega⟩) _ _ _ _ _) $$ [Hw12 Hd12 HB]
  · isplitl [Hw12]; · iexact Hw12
    isplitl [Hd12] <;> iassumption
  iintro HB
  -- token 13 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 13, by have := klt k; omega⟩ _ _ (k0_off31_eq k ⟨0, by decide⟩) _ (tok_eq d L CI k 13 (by decide) _) (chk1_of_le _ (tok_le d L CI hCI k 13 (by decide) _)) (q ⟨16 * k.val + 13, by have := klt k; omega⟩) _ _ _ _ _) $$ [Hw13 Hd13 HB]
  · isplitl [Hw13]; · iexact Hw13
    isplitl [Hd13] <;> iassumption
  iintro HB
  -- token 14 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 14, by have := klt k; omega⟩ _ _ (k0_off33_eq k ⟨0, by decide⟩) _ (tok_eq d L CI k 14 (by decide) _) (chk1_of_le _ (tok_le d L CI hCI k 14 (by decide) _)) (q ⟨16 * k.val + 14, by have := klt k; omega⟩) _ _ _ _ _) $$ [Hw14 Hd14 HB]
  · isplitl [Hw14]; · iexact Hw14
    isplitl [Hd14] <;> iassumption
  iintro HB
  -- token 15 of the trip: its range check, then its copy
  sl_exec (disch := first | exact chk1_of_le _ (tok_le d L CI hCI k _ (by decide) _) | exact chk2_of_le _ (tok_le d L CI hCI k _ (by decide) _) | exact chk3_of_le _ (tok_le d L CI hCI k _ (by decide) _) | exact chk4_of_le _ (tok_le d L CI hCI k _ (by decide) _) | exact chk5_of_le _ (tok_le d L CI hCI k _ (by decide) _) | exact chk6_of_le _ (tok_le d L CI hCI k _ (by decide) _) | exact chk7_of_le _ (tok_le d L CI hCI k _ (by decide) _) | exact chk8_of_le _ (tok_le d L CI hCI k _ (by decide) _) | exact chk9_of_le _ (tok_le d L CI hCI k _ (by decide) _) | exact chk10_of_le _ (tok_le d L CI hCI k _ (by decide) _) | exact chk11_of_le _ (tok_le d L CI hCI k _ (by decide) _) | exact chk12_of_le _ (tok_le d L CI hCI k _ (by decide) _) | exact chk13_of_le _ (tok_le d L CI hCI k _ (by decide) _) | exact chk14_of_le _ (tok_le d L CI hCI k _ (by decide) _) | exact chk15_of_le _ (tok_le d L CI hCI k _ (by decide) _) | exact chk16_of_le _ (tok_le d L CI hCI k _ (by decide) _))
  iapply (issue_rule d L W3 CI fR hCI ⟨16 * k.val + 15, by have := klt k; omega⟩ _ _ (k0_off35_eq k) _ (tok_eq d L CI k 15 (by decide) _) (chk1_of_le _ (tok_le d L CI hCI k 15 (by decide) _)) (q ⟨16 * k.val + 15, by have := klt k; omega⟩) _ _ _ _ _) $$ [Hw15 Hd15 HB]
  · isplitl [Hw15]; · iexact Hw15
    isplitl [Hd15] <;> iassumption
  iintro HB
  sl_exec
  sl_step
  isplitl [Hmw]; · iexact Hmw
  isplitl [HI]; · iexact HI
  isplitl [Hpend]
  · rw [show 16 * (k.val + 1) = 16 * k.val + 15 + 1 by omega]; iexact Hpend
  isplitl [HB]
  · rw [show 16 * (k.val + 1) = 16 * k.val + 15 + 1 by omega]; iexact HB
  iexact HO

end

end Cert.Proof.Kernel

end
-- ==== Proof.Kernel.Drain.lean ====
/-
  The drain: 640 waits of one row's credit on the kernel's semaphore. The first 639 hand the tile nothing — a wait of
  one row's credit can pass on instalments of several copies with none complete —; the last brings the units consumed
  to the whole batch's, so every copy has landed, and hands back every row of the scratch and the semaphore at zero.
-/
import proofs.«204099_g60593398612478_cont_9to1c4b_39_23_alg».proof.Proof.Kernel.Fire

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

section
variable (W3 : Buf (Elt F) (wLoc d)) (CI : Buf (Elt F) ((thr d L).loc cc0_scratch0)) (fR : Buf (Elt F) ((thr d L).loc cc0_scratch1))

theorem trips2 : k0_t2_loop.trips = 640 := by decide

theorem credit_row (a : Fin 2 → Nat) (pa : ∀ x, a x + S1x64.size x ≤ S640x64.size x) :
    (sR.slice (Rect.unit (s := S640x64) a S1x64.size pa) (fun _ => rfl)).view.dmaCredit = NR := by
  show RefSig.bitCredit S1x64 .f32 = 2048; decide

/-- The batch with every copy issued and `n` waits done, behind a name. -/
def BatchD (hCI : TokOK d L CI) (n : ℕ) : sProp 𝕄 :=
  Transfers.Batch (countersEmb (U := UU)) (thr d L) (.dma cc0_scratch4.sem) (none : HIx 1) NR (Dv d L W3 CI fR hCI) 640 (n * NR)

/-- The drain's invariant before wait `n`: the batch with `n` waits done, or after the last every row landed and the
    semaphore at zero; the waits recorded. -/
def invDrain (hCI : TokOK d L CI) (O : CellTallies nD τ sig (HIx 1)) (W : Waits sig (HIx 1)) (n : Nat) (_ : PUnit) : sProp 𝕄 :=
  iprop(Transfers.MayWaits (thr d L) (none : HIx 1) O
    ∗ (if n < 640 then BatchD d L W3 CI fR hCI n
        else iprop(bigSep Finset.univ (Dv d L W3 CI fR hCI) ∗ semVal (thr d L, SemLoc.dma cc0_scratch4.sem) 0))
    ∗ ∃ W', ⌜∀ p ∈ W', p ∈ W ∨ p.2 = none⌝ ∗ owes (thr d L) O W')

theorem drain_trip (hCI : TokOK d L CI) (O : CellTallies nD τ sig (HIx 1)) (W : Waits sig (HIx 1)) (k : Fin k0_t2_loop.trips) :
    invDrain d L W3 CI fR hCI O W k.val ⟨⟩
      ⊢ wp frame (wpE (defs₀ (F := F)) 𝒱₀ (thr d L) none) Set.univ
          (k0_t2_body L xV (Memref.isWhole_whole _) wV (Memref.isWhole_whole _) oV (Memref.isWhole_whole _)
            sI (Memref.isWhole_whole _) sR (Memref.isWhole_whole _) sZ (Memref.isWhole_whole _) sO (Memref.isWhole_whole _)
            cc0_scratch4 cc0_scoped0 cc0_scoped1 cc0_scoped2 k ⟨⟩)
          fun _ => invDrain d L W3 CI fR hCI O W (k.val + 1) ⟨⟩ := by
  have hk : k.val < 640 := lt_of_lt_of_eq k.isLt trips2
  unfold k0_t2_body invDrain
  rw [if_pos hk]
  iintro ⟨#Hmw, HB, %W', %hW', HO⟩
  ihave Hmw1 := (Transfers.MayWaits.elim (SemLoc.dma cc0_scratch4.sem)) $$ Hmw
  sl_exec
  have hins : ∀ p ∈ insert ((SemLoc.dma cc0_scratch4.sem : SemLoc sig), (none : HIx 1)) W', p ∈ W ∨ p.2 = none := by
    intro p hp
    rcases Finset.mem_insert.mp hp with hp | hp
    · exact .inr (hp ▸ rfl)
    · exact hW' p hp
  by_cases hl : k.val + 1 = 640
  · -- the last wait: every copy has landed
    rw [if_neg (show ¬ (k.val + 1 < 640) by omega)]
    unfold BatchD
    iapply (Transfers.wp_waitBatchLastO (countersEmb (U := UU)) 𝒱₀ (thr d L) none (none : HIx 1) (credit_row _ _) (by decide)
      (show k.val * 2048 + 2048 = 2048 * 640 by omega)) $$ [HB HO Hmw1]
    · isplitl [HB]; · iexact HB
      isplitl [HO]; · iexact HO
      iexact Hmw1
    iintro ⟨HD, Hsem, HO⟩
    sl_exec
    sl_step
    isplitr; · iexact Hmw
    isplitl [HD Hsem]
    · isplitl [HD] <;> iassumption
    iexists _; isplitr
    · ipureintro; exact hins
    · iexact HO
  · -- a wait short of the last: nothing of any row
    rw [if_pos (show k.val + 1 < 640 by omega)]
    unfold BatchD
    iapply (Transfers.wp_waitBatchO (countersEmb (U := UU)) 𝒱₀ (thr d L) none (none : HIx 1) (credit_row _ _)
      (show k.val * 2048 + 2048 < 2048 * 640 by omega)) $$ [HB HO Hmw1]
    · isplitl [HB]; · iexact HB
      isplitl [HO]; · iexact HO
      iexact Hmw1
    iintro ⟨HB, HO⟩
    sl_exec
    sl_step
    isplitr; · iexact Hmw
    isplitl [HB]
    · rw [show (k.val + 1) * NR = k.val * NR + NR from Nat.succ_mul _ _]; iexact HB
    iexists _; isplitr
    · ipureintro; exact hins
    · iexact HO

end

end Cert.Proof.Kernel

end
-- ==== Proof.Kernel.ComputeLemmas.lean ====
/-
  The compute loop's vocabulary: the result scratch after the first
  rows, and what a load, a recast and a store of sixteen lanes are at one lane.

  Trip `k` of the loop reads, for each of the four groups of sixteen columns, the twenty gathered rows
  `20 k … 20 k + 19` and the sixteen lanes of table row 0, forms the four context sums lane by lane and stores them
  to row `k` of the tile's slab `[32, 4, 64]`. So after `n` trips rows below `n` of the slab hold the sums and
  the others what they held before (`outAfter`); one trip's sixteen stores cover exactly row `k`.
-/
import proofs.«204099_g60593398612478_cont_9to1c4b_39_23_alg».proof.Proof.Kernel.Setup
import proofs.«204099_g60593398612478_cont_9to1c4b_39_23_alg».proof.Proof.KernF
import Idealize.ShloMosaic.Lib.Pipeline.Value
import Idealize.ShloMosaic.Lib.ValueIdx
import Idealize.ShloMosaic.Lib.Writes

noncomputable section
namespace Cert.Proof.Kernel
open Cert.Kernel Cert.Kernel.Gen
open Idealize.ShloMosaic Idealize.ShloMosaic.ValueIdx
open Cert.Cbow
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

/-! ## The result scratch after the first rows -/

/-- Entry `(b, c, e)` of the tile's result slab once its first `n` rows are done: the kernel's sum for slot `c` over
    the twenty gathered rows `20 b … 20 b + 19` at column `e` for `b < n`, the prior contents otherwise. -/
def outAt (R : S640x64.Idx → F .f32) (Z : S1x64.Idx → F .f32) (f0 : S32x4x64.Idx → F .f32) (n : Nat)
    (b : Fin 32) (c : Fin 4) (e : Fin 64) : F .f32 :=
  if b.val < n then kernAtF (fun p => R (ix2 ⟨20 * b.val + p.val, by omega⟩ e)) (Z (ix2 0 e)) c else f0 (ix3 b c e)

/-- The result scratch once the first `n` rows of the tile are done. -/
def outAfter (R : Buf (Elt F) ((thr d L).loc cc0_scratch1)) (Z : Buf (Elt F) ((thr d L).loc cc0_scratch2))
    (f0 : Buf (Elt F) ((thr d L).loc cc0_scratch3)) (n : Nat) : Buf (Elt F) ((thr d L).loc cc0_scratch3) :=
  fun i : S32x4x64.Idx => outAt R Z f0 n (i 0) (i 1) (i 2)

/-- Lane `l` of column group `g` of gathered row `20 k + p`. -/
def rowE (R : S640x64.Idx → F .f32) (k : Fin k0_t3_loop.trips) (g : Fin 4) (p : Fin 20) (l : Fin 16) : F .f32 :=
  R (ix2 ⟨20 * k.val + p.val, by have hk : k.val < 32 := k.isLt; show _ < 640; omega⟩ ⟨16 * g.val + l.val, by show _ < 64; omega⟩)

/-- Lane `l` of column group `g` of table row 0. -/
def zE (Z : S1x64.Idx → F .f32) (g : Fin 4) (l : Fin 16) : F .f32 :=
  Z (ix2 0 ⟨16 * g.val + l.val, by show _ < 64; omega⟩)

/-! ## Layout operations and loads read at a lane -/

/-- A `[1, 16]` vector recast to itself and then to `[16]`, at lane `l`. -/
theorem cast16_apply (v : Vec F S1x16 .f32) (h1 : S1x16.ShapeCasts S1x16) (h2 : S1x16.ShapeCasts S16) (l : Fin 16) :
    shapeCast S16 (shapeCast S1x16 v h1) h2 (ix1 l) = v (ix2 0 l) := by
  refine (shapeCast_apply _ h2 (ix1 l) (ix2 0 l) ?_).trans (shapeCast_apply v h1 (ix2 0 l) (ix2 0 l) rfl)
  rw [Shape.rowMajor_val_two, Shape.rowMajor_val_one]
  show 0 * 16 + l.val = l.val
  omega

/-- The same for a vector of floats (the element type spelt as the float type itself). -/
theorem cast16_apply' (v : FVec F S1x16 .f32) (h1 : S1x16.ShapeCasts S1x16) (h2 : S1x16.ShapeCasts S16) (l : Fin 16) :
    shapeCast S16 (shapeCast S1x16 v h1) h2 (ix1 l) = v (ix2 0 l) := by
  refine (shapeCast_apply _ h2 (ix1 l) (ix2 0 l) ?_).trans (shapeCast_apply v h1 (ix2 0 l) (ix2 0 l) rfl)
  rw [Shape.rowMajor_val_two, Shape.rowMajor_val_one]
  show 0 * 16 + l.val = l.val
  omega

/-- A `[16]` vector recast to `[1, 1, 16]`, at lane `l`. -/
theorem cast3_apply (u : FVec F S16 .f32) (h : S16.ShapeCasts S1x1x16) (a b : Fin 1) (l : Fin 16) :
    shapeCast S1x1x16 u h (ix3 a b l) = u (ix1 l) :=
  shapeCast_apply u h _ _ (by
    have := a.isLt; have := b.isLt
    rw [Shape.rowMajor_val_one, Shape.rowMajor_val_three]
    show l.val = (a.val * 1 + b.val) * 16 + l.val
    omega)

/-- A load of sixteen lanes of one gathered row, at lane `l`. -/
theorem readR (R : Buf (Elt F) ((thr d L).loc cc0_scratch1)) (k : Fin k0_t3_loop.trips) (g : Fin 4) (p : Fin 20)
    (off : Fin 2 → Nat) (hoff : off = ![20 * k.val + p.val, 16 * g.val])
    (inb : ∀ a, off a + S1x16.size a ≤ S640x64.size a) (l : Fin 16) :
    View.readAt (Elt F) (sR).view (Rect.unit (s := S640x64) off S1x16.size inb).toLoadRect R (ix2 0 l) = rowE R k g p l := by
  subst hoff
  show R _ = R _
  congr 1
  funext a
  match a with
  | ⟨0, _⟩ => exact Fin.ext (by show 20 * k.val + p.val + 1 * 0 = 20 * k.val + p.val; omega)
  | ⟨1, _⟩ => exact Fin.ext (by show 16 * g.val + 1 * l.val = 16 * g.val + l.val; omega)

theorem readZ_0 (Z : Buf (Elt F) ((thr d L).loc cc0_scratch2)) (l : Fin 16) :
    View.readAt (Elt F) (sZ).view (Rect.unit (s := S1x64) ![0, 0] S1x16.size inb_S1x64_S1x16_0_0).toLoadRect Z (ix2 0 l)
      = zE Z 0 l := by
  show Z _ = Z _
  congr 1
  funext a
  match a with
  | ⟨0, _⟩ => exact Fin.ext (by show 0 + 1 * 0 = 0; omega)
  | ⟨1, _⟩ => exact Fin.ext (by show 0 + 1 * l.val = 16 * 0 + l.val; omega)
theorem readZ_1 (Z : Buf (Elt F) ((thr d L).loc cc0_scratch2)) (l : Fin 16) :
    View.readAt (Elt F) (sZ).view (Rect.unit (s := S1x64) ![0, 16] S1x16.size inb_S1x64_S1x16_0_16).toLoadRect Z (ix2 0 l)
      = zE Z 1 l := by
  show Z _ = Z _
  congr 1
  funext a
  match a with
  | ⟨0, _⟩ => exact Fin.ext (by show 0 + 1 * 0 = 0; omega)
  | ⟨1, _⟩ => exact Fin.ext (by show 16 + 1 * l.val = 16 * 1 + l.val; omega)
theorem readZ_2 (Z : Buf (Elt F) ((thr d L).loc cc0_scratch2)) (l : Fin 16) :
    View.readAt (Elt F) (sZ).view (Rect.unit (s := S1x64) ![0, 32] S1x16.size inb_S1x64_S1x16_0_32).toLoadRect Z (ix2 0 l)
      = zE Z 2 l := by
  show Z _ = Z _
  congr 1
  funext a
  match a with
  | ⟨0, _⟩ => exact Fin.ext (by show 0 + 1 * 0 = 0; omega)
  | ⟨1, _⟩ => exact Fin.ext (by show 32 + 1 * l.val = 16 * 2 + l.val; omega)
theorem readZ_3 (Z : Buf (Elt F) ((thr d L).loc cc0_scratch2)) (l : Fin 16) :
    View.readAt (Elt F) (sZ).view (Rect.unit (s := S1x64) ![0, 48] S1x16.size inb_S1x64_S1x16_0_48).toLoadRect Z (ix2 0 l)
      = zE Z 3 l := by
  show Z _ = Z _
  congr 1
  funext a
  match a with
  | ⟨0, _⟩ => exact Fin.ext (by show 0 + 1 * 0 = 0; omega)
  | ⟨1, _⟩ => exact Fin.ext (by show 48 + 1 * l.val = 16 * 3 + l.val; omega)

/-! ## A load of sixteen lanes as a vector of the scratch's entries -/

/-- The sixteen lanes of column group `g` of gathered row `20 k + p`, as the `[1, 16]` vector a load answers. -/
def rowV (R : S640x64.Idx → F .f32) (k : Fin k0_t3_loop.trips) (g : Fin 4) (p : Fin 20) : FVec F S1x16 .f32 :=
  fun j => rowE R k g p (j 1)

/-- The sixteen lanes of column group `g` of table row 0, likewise. -/
def zV (Z : S1x64.Idx → F .f32) (g : Fin 4) : FVec F S1x16 .f32 := fun j => zE Z g (j 1)

theorem rowV_apply (R : S640x64.Idx → F .f32) (k : Fin k0_t3_loop.trips) (g : Fin 4) (p : Fin 20) (l : Fin 16) :
    rowV R k g p (ix2 0 l) = rowE R k g p l := rfl

theorem zV_apply (Z : S1x64.Idx → F .f32) (g : Fin 4) (l : Fin 16) : zV Z g (ix2 0 l) = zE Z g l := rfl

/-- A load of sixteen lanes of one gathered row is that vector. -/
theorem rd (R : Buf (Elt F) ((thr d L).loc cc0_scratch1)) (k : Fin k0_t3_loop.trips) (g : Fin 4) (p : Fin 20)
    {off : Fin 2 → Nat} (hoff : off = ![20 * k.val + p.val, 16 * g.val])
    (inb : ∀ a, off a + S1x16.size a ≤ S640x64.size a) :
    View.readAt (Elt F) (sR).view (Rect.unit (s := S640x64) off S1x16.size inb).toLoadRect R = rowV R k g p := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readR d L R k g p off hoff inb l

theorem rd_0_0 (R : Buf (Elt F) ((thr d L).loc cc0_scratch1)) (k : Fin k0_t3_loop.trips)
    (inb : ∀ a, (k0_off37 k 0#32) a + S1x16.size a ≤ S640x64.size a) :
    View.readAt (Elt F) (sR).view (Rect.unit (s := S640x64) (k0_off37 k 0#32) S1x16.size inb).toLoadRect R = rowV R k 0 0 :=
  rd d L R k 0 0 (k0_off37_eq k ⟨0, by decide⟩) inb
theorem rd_0_1 (R : Buf (Elt F) ((thr d L).loc cc0_scratch1)) (k : Fin k0_t3_loop.trips)
    (inb : ∀ a, (k0_off37 k 1#32) a + S1x16.size a ≤ S640x64.size a) :
    View.readAt (Elt F) (sR).view (Rect.unit (s := S640x64) (k0_off37 k 1#32) S1x16.size inb).toLoadRect R = rowV R k 0 1 :=
  rd d L R k 0 1 (k0_off37_eq k ⟨1, by decide⟩) inb
theorem rd_0_2 (R : Buf (Elt F) ((thr d L).loc cc0_scratch1)) (k : Fin k0_t3_loop.trips)
    (inb : ∀ a, (k0_off37 k 2#32) a + S1x16.size a ≤ S640x64.size a) :
    View.readAt (Elt F) (sR).view (Rect.unit (s := S640x64) (k0_off37 k 2#32) S1x16.size inb).toLoadRect R = rowV R k 0 2 :=
  rd d L R k 0 2 (k0_off37_eq k ⟨2, by decide⟩) inb
theorem rd_0_3 (R : Buf (Elt F) ((thr d L).loc cc0_scratch1)) (k : Fin k0_t3_loop.trips)
    (inb : ∀ a, (k0_off37 k 3#32) a + S1x16.size a ≤ S640x64.size a) :
    View.readAt (Elt F) (sR).view (Rect.unit (s := S640x64) (k0_off37 k 3#32) S1x16.size inb).toLoadRect R = rowV R k 0 3 :=
  rd d L R k 0 3 (k0_off37_eq k ⟨3, by decide⟩) inb
theorem rd_0_4 (R : Buf (Elt F) ((thr d L).loc cc0_scratch1)) (k : Fin k0_t3_loop.trips)
    (inb : ∀ a, (k0_off37 k 4#32) a + S1x16.size a ≤ S640x64.size a) :
    View.readAt (Elt F) (sR).view (Rect.unit (s := S640x64) (k0_off37 k 4#32) S1x16.size inb).toLoadRect R = rowV R k 0 4 :=
  rd d L R k 0 4 (k0_off37_eq k ⟨4, by decide⟩) inb
theorem rd_0_5 (R : Buf (Elt F) ((thr d L).loc cc0_scratch1)) (k : Fin k0_t3_loop.trips)
    (inb : ∀ a, (k0_off37 k 5#32) a + S1x16.size a ≤ S640x64.size a) :
    View.readAt (Elt F) (sR).view (Rect.unit (s := S640x64) (k0_off37 k 5#32) S1x16.size inb).toLoadRect R = rowV R k 0 5 :=
  rd d L R k 0 5 (k0_off37_eq k ⟨5, by decide⟩) inb
theorem rd_0_6 (R : Buf (Elt F) ((thr d L).loc cc0_scratch1)) (k : Fin k0_t3_loop.trips)
    (inb : ∀ a, (k0_off37 k 6#32) a + S1x16.size a ≤ S640x64.size a) :
    View.readAt (Elt F) (sR).view (Rect.unit (s := S640x64) (k0_off37 k 6#32) S1x16.size inb).toLoadRect R = rowV R k 0 6 :=
  rd d L R k 0 6 (k0_off37_eq k ⟨6, by decide⟩) inb
theorem rd_0_7 (R : Buf (Elt F) ((thr d L).loc cc0_scratch1)) (k : Fin k0_t3_loop.trips)
    (inb : ∀ a, (k0_off37 k 7#32) a + S1x16.size a ≤ S640x64.size a) :
    View.readAt (Elt F) (sR).view (Rect.unit (s := S640x64) (k0_off37 k 7#32) S1x16.size inb).toLoadRect R = rowV R k 0 7 :=
  rd d L R k 0 7 (k0_off37_eq k ⟨7, by decide⟩) inb
theorem rd_0_8 (R : Buf (Elt F) ((thr d L).loc cc0_scratch1)) (k : Fin k0_t3_loop.trips)
    (inb : ∀ a, (k0_off37 k 8#32) a + S1x16.size a ≤ S640x64.size a) :
    View.readAt (Elt F) (sR).view (Rect.unit (s := S640x64) (k0_off37 k 8#32) S1x16.size inb).toLoadRect R = rowV R k 0 8 :=
  rd d L R k 0 8 (k0_off37_eq k ⟨8, by decide⟩) inb
theorem rd_0_9 (R : Buf (Elt F) ((thr d L).loc cc0_scratch1)) (k : Fin k0_t3_loop.trips)
    (inb : ∀ a, (k0_off37 k 9#32) a + S1x16.size a ≤ S640x64.size a) :
    View.readAt (Elt F) (sR).view (Rect.unit (s := S640x64) (k0_off37 k 9#32) S1x16.size inb).toLoadRect R = rowV R k 0 9 :=
  rd d L R k 0 9 (k0_off37_eq k ⟨9, by decide⟩) inb
theorem rd_0_10 (R : Buf (Elt F) ((thr d L).loc cc0_scratch1)) (k : Fin k0_t3_loop.trips)
    (inb : ∀ a, (k0_off37 k 10#32) a + S1x16.size a ≤ S640x64.size a) :
    View.readAt (Elt F) (sR).view (Rect.unit (s := S640x64) (k0_off37 k 10#32) S1x16.size inb).toLoadRect R = rowV R k 0 10 :=
  rd d L R k 0 10 (k0_off37_eq k ⟨10, by decide⟩) inb
theorem rd_0_11 (R : Buf (Elt F) ((thr d L).loc cc0_scratch1)) (k : Fin k0_t3_loop.trips)
    (inb : ∀ a, (k0_off37 k 11#32) a + S1x16.size a ≤ S640x64.size a) :
    View.readAt (Elt F) (sR).view (Rect.unit (s := S640x64) (k0_off37 k 11#32) S1x16.size inb).toLoadRect R = rowV R k 0 11 :=
  rd d L R k 0 11 (k0_off37_eq k ⟨11, by decide⟩) inb
theorem rd_0_12 (R : Buf (Elt F) ((thr d L).loc cc0_scratch1)) (k : Fin k0_t3_loop.trips)
    (inb : ∀ a, (k0_off37 k 12#32) a + S1x16.size a ≤ S640x64.size a) :
    View.readAt (Elt F) (sR).view (Rect.unit (s := S640x64) (k0_off37 k 12#32) S1x16.size inb).toLoadRect R = rowV R k 0 12 :=
  rd d L R k 0 12 (k0_off37_eq k ⟨12, by decide⟩) inb
theorem rd_0_13 (R : Buf (Elt F) ((thr d L).loc cc0_scratch1)) (k : Fin k0_t3_loop.trips)
    (inb : ∀ a, (k0_off37 k 13#32) a + S1x16.size a ≤ S640x64.size a) :
    View.readAt (Elt F) (sR).view (Rect.unit (s := S640x64) (k0_off37 k 13#32) S1x16.size inb).toLoadRect R = rowV R k 0 13 :=
  rd d L R k 0 13 (k0_off37_eq k ⟨13, by decide⟩) inb
theorem rd_0_14 (R : Buf (Elt F) ((thr d L).loc cc0_scratch1)) (k : Fin k0_t3_loop.trips)
    (inb : ∀ a, (k0_off37 k 14#32) a + S1x16.size a ≤ S640x64.size a) :
    View.readAt (Elt F) (sR).view (Rect.unit (s := S640x64) (k0_off37 k 14#32) S1x16.size inb).toLoadRect R = rowV R k 0 14 :=
  rd d L R k 0 14 (k0_off37_eq k ⟨14, by decide⟩) inb
theorem rd_0_15 (R : Buf (Elt F) ((thr d L).loc cc0_scratch1)) (k : Fin k0_t3_loop.trips)
    (inb : ∀ a, (k0_off37 k 15#32) a + S1x16.size a ≤ S640x64.size a) :
    View.readAt (Elt F) (sR).view (Rect.unit (s := S640x64) (k0_off37 k 15#32) S1x16.size inb).toLoadRect R = rowV R k 0 15 :=
  rd d L R k 0 15 (k0_off37_eq k ⟨15, by decide⟩) inb
theorem rd_0_16 (R : Buf (Elt F) ((thr d L).loc cc0_scratch1)) (k : Fin k0_t3_loop.trips)
    (inb : ∀ a, (k0_off37 k 16#32) a + S1x16.size a ≤ S640x64.size a) :
    View.readAt (Elt F) (sR).view (Rect.unit (s := S640x64) (k0_off37 k 16#32) S1x16.size inb).toLoadRect R = rowV R k 0 16 :=
  rd d L R k 0 16 (k0_off37_eq k ⟨16, by decide⟩) inb
theorem rd_0_17 (R : Buf (Elt F) ((thr d L).loc cc0_scratch1)) (k : Fin k0_t3_loop.trips)
    (inb : ∀ a, (k0_off37 k 17#32) a + S1x16.size a ≤ S640x64.size a) :
    View.readAt (Elt F) (sR).view (Rect.unit (s := S640x64) (k0_off37 k 17#32) S1x16.size inb).toLoadRect R = rowV R k 0 17 :=
  rd d L R k 0 17 (k0_off37_eq k ⟨17, by decide⟩) inb
theorem rd_0_18 (R : Buf (Elt F) ((thr d L).loc cc0_scratch1)) (k : Fin k0_t3_loop.trips)
    (inb : ∀ a, (k0_off37 k 18#32) a + S1x16.size a ≤ S640x64.size a) :
    View.readAt (Elt F) (sR).view (Rect.unit (s := S640x64) (k0_off37 k 18#32) S1x16.size inb).toLoadRect R = rowV R k 0 18 :=
  rd d L R k 0 18 (k0_off37_eq k ⟨18, by decide⟩) inb
theorem rd_0_19 (R : Buf (Elt F) ((thr d L).loc cc0_scratch1)) (k : Fin k0_t3_loop.trips)
    (inb : ∀ a, (k0_off37 k 19#32) a + S1x16.size a ≤ S640x64.size a) :
    View.readAt (Elt F) (sR).view (Rect.unit (s := S640x64) (k0_off37 k 19#32) S1x16.size inb).toLoadRect R = rowV R k 0 19 :=
  rd d L R k 0 19 (k0_off37_eq k ⟨19, by decide⟩) inb
theorem rd_1_0 (R : Buf (Elt F) ((thr d L).loc cc0_scratch1)) (k : Fin k0_t3_loop.trips)
    (inb : ∀ a, (k0_off42 k 0#32) a + S1x16.size a ≤ S640x64.size a) :
    View.readAt (Elt F) (sR).view (Rect.unit (s := S640x64) (k0_off42 k 0#32) S1x16.size inb).toLoadRect R = rowV R k 1 0 :=
  rd d L R k 1 0 (k0_off42_eq k ⟨0, by decide⟩) inb
theorem rd_1_1 (R : Buf (Elt F) ((thr d L).loc cc0_scratch1)) (k : Fin k0_t3_loop.trips)
    (inb : ∀ a, (k0_off42 k 1#32) a + S1x16.size a ≤ S640x64.size a) :
    View.readAt (Elt F) (sR).view (Rect.unit (s := S640x64) (k0_off42 k 1#32) S1x16.size inb).toLoadRect R = rowV R k 1 1 :=
  rd d L R k 1 1 (k0_off42_eq k ⟨1, by decide⟩) inb
theorem rd_1_2 (R : Buf (Elt F) ((thr d L).loc cc0_scratch1)) (k : Fin k0_t3_loop.trips)
    (inb : ∀ a, (k0_off42 k 2#32) a + S1x16.size a ≤ S640x64.size a) :
    View.readAt (Elt F) (sR).view (Rect.unit (s := S640x64) (k0_off42 k 2#32) S1x16.size inb).toLoadRect R = rowV R k 1 2 :=
  rd d L R k 1 2 (k0_off42_eq k ⟨2, by decide⟩) inb
theorem rd_1_3 (R : Buf (Elt F) ((thr d L).loc cc0_scratch1)) (k : Fin k0_t3_loop.trips)
    (inb : ∀ a, (k0_off42 k 3#32) a + S1x16.size a ≤ S640x64.size a) :
    View.readAt (Elt F) (sR).view (Rect.unit (s := S640x64) (k0_off42 k 3#32) S1x16.size inb).toLoadRect R = rowV R k 1 3 :=
  rd d L R k 1 3 (k0_off42_eq k ⟨3, by decide⟩) inb
theorem rd_1_4 (R : Buf (Elt F) ((thr d L).loc cc0_scratch1)) (k : Fin k0_t3_loop.trips)
    (inb : ∀ a, (k0_off42 k 4#32) a + S1x16.size a ≤ S640x64.size a) :
    View.readAt (Elt F) (sR).view (Rect.unit (s := S640x64) (k0_off42 k 4#32) S1x16.size inb).toLoadRect R = rowV R k 1 4 :=
  rd d L R k 1 4 (k0_off42_eq k ⟨4, by decide⟩) inb
theorem rd_1_5 (R : Buf (Elt F) ((thr d L).loc cc0_scratch1)) (k : Fin k0_t3_loop.trips)
    (inb : ∀ a, (k0_off42 k 5#32) a + S1x16.size a ≤ S640x64.size a) :
    View.readAt (Elt F) (sR).view (Rect.unit (s := S640x64) (k0_off42 k 5#32) S1x16.size inb).toLoadRect R = rowV R k 1 5 :=
  rd d L R k 1 5 (k0_off42_eq k ⟨5, by decide⟩) inb
theorem rd_1_6 (R : Buf (Elt F) ((thr d L).loc cc0_scratch1)) (k : Fin k0_t3_loop.trips)
    (inb : ∀ a, (k0_off42 k 6#32) a + S1x16.size a ≤ S640x64.size a) :
    View.readAt (Elt F) (sR).view (Rect.unit (s := S640x64) (k0_off42 k 6#32) S1x16.size inb).toLoadRect R = rowV R k 1 6 :=
  rd d L R k 1 6 (k0_off42_eq k ⟨6, by decide⟩) inb
theorem rd_1_7 (R : Buf (Elt F) ((thr d L).loc cc0_scratch1)) (k : Fin k0_t3_loop.trips)
    (inb : ∀ a, (k0_off42 k 7#32) a + S1x16.size a ≤ S640x64.size a) :
    View.readAt (Elt F) (sR).view (Rect.unit (s := S640x64) (k0_off42 k 7#32) S1x16.size inb).toLoadRect R = rowV R k 1 7 :=
  rd d L R k 1 7 (k0_off42_eq k ⟨7, by decide⟩) inb
theorem rd_1_8 (R : Buf (Elt F) ((thr d L).loc cc0_scratch1)) (k : Fin k0_t3_loop.trips)
    (inb : ∀ a, (k0_off42 k 8#32) a + S1x16.size a ≤ S640x64.size a) :
    View.readAt (Elt F) (sR).view (Rect.unit (s := S640x64) (k0_off42 k 8#32) S1x16.size inb).toLoadRect R = rowV R k 1 8 :=
  rd d L R k 1 8 (k0_off42_eq k ⟨8, by decide⟩) inb
theorem rd_1_9 (R : Buf (Elt F) ((thr d L).loc cc0_scratch1)) (k : Fin k0_t3_loop.trips)
    (inb : ∀ a, (k0_off42 k 9#32) a + S1x16.size a ≤ S640x64.size a) :
    View.readAt (Elt F) (sR).view (Rect.unit (s := S640x64) (k0_off42 k 9#32) S1x16.size inb).toLoadRect R = rowV R k 1 9 :=
  rd d L R k 1 9 (k0_off42_eq k ⟨9, by decide⟩) inb
theorem rd_1_10 (R : Buf (Elt F) ((thr d L).loc cc0_scratch1)) (k : Fin k0_t3_loop.trips)
    (inb : ∀ a, (k0_off42 k 10#32) a + S1x16.size a ≤ S640x64.size a) :
    View.readAt (Elt F) (sR).view (Rect.unit (s := S640x64) (k0_off42 k 10#32) S1x16.size inb).toLoadRect R = rowV R k 1 10 :=
  rd d L R k 1 10 (k0_off42_eq k ⟨10, by decide⟩) inb
theorem rd_1_11 (R : Buf (Elt F) ((thr d L).loc cc0_scratch1)) (k : Fin k0_t3_loop.trips)
    (inb : ∀ a, (k0_off42 k 11#32) a + S1x16.size a ≤ S640x64.size a) :
    View.readAt (Elt F) (sR).view (Rect.unit (s := S640x64) (k0_off42 k 11#32) S1x16.size inb).toLoadRect R = rowV R k 1 11 :=
  rd d L R k 1 11 (k0_off42_eq k ⟨11, by decide⟩) inb
theorem rd_1_12 (R : Buf (Elt F) ((thr d L).loc cc0_scratch1)) (k : Fin k0_t3_loop.trips)
    (inb : ∀ a, (k0_off42 k 12#32) a + S1x16.size a ≤ S640x64.size a) :
    View.readAt (Elt F) (sR).view (Rect.unit (s := S640x64) (k0_off42 k 12#32) S1x16.size inb).toLoadRect R = rowV R k 1 12 :=
  rd d L R k 1 12 (k0_off42_eq k ⟨12, by decide⟩) inb
theorem rd_1_13 (R : Buf (Elt F) ((thr d L).loc cc0_scratch1)) (k : Fin k0_t3_loop.trips)
    (inb : ∀ a, (k0_off42 k 13#32) a + S1x16.size a ≤ S640x64.size a) :
    View.readAt (Elt F) (sR).view (Rect.unit (s := S640x64) (k0_off42 k 13#32) S1x16.size inb).toLoadRect R = rowV R k 1 13 :=
  rd d L R k 1 13 (k0_off42_eq k ⟨13, by decide⟩) inb
theorem rd_1_14 (R : Buf (Elt F) ((thr d L).loc cc0_scratch1)) (k : Fin k0_t3_loop.trips)
    (inb : ∀ a, (k0_off42 k 14#32) a + S1x16.size a ≤ S640x64.size a) :
    View.readAt (Elt F) (sR).view (Rect.unit (s := S640x64) (k0_off42 k 14#32) S1x16.size inb).toLoadRect R = rowV R k 1 14 :=
  rd d L R k 1 14 (k0_off42_eq k ⟨14, by decide⟩) inb
theorem rd_1_15 (R : Buf (Elt F) ((thr d L).loc cc0_scratch1)) (k : Fin k0_t3_loop.trips)
    (inb : ∀ a, (k0_off42 k 15#32) a + S1x16.size a ≤ S640x64.size a) :
    View.readAt (Elt F) (sR).view (Rect.unit (s := S640x64) (k0_off42 k 15#32) S1x16.size inb).toLoadRect R = rowV R k 1 15 :=
  rd d L R k 1 15 (k0_off42_eq k ⟨15, by decide⟩) inb
theorem rd_1_16 (R : Buf (Elt F) ((thr d L).loc cc0_scratch1)) (k : Fin k0_t3_loop.trips)
    (inb : ∀ a, (k0_off42 k 16#32) a + S1x16.size a ≤ S640x64.size a) :
    View.readAt (Elt F) (sR).view (Rect.unit (s := S640x64) (k0_off42 k 16#32) S1x16.size inb).toLoadRect R = rowV R k 1 16 :=
  rd d L R k 1 16 (k0_off42_eq k ⟨16, by decide⟩) inb
theorem rd_1_17 (R : Buf (Elt F) ((thr d L).loc cc0_scratch1)) (k : Fin k0_t3_loop.trips)
    (inb : ∀ a, (k0_off42 k 17#32) a + S1x16.size a ≤ S640x64.size a) :
    View.readAt (Elt F) (sR).view (Rect.unit (s := S640x64) (k0_off42 k 17#32) S1x16.size inb).toLoadRect R = rowV R k 1 17 :=
  rd d L R k 1 17 (k0_off42_eq k ⟨17, by decide⟩) inb
theorem rd_1_18 (R : Buf (Elt F) ((thr d L).loc cc0_scratch1)) (k : Fin k0_t3_loop.trips)
    (inb : ∀ a, (k0_off42 k 18#32) a + S1x16.size a ≤ S640x64.size a) :
    View.readAt (Elt F) (sR).view (Rect.unit (s := S640x64) (k0_off42 k 18#32) S1x16.size inb).toLoadRect R = rowV R k 1 18 :=
  rd d L R k 1 18 (k0_off42_eq k ⟨18, by decide⟩) inb
theorem rd_1_19 (R : Buf (Elt F) ((thr d L).loc cc0_scratch1)) (k : Fin k0_t3_loop.trips)
    (inb : ∀ a, (k0_off42 k 19#32) a + S1x16.size a ≤ S640x64.size a) :
    View.readAt (Elt F) (sR).view (Rect.unit (s := S640x64) (k0_off42 k 19#32) S1x16.size inb).toLoadRect R = rowV R k 1 19 :=
  rd d L R k 1 19 (k0_off42_eq k ⟨19, by decide⟩) inb
theorem rd_2_0 (R : Buf (Elt F) ((thr d L).loc cc0_scratch1)) (k : Fin k0_t3_loop.trips)
    (inb : ∀ a, (k0_off47 k 0#32) a + S1x16.size a ≤ S640x64.size a) :
    View.readAt (Elt F) (sR).view (Rect.unit (s := S640x64) (k0_off47 k 0#32) S1x16.size inb).toLoadRect R = rowV R k 2 0 :=
  rd d L R k 2 0 (k0_off47_eq k ⟨0, by decide⟩) inb
theorem rd_2_1 (R : Buf (Elt F) ((thr d L).loc cc0_scratch1)) (k : Fin k0_t3_loop.trips)
    (inb : ∀ a, (k0_off47 k 1#32) a + S1x16.size a ≤ S640x64.size a) :
    View.readAt (Elt F) (sR).view (Rect.unit (s := S640x64) (k0_off47 k 1#32) S1x16.size inb).toLoadRect R = rowV R k 2 1 :=
  rd d L R k 2 1 (k0_off47_eq k ⟨1, by decide⟩) inb
theorem rd_2_2 (R : Buf (Elt F) ((thr d L).loc cc0_scratch1)) (k : Fin k0_t3_loop.trips)
    (inb : ∀ a, (k0_off47 k 2#32) a + S1x16.size a ≤ S640x64.size a) :
    View.readAt (Elt F) (sR).view (Rect.unit (s := S640x64) (k0_off47 k 2#32) S1x16.size inb).toLoadRect R = rowV R k 2 2 :=
  rd d L R k 2 2 (k0_off47_eq k ⟨2, by decide⟩) inb
theorem rd_2_3 (R : Buf (Elt F) ((thr d L).loc cc0_scratch1)) (k : Fin k0_t3_loop.trips)
    (inb : ∀ a, (k0_off47 k 3#32) a + S1x16.size a ≤ S640x64.size a) :
    View.readAt (Elt F) (sR).view (Rect.unit (s := S640x64) (k0_off47 k 3#32) S1x16.size inb).toLoadRect R = rowV R k 2 3 :=
  rd d L R k 2 3 (k0_off47_eq k ⟨3, by decide⟩) inb
theorem rd_2_4 (R : Buf (Elt F) ((thr d L).loc cc0_scratch1)) (k : Fin k0_t3_loop.trips)
    (inb : ∀ a, (k0_off47 k 4#32) a + S1x16.size a ≤ S640x64.size a) :
    View.readAt (Elt F) (sR).view (Rect.unit (s := S640x64) (k0_off47 k 4#32) S1x16.size inb).toLoadRect R = rowV R k 2 4 :=
  rd d L R k 2 4 (k0_off47_eq k ⟨4, by decide⟩) inb
theorem rd_2_5 (R : Buf (Elt F) ((thr d L).loc cc0_scratch1)) (k : Fin k0_t3_loop.trips)
    (inb : ∀ a, (k0_off47 k 5#32) a + S1x16.size a ≤ S640x64.size a) :
    View.readAt (Elt F) (sR).view (Rect.unit (s := S640x64) (k0_off47 k 5#32) S1x16.size inb).toLoadRect R = rowV R k 2 5 :=
  rd d L R k 2 5 (k0_off47_eq k ⟨5, by decide⟩) inb
theorem rd_2_6 (R : Buf (Elt F) ((thr d L).loc cc0_scratch1)) (k : Fin k0_t3_loop.trips)
    (inb : ∀ a, (k0_off47 k 6#32) a + S1x16.size a ≤ S640x64.size a) :
    View.readAt (Elt F) (sR).view (Rect.unit (s := S640x64) (k0_off47 k 6#32) S1x16.size inb).toLoadRect R = rowV R k 2 6 :=
  rd d L R k 2 6 (k0_off47_eq k ⟨6, by decide⟩) inb
theorem rd_2_7 (R : Buf (Elt F) ((thr d L).loc cc0_scratch1)) (k : Fin k0_t3_loop.trips)
    (inb : ∀ a, (k0_off47 k 7#32) a + S1x16.size a ≤ S640x64.size a) :
    View.readAt (Elt F) (sR).view (Rect.unit (s := S640x64) (k0_off47 k 7#32) S1x16.size inb).toLoadRect R = rowV R k 2 7 :=
  rd d L R k 2 7 (k0_off47_eq k ⟨7, by decide⟩) inb
theorem rd_2_8 (R : Buf (Elt F) ((thr d L).loc cc0_scratch1)) (k : Fin k0_t3_loop.trips)
    (inb : ∀ a, (k0_off47 k 8#32) a + S1x16.size a ≤ S640x64.size a) :
    View.readAt (Elt F) (sR).view (Rect.unit (s := S640x64) (k0_off47 k 8#32) S1x16.size inb).toLoadRect R = rowV R k 2 8 :=
  rd d L R k 2 8 (k0_off47_eq k ⟨8, by decide⟩) inb
theorem rd_2_9 (R : Buf (Elt F) ((thr d L).loc cc0_scratch1)) (k : Fin k0_t3_loop.trips)
    (inb : ∀ a, (k0_off47 k 9#32) a + S1x16.size a ≤ S640x64.size a) :
    View.readAt (Elt F) (sR).view (Rect.unit (s := S640x64) (k0_off47 k 9#32) S1x16.size inb).toLoadRect R = rowV R k 2 9 :=
  rd d L R k 2 9 (k0_off47_eq k ⟨9, by decide⟩) inb
theorem rd_2_10 (R : Buf (Elt F) ((thr d L).loc cc0_scratch1)) (k : Fin k0_t3_loop.trips)
    (inb : ∀ a, (k0_off47 k 10#32) a + S1x16.size a ≤ S640x64.size a) :
    View.readAt (Elt F) (sR).view (Rect.unit (s := S640x64) (k0_off47 k 10#32) S1x16.size inb).toLoadRect R = rowV R k 2 10 :=
  rd d L R k 2 10 (k0_off47_eq k ⟨10, by decide⟩) inb
theorem rd_2_11 (R : Buf (Elt F) ((thr d L).loc cc0_scratch1)) (k : Fin k0_t3_loop.trips)
    (inb : ∀ a, (k0_off47 k 11#32) a + S1x16.size a ≤ S640x64.size a) :
    View.readAt (Elt F) (sR).view (Rect.unit (s := S640x64) (k0_off47 k 11#32) S1x16.size inb).toLoadRect R = rowV R k 2 11 :=
  rd d L R k 2 11 (k0_off47_eq k ⟨11, by decide⟩) inb
theorem rd_2_12 (R : Buf (Elt F) ((thr d L).loc cc0_scratch1)) (k : Fin k0_t3_loop.trips)
    (inb : ∀ a, (k0_off47 k 12#32) a + S1x16.size a ≤ S640x64.size a) :
    View.readAt (Elt F) (sR).view (Rect.unit (s := S640x64) (k0_off47 k 12#32) S1x16.size inb).toLoadRect R = rowV R k 2 12 :=
  rd d L R k 2 12 (k0_off47_eq k ⟨12, by decide⟩) inb
theorem rd_2_13 (R : Buf (Elt F) ((thr d L).loc cc0_scratch1)) (k : Fin k0_t3_loop.trips)
    (inb : ∀ a, (k0_off47 k 13#32) a + S1x16.size a ≤ S640x64.size a) :
    View.readAt (Elt F) (sR).view (Rect.unit (s := S640x64) (k0_off47 k 13#32) S1x16.size inb).toLoadRect R = rowV R k 2 13 :=
  rd d L R k 2 13 (k0_off47_eq k ⟨13, by decide⟩) inb
theorem rd_2_14 (R : Buf (Elt F) ((thr d L).loc cc0_scratch1)) (k : Fin k0_t3_loop.trips)
    (inb : ∀ a, (k0_off47 k 14#32) a + S1x16.size a ≤ S640x64.size a) :
    View.readAt (Elt F) (sR).view (Rect.unit (s := S640x64) (k0_off47 k 14#32) S1x16.size inb).toLoadRect R = rowV R k 2 14 :=
  rd d L R k 2 14 (k0_off47_eq k ⟨14, by decide⟩) inb
theorem rd_2_15 (R : Buf (Elt F) ((thr d L).loc cc0_scratch1)) (k : Fin k0_t3_loop.trips)
    (inb : ∀ a, (k0_off47 k 15#32) a + S1x16.size a ≤ S640x64.size a) :
    View.readAt (Elt F) (sR).view (Rect.unit (s := S640x64) (k0_off47 k 15#32) S1x16.size inb).toLoadRect R = rowV R k 2 15 :=
  rd d L R k 2 15 (k0_off47_eq k ⟨15, by decide⟩) inb
theorem rd_2_16 (R : Buf (Elt F) ((thr d L).loc cc0_scratch1)) (k : Fin k0_t3_loop.trips)
    (inb : ∀ a, (k0_off47 k 16#32) a + S1x16.size a ≤ S640x64.size a) :
    View.readAt (Elt F) (sR).view (Rect.unit (s := S640x64) (k0_off47 k 16#32) S1x16.size inb).toLoadRect R = rowV R k 2 16 :=
  rd d L R k 2 16 (k0_off47_eq k ⟨16, by decide⟩) inb
theorem rd_2_17 (R : Buf (Elt F) ((thr d L).loc cc0_scratch1)) (k : Fin k0_t3_loop.trips)
    (inb : ∀ a, (k0_off47 k 17#32) a + S1x16.size a ≤ S640x64.size a) :
    View.readAt (Elt F) (sR).view (Rect.unit (s := S640x64) (k0_off47 k 17#32) S1x16.size inb).toLoadRect R = rowV R k 2 17 :=
  rd d L R k 2 17 (k0_off47_eq k ⟨17, by decide⟩) inb
theorem rd_2_18 (R : Buf (Elt F) ((thr d L).loc cc0_scratch1)) (k : Fin k0_t3_loop.trips)
    (inb : ∀ a, (k0_off47 k 18#32) a + S1x16.size a ≤ S640x64.size a) :
    View.readAt (Elt F) (sR).view (Rect.unit (s := S640x64) (k0_off47 k 18#32) S1x16.size inb).toLoadRect R = rowV R k 2 18 :=
  rd d L R k 2 18 (k0_off47_eq k ⟨18, by decide⟩) inb
theorem rd_2_19 (R : Buf (Elt F) ((thr d L).loc cc0_scratch1)) (k : Fin k0_t3_loop.trips)
    (inb : ∀ a, (k0_off47 k 19#32) a + S1x16.size a ≤ S640x64.size a) :
    View.readAt (Elt F) (sR).view (Rect.unit (s := S640x64) (k0_off47 k 19#32) S1x16.size inb).toLoadRect R = rowV R k 2 19 :=
  rd d L R k 2 19 (k0_off47_eq k ⟨19, by decide⟩) inb
theorem rd_3_0 (R : Buf (Elt F) ((thr d L).loc cc0_scratch1)) (k : Fin k0_t3_loop.trips)
    (inb : ∀ a, (k0_off52 k 0#32) a + S1x16.size a ≤ S640x64.size a) :
    View.readAt (Elt F) (sR).view (Rect.unit (s := S640x64) (k0_off52 k 0#32) S1x16.size inb).toLoadRect R = rowV R k 3 0 :=
  rd d L R k 3 0 (k0_off52_eq k ⟨0, by decide⟩) inb
theorem rd_3_1 (R : Buf (Elt F) ((thr d L).loc cc0_scratch1)) (k : Fin k0_t3_loop.trips)
    (inb : ∀ a, (k0_off52 k 1#32) a + S1x16.size a ≤ S640x64.size a) :
    View.readAt (Elt F) (sR).view (Rect.unit (s := S640x64) (k0_off52 k 1#32) S1x16.size inb).toLoadRect R = rowV R k 3 1 :=
  rd d L R k 3 1 (k0_off52_eq k ⟨1, by decide⟩) inb
theorem rd_3_2 (R : Buf (Elt F) ((thr d L).loc cc0_scratch1)) (k : Fin k0_t3_loop.trips)
    (inb : ∀ a, (k0_off52 k 2#32) a + S1x16.size a ≤ S640x64.size a) :
    View.readAt (Elt F) (sR).view (Rect.unit (s := S640x64) (k0_off52 k 2#32) S1x16.size inb).toLoadRect R = rowV R k 3 2 :=
  rd d L R k 3 2 (k0_off52_eq k ⟨2, by decide⟩) inb
theorem rd_3_3 (R : Buf (Elt F) ((thr d L).loc cc0_scratch1)) (k : Fin k0_t3_loop.trips)
    (inb : ∀ a, (k0_off52 k 3#32) a + S1x16.size a ≤ S640x64.size a) :
    View.readAt (Elt F) (sR).view (Rect.unit (s := S640x64) (k0_off52 k 3#32) S1x16.size inb).toLoadRect R = rowV R k 3 3 :=
  rd d L R k 3 3 (k0_off52_eq k ⟨3, by decide⟩) inb
theorem rd_3_4 (R : Buf (Elt F) ((thr d L).loc cc0_scratch1)) (k : Fin k0_t3_loop.trips)
    (inb : ∀ a, (k0_off52 k 4#32) a + S1x16.size a ≤ S640x64.size a) :
    View.readAt (Elt F) (sR).view (Rect.unit (s := S640x64) (k0_off52 k 4#32) S1x16.size inb).toLoadRect R = rowV R k 3 4 :=
  rd d L R k 3 4 (k0_off52_eq k ⟨4, by decide⟩) inb
theorem rd_3_5 (R : Buf (Elt F) ((thr d L).loc cc0_scratch1)) (k : Fin k0_t3_loop.trips)
    (inb : ∀ a, (k0_off52 k 5#32) a + S1x16.size a ≤ S640x64.size a) :
    View.readAt (Elt F) (sR).view (Rect.unit (s := S640x64) (k0_off52 k 5#32) S1x16.size inb).toLoadRect R = rowV R k 3 5 :=
  rd d L R k 3 5 (k0_off52_eq k ⟨5, by decide⟩) inb
theorem rd_3_6 (R : Buf (Elt F) ((thr d L).loc cc0_scratch1)) (k : Fin k0_t3_loop.trips)
    (inb : ∀ a, (k0_off52 k 6#32) a + S1x16.size a ≤ S640x64.size a) :
    View.readAt (Elt F) (sR).view (Rect.unit (s := S640x64) (k0_off52 k 6#32) S1x16.size inb).toLoadRect R = rowV R k 3 6 :=
  rd d L R k 3 6 (k0_off52_eq k ⟨6, by decide⟩) inb
theorem rd_3_7 (R : Buf (Elt F) ((thr d L).loc cc0_scratch1)) (k : Fin k0_t3_loop.trips)
    (inb : ∀ a, (k0_off52 k 7#32) a + S1x16.size a ≤ S640x64.size a) :
    View.readAt (Elt F) (sR).view (Rect.unit (s := S640x64) (k0_off52 k 7#32) S1x16.size inb).toLoadRect R = rowV R k 3 7 :=
  rd d L R k 3 7 (k0_off52_eq k ⟨7, by decide⟩) inb
theorem rd_3_8 (R : Buf (Elt F) ((thr d L).loc cc0_scratch1)) (k : Fin k0_t3_loop.trips)
    (inb : ∀ a, (k0_off52 k 8#32) a + S1x16.size a ≤ S640x64.size a) :
    View.readAt (Elt F) (sR).view (Rect.unit (s := S640x64) (k0_off52 k 8#32) S1x16.size inb).toLoadRect R = rowV R k 3 8 :=
  rd d L R k 3 8 (k0_off52_eq k ⟨8, by decide⟩) inb
theorem rd_3_9 (R : Buf (Elt F) ((thr d L).loc cc0_scratch1)) (k : Fin k0_t3_loop.trips)
    (inb : ∀ a, (k0_off52 k 9#32) a + S1x16.size a ≤ S640x64.size a) :
    View.readAt (Elt F) (sR).view (Rect.unit (s := S640x64) (k0_off52 k 9#32) S1x16.size inb).toLoadRect R = rowV R k 3 9 :=
  rd d L R k 3 9 (k0_off52_eq k ⟨9, by decide⟩) inb
theorem rd_3_10 (R : Buf (Elt F) ((thr d L).loc cc0_scratch1)) (k : Fin k0_t3_loop.trips)
    (inb : ∀ a, (k0_off52 k 10#32) a + S1x16.size a ≤ S640x64.size a) :
    View.readAt (Elt F) (sR).view (Rect.unit (s := S640x64) (k0_off52 k 10#32) S1x16.size inb).toLoadRect R = rowV R k 3 10 :=
  rd d L R k 3 10 (k0_off52_eq k ⟨10, by decide⟩) inb
theorem rd_3_11 (R : Buf (Elt F) ((thr d L).loc cc0_scratch1)) (k : Fin k0_t3_loop.trips)
    (inb : ∀ a, (k0_off52 k 11#32) a + S1x16.size a ≤ S640x64.size a) :
    View.readAt (Elt F) (sR).view (Rect.unit (s := S640x64) (k0_off52 k 11#32) S1x16.size inb).toLoadRect R = rowV R k 3 11 :=
  rd d L R k 3 11 (k0_off52_eq k ⟨11, by decide⟩) inb
theorem rd_3_12 (R : Buf (Elt F) ((thr d L).loc cc0_scratch1)) (k : Fin k0_t3_loop.trips)
    (inb : ∀ a, (k0_off52 k 12#32) a + S1x16.size a ≤ S640x64.size a) :
    View.readAt (Elt F) (sR).view (Rect.unit (s := S640x64) (k0_off52 k 12#32) S1x16.size inb).toLoadRect R = rowV R k 3 12 :=
  rd d L R k 3 12 (k0_off52_eq k ⟨12, by decide⟩) inb
theorem rd_3_13 (R : Buf (Elt F) ((thr d L).loc cc0_scratch1)) (k : Fin k0_t3_loop.trips)
    (inb : ∀ a, (k0_off52 k 13#32) a + S1x16.size a ≤ S640x64.size a) :
    View.readAt (Elt F) (sR).view (Rect.unit (s := S640x64) (k0_off52 k 13#32) S1x16.size inb).toLoadRect R = rowV R k 3 13 :=
  rd d L R k 3 13 (k0_off52_eq k ⟨13, by decide⟩) inb
theorem rd_3_14 (R : Buf (Elt F) ((thr d L).loc cc0_scratch1)) (k : Fin k0_t3_loop.trips)
    (inb : ∀ a, (k0_off52 k 14#32) a + S1x16.size a ≤ S640x64.size a) :
    View.readAt (Elt F) (sR).view (Rect.unit (s := S640x64) (k0_off52 k 14#32) S1x16.size inb).toLoadRect R = rowV R k 3 14 :=
  rd d L R k 3 14 (k0_off52_eq k ⟨14, by decide⟩) inb
theorem rd_3_15 (R : Buf (Elt F) ((thr d L).loc cc0_scratch1)) (k : Fin k0_t3_loop.trips)
    (inb : ∀ a, (k0_off52 k 15#32) a + S1x16.size a ≤ S640x64.size a) :
    View.readAt (Elt F) (sR).view (Rect.unit (s := S640x64) (k0_off52 k 15#32) S1x16.size inb).toLoadRect R = rowV R k 3 15 :=
  rd d L R k 3 15 (k0_off52_eq k ⟨15, by decide⟩) inb
theorem rd_3_16 (R : Buf (Elt F) ((thr d L).loc cc0_scratch1)) (k : Fin k0_t3_loop.trips)
    (inb : ∀ a, (k0_off52 k 16#32) a + S1x16.size a ≤ S640x64.size a) :
    View.readAt (Elt F) (sR).view (Rect.unit (s := S640x64) (k0_off52 k 16#32) S1x16.size inb).toLoadRect R = rowV R k 3 16 :=
  rd d L R k 3 16 (k0_off52_eq k ⟨16, by decide⟩) inb
theorem rd_3_17 (R : Buf (Elt F) ((thr d L).loc cc0_scratch1)) (k : Fin k0_t3_loop.trips)
    (inb : ∀ a, (k0_off52 k 17#32) a + S1x16.size a ≤ S640x64.size a) :
    View.readAt (Elt F) (sR).view (Rect.unit (s := S640x64) (k0_off52 k 17#32) S1x16.size inb).toLoadRect R = rowV R k 3 17 :=
  rd d L R k 3 17 (k0_off52_eq k ⟨17, by decide⟩) inb
theorem rd_3_18 (R : Buf (Elt F) ((thr d L).loc cc0_scratch1)) (k : Fin k0_t3_loop.trips)
    (inb : ∀ a, (k0_off52 k 18#32) a + S1x16.size a ≤ S640x64.size a) :
    View.readAt (Elt F) (sR).view (Rect.unit (s := S640x64) (k0_off52 k 18#32) S1x16.size inb).toLoadRect R = rowV R k 3 18 :=
  rd d L R k 3 18 (k0_off52_eq k ⟨18, by decide⟩) inb
theorem rd_3_19 (R : Buf (Elt F) ((thr d L).loc cc0_scratch1)) (k : Fin k0_t3_loop.trips)
    (inb : ∀ a, (k0_off52 k 19#32) a + S1x16.size a ≤ S640x64.size a) :
    View.readAt (Elt F) (sR).view (Rect.unit (s := S640x64) (k0_off52 k 19#32) S1x16.size inb).toLoadRect R = rowV R k 3 19 :=
  rd d L R k 3 19 (k0_off52_eq k ⟨19, by decide⟩) inb

theorem rdZ_0 (Z : Buf (Elt F) ((thr d L).loc cc0_scratch2)) :
    View.readAt (Elt F) (sZ).view (Rect.unit (s := S1x64) ![0, 0] S1x16.size inb_S1x64_S1x16_0_0).toLoadRect Z = zV Z 0 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_0 d L Z l
theorem rdZ_1 (Z : Buf (Elt F) ((thr d L).loc cc0_scratch2)) :
    View.readAt (Elt F) (sZ).view (Rect.unit (s := S1x64) ![0, 16] S1x16.size inb_S1x64_S1x16_0_16).toLoadRect Z = zV Z 1 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_1 d L Z l
theorem rdZ_2 (Z : Buf (Elt F) ((thr d L).loc cc0_scratch2)) :
    View.readAt (Elt F) (sZ).view (Rect.unit (s := S1x64) ![0, 32] S1x16.size inb_S1x64_S1x16_0_32).toLoadRect Z = zV Z 2 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_2 d L Z l
theorem rdZ_3 (Z : Buf (Elt F) ((thr d L).loc cc0_scratch2)) :
    View.readAt (Elt F) (sZ).view (Rect.unit (s := S1x64) ![0, 48] S1x16.size inb_S1x64_S1x16_0_48).toLoadRect Z = zV Z 3 := by
  funext j
  obtain ⟨a, l, rfl⟩ : ∃ (a : Fin 1) (l : Fin 16), j = ix2 a l := ⟨j 0, j 1, eq_ix2 (n0 := 1) (n1 := 16) j⟩
  obtain rfl : a = 0 := Subsingleton.elim _ _
  exact readZ_3 d L Z l

/-! ## One trip's stores over the scratch -/

/-- Stores that write exactly row `k` of the slab, each piece a block of the slab as it stands after `k + 1` rows,
    take the slab after `k` rows to the slab after `k + 1`. -/
theorem writes_step (R : Buf (Elt F) ((thr d L).loc cc0_scratch1)) (Z : Buf (Elt F) ((thr d L).loc cc0_scratch2))
    (f0 : Buf (Elt F) ((thr d L).loc cc0_scratch3)) (k : Fin k0_t3_loop.trips)
    (Lp : List (View.Piece (Elt F) S32x4x64 .f32))
    (hG : ∀ p ∈ Lp, ∀ x : p.1.shape.Idx, p.2 x = outAfter d L R Z f0 (k.val + 1) (p.1.emb x))
    (hrow : ∀ p ∈ Lp, ∀ y ∈ p.1.set, (y 0).val = k.val)
    (hcov : ∀ y : S32x4x64.Idx, (y 0).val = k.val → ∃ p ∈ Lp, y ∈ p.1.set) :
    (sO).view.writes (Elt F) (outAfter d L R Z f0 k.val) Lp = outAfter d L R Z f0 (k.val + 1) := by
  funext y
  show (sO).view.read (Elt F) ((sO).view.writes (Elt F) (outAfter d L R Z f0 k.val) Lp) y = _
  by_cases hy : (y 0).val = k.val
  · exact View.read_writes_apply_of_pieces _ _ (outAfter d L R Z f0 (k.val + 1)) Lp hG y (hcov y hy)
  · rw [View.read_writes_apply_of_forall_not_mem _ _ y Lp (fun p hp hm => hy (hrow p hp y hm))]
    show outAt R Z f0 k.val (y 0) (y 1) (y 2) = outAt R Z f0 (k.val + 1) (y 0) (y 1) (y 2)
    unfold outAt
    have hiff : ((y 0).val < k.val) ↔ ((y 0).val < k.val + 1) := by omega
    simp only [hiff]

/-- A store of sixteen lanes at row `k`, slot `c`, column group `g` whose payload is the kernel's sum for that slot
    at each lane is a block of the slab after `k + 1` rows. -/
theorem piece_ok (R : Buf (Elt F) ((thr d L).loc cc0_scratch1)) (Z : Buf (Elt F) ((thr d L).loc cc0_scratch2))
    (f0 : Buf (Elt F) ((thr d L).loc cc0_scratch3)) (k : Fin k0_t3_loop.trips) (g c : Fin 4)
    {off : Fin 3 → Nat} (hoff : off = ![k.val, c.val, 16 * g.val])
    {inb : ∀ a, off a + S1x1x16.size a ≤ S32x4x64.size a} {w : S1x1x16.Idx → F .f32}
    (hw : ∀ l : Fin 16, w (ix3 0 0 l) = kernAtF (fun p => rowE R k g p l) (zE Z g l) c) :
    ∀ x : (Rect.unit (s := S32x4x64) off S1x1x16.size inb).shape.Idx,
      w x = outAfter d L R Z f0 (k.val + 1) ((Rect.unit (s := S32x4x64) off S1x1x16.size inb).emb x) := by
  subst hoff
  intro x
  obtain ⟨a, b, l, rfl⟩ : ∃ (a b : Fin 1) (l : Fin 16), x = ix3 a b l := ⟨x 0, x 1, x 2, eq_ix3 (n0 := 1) (n1 := 1) (n2 := 16) x⟩
  obtain rfl : a = 0 := Subsingleton.elim _ _
  obtain rfl : b = 0 := Subsingleton.elim _ _
  rw [hw l]
  show _ = outAt R Z f0 (k.val + 1) ⟨k.val + 1 * 0, _⟩ ⟨c.val + 1 * 0, _⟩ ⟨16 * g.val + 1 * l.val, _⟩
  unfold outAt
  rw [if_pos (show k.val + 1 * 0 < k.val + 1 by omega)]
  have hc : (⟨c.val + 1 * 0, by have := c.isLt; omega⟩ : Fin 4) = c := Fin.ext (by show c.val + 1 * 0 = c.val; omega)
  have he : (⟨16 * g.val + 1 * l.val, by omega⟩ : Fin 64) = ⟨16 * g.val + l.val, by omega⟩ := Fin.ext (by show 16 * g.val + 1 * l.val = 16 * g.val + l.val; omega)
  simp only [hc, he, Nat.mul_zero, Nat.add_zero]
  rfl

/-- Membership in one store's rectangle: row `k`, slot `c`, the sixteen columns of group `g`. -/
theorem mem_piece (k : Fin k0_t3_loop.trips) (g c : Nat) {off : Fin 3 → Nat} (hoff : off = ![k.val, c, 16 * g])
    {inb : ∀ a, off a + S1x1x16.size a ≤ S32x4x64.size a} (y : S32x4x64.Idx) :
    y ∈ (Rect.unit (s := S32x4x64) off S1x1x16.size inb).set ↔
      (y 0).val = k.val ∧ (y 1).val = c ∧ 16 * g ≤ (y 2).val ∧ (y 2).val < 16 * g + 16 := by
  subst hoff
  rw [Rect.mem_set_unit]
  constructor
  · intro h
    have h0 := h ⟨0, by decide⟩; have h1 := h ⟨1, by decide⟩; have h2 := h ⟨2, by decide⟩
    change k.val ≤ (y 0).val ∧ (y 0).val < k.val + 1 at h0
    change c ≤ (y 1).val ∧ (y 1).val < c + 1 at h1
    change 16 * g ≤ (y 2).val ∧ (y 2).val < 16 * g + 16 at h2
    omega
  · rintro ⟨h0, h1, h2, h3⟩ a
    match a with
    | ⟨0, _⟩ => show k.val ≤ (y 0).val ∧ (y 0).val < k.val + 1; omega
    | ⟨1, _⟩ => show c ≤ (y 1).val ∧ (y 1).val < c + 1; omega
    | ⟨2, _⟩ => show 16 * g ≤ (y 2).val ∧ (y 2).val < 16 * g + 16; omega

end Cert.Proof.Kernel
end
-- ==== Proof.Kernel.Compute.lean ====
/-
  One trip of the compute loop, at a symbolic trip number.

  Trip `k` loads, for each of the four groups of sixteen columns, the twenty gathered rows `20 k … 20 k + 19`, adds them
  left to right, adds the lanes of table row 0 and takes away the rows each context slot never sees, and stores the
  four sums to row `k` of the tile's slab. Run from the slab as it stands after `k` rows, the sixteen stores leave the
  slab as it stands after `k + 1` rows: each stored block is, lane by lane, the kernel's sum for its slot, and the
  sixteen blocks are exactly row `k`.
-/
import proofs.«204099_g60593398612478_cont_9to1c4b_39_23_alg».proof.Proof.Kernel.ComputeLemmas

noncomputable section
namespace Cert.Proof.Kernel
open Cert.Kernel Cert.Kernel.Gen
open Idealize.ShloMosaic Idealize.ShloMosaic.ValueIdx
open Cert.Cbow
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
local notation "𝕄" => MT nD τ sig (HIx 1) (Elt F) ℕ UU ℕ

variable (d : Dev nD) (L : grid0.Coords)

/-- One stored block read at a lane, its loads already named: the payload definitions opened, the vector operations and
    recasts read at the lane, against the kernel's sum opened the same way. -/
local macro "pay_at_lane" : tactic => `(tactic| simp only [k0_pay1, k0_pay2, k0_pay3, k0_pay4, k0_pay5, k0_pay6, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, Idealize.ShloMosaic.addf, Idealize.ShloMosaic.subf, cast3_apply, cast16_apply, cast16_apply', rowV_apply, zV_apply, kernAtF, sum20F])

set_option maxHeartbeats 4000000 in
theorem compute_trip (R : Buf (Elt F) ((thr d L).loc cc0_scratch1)) (Z : Buf (Elt F) ((thr d L).loc cc0_scratch2))
    (f0 : Buf (Elt F) ((thr d L).loc cc0_scratch3)) (k : Fin k0_t3_loop.trips) :
    iprop(((sR).view.loc (thr d L) ↦{fullShare} R) ∗ ((sO).view.loc (thr d L) ↦{fullShare} outAfter d L R Z f0 k.val) : sProp 𝕄)
      ⊢ wp frame (wpE (defs₀ (F := F)) 𝒱₀ (thr d L) none) Set.univ
          (k0_t3_body L xV (Memref.isWhole_whole _) wV (Memref.isWhole_whole _) oV (Memref.isWhole_whole _) sI (Memref.isWhole_whole _) sR (Memref.isWhole_whole _) sZ (Memref.isWhole_whole _) sO (Memref.isWhole_whole _) cc0_scratch4 cc0_scoped0 cc0_scoped1 cc0_scoped2
            (View.readAt (Elt F) (sZ).view (Rect.unit (s := S1x64) ![0, 0] S1x16.size inb_S1x64_S1x16_0_0).toLoadRect Z)
            (View.readAt (Elt F) (sZ).view (Rect.unit (s := S1x64) ![0, 16] S1x16.size inb_S1x64_S1x16_0_16).toLoadRect Z)
            (View.readAt (Elt F) (sZ).view (Rect.unit (s := S1x64) ![0, 32] S1x16.size inb_S1x64_S1x16_0_32).toLoadRect Z)
            (View.readAt (Elt F) (sZ).view (Rect.unit (s := S1x64) ![0, 48] S1x16.size inb_S1x64_S1x16_0_48).toLoadRect Z) k ⟨⟩)
          fun _ => iprop(((sR).view.loc (thr d L) ↦{fullShare} R) ∗ ((sO).view.loc (thr d L) ↦{fullShare} outAfter d L R Z f0 (k.val + 1))) := by
  unfold k0_t3_body
  iintro ⟨HR, HO⟩
  sl_exec
  sl_unfold_run_names
  sl_step
  rw [writes_step d L R Z f0 k _ ?hG ?hrow ?hcov]
  · isplitl [HR]
    · iexact HR
    · iexact HO
  case hG =>
    refine List.forall_mem_cons.2 ⟨?_, ?_⟩
    · refine piece_ok d L R Z f0 k 3 3 (k0_off56_eq k) (inb := k0_off56_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 3 2 (k0_off55_eq k) (inb := k0_off55_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 3 1 (k0_off54_eq k) (inb := k0_off54_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 3 0 (k0_off53_eq k) (inb := k0_off53_inb k) ?_
      intro l
      rw [rd_3_0, rd_3_1, rd_3_2, rd_3_3, rd_3_4, rd_3_5, rd_3_6, rd_3_7, rd_3_8, rd_3_9, rd_3_10, rd_3_11, rd_3_12, rd_3_13, rd_3_14, rd_3_15, rd_3_16, rd_3_17, rd_3_18, rd_3_19, rdZ_3]
      pay_at_lane
    refine List.forall_mem_cons.2 ⟨?_, ?_⟩
    · refine piece_ok d L R Z f0 k 2 3 (k0_off51_eq k) (inb := k0_off51_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 2 2 (k0_off50_eq k) (inb := k0_off50_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 2 1 (k0_off49_eq k) (inb := k0_off49_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 2 0 (k0_off48_eq k) (inb := k0_off48_inb k) ?_
      intro l
      rw [rd_2_0, rd_2_1, rd_2_2, rd_2_3, rd_2_4, rd_2_5, rd_2_6, rd_2_7, rd_2_8, rd_2_9, rd_2_10, rd_2_11, rd_2_12, rd_2_13, rd_2_14, rd_2_15, rd_2_16, rd_2_17, rd_2_18, rd_2_19, rdZ_2]
      pay_at_lane
    refine List.forall_mem_cons.2 ⟨?_, ?_⟩
    · refine piece_ok d L R Z f0 k 1 3 (k0_off46_eq k) (inb := k0_off46_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 1 2 (k0_off45_eq k) (inb := k0_off45_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 1 1 (k0_off44_eq k) (inb := k0_off44_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 1 0 (k0_off43_eq k) (inb := k0_off43_inb k) ?_
      intro l
      rw [rd_1_0, rd_1_1, rd_1_2, rd_1_3, rd_1_4, rd_1_5, rd_1_6, rd_1_7, rd_1_8, rd_1_9, rd_1_10, rd_1_11, rd_1_12, rd_1_13, rd_1_14, rd_1_15, rd_1_16, rd_1_17, rd_1_18, rd_1_19, rdZ_1]
      pay_at_lane
    refine List.forall_mem_cons.2 ⟨?_, ?_⟩
    · refine piece_ok d L R Z f0 k 0 3 (k0_off41_eq k) (inb := k0_off41_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    refine List.forall_mem_cons.2 ⟨?_, ?_⟩
    · refine piece_ok d L R Z f0 k 0 2 (k0_off40_eq k) (inb := k0_off40_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    refine List.forall_mem_cons.2 ⟨?_, ?_⟩
    · refine piece_ok d L R Z f0 k 0 1 (k0_off39_eq k) (inb := k0_off39_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    refine List.forall_mem_cons.2 ⟨?_, ?_⟩
    · refine piece_ok d L R Z f0 k 0 0 (k0_off38_eq k) (inb := k0_off38_inb k) ?_
      intro l
      rw [rd_0_0, rd_0_1, rd_0_2, rd_0_3, rd_0_4, rd_0_5, rd_0_6, rd_0_7, rd_0_8, rd_0_9, rd_0_10, rd_0_11, rd_0_12, rd_0_13, rd_0_14, rd_0_15, rd_0_16, rd_0_17, rd_0_18, rd_0_19, rdZ_0]
      pay_at_lane
    exact fun _ h => absurd h List.not_mem_nil
  case hrow =>
    refine List.forall_mem_cons.2 ⟨fun y hy => ((mem_piece k 3 3 (k0_off56_eq k) (inb := k0_off56_inb k) y).1 hy).1, ?_⟩
    refine List.forall_mem_cons.2 ⟨fun y hy => ((mem_piece k 3 2 (k0_off55_eq k) (inb := k0_off55_inb k) y).1 hy).1, ?_⟩
    refine List.forall_mem_cons.2 ⟨fun y hy => ((mem_piece k 3 1 (k0_off54_eq k) (inb := k0_off54_inb k) y).1 hy).1, ?_⟩
    refine List.forall_mem_cons.2 ⟨fun y hy => ((mem_piece k 3 0 (k0_off53_eq k) (inb := k0_off53_inb k) y).1 hy).1, ?_⟩
    refine List.forall_mem_cons.2 ⟨fun y hy => ((mem_piece k 2 3 (k0_off51_eq k) (inb := k0_off51_inb k) y).1 hy).1, ?_⟩
    refine List.forall_mem_cons.2 ⟨fun y hy => ((mem_piece k 2 2 (k0_off50_eq k) (inb := k0_off50_inb k) y).1 hy).1, ?_⟩
    refine List.forall_mem_cons.2 ⟨fun y hy => ((mem_piece k 2 1 (k0_off49_eq k) (inb := k0_off49_inb k) y).1 hy).1, ?_⟩
    refine List.forall_mem_cons.2 ⟨fun y hy => ((mem_piece k 2 0 (k0_off48_eq k) (inb := k0_off48_inb k) y).1 hy).1, ?_⟩
    refine List.forall_mem_cons.2 ⟨fun y hy => ((mem_piece k 1 3 (k0_off46_eq k) (inb := k0_off46_inb k) y).1 hy).1, ?_⟩
    refine List.forall_mem_cons.2 ⟨fun y hy => ((mem_piece k 1 2 (k0_off45_eq k) (inb := k0_off45_inb k) y).1 hy).1, ?_⟩
    refine List.forall_mem_cons.2 ⟨fun y hy => ((mem_piece k 1 1 (k0_off44_eq k) (inb := k0_off44_inb k) y).1 hy).1, ?_⟩
    refine List.forall_mem_cons.2 ⟨fun y hy => ((mem_piece k 1 0 (k0_off43_eq k) (inb := k0_off43_inb k) y).1 hy).1, ?_⟩
    refine List.forall_mem_cons.2 ⟨fun y hy => ((mem_piece k 0 3 (k0_off41_eq k) (inb := k0_off41_inb k) y).1 hy).1, ?_⟩
    refine List.forall_mem_cons.2 ⟨fun y hy => ((mem_piece k 0 2 (k0_off40_eq k) (inb := k0_off40_inb k) y).1 hy).1, ?_⟩
    refine List.forall_mem_cons.2 ⟨fun y hy => ((mem_piece k 0 1 (k0_off39_eq k) (inb := k0_off39_inb k) y).1 hy).1, ?_⟩
    refine List.forall_mem_cons.2 ⟨fun y hy => ((mem_piece k 0 0 (k0_off38_eq k) (inb := k0_off38_inb k) y).1 hy).1, ?_⟩
    exact fun _ h => absurd h List.not_mem_nil
  case hcov =>
    intro y hy
    have h1 : (y 1).val < 4 := (y 1).isLt
    have h2 : (y 2).val < 64 := (y 2).isLt
    rcases (show (y 1).val = 0 ∨ (y 1).val = 1 ∨ (y 1).val = 2 ∨ (y 1).val = 3 by omega) with hc | hc | hc | hc
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem_piece k 0 0 (k0_off38_eq k) (inb := k0_off38_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem_piece k 1 0 (k0_off43_eq k) (inb := k0_off43_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_piece k 2 0 (k0_off48_eq k) (inb := k0_off48_inb k) y).2 ⟨hy, hc, by omega, by omega⟩⟩
      · exact ⟨_, List.mem_cons_of_mem _ (List.mem_cons_of_mem _ (List.mem_cons_of_mem _ (List.mem_cons_self))), (mem_piece k 3 0 (k0_off53_eq k) (inb := k0_off53_inb k) y).2 ⟨hy, hc, by omega, by omega⟩⟩
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem_piece k 0 1 (k0_off39_eq k) (inb := k0_off39_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem_piece k 1 1 (k0_off44_eq k) (inb := k0_off44_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_self)))))), (mem_piece k 2 1 (k0_off49_eq k) (inb := k0_off49_inb k) y).2 ⟨hy, hc, by omega, by omega⟩⟩
      · exact ⟨_, List.mem_cons_of_mem _ (List.mem_cons_of_mem _ (List.mem_cons_self)), (mem_piece k 3 1 (k0_off54_eq k) (inb := k0_off54_inb k) y).2 ⟨hy, hc, by omega, by omega⟩⟩
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem_piece k 0 2 (k0_off40_eq k) (inb := k0_off40_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem_piece k 1 2 (k0_off45_eq k) (inb := k0_off45_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_self))))), (mem_piece k 2 2 (k0_off50_eq k) (inb := k0_off50_inb k) y).2 ⟨hy, hc, by omega, by omega⟩⟩
      · exact ⟨_, List.mem_cons_of_mem _ (List.mem_cons_self), (mem_piece k 3 2 (k0_off55_eq k) (inb := k0_off55_inb k) y).2 ⟨hy, hc, by omega, by omega⟩⟩
    · rcases (show (y 2).val < 16 ∨ (16 ≤ (y 2).val ∧ (y 2).val < 32) ∨ (32 ≤ (y 2).val ∧ (y 2).val < 48) ∨ 48 ≤ (y 2).val by omega) with hg | hg | hg | hg
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem_piece k 0 3 (k0_off41_eq k) (inb := k0_off41_inb k) y).2 ⟨hy, hc, by omega, by omega⟩⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem_piece k 1 3 (k0_off46_eq k) (inb := k0_off46_inb k) y).2 ⟨hy, hc, by omega, by omega⟩⟩
      · exact ⟨_, List.mem_cons_of_mem _ (List.mem_cons_of_mem _ (List.mem_cons_of_mem _ (List.mem_cons_of_mem _ (List.mem_cons_self)))), (mem_piece k 2 3 (k0_off51_eq k) (inb := k0_off51_inb k) y).2 ⟨hy, hc, by omega, by omega⟩⟩
      · exact ⟨_, List.mem_cons_self, (mem_piece k 3 3 (k0_off56_eq k) (inb := k0_off56_inb k) y).2 ⟨hy, hc, by omega, by omega⟩⟩

end Cert.Proof.Kernel
end
-- ==== Proof.Kernel.Values.lean ====
/-
  What the tile's scratches hold, read at an index.

  The token scratch holds row `w` of the re-laid tokens; row `t` of the gathered-rows scratch holds the 64 entries
  of the table row token `t` names (row `tok / 8`, sub-row `tok % 8` of the re-laid table); the row-0 scratch holds
  table row 0. From these the four context sums the tile forms for row `b` of its slab are the result's entries at
  row `32 w + b`.
-/
import proofs.«204099_g60593398612478_cont_9to1c4b_39_23_alg».proof.Proof.Kernel.Head
import proofs.«204099_g60593398612478_cont_9to1c4b_39_23_alg».proof.Proof.Relay
import proofs.«204099_g60593398612478_cont_9to1c4b_39_23_alg».proof.Proof.Kernel.Chk

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (m : (ℓ : Loc nD τ sig) → Buf (Elt F) ℓ)

/-! ## Where the slices' indices sit in their arrays -/

/-- Word `t` of the first 640 words of the token scratch is word `t` of the scratch. -/
theorem head640_emb (t : Fin 640) :
    (Rect.unit (s := S656) ![0] S640.size inb_S656_S640_0).emb (ix1 t) = (ix1 (⟨t.val, by omega⟩ : Fin 656) : S656.Idx) := by
  funext a; apply Fin.ext
  match a with
  | ⟨0, _⟩ => show 0 + 1 * t.val = t.val; omega

/-- Entry `t` of row `w` of the re-laid tokens, as the body slices and squeezes it, is entry `(w, t)`. -/
theorem xRow_emb (L : grid0.Coords) (t : Fin 640) :
    ((xRowM L).view.emb (ix1 t) : S32x640.Idx) = ix2 (widL L) t := by
  have hre : Shape.reshapeEquiv (squeezes_S1x640_S640).numel_eq (ix1 t) = (ix2 (0 : Fin 1) t : S1x640.Idx) :=
    Shape.reshapeEquiv_eq_of_rowMajor _ (by
      rw [Shape.rowMajor_val_two, Shape.rowMajor_val_one]; show 0 * 640 + t.val = t.val; omega)
  show (Rect.unit (s := S32x640) (k0_off1 L) S1x640.size (k0_off1_inb L)).emb (Shape.reshapeEquiv _ (ix1 t)) = _
  rw [hre]
  funext a; apply Fin.ext
  rw [Rect.emb_apply, Rect.off_unit, Rect.stride_unit]
  have h0 : k0_off1 L 0 = 2 * (L 1).val + (L 0).val := congrFun (k0_off1_eq L) 0
  have h1 : k0_off1 L 1 = 0 := congrFun (k0_off1_eq L) 1
  match a with
  | ⟨0, _⟩ => show k0_off1 L 0 + 1 * 0 = 2 * (L 1).val + (L 0).val; omega
  | ⟨1, _⟩ => show k0_off1 L 1 + 1 * t.val = t.val; omega

/-- Entry `e` of row `t` of the gathered-rows scratch is entry `(t, e)`. -/
theorem rowM_emb (t : Fin 640) (e : Fin 64) : ((rowM t).view.emb (ix2 (0 : Fin 1) e) : S640x64.Idx) = ix2 t e := by
  funext a; apply Fin.ext
  match a with
  | ⟨0, _⟩ => show t.val + 1 * 0 = t.val; omega
  | ⟨1, _⟩ => show 0 + 1 * e.val = e.val; omega

/-- A unit row of 64 entries squeezed out of one sub-row: entry `e` is entry `(0, 0, e)` of the sub-row's slice. -/
theorem squeeze64 (e : Fin 64) :
    Shape.reshapeEquiv (squeezes_S1x1x64_S1x64).numel_eq (ix2 (0 : Fin 1) e) = (ix3 (0 : Fin 1) (0 : Fin 1) e : S1x1x64.Idx) :=
  Shape.reshapeEquiv_eq_of_rowMajor _ (by
    rw [Shape.rowMajor_val_three, Shape.rowMajor_val_two]; show (0 * 1 + 0) * 64 + e.val = 0 * 64 + e.val; omega)

/-- Entry `e` of the table row a token in range names is entry `(tok / 8, tok % 8, e)` of the re-laid table. -/
theorem srcM_emb (v : BitVec 32) (hv : k0_chk1 v) (hle : v.toNat ≤ 999999) (e : Fin 64) :
    ((srcM v hv).view.emb (ix2 (0 : Fin 1) e) : S125000x8x64.Idx)
      = ix3 (⟨v.toNat / 8, by omega⟩ : Fin 125000) (⟨v.toNat % 8, Nat.mod_lt _ (by decide)⟩ : Fin 8) e := by
  show (Rect.unit (s := S125000x8x64) (k0_off4 v) S1x1x64.size (k0_off4_inb v hv)).emb (Shape.reshapeEquiv _ (ix2 (0 : Fin 1) e)) = _
  rw [squeeze64]
  funext a; apply Fin.ext
  rw [Rect.emb_apply, Rect.off_unit, Rect.stride_unit]
  have h0 : k0_off4 v 0 = v.toNat / 8 := congrFun (off4_eq v) 0
  have h1 : k0_off4 v 1 = v.toNat % 8 := congrFun (off4_eq v) 1
  have h2 : k0_off4 v 2 = 0 := congrFun (off4_eq v) 2
  match a with
  | ⟨0, _⟩ => show k0_off4 v 0 + 1 * 0 = v.toNat / 8; omega
  | ⟨1, _⟩ => show k0_off4 v 1 + 1 * 0 = v.toNat % 8; omega
  | ⟨2, _⟩ => show k0_off4 v 2 + 1 * e.val = e.val; omega

/-- Entry `e` of sub-row 0 of row 0 of the re-laid table is entry `(0, 0, e)`. -/
theorem w0M_emb (e : Fin 64) :
    ((w0M).view.emb (ix2 (0 : Fin 1) e) : S125000x8x64.Idx) = ix3 (0 : Fin 125000) (0 : Fin 8) e := by
  show (Rect.unit (s := S125000x8x64) ![0, 0, 0] S1x1x64.size inb_S125000x8x64_S1x1x64_0_0_0).emb (Shape.reshapeEquiv _ (ix2 (0 : Fin 1) e)) = _
  rw [squeeze64]
  funext a; apply Fin.ext
  match a with
  | ⟨0, _⟩ => show 0 + 1 * 0 = 0; omega
  | ⟨1, _⟩ => show 0 + 1 * 0 = 0; omega
  | ⟨2, _⟩ => show 0 + 1 * e.val = e.val; omega

/-! ## The tokens -/

/-- Token `t` of the tile, once its tokens are copied, is token `t` of worker `w`'s row of the re-laid tokens. -/
theorem tokAt_CI0 (d : Dev nD) (L : grid0.Coords) (fI : Buf (Elt F) ((thr d L).loc cc0_scratch0)) (t : Fin 640) :
    tokAt d L (CI0 d L (X2 m d) fI) t = tokW m d (widL L) t := by
  unfold tokAt CI0 tokW
  rw [← head640_emb t]
  have h := View.read_writes_cons_emb (sI : Memref sig .scVector .vmem S656 .i32).view fI
    (Rect.unit (s := S656) ![0] S640.size inb_S656_S640_0) (ReadAs.same.apply ((xRowM L).view.read (Elt F) (X2 m d))) [] (ix1 t)
  refine h.trans ?_
  show (xRowM L).view.read (Elt F) (X2 m d) (ix1 t) = _
  rw [View.read_apply, xRow_emb]
  rfl

/-- With every token of the arguments a row of the table, so is every token the tile holds. -/
theorem tokOK_CI0 (hpre : PreOK m) (d : Dev nD) (L : grid0.Coords) (fI : Buf (Elt F) ((thr d L).loc cc0_scratch0)) :
    TokOK d L (CI0 d L (X2 m d) fI) := by
  intro i hi
  have h := tokAt_CI0 m d L fI ⟨(i 0).val, hi⟩
  unfold tokAt at h
  have hi' : i = ix1 (⟨(i 0).val, by omega⟩ : Fin 656) := eq_ix1 i
  rw [hi', h]
  unfold tokW X2
  rw [Cert.Cbow.Relay.x2_apply (m (a0Loc d)) shapeCasts_S1024x20_S32x640 (widL L) ⟨(i 0).val, hi⟩]
  exact hpre d _

/-! ## The gathered rows and row 0 -/

theorem Rf_apply (d : Dev nD) (L : grid0.Coords) (Wt : Buf (Elt F) (wLoc d)) (CI : Buf (Elt F) ((thr d L).loc cc0_scratch0))
    (fR : Buf (Elt F) ((thr d L).loc cc0_scratch1)) (hCI : TokOK d L CI) (t : Fin 640) (e : Fin 64) :
    Rf d L Wt CI fR hCI (ix2 t e)
      = Wt (ix3 (⟨(tokAt d L CI t).toNat / 8, by have := tokAt_le d L CI hCI t; omega⟩ : Fin 125000)
          (⟨(tokAt d L CI t).toNat % 8, Nat.mod_lt _ (by decide)⟩ : Fin 8) e) := by
  have hle := tokAt_le d L CI hCI t
  show landed d L Wt CI fR hCI t (ix2 t e) = _
  unfold landed
  rw [← rowM_emb t e, View.write_emb_of_mem _ _ (Finset.mem_univ _)]
  show (srcM (tokAt d L CI t) (chk1_of_le _ hle)).view.read (Elt F) Wt (ix2 (0 : Fin 1) e) = _
  rw [View.read_apply, srcM_emb _ _ hle]
  rfl

theorem Rf_row (d : Dev nD) (L : grid0.Coords) (CI : Buf (Elt F) ((thr d L).loc cc0_scratch0))
    (fR : Buf (Elt F) ((thr d L).loc cc0_scratch1)) (hCI : TokOK d L CI) (t : Fin 640) (e : Fin 64) :
    Rf d L (W3 m d) CI fR hCI (ix2 t e) = W3row m d (tokAt d L CI t) e := by
  have hle := tokAt_le d L CI hCI t
  rw [Rf_apply]
  unfold W3row
  exact congrArg (fun a => W3 m d (ix3 a (⟨(tokAt d L CI t).toNat % 8, Nat.mod_lt _ (by decide)⟩ : Fin 8) e))
    (Fin.ext (Nat.mod_eq_of_lt (by omega)).symm)

theorem Z0_apply (d : Dev nD) (L : grid0.Coords) (fZ : Buf (Elt F) ((thr d L).loc cc0_scratch2)) (e : Fin 64) :
    Z0 d L (W3 m d) fZ (ix2 (0 : Fin 1) e) = W3 m d (ix3 (0 : Fin 125000) (0 : Fin 8) e) := by
  unfold Z0
  have h := View.write_emb_of_mem (v := (sZ : Memref sig .scVector .vmem S1x64 .f32).view) (Val := Elt F) fZ
    (ReadAs.same.apply ((w0M).view.read (Elt F) (W3 m d))) (M := Finset.univ) (x := ix2 (0 : Fin 1) e) (Finset.mem_univ _)
  refine h.trans ?_
  show (w0M).view.read (Elt F) (W3 m d) (ix2 (0 : Fin 1) e) = _
  rw [View.read_apply, w0M_emb]
  rfl

/-! ## The slab -/

theorem slab_value (d : Dev nD) (L : grid0.Coords) (fI : Buf (Elt F) ((thr d L).loc cc0_scratch0))
    (fR : Buf (Elt F) ((thr d L).loc cc0_scratch1)) (fZ : Buf (Elt F) ((thr d L).loc cc0_scratch2))
    (hCI : TokOK d L (CI0 d L (X2 m d) fI)) (b : Fin 32) (c : Fin 4) (e : Fin 64) :
    kernAtF (fun p : Fin 20 => Rf d L (W3 m d) (CI0 d L (X2 m d) fI) fR hCI (ix2 (⟨20 * b.val + p.val, by omega⟩ : Fin 640) e))
        (Z0 d L (W3 m d) fZ (ix2 (0 : Fin 1) e)) c
      = Gat m d (⟨32 * (widL L).val + b.val, by have := (widL L).isLt; omega⟩ : Fin 1024) c e := by
  have hw := (widL L).isLt
  have hb := b.isLt
  have h1 : (32 * (widL L).val + b.val) / 32 = (widL L).val := by omega
  have h2 : (32 * (widL L).val + b.val) % 32 = b.val := by omega
  unfold Gat
  refine congrArg₂ (fun r z => kernAtF r z c) (funext fun p => ?_) (Z0_apply m d L fZ e)
  rw [Rf_row, tokAt_CI0]
  exact congrArg₂ (fun a t => W3row m d (tokW m d a t) e) (Fin.ext h1.symm)
    (Fin.ext (by show 20 * b.val + p.val = 20 * ((32 * (widL L).val + b.val) % 32) + p.val; rw [h2]))

end Cert.Proof.Kernel

end
-- ==== Proof.Kernel.Tile.lean ====
/-
  One tile's task, whole: the head's two copies, the gather's 640 issues and 640 waits, the sums, and the copy of the
  tile's slab of the result back to the result array.
-/
import proofs.«204099_g60593398612478_cont_9to1c4b_39_23_alg».proof.Proof.Kernel.Head
import proofs.«204099_g60593398612478_cont_9to1c4b_39_23_alg».proof.Proof.Kernel.Scoped
import proofs.«204099_g60593398612478_cont_9to1c4b_39_23_alg».proof.Proof.Kernel.FireTrip
import proofs.«204099_g60593398612478_cont_9to1c4b_39_23_alg».proof.Proof.Kernel.Drain
import proofs.«204099_g60593398612478_cont_9to1c4b_39_23_alg».proof.Proof.Kernel.Compute
import proofs.«204099_g60593398612478_cont_9to1c4b_39_23_alg».proof.Proof.Kernel.Values

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Cbow

variable {F : FTy → Type} [FloatOps F] [∀ e, Nonempty (Elt F e)]
local notation "𝕄" => MT nD τ sig (HIx 1) (Elt F) ℕ UU ℕ

variable (d : Dev nD) (L : grid0.Coords)

variable (m : (ℓ : Loc nD τ sig) → Buf (Elt F) ℓ)

/-! ## The tile's slab, as the body slices it -/

omit [FloatOps F] [∀ e, Nonempty (Elt F e)] in
theorem oRect_eq : Rect.unit (s := S1024x4x64) (k0_off57 L) S32x4x64.size (k0_off57_inb L) = slab (widL L) := by
  unfold slab Rect.part Rect.block
  congr 1 <;> funext a
  · rw [k0_off57_eq]
    match a with
    | 0 =>
      show 64 * (L 1).val + 32 * (L 0).val = (2 * (L 1).val + (L 0).val) * (1024 / 32)
      omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] [∀ e, Nonempty (Elt F e)] in
theorem set_oSlice : (oSliceM L).view.set = slabSet (widL L) := by
  show ((oV : Memref sig .scVector .hbm S1024x4x64 .f32).view.slice (Rect.unit (s := S1024x4x64) (k0_off57 L) S32x4x64.size (k0_off57_inb L))).set
    = ((oV : Memref sig .scVector .hbm S1024x4x64 .f32).view.slice (slab (widL L))).set
  exact oRect_eq L ▸ rfl

theorem outAfter_zero (d : Dev nD) (L : grid0.Coords) (R : Buf (Elt F) ((thr d L).loc cc0_scratch1)) (Z : Buf (Elt F) ((thr d L).loc cc0_scratch2))
    (f0 : Buf (Elt F) ((thr d L).loc cc0_scratch3)) : outAfter d L R Z f0 0 = f0 := by
  funext i
  unfold outAfter outAt
  rw [if_neg (Nat.not_lt_zero _)]
  exact congrArg f0 (ValueIdx.eq_ix3 i).symm

theorem trips3 : k0_t3_loop.trips = 32 := by decide

/-- On the tile's slab, what the final copy wrote is the result. -/
theorem final_value (fI : Buf (Elt F) ((thr d L).loc cc0_scratch0)) (fR : Buf (Elt F) ((thr d L).loc cc0_scratch1)) (fZ : Buf (Elt F) ((thr d L).loc cc0_scratch2))
    (fO : Buf (Elt F) ((thr d L).loc cc0_scratch3)) (hCI : TokOK d L (CI0 d L (X2 m d) fI)) :
    ∀ i ∈ (oSliceM L).view.set,
      (oSliceM L).view.writes (Elt F) (m (oLoc d)) [⟨Rect.whole S32x4x64, ReadAs.same.apply ((sO).view.read (Elt F)
        (outAfter d L (Rf d L (W3 m d) (CI0 d L (X2 m d) fI) fR hCI) (Z0 d L (W3 m d) fZ) fO 32))⟩] i = G m d i := by
  intro i hi
  rw [← View.write_univ_eq_writes_whole]
  obtain ⟨y, -, rfl⟩ := Finset.mem_map.mp hi
  rw [View.write_emb_of_mem _ _ (Finset.mem_univ y)]
  show outAfter d L (Rf d L (W3 m d) (CI0 d L (X2 m d) fI) fR hCI) (Z0 d L (W3 m d) fZ) fO 32 y = G m d ((oSliceM L).view.emb y)
  unfold outAfter outAt G
  rw [if_pos (show (y 0).val < 32 from (y 0).isLt)]
  refine (slab_value m d L fI fR fZ hCI (y 0) (y 1) (y 2)).trans ?_
  have e0 : (oSliceM L).view.emb y 0 = (⟨32 * (widL L).val + (y 0).val, by have := (widL L).isLt; have h32 : (y 0).val < 32 := (y 0).isLt; omega⟩ : Fin 1024) := by
    apply Fin.ext
    show k0_off57 L 0 + 1 * (y 0).val = 32 * (2 * (L 1).val + (L 0).val) + (y 0).val
    rw [k0_off57_eq]
    show 64 * (L 1).val + 32 * (L 0).val + 1 * (y 0).val = _
    omega
  have e1 : (oSliceM L).view.emb y 1 = y 1 := by
    apply Fin.ext
    show k0_off57 L 1 + 1 * (y 1).val = (y 1).val
    rw [k0_off57_eq]; show 0 + 1 * (y 1).val = _; omega
  have e2 : (oSliceM L).view.emb y 2 = y 2 := by
    apply Fin.ext
    show k0_off57 L 2 + 1 * (y 2).val = (y 2).val
    rw [k0_off57_eq]; show 0 + 1 * (y 2).val = _; omega
  rw [e0, e1, e2]

/-! ## The task -/

/-- One tile's task: from its shares of the re-laid arrays, its slab of the result, its scratch and semaphores, the body
    runs to its end and leaves the slab at the result. -/
theorem tile_body (hpre : PreOK m) : TileBody (F := F) m := by
  intro d L O W hO
  rw [cc0__cbow_body_eq_skeleton]; unfold cc0__cbow_body_skel
  rw [(K (F := F)).scopedBufs_V facts d (cV L) (jV L), SparseCore.Cfg.scopedSems0_V (Val := Elt F) d (cV L) (jV L)]
  show iprop(_ ∗ _ ∗ _ ∗ ownBufs (thr d L) ∗ ownSems0 (thr d L) ∗ _) ⊢ wp _ _ _ _ (fun _ => iprop(_ ∗ ownBufs (thr d L) ∗ ownSems0 (thr d L) ∗ _))
  rw [ownSems0_V, ownBufs_V]
  unfold goRes
  iintro ⟨#Hlv, -, ⟨Hx, Hw, Ho⟩, ⟨⟨%fI, HI⟩, ⟨%fR, HR⟩, ⟨%fZ, HZ⟩, ⟨%fO, HO3⟩, Hbufs⟩, ⟨Hs4, Hs0, Hs1, Hs2, Hsems⟩, HO⟩
  ihave Hmw := ((K (F := F)).mayWaits_none (thr := thr d L) hO) $$ Hlv
  ihave Hx' := (Entails.of_eq (show (xLoc d ↦{Transfers.shareTok fullShare 32 (widL L)} X2 m d : sProp 𝕄) = ((xV).view.loc (thr d L) ↦{Transfers.shareTok fullShare 32 (widL L)} X2 m d) from rfl)) $$ Hx
  ihave Hw' := (Entails.of_eq (show (wLoc d ↦{Transfers.shareTok fullShare 32 (widL L)} W3 m d : sProp 𝕄) = ((wV).view.loc (thr d L) ↦{Transfers.shareTok fullShare 32 (widL L)} W3 m d) from rfl)) $$ Hw
  ihave HI' := (Entails.of_eq (show ((thr d L).loc cc0_scratch0 ↦{fullShare} fI : sProp 𝕄) = ((sI).view.loc (thr d L) ↦{fullShare} fI) from rfl)) $$ HI
  ihave HZ' := (Entails.of_eq (show ((thr d L).loc cc0_scratch2 ↦{fullShare} fZ : sProp 𝕄) = ((sZ).view.loc (thr d L) ↦{fullShare} fZ) from rfl)) $$ HZ
  -- the head: the tile's tokens and table row 0 copied in, each copy waited for
  sl_exec
  -- the gather's batch, allocated on the kernel's semaphore at zero before the first issue
  have hCI : TokOK d L (CI0 d L (X2 m d) fI) := tokOK_CI0 m hpre d L fI
  imod (Transfers.batch_alloc' (Lvl := ℕ) (countersEmb (U := UU)) (thr d L) (none : HIx 1) NR (Dv d L (W3 m d) (CI0 d L (X2 m d) fI) fR hCI)
    (sm := .dma cc0_scratch4.sem) (E := Set.univ)) $$ Hs4 with HB
  -- a read share of the table per transfer, and the scratch row by row
  ihave Hw2 := (Transfers.pointsTo_toks_split (ℓ := (wV).view.loc (thr d L)) (S := Finset.univ) (f := W3 m d) (Transfers.shareTok fullShare 32 (widL L)) 640) $$ Hw'
  icases Hw2 with ⟨-, Hwtoks⟩
  ihave HRr := (Entails.of_eq (show ((thr d L).loc cc0_scratch1 ↦{fullShare} fR : sProp 𝕄)
      = bigSep Finset.univ fun t : Fin 640 => (rLoc d L ↦[rowSetR t]{fullShare} fR : sProp 𝕄) from by
    rw [← pointsTo_biUnion Finset.univ (ℓ := rLoc d L) rowSetR rows_disjoint, rows_cover])) $$ HR
  sl_for (invFire d L (W3 m d) (CI0 d L (X2 m d) fI) fR hCI O (insert ((SemLoc.dma cc0_scoped1.sem : SemLoc sig), (default : HIx 1)) (insert ((SemLoc.dma cc0_scoped0.sem : SemLoc sig), (default : HIx 1)) W)) (fun t : Fin 640 => Transfers.shareTok (Transfers.shareTok fullShare 32 (widL L)) 640 t)) $$ [Hmw HI' Hwtoks HRr HB HO]
  case region =>
    intro k _
    exact fire_trip d L (W3 m d) (CI0 d L (X2 m d) fI) fR hCI O _ _ k
  · unfold invFire
    isplitr; · iexact Hmw
    isplitl [HI']; · iexact HI'
    isplitl [Hwtoks HRr]
    · rw [show 16 * 0 = 0 from rfl, ← Transfers.bigSep_pending_zero, bigSep_sep']
      isplitl [Hwtoks]; · iexact Hwtoks
      iexact HRr
    isplitl [HB]; · unfold BatchH; iexact HB
    iexact HO
  iintro %_ Hinv
  -- every copy is issued: the batch at 640, nothing waited for
  ihave Hinv' := (Entails.of_eq (show invFire d L (W3 m d) (CI0 d L (X2 m d) fI) fR hCI O (insert ((SemLoc.dma cc0_scoped1.sem : SemLoc sig), (default : HIx 1)) (insert ((SemLoc.dma cc0_scoped0.sem : SemLoc sig), (default : HIx 1)) W)) (fun t : Fin 640 => Transfers.shareTok (Transfers.shareTok fullShare 32 (widL L)) 640 t) (Scf.trips k0_t1_loop.lb k0_t1_loop.ub k0_t1_loop.st) ⟨⟩
      = iprop(Transfers.MayWaits (thr d L) (none : HIx 1) O ∗ ((sI).view.loc (thr d L) ↦{fullShare} (CI0 d L (X2 m d) fI))
          ∗ bigSep (Transfers.pending (n := 640) 640) (pendΦ d L (W3 m d) fR (fun t : Fin 640 => Transfers.shareTok (Transfers.shareTok fullShare 32 (widL L)) 640 t))
          ∗ BatchD d L (W3 m d) (CI0 d L (X2 m d) fI) fR hCI 0 ∗ owes (thr d L) O (insert ((SemLoc.dma cc0_scoped1.sem : SemLoc sig), (default : HIx 1)) (insert ((SemLoc.dma cc0_scoped0.sem : SemLoc sig), (default : HIx 1)) W))) from by
    unfold invFire BatchH BatchD; rw [show Scf.trips k0_t1_loop.lb k0_t1_loop.ub k0_t1_loop.st = 40 from trips1]; rfl)) $$ Hinv
  icases Hinv' with ⟨-, HI', -, HB, HO⟩
  sl_exec
  sl_for (invDrain d L (W3 m d) (CI0 d L (X2 m d) fI) fR hCI O (insert ((SemLoc.dma cc0_scoped1.sem : SemLoc sig), (default : HIx 1)) (insert ((SemLoc.dma cc0_scoped0.sem : SemLoc sig), (default : HIx 1)) W))) $$ [Hmw HB HO]
  case region =>
    intro k _
    exact drain_trip d L (W3 m d) (CI0 d L (X2 m d) fI) fR hCI O _ k
  · unfold invDrain
    rw [if_pos (show 0 < 640 by decide)]
    isplitr; · iexact Hmw
    isplitl [HB]; · iexact HB
    iexists _; isplitr
    · ipureintro; exact fun p hp => .inl hp
    · iexact HO
  iintro %_ Hinv2
  ihave Hinv2' := (Entails.of_eq (show invDrain d L (W3 m d) (CI0 d L (X2 m d) fI) fR hCI O (insert ((SemLoc.dma cc0_scoped1.sem : SemLoc sig), (default : HIx 1)) (insert ((SemLoc.dma cc0_scoped0.sem : SemLoc sig), (default : HIx 1)) W)) (Scf.trips k0_t2_loop.lb k0_t2_loop.ub k0_t2_loop.st) ⟨⟩
      = iprop(Transfers.MayWaits (thr d L) (none : HIx 1) O
          ∗ iprop(bigSep Finset.univ (Dv d L (W3 m d) (CI0 d L (X2 m d) fI) fR hCI) ∗ semVal (thr d L, SemLoc.dma cc0_scratch4.sem) 0)
          ∗ ∃ W', ⌜∀ p ∈ W', p ∈ (insert ((SemLoc.dma cc0_scoped1.sem : SemLoc sig), (default : HIx 1)) (insert ((SemLoc.dma cc0_scoped0.sem : SemLoc sig), (default : HIx 1)) W)) ∨ p.2 = none⌝ ∗ owes (thr d L) O W') from by
    unfold invDrain; rw [show Scf.trips k0_t2_loop.lb k0_t2_loop.ub k0_t2_loop.st = 640 from trips2, if_neg (show ¬ (640 < 640) by decide)])) $$ Hinv2
  icases Hinv2' with ⟨-, ⟨HD, Hs4⟩, %W2, %hW2, HO⟩
  -- the 640 landed rows are the whole scratch
  ihave HRf := (rows_join d L (W3 m d) (CI0 d L (X2 m d) fI) fR hCI) $$ HD
  ihave HR' := (Entails.of_eq (show (rLoc d L ↦{fullShare} Rf d L (W3 m d) (CI0 d L (X2 m d) fI) fR hCI : sProp 𝕄)
      = ((sR).view.loc (thr d L) ↦{fullShare} Rf d L (W3 m d) (CI0 d L (X2 m d) fI) fR hCI) from rfl)) $$ HRf
  ihave HO3' := (Entails.of_eq (show ((thr d L).loc cc0_scratch3 ↦{fullShare} fO : sProp 𝕄) = ((sO).view.loc (thr d L) ↦{fullShare} fO) from rfl)) $$ HO3
  sl_exec
  -- the sums: thirty-two trips, one row of the slab each
  sl_for (fun (n : Nat) (_ : PUnit) => iprop(((sR).view.loc (thr d L) ↦{fullShare} (Rf d L (W3 m d) (CI0 d L (X2 m d) fI) fR hCI))
      ∗ ((sO).view.loc (thr d L) ↦{fullShare} outAfter d L (Rf d L (W3 m d) (CI0 d L (X2 m d) fI) fR hCI) (Z0 d L (W3 m d) fZ) fO n) : sProp 𝕄)) $$ [HR' HO3']
  case region =>
    intro k _
    exact compute_trip d L (Rf d L (W3 m d) (CI0 d L (X2 m d) fI) fR hCI) (Z0 d L (W3 m d) fZ) fO k
  · isplitl [HR']; · iexact HR'
    rw [outAfter_zero]; iexact HO3'
  iintro %_ Hinv3
  icases Hinv3 with ⟨HR', HO3'⟩
  -- the tile's slab copied out to the result and the copy waited for
  ihave Ho' := (Entails.of_eq (show (oLoc d ↦[slabSet (widL L)]{fullShare} m (oLoc d) : sProp 𝕄)
      = ((oSliceM L).view.loc (thr d L) ↦[(oSliceM L).view.set]{fullShare} m (oLoc d)) from by rw [set_oSlice])) $$ Ho
  sl_exec
  sl_unfold_run_names
  sl_step
  -- the slab holds the result
  isplitl [Ho']
  · unfold tdRes
    ihave Ho2 := (Entails.of_eq (show (((oSliceM L).view.loc (thr d L) ↦[(oSliceM L).view.set]{fullShare} ((oSliceM L).view.writes (Elt F) (m (oLoc d)) [⟨Rect.whole S32x4x64, ReadAs.same.apply ((sO).view.read (Elt F)
        (outAfter d L (Rf d L (W3 m d) (CI0 d L (X2 m d) fI) fR hCI) (Z0 d L (W3 m d) fZ) fO (Scf.trips k0_t3_loop.lb k0_t3_loop.ub k0_t3_loop.st)))⟩])) : sProp 𝕄)
        = (oLoc d ↦[slabSet (widL L)]{fullShare} G m d) from by
      rw [show Scf.trips k0_t3_loop.lb k0_t3_loop.ub k0_t3_loop.st = 32 from trips3, ← set_oSlice]
      exact pointsTo_congr (final_value d L m fI fR fZ fO hCI))) $$ Ho'
    iexact Ho2
  -- the scratch and the semaphores go back as they came: at some contents, at zero
  isplitl [HI' HR' HZ' HO3' Hbufs]
  · isplitl [HI']; · iexists _; iexact HI'
    isplitl [HR']; · iexists _; iexact HR'
    isplitl [HZ']; · iexists _; iexact HZ'
    isplitl [HO3']; · iexists _; iexact HO3'
    iexact Hbufs
  isplitl [Hs4 Hs0 Hs1 Hs2 Hsems]
  · isplitl [Hs4]; · iexact Hs4
    isplitl [Hs0]; · iexact Hs0
    isplitl [Hs1]; · iexact Hs1
    isplitl [Hs2]; · iexact Hs2
    iexact Hsems
  iexists (insert ((SemLoc.dma cc0_scoped2.sem : SemLoc sig), (default : HIx 1)) W2); isplitr
  · ipureintro
    intro p hp
    rcases Finset.mem_insert.mp hp with hp | hp
    · exact .inr (by subst hp; rfl)
    · rcases hW2 p hp with h | h
      · rcases Finset.mem_insert.mp h with h | h
        · exact .inr (by subst h; rfl)
        · rcases Finset.mem_insert.mp h with h | h
          · exact .inr (by subst h; rfl)
          · exact .inl h
      · exact .inr h
  · iexact HO

end Cert.Proof.Kernel

end
-- ==== Proof.lean ====
/-
  The kernel and its reference compute one function of a token array `x : [1024, 20]` and a table
  `W : [1000000, 64]`: for every row `b`, context slot `c` (offsets −1, −2, +1, +2) and column `e`,
  `out[b, c, e] = Σ_{j < 20} W[t, e]`, `t` the token the slot's offset away from position `j` of row `b`, or token 0
  where that position falls outside the row (`Cert.Cbow.spec`).

  The reference gathers the shifted, zero-padded token rows and sums the gathered table rows over the positions; its
  term is the specification entry by entry once every token is a row of the table. The kernel gathers each row's
  twenty table rows once, adds them left to right, adds the entries of table row 0 for the positions outside the row
  and takes away the entries each slot never sees. That is the specification's sum re-indexed, an identity of real
  numbers: on the extended reals `a + b − b = a` fails at the infinities, so it needs every table entry real, which
  the precondition (every entry below `+∞` in absolute value, every token in `[0, 999999]`) provides.

  Each program's run ends with its result at that function of the arguments and the arguments unchanged; the frames
  are the runs with the result dropped, and the word-level program's frame is the idealized program's proof read at
  the other float instance.
-/
import proofs.«204099_g60593398612478_cont_9to1c4b_39_23_alg».proof.Proof.Claims
import proofs.«204099_g60593398612478_cont_9to1c4b_39_23_alg».proof.Proof.KernelIdeal.Tile
import proofs.«204099_g60593398612478_cont_9to1c4b_39_23_alg».proof.Proof.Kernel.Tile

noncomputable section

namespace Cert.Proof

theorem claim : Cert.Claim :=
  Cert.Proof.claim_of (fun m h => Cert.Proof.Kernel.tile_body m h) (fun m h => Cert.Proof.KernelIdeal.tile_body m h)

end Cert.Proof

end
